-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v45_0)) (v2 : (c : Dev Cert.KernelIdeal.nD) → Buf (Elt Ideal) ((c.tc : Thread Cert.KernelIdeal.nD Cert.KernelIdeal.τ).loc Cert.KernelIdeal.main_v45_1)) (v3 : (c : Dev Cert.KernelIdeal.nD) → Buf (Elt Ideal) ((c.tc : Thread Cert.KernelIdeal.nD Cert.KernelIdeal.τ).loc Cert.KernelIdeal.main_v45_2)) (v4 : (c : Dev Cert.KernelIdeal.nD) → Buf (Elt Ideal) ((c.tc : Thread Cert.KernelIdeal.nD Cert.KernelIdeal.τ).loc Cert.KernelIdeal.main_v45_3)) (v5 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v45_0) = v1 c
          ∧ r.2.mem ((c.tc : Thread Cert.KernelIdeal.nD Cert.KernelIdeal.τ).loc Cert.KernelIdeal.main_v45_1) = v2 c
          ∧ r.2.mem ((c.tc : Thread Cert.KernelIdeal.nD Cert.KernelIdeal.τ).loc Cert.KernelIdeal.main_v45_2) = v3 c
          ∧ r.2.mem ((c.tc : Thread Cert.KernelIdeal.nD Cert.KernelIdeal.τ).loc Cert.KernelIdeal.main_v45_3) = v4 c
          ∧ r.2.mem ((c.tc : Thread Cert.KernelIdeal.nD Cert.KernelIdeal.τ).loc Cert.KernelIdeal.main_v23) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v161) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x80 : Shape := ⟨2, ![8192, 80]⟩
abbrev S8192x40 : Shape := ⟨2, ![8192, 40]⟩
abbrev S8192x256 : Shape := ⟨2, ![8192, 256]⟩
abbrev S8192 : Shape := ⟨1, ![8192]⟩
abbrev S8192x480 : Shape := ⟨2, ![8192, 480]⟩
abbrev S8192x1 : Shape := ⟨2, ![8192, 1]⟩
abbrev S256x720 : Shape := ⟨2, ![256, 720]⟩
abbrev S256x256 : Shape := ⟨2, ![256, 256]⟩
abbrev S768x256 : Shape := ⟨2, ![768, 256]⟩
abbrev S40x1024 : Shape := ⟨2, ![40, 1024]⟩
abbrev S1x1024 : Shape := ⟨2, ![1, 1024]⟩
abbrev S1 : Shape := ⟨1, ![1]⟩
abbrev S_ : Shape := ⟨0, ![]⟩

class Facts : Prop where
  bcast_S_S8192x80 : S_.BroadcastsInDim S8192x80 (![] : Fin 0 → Fin S8192x80.rank)
  reducesTo_S8192x80_S_d0_1 : S8192x80.ReducesTo [0, 1] S_
  h_S_ : 0 < S_.numel
  bcast_S_S8192x40 : S_.BroadcastsInDim S8192x40 (![] : Fin 0 → Fin S8192x40.rank)
  reducesTo_S8192x40_S_d0_1 : S8192x40.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x480 : S_.BroadcastsInDim S8192x480 (![] : Fin 0 → Fin S8192x480.rank)
  reducesTo_S8192x480_S_d0_1 : S8192x480.ReducesTo [0, 1] S_
  bcast_S_S8192x1 : S_.BroadcastsInDim S8192x1 (![] : Fin 0 → Fin S8192x1.rank)
  reducesTo_S8192x1_S_d0_1 : S8192x1.ReducesTo [0, 1] S_
  bcast_S_S256x720 : S_.BroadcastsInDim S256x720 (![] : Fin 0 → Fin S256x720.rank)
  reducesTo_S256x720_S_d0_1 : S256x720.ReducesTo [0, 1] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S40x1024 : S_.BroadcastsInDim S40x1024 (![] : Fin 0 → Fin S40x1024.rank)
  reducesTo_S40x1024_S_d0_1 : S40x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg22 : FVec F S256x256 .f32) (main_arg23 : FVec F S40x1024 .f32) (main_arg24 : FVec F S1x1024 .f32) (main_arg25 : FVec F S1 .f32) (main_v98 : IVec S_ 1) (main_v101 : IVec S768x256 1) (main_c_39 : IVec S_ 1) : IVec S_ 1 :=
  let main_v102 : IVec S_ 1 := (fun x v => Host.reduce IntOp.andi x v reducesTo_S768x256_S_d0_1 h_S_) main_v101 main_c_39
  let main_v103 : IVec S_ 1 := andi main_v98 main_v102
  let main_v104 : FVec F S256x256 .f32 := Host.absf main_arg22
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S40x1024 .f32 := Host.absf main_arg23
  let main_cst_42 : FVec F S_ .f32 := constant S_ .f32 0x7F800000#32
  let main_v110 : FVec F S40x1024 .f32 := broadcastInDim S40x1024 ![] bcast_S_S40x1024 main_cst_42
  let main_v111 : IVec S40x1024 1 := cmpf .olt main_v109 main_v110
  let main_c_43 : IVec S_ 1 := constantI S_ 1 1#1
  let main_v112 : IVec S_ 1 := (fun x v => Host.reduce IntOp.andi x v reducesTo_S40x1024_S_d0_1 h_S_) main_v111 main_c_43
  let main_v113 : IVec S_ 1 := andi main_v108 main_v112
  let main_v114 : FVec F S1x1024 .f32 := Host.absf main_arg24
  let main_cst_44 : FVec F S_ .f32 := constant S_ .f32 0x7F800000#32
  let main_v115 : FVec F S1x1024 .f32 := broadcastInDim S1x1024 ![] bcast_S_S1x1024 main_cst_44
  let main_v116 : IVec S1x1024 1 := cmpf .olt main_v114 main_v115
  let main_c_45 : IVec S_ 1 := constantI S_ 1 1#1
  let main_v117 : IVec S_ 1 := (fun x v => Host.reduce IntOp.andi x v reducesTo_S1x1024_S_d0_1 h_S_) main_v116 main_c_45
  let main_v118 : IVec S_ 1 := andi main_v113 main_v117
  let main_v119 : FVec F S1 .f32 := Host.absf main_arg25
  fn_part7 (F := F) main_v118 main_v119

def fn_part5 {F : FTy → Type} [FloatOps F] (main_arg19 : FVec F S256x256 .f32) (main_arg20 : FVec F S768x256 .f32) (main_arg21 : FVec F S768x256 .f32) (main_arg22 : FVec F S256x256 .f32) (main_arg23 : FVec F S40x1024 .f32) (main_arg24 : FVec F S1x1024 .f32) (main_arg25 : FVec F S1 .f32) (main_v83 : IVec S_ 1) (main_v84 : FVec F S768x256 .f32) (main_cst_32 : FVec F S_ .f32) : IVec S_ 1 :=
  let main_v85 : FVec F S768x256 .f32 := broadcastInDim S768x256 ![] bcast_S_S768x256 main_cst_32
  let main_v86 : IVec S768x256 1 := cmpf .olt main_v84 main_v85
  let main_c_33 : IVec S_ 1 := constantI S_ 1 1#1
  let main_v87 : IVec S_ 1 := (fun x v => Host.reduce IntOp.andi x v reducesTo_S768x256_S_d0_1 h_S_) main_v86 main_c_33
  let main_v88 : IVec S_ 1 := andi main_v83 main_v87
  let main_v89 : FVec F S256x256 .f32 := Host.absf main_arg19
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S768x256 .f32 := Host.absf main_arg20
  let main_cst_36 : FVec F S_ .f32 := constant S_ .f32 0x7F800000#32
  let main_v95 : FVec F S768x256 .f32 := broadcastInDim S768x256 ![] bcast_S_S768x256 main_cst_36
  let main_v96 : IVec S768x256 1 := cmpf .olt main_v94 main_v95
  let main_c_37 : IVec S_ 1 := constantI S_ 1 1#1
  let main_v97 : IVec S_ 1 := (fun x v => Host.reduce IntOp.andi x v reducesTo_S768x256_S_d0_1 h_S_) main_v96 main_c_37
  let main_v98 : IVec S_ 1 := andi main_v93 main_v97
  let main_v99 : FVec F S768x256 .f32 := Host.absf main_arg21
  let main_cst_38 : FVec F S_ .f32 := constant S_ .f32 0x7F800000#32
  let main_v100 : FVec F S768x256 .f32 := broadcastInDim S768x256 ![] bcast_S_S768x256 main_cst_38
  let main_v101 : IVec S768x256 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S768x256 .f32) (main_arg16 : FVec F S256x256 .f32) (main_arg17 : FVec F S768x256 .f32) (main_arg18 : FVec F S768x256 .f32) (main_arg19 : FVec F S256x256 .f32) (main_arg20 : FVec F S768x256 .f32) (main_arg21 : FVec F S768x256 .f32) (main_arg22 : FVec F S256x256 .f32) (main_arg23 : FVec F S40x1024 .f32) (main_arg24 : FVec F S1x1024 .f32) (main_arg25 : FVec F S1 .f32) (main_v63 : IVec S_ 1) (main_v67 : IVec S_ 1) : IVec S_ 1 :=
  let main_v68 : IVec S_ 1 := andi main_v63 main_v67
  let main_v69 : FVec F S768x256 .f32 := Host.absf main_arg15
  let main_cst_26 : FVec F S_ .f32 := constant S_ .f32 0x7F800000#32
  let main_v70 : FVec F S768x256 .f32 := broadcastInDim S768x256 ![] bcast_S_S768x256 main_cst_26
  let main_v71 : IVec S768x256 1 := cmpf .olt main_v69 main_v70
  let main_c_27 : IVec S_ 1 := constantI S_ 1 1#1
  let main_v72 : IVec S_ 1 := (fun x v => Host.reduce IntOp.andi x v reducesTo_S768x256_S_d0_1 h_S_) main_v71 main_c_27
  let main_v73 : IVec S_ 1 := andi main_v68 main_v72
  let main_v74 : FVec F S256x256 .f32 := Host.absf main_arg16
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S768x256 .f32 := Host.absf main_arg17
  let main_cst_30 : FVec F S_ .f32 := constant S_ .f32 0x7F800000#32
  let main_v80 : FVec F S768x256 .f32 := broadcastInDim S768x256 ![] bcast_S_S768x256 main_cst_30
  let main_v81 : IVec S768x256 1 := cmpf .olt main_v79 main_v80
  let main_c_31 : IVec S_ 1 := constantI S_ 1 1#1
  let main_v82 : IVec S_ 1 := (fun x v => Host.reduce IntOp.andi x v reducesTo_S768x256_S_d0_1 h_S_) main_v81 main_c_31
  let main_v83 : IVec S_ 1 := andi main_v78 main_v82
  let main_v84 : FVec F S768x256 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S256x256 .f32) (main_arg13 : FVec F S256x256 .f32) (main_arg14 : FVec F S768x256 .f32) (main_arg15 : FVec F S768x256 .f32) (main_arg16 : FVec F S256x256 .f32) (main_arg17 : FVec F S768x256 .f32) (main_arg18 : FVec F S768x256 .f32) (main_arg19 : FVec F S256x256 .f32) (main_arg20 : FVec F S768x256 .f32) (main_arg21 : FVec F S768x256 .f32) (main_arg22 : FVec F S256x256 .f32) (main_arg23 : FVec F S40x1024 .f32) (main_arg24 : FVec F S1x1024 .f32) (main_arg25 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S768x256 .f32 := Host.absf main_arg14
  let main_cst_24 : FVec F S_ .f32 := constant S_ .f32 0x7F800000#32
  let main_v65 : FVec F S768x256 .f32 := broadcastInDim S768x256 ![] bcast_S_S768x256 main_cst_24
  let main_v66 : IVec S768x256 1 := cmpf .olt main_v64 main_v65
  let main_c_25 : IVec S_ 1 := constantI S_ 1 1#1
  let main_v67 : IVec S_ 1 := (fun x v => Host.reduce IntOp.andi x v reducesTo_S768x256_S_d0_1 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S8192x480 .f32) (main_arg9 : FVec F S8192x1 .f32) (main_arg10 : FVec F S256x720 .f32) (main_arg11 : FVec F S256x256 .f32) (main_arg12 : FVec F S256x256 .f32) (main_arg13 : FVec F S256x256 .f32) (main_arg14 : FVec F S768x256 .f32) (main_arg15 : FVec F S768x256 .f32) (main_arg16 : FVec F S256x256 .f32) (main_arg17 : FVec F S768x256 .f32) (main_arg18 : FVec F S768x256 .f32) (main_arg19 : FVec F S256x256 .f32) (main_arg20 : FVec F S768x256 .f32) (main_arg21 : FVec F S768x256 .f32) (main_arg22 : FVec F S256x256 .f32) (main_arg23 : FVec F S40x1024 .f32) (main_arg24 : FVec F S1x1024 .f32) (main_arg25 : FVec F S1 .f32) (main_v33 : IVec S_ 1) : IVec S_ 1 :=
  let main_v34 : FVec F S8192x480 .f32 := Host.absf main_arg8
  let main_cst_12 : FVec F S_ .f32 := constant S_ .f32 0x7F800000#32
  let main_v35 : FVec F S8192x480 .f32 := broadcastInDim S8192x480 ![] bcast_S_S8192x480 main_cst_12
  let main_v36 : IVec S8192x480 1 := cmpf .olt main_v34 main_v35
  let main_c_13 : IVec S_ 1 := constantI S_ 1 1#1
  let main_v37 : IVec S_ 1 := (fun x v => Host.reduce IntOp.andi x v reducesTo_S8192x480_S_d0_1 h_S_) main_v36 main_c_13
  let main_v38 : IVec S_ 1 := andi main_v33 main_v37
  let main_v39 : FVec F S8192x1 .f32 := Host.absf main_arg9
  let main_cst_14 : FVec F S_ .f32 := constant S_ .f32 0x7F800000#32
  let main_v40 : FVec F S8192x1 .f32 := broadcastInDim S8192x1 ![] bcast_S_S8192x1 main_cst_14
  let main_v41 : IVec S8192x1 1 := cmpf .olt main_v39 main_v40
  let main_c_15 : IVec S_ 1 := constantI S_ 1 1#1
  let main_v42 : IVec S_ 1 := (fun x v => Host.reduce IntOp.andi x v reducesTo_S8192x1_S_d0_1 h_S_) main_v41 main_c_15
  let main_v43 : IVec S_ 1 := andi main_v38 main_v42
  let main_v44 : FVec F S256x720 .f32 := Host.absf main_arg10
  let main_cst_16 : FVec F S_ .f32 := constant S_ .f32 0x7F800000#32
  let main_v45 : FVec F S256x720 .f32 := broadcastInDim S256x720 ![] bcast_S_S256x720 main_cst_16
  let main_v46 : IVec S256x720 1 := cmpf .olt main_v44 main_v45
  let main_c_17 : IVec S_ 1 := constantI S_ 1 1#1
  let main_v47 : IVec S_ 1 := (fun x v => Host.reduce IntOp.andi x v reducesTo_S256x720_S_d0_1 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S8192x256 .f32) (main_arg6 : FVec F S8192x256 .f32) (main_arg7 : FVec F S8192x256 .f32) (main_arg8 : FVec F S8192x480 .f32) (main_arg9 : FVec F S8192x1 .f32) (main_arg10 : FVec F S256x720 .f32) (main_arg11 : FVec F S256x256 .f32) (main_arg12 : FVec F S256x256 .f32) (main_arg13 : FVec F S256x256 .f32) (main_arg14 : FVec F S768x256 .f32) (main_arg15 : FVec F S768x256 .f32) (main_arg16 : FVec F S256x256 .f32) (main_arg17 : FVec F S768x256 .f32) (main_arg18 : FVec F S768x256 .f32) (main_arg19 : FVec F S256x256 .f32) (main_arg20 : FVec F S768x256 .f32) (main_arg21 : FVec F S768x256 .f32) (main_arg22 : FVec F S256x256 .f32) (main_arg23 : FVec F S40x1024 .f32) (main_arg24 : FVec F S1x1024 .f32) (main_arg25 : FVec F S1 .f32) (main_v13 : IVec S_ 1) (main_v16 : IVec S8192x80 1) : IVec S_ 1 :=
  let main_c_5 : IVec S_ 1 := constantI S_ 1 1#1
  let main_v17 : IVec S_ 1 := (fun x v => Host.reduce IntOp.andi x v reducesTo_S8192x80_S_d0_1 h_S_) main_v16 main_c_5
  let main_v18 : IVec S_ 1 := andi main_v13 main_v17
  let main_v19 : FVec F S8192x256 .f32 := Host.absf main_arg5
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S8192x256 .f32 := Host.absf main_arg6
  let main_cst_8 : FVec F S_ .f32 := constant S_ .f32 0x7F800000#32
  let main_v25 : FVec F S8192x256 .f32 := broadcastInDim S8192x256 ![] bcast_S_S8192x256 main_cst_8
  let main_v26 : IVec S8192x256 1 := cmpf .olt main_v24 main_v25
  let main_c_9 : IVec S_ 1 := constantI S_ 1 1#1
  let main_v27 : IVec S_ 1 := (fun x v => Host.reduce IntOp.andi x v reducesTo_S8192x256_S_d0_1 h_S_) main_v26 main_c_9
  let main_v28 : IVec S_ 1 := andi main_v23 main_v27
  let main_v29 : FVec F S8192x256 .f32 := Host.absf main_arg7
  let main_cst_10 : FVec F S_ .f32 := constant S_ .f32 0x7F800000#32
  let main_v30 : FVec F S8192x256 .f32 := broadcastInDim S8192x256 ![] bcast_S_S8192x256 main_cst_10
  let main_v31 : IVec S8192x256 1 := cmpf .olt main_v29 main_v30
  let main_c_11 : IVec S_ 1 := constantI S_ 1 1#1
  let main_v32 : IVec S_ 1 := (fun x v => Host.reduce IntOp.andi x v reducesTo_S8192x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S8192x80 .f32) (main_arg1 : FVec F S8192x40 .f32) (main_arg2 : FVec F S8192x256 .f32) (main_arg3 : FVec F S8192x80 .f32) (main_arg4 : IVec S8192 32) (main_arg5 : FVec F S8192x256 .f32) (main_arg6 : FVec F S8192x256 .f32) (main_arg7 : FVec F S8192x256 .f32) (main_arg8 : FVec F S8192x480 .f32) (main_arg9 : FVec F S8192x1 .f32) (main_arg10 : FVec F S256x720 .f32) (main_arg11 : FVec F S256x256 .f32) (main_arg12 : FVec F S256x256 .f32) (main_arg13 : FVec F S256x256 .f32) (main_arg14 : FVec F S768x256 .f32) (main_arg15 : FVec F S768x256 .f32) (main_arg16 : FVec F S256x256 .f32) (main_arg17 : FVec F S768x256 .f32) (main_arg18 : FVec F S768x256 .f32) (main_arg19 : FVec F S256x256 .f32) (main_arg20 : FVec F S768x256 .f32) (main_arg21 : FVec F S768x256 .f32) (main_arg22 : FVec F S256x256 .f32) (main_arg23 : FVec F S40x1024 .f32) (main_arg24 : FVec F S1x1024 .f32) (main_arg25 : FVec F S1 .f32) : IVec S_ 1 :=
  let main_v0 : FVec F S8192x80 .f32 := Host.absf main_arg0
  let main_cst : FVec F S_ .f32 := constant S_ .f32 0x7F800000#32
  let main_v1 : FVec F S8192x80 .f32 := broadcastInDim S8192x80 ![] bcast_S_S8192x80 main_cst
  let main_v2 : IVec S8192x80 1 := cmpf .olt main_v0 main_v1
  let main_c : IVec S_ 1 := constantI S_ 1 1#1
  let main_v3 : IVec S_ 1 := (fun x v => Host.reduce IntOp.andi x v reducesTo_S8192x80_S_d0_1 h_S_) main_v2 main_c
  let main_v4 : FVec F S8192x40 .f32 := Host.absf main_arg1
  let main_cst_0 : FVec F S_ .f32 := constant S_ .f32 0x7F800000#32
  let main_v5 : FVec F S8192x40 .f32 := broadcastInDim S8192x40 ![] bcast_S_S8192x40 main_cst_0
  let main_v6 : IVec S8192x40 1 := cmpf .olt main_v4 main_v5
  let main_c_1 : IVec S_ 1 := constantI S_ 1 1#1
  let main_v7 : IVec S_ 1 := (fun x v => Host.reduce IntOp.andi x v reducesTo_S8192x40_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x80 .f32 := Host.absf main_arg3
  let main_cst_4 : FVec F S_ .f32 := constant S_ .f32 0x7F800000#32
  let main_v15 : FVec F S8192x80 .f32 := broadcastInDim S8192x80 ![] bcast_S_S8192x80 main_cst_4
  let main_v16 : IVec S8192x80 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S8192x80 : Shape := ⟨2, ![8192, 80]⟩
abbrev S8192x40 : Shape := ⟨2, ![8192, 40]⟩
abbrev S8192x256 : Shape := ⟨2, ![8192, 256]⟩
abbrev S8192 : Shape := ⟨1, ![8192]⟩
abbrev S8192x480 : Shape := ⟨2, ![8192, 480]⟩
abbrev S8192x1 : Shape := ⟨2, ![8192, 1]⟩
abbrev S256x720 : Shape := ⟨2, ![256, 720]⟩
abbrev S256x256 : Shape := ⟨2, ![256, 256]⟩
abbrev S768x256 : Shape := ⟨2, ![768, 256]⟩
abbrev S40x1024 : Shape := ⟨2, ![40, 1024]⟩
abbrev S1x1024 : Shape := ⟨2, ![1, 1024]⟩
abbrev S1 : Shape := ⟨1, ![1]⟩
abbrev S_ : Shape := ⟨0, ![]⟩
abbrev S44 : Shape := ⟨1, ![44]⟩
abbrev S1x44 : Shape := ⟨2, ![1, 44]⟩
abbrev S8192x44 : Shape := ⟨2, ![8192, 44]⟩
abbrev S8192x44x1 : Shape := ⟨3, ![8192, 44, 1]⟩
abbrev S1x1x1 : Shape := ⟨3, ![1, 1, 1]⟩
abbrev S8192x240 : Shape := ⟨2, ![8192, 240]⟩
abbrev S8192x720 : Shape := ⟨2, ![8192, 720]⟩
abbrev S41x1024 : Shape := ⟨2, ![41, 1024]⟩
abbrev S128x1024 : Shape := ⟨2, ![128, 1024]⟩
abbrev S40 : Shape := ⟨1, ![40]⟩
abbrev S41 : Shape := ⟨1, ![41]⟩
abbrev S128 : Shape := ⟨1, ![128]⟩
abbrev S1x128 : Shape := ⟨2, ![1, 128]⟩
abbrev S1024x720 : Shape := ⟨2, ![1024, 720]⟩
abbrev S1024x40 : Shape := ⟨2, ![1024, 40]⟩
abbrev S1024x256 : Shape := ⟨2, ![1024, 256]⟩
abbrev S1024x1 : Shape := ⟨2, ![1024, 1]⟩
abbrev S1024x768 : Shape := ⟨2, ![1024, 768]⟩
abbrev S1024x1024 : Shape := ⟨2, ![1024, 1024]⟩
abbrev S1024x128 : Shape := ⟨2, ![1024, 128]⟩
abbrev S1024x216 : Shape := ⟨2, ![1024, 216]⟩

abbrev nBuf : Space → Nat
  | .hbm => 113
  | .vmem => 37
  | .smem => 0
  | _ => 0

abbrev bufTy : (tb : Table) → Fin (tcTables nBuf tb) → BufTy
  | .hbm, ⟨0, _⟩ => ⟨S8192x80, .f32⟩
  | .hbm, ⟨1, _⟩ => ⟨S8192x40, .f32⟩
  | .hbm, ⟨2, _⟩ => ⟨S8192x256, .f32⟩
  | .hbm, ⟨3, _⟩ => ⟨S8192x80, .f32⟩
  | .hbm, ⟨4, _⟩ => ⟨S8192, .i32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x480, .f32⟩
  | .hbm, ⟨9, _⟩ => ⟨S8192x1, .f32⟩
  | .hbm, ⟨10, _⟩ => ⟨S256x720, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S768x256, .f32⟩
  | .hbm, ⟨15, _⟩ => ⟨S768x256, .f32⟩
  | .hbm, ⟨16, _⟩ => ⟨S256x256, .f32⟩
  | .hbm, ⟨17, _⟩ => ⟨S768x256, .f32⟩
  | .hbm, ⟨18, _⟩ => ⟨S768x256, .f32⟩
  | .hbm, ⟨19, _⟩ => ⟨S256x256, .f32⟩
  | .hbm, ⟨20, _⟩ => ⟨S768x256, .f32⟩
  | .hbm, ⟨21, _⟩ => ⟨S768x256, .f32⟩
  | .hbm, ⟨22, _⟩ => ⟨S256x256, .f32⟩
  | .hbm, ⟨23, _⟩ => ⟨S40x1024, .f32⟩
  | .hbm, ⟨24, _⟩ => ⟨S1x1024, .f32⟩
  | .hbm, ⟨25, _⟩ => ⟨S1, .f32⟩
  | .hbm, ⟨26, _⟩ => ⟨S8192x1, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S8192x1, .i32⟩
  | .hbm, ⟨31, _⟩ => ⟨S8192x1, .i32⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S_, .i32⟩
  | .hbm, ⟨36, _⟩ => ⟨S8192x1, .i32⟩
  | .hbm, ⟨37, _⟩ => ⟨S8192x1, .i32⟩
  | .hbm, ⟨38, _⟩ => ⟨S44, .i32⟩
  | .hbm, ⟨39, _⟩ => ⟨S1x44, .i32⟩
  | .hbm, ⟨40, _⟩ => ⟨S8192x44, .i32⟩
  | .hbm, ⟨41, _⟩ => ⟨S8192x44, .i32⟩
  | .hbm, ⟨42, _⟩ => ⟨S8192x44, .i32⟩
  | .hbm, ⟨43, _⟩ => ⟨S_, .i32⟩
  | .hbm, ⟨44, _⟩ => ⟨S8192x44, .i32⟩
  | .hbm, ⟨45, _⟩ => ⟨S8192x44, .i32⟩
  | .hbm, ⟨46, _⟩ => ⟨S_, .i32⟩
  | .hbm, ⟨47, _⟩ => ⟨S8192x44, .i32⟩
  | .hbm, ⟨48, _⟩ => ⟨S8192x44, .i1⟩
  | .hbm, ⟨49, _⟩ => ⟨S_, .i32⟩
  | .hbm, ⟨50, _⟩ => ⟨S8192x44, .i32⟩
  | .hbm, ⟨51, _⟩ => ⟨S8192x44, .i32⟩
  | .hbm, ⟨52, _⟩ => ⟨S8192x44, .i32⟩
  | .hbm, ⟨53, _⟩ => ⟨S8192x44x1, .i32⟩
  | .hbm, ⟨54, _⟩ => ⟨S1, .i32⟩
  | .hbm, ⟨55, _⟩ => ⟨S_, .i32⟩
  | .hbm, ⟨56, _⟩ => ⟨S8192x44x1, .i32⟩
  | .hbm, ⟨57, _⟩ => ⟨S8192x44x1, .i1⟩
  | .hbm, ⟨58, _⟩ => ⟨S1x1x1, .i32⟩
  | .hbm, ⟨59, _⟩ => ⟨S8192x44x1, .i32⟩
  | .hbm, ⟨60, _⟩ => ⟨S8192x44x1, .i1⟩
  | .hbm, ⟨61, _⟩ => ⟨S8192x44x1, .i1⟩
  | .hbm, ⟨62, _⟩ => ⟨S_, .i1⟩
  | .hbm, ⟨63, _⟩ => ⟨S8192x44, .i1⟩
  | .hbm, ⟨64, _⟩ => ⟨S8192x44, .f32⟩
  | .hbm, ⟨65, _⟩ => ⟨S_, .f32⟩
  | .hbm, ⟨66, _⟩ => ⟨S8192x44, .f32⟩
  | .hbm, ⟨67, _⟩ => ⟨S8192x44, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x44, .f32⟩
  | .hbm, ⟨72, _⟩ => ⟨S8192x44, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x40, .f32⟩
  | .hbm, ⟨77, _⟩ => ⟨S8192x40, .f32⟩
  | .hbm, ⟨78, _⟩ => ⟨S8192x40, .f32⟩
  | .hbm, ⟨79, _⟩ => ⟨S8192x240, .f32⟩
  | .hbm, ⟨80, _⟩ => ⟨S8192x720, .f32⟩
  | .hbm, ⟨81, _⟩ => ⟨S8192x480, .f32⟩
  | .hbm, ⟨82, _⟩ => ⟨S8192x720, .bf16⟩
  | .hbm, ⟨83, _⟩ => ⟨S256x720, .bf16⟩
  | .hbm, ⟨84, _⟩ => ⟨S256x256, .bf16⟩
  | .hbm, ⟨85, _⟩ => ⟨S256x256, .bf16⟩
  | .hbm, ⟨86, _⟩ => ⟨S256x256, .bf16⟩
  | .hbm, ⟨87, _⟩ => ⟨S768x256, .bf16⟩
  | .hbm, ⟨88, _⟩ => ⟨S768x256, .bf16⟩
  | .hbm, ⟨89, _⟩ => ⟨S256x256, .bf16⟩
  | .hbm, ⟨90, _⟩ => ⟨S768x256, .bf16⟩
  | .hbm, ⟨91, _⟩ => ⟨S768x256, .bf16⟩
  | .hbm, ⟨92, _⟩ => ⟨S256x256, .bf16⟩
  | .hbm, ⟨93, _⟩ => ⟨S768x256, .bf16⟩
  | .hbm, ⟨94, _⟩ => ⟨S768x256, .bf16⟩
  | .hbm, ⟨95, _⟩ => ⟨S256x256, .bf16⟩
  | .hbm, ⟨96, _⟩ => ⟨S41x1024, .f32⟩
  | .hbm, ⟨97, _⟩ => ⟨S_, .i32⟩
  | .hbm, ⟨98, _⟩ => ⟨S_, .f32⟩
  | .hbm, ⟨99, _⟩ => ⟨S128x1024, .f32⟩
  | .hbm, ⟨100, _⟩ => ⟨S128x1024, .bf16⟩
  | .hbm, ⟨101, _⟩ => ⟨S_, .f32⟩
  | .hbm, ⟨102, _⟩ => ⟨S40, .f32⟩
  | .hbm, ⟨103, _⟩ => ⟨S41, .f32⟩
  | .hbm, ⟨104, _⟩ => ⟨S_, .i32⟩
  | .hbm, ⟨105, _⟩ => ⟨S_, .f32⟩
  | .hbm, ⟨106, _⟩ => ⟨S128, .f32⟩
  | .hbm, ⟨107, _⟩ => ⟨S1x128, .f32⟩
  | .hbm, ⟨108, _⟩ => ⟨S8192x256, .f32⟩
  | .hbm, ⟨109, _⟩ => ⟨S8192x256, .f32⟩
  | .hbm, ⟨110, _⟩ => ⟨S8192x256, .f32⟩
  | .hbm, ⟨111, _⟩ => ⟨S8192x256, .f32⟩
  | .hbm, ⟨112, _⟩ => ⟨S8192x40, .f32⟩
  | .local _ .vmem, ⟨0, _⟩ => ⟨S1024x720, .bf16⟩
  | .local _ .vmem, ⟨1, _⟩ => ⟨S1024x720, .bf16⟩
  | .local _ .vmem, ⟨2, _⟩ => ⟨S1024x40, .f32⟩
  | .local _ .vmem, ⟨3, _⟩ => ⟨S1024x40, .f32⟩
  | .local _ .vmem, ⟨4, _⟩ => ⟨S1024x256, .f32⟩
  | .local _ .vmem, ⟨5, _⟩ => ⟨S1024x256, .f32⟩
  | .local _ .vmem, ⟨6, _⟩ => ⟨S1024x1, .f32⟩
  | .local _ .vmem, ⟨7, _⟩ => ⟨S1024x1, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S256x720, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S768x256, .bf16⟩
  | .local _ .vmem, ⟨19, _⟩ => ⟨S768x256, .bf16⟩
  | .local _ .vmem, ⟨20, _⟩ => ⟨S256x256, .bf16⟩
  | .local _ .vmem, ⟨21, _⟩ => ⟨S768x256, .bf16⟩
  | .local _ .vmem, ⟨22, _⟩ => ⟨S768x256, .bf16⟩
  | .local _ .vmem, ⟨23, _⟩ => ⟨S256x256, .bf16⟩
  | .local _ .vmem, ⟨24, _⟩ => ⟨S768x256, .bf16⟩
  | .local _ .vmem, ⟨25, _⟩ => ⟨S768x256, .bf16⟩
  | .local _ .vmem, ⟨26, _⟩ => ⟨S256x256, .bf16⟩
  | .local _ .vmem, ⟨27, _⟩ => ⟨S128x1024, .bf16⟩
  | .local _ .vmem, ⟨28, _⟩ => ⟨S1x128, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | .local _ .vmem, ⟨34, _⟩ => ⟨S1024x256, .f32⟩
  | .local _ .vmem, ⟨35, _⟩ => ⟨S1024x256, .f32⟩
  | .local _ .vmem, ⟨36, _⟩ => ⟨S1024x256, .f32⟩
  | _, _ => ⟨S8192x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_c : Ref sig .tc := ⟨.hbm, 27, rfl⟩
abbrev main_c_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v1 : Ref sig .tc := ⟨.hbm, 34, rfl⟩
abbrev main_c_1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_c_2 : Ref sig .tc := ⟨.hbm, 43, rfl⟩
abbrev main_v9 : Ref sig .tc := ⟨.hbm, 44, rfl⟩
abbrev main_v10 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_cst_3 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_c_4 : Ref sig .tc := ⟨.hbm, 97, rfl⟩
abbrev main_call2_v0 : Ref sig .tc := ⟨.hbm, 98, rfl⟩
abbrev main_v39 : Ref sig .tc := ⟨.hbm, 99, rfl⟩
abbrev main_v40 : Ref sig .tc := ⟨.hbm, 100, rfl⟩
abbrev main_cst_5 : Ref sig .tc := ⟨.hbm, 101, rfl⟩
abbrev main_v41 : Ref sig .tc := ⟨.hbm, 102, rfl⟩
abbrev main_v42 : Ref sig .tc := ⟨.hbm, 103, rfl⟩
abbrev main_c_6 : Ref sig .tc := ⟨.hbm, 104, rfl⟩
abbrev main_call3_v0 : Ref sig .tc := ⟨.hbm, 105, rfl⟩
abbrev main_v43 : Ref sig .tc := ⟨.hbm, 106, rfl⟩
abbrev main_v44 : Ref sig .tc := ⟨.hbm, 107, rfl⟩
abbrev main_v45_0 : Ref sig .tc := ⟨.hbm, 108, rfl⟩
abbrev main_v45_1 : Ref sig .tc := ⟨.hbm, 109, rfl⟩
abbrev main_v45_2 : Ref sig .tc := ⟨.hbm, 110, rfl⟩
abbrev main_v45_3 : Ref sig .tc := ⟨.hbm, 111, rfl⟩
abbrev main_v46 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x720 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x720 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S768x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S768x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S768x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1024x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1024x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1024x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1024x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S44_S1x44_1 : S44.BroadcastsInDim S1x44 (![1] : Fin 1 → Fin S1x44.rank)
  bcast_S8192x1_S8192x44_0_1 : S8192x1.BroadcastsInDim S8192x44 (![0, 1] : Fin 2 → Fin S8192x44.rank)
  bcast_S1x44_S8192x44_0_1 : S1x44.BroadcastsInDim S8192x44 (![0, 1] : Fin 2 → Fin S8192x44.rank)
  bcast_S_S8192x44 : S_.BroadcastsInDim S8192x44 (![] : Fin 0 → Fin S8192x44.rank)
  shapeCasts_S8192x44_S8192x44x1 : S8192x44.ShapeCasts S8192x44x1
  bcast_S_S8192x44x1 : S_.BroadcastsInDim S8192x44x1 (![] : Fin 0 → Fin S8192x44x1.rank)
  bcast_S1_S1x1x1_2 : S1.BroadcastsInDim S1x1x1 (![2] : Fin 1 → Fin S1x1x1.rank)
  bcast_S1x1x1_S8192x44x1_0_1_2 : S1x1x1.BroadcastsInDim S8192x44x1 (![0, 1, 2] : Fin 3 → Fin S8192x44x1.rank)
  reducesTo_S8192x44x1_S8192x44_d2 : S8192x44x1.ReducesTo [2] S8192x44
  h_S_ : 0 < S_.numel
  bcast_S8192x1_S8192x40_0_1 : S8192x1.BroadcastsInDim S8192x40 (![0, 1] : Fin 2 → Fin S8192x40.rank)
  slices_S8192x44_S8192x40_0_2 : S8192x44.Slices ![0, 2] S8192x40
  concatenates_S8192x80_S8192x40_S8192x40_S8192x80_S8192x240_d1 : Shape.Concatenates [S8192x80, S8192x40, S8192x40, S8192x80] S8192x240 1
  concatenates_S8192x480_S8192x240_S8192x720_d1 : Shape.Concatenates [S8192x480, S8192x240] S8192x720 1
  slices_S8192x720_S8192x480_0_240 : S8192x720.Slices ![0, 240] S8192x480
  bitsLt_bf16_f32 : FTy.bits .bf16 < FTy.bits .f32
  concatenates_S40x1024_S1x1024_S41x1024_d0 : Shape.Concatenates [S40x1024, S1x1024] S41x1024 0
  pads_S41x1024_S128x1024_0870_000 : S41x1024.Pads (![0, 0] : Fin 2 → Nat) ![87, 0] ![0, 0] S128x1024
  bcast_S_S40 : S_.BroadcastsInDim S40 (![] : Fin 0 → Fin S40.rank)
  concatenates_S40_S1_S41_d0 : Shape.Concatenates [S40, S1] S41 0
  pads_S41_S128_0870 : S41.Pads (![0] : Fin 1 → Nat) ![87] ![0] S128
  shapeCasts_S128_S1x128 : S128.ShapeCasts S1x128
  inb_S1024x720_S1024x720_0_0 : ∀ a, (![0, 0] : Fin 2 → Nat) a + S1024x720.size a ≤ S1024x720.size a
  h_S1024x720 : 0 < S1024x720.numel
  shapeCasts_S1024x720_S1024x720 : S1024x720.ShapeCasts S1024x720
  inb_S256x720_S256x720_0_0 : ∀ a, (![0, 0] : Fin 2 → Nat) a + S256x720.size a ≤ S256x720.size a
  h_S256x720 : 0 < S256x720.numel
  shapeCasts_S256x720_S256x720 : S256x720.ShapeCasts S256x720
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x256_S1024x256_0_0 : ∀ a, (![0, 0] : Fin 2 → Nat) a + S1024x256.size a ≤ S1024x256.size a
  h_S1024x256 : 0 < S1024x256.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  concatenates_S1024x256_S1024x256_S1024x256_S1024x256_S1024x1024_d1 : Shape.Concatenates [S1024x256, S1024x256, S1024x256, S1024x256] S1024x1024 1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S1024x128_o0_0_S1024x40 : S1024x128.Slices ![0, 0] S1024x40
  slices_S1024x128_o0_40_S1024x1 : S1024x128.Slices ![0, 40] S1024x1
  inb_S1024x40_S1024x40_0_0 : ∀ a, (![0, 0] : Fin 2 → Nat) a + S1024x40.size a ≤ S1024x40.size a
  h_S1024x40 : 0 < S1024x40.numel
  shapeCasts_S1024x40_S1024x40 : S1024x40.ShapeCasts S1024x40
  inb_S1024x1_S1024x1_0_0 : ∀ a, (![0, 0] : Fin 2 → Nat) a + S1024x1.size a ≤ S1024x1.size a
  h_S1024x1 : 0 < S1024x1.numel
  broadcasts_S1024x1_S1024x40 : S1024x1.Broadcasts S1024x40
  slices_S1024x256_o0_40_S1024x216 : S1024x256.Slices ![0, 40] S1024x216
  concatenates_S1024x216_S1024x40_S1024x256_d1 : Shape.Concatenates [S1024x216, S1024x40] S1024x256 1
  slices_S8192x256_S8192x40_0_216 : S8192x256.Slices ![0, 216] S8192x40
  gather_S8192x256_S8192x44x1_S8192x44_n_1_0_0_1_2_11_wf : GatherDims.WF S8192x256 S8192x44x1 S8192x44 [] [1] [0] [1] [0] 2 ![1, 1]
  dot_S1024x720_S256x720_S1024x256_1_1_0_0_n_n_wf : DotDims.WF S1024x720 S256x720 S1024x256 [1] [1] [0] [0] [] []
  dot_S1024x256_S256x256_S1024x256_1_1_0_0_n_n_wf : DotDims.WF S1024x256 S256x256 S1024x256 [1] [1] [0] [0] [] []
  dot_S1024x256_S768x256_S1024x768_1_1_0_0_n_n_wf : DotDims.WF S1024x256 S768x256 S1024x768 [1] [1] [0] [0] [] []
  dot_S1024x1024_S128x1024_S1024x128_1_1_0_0_n_n_wf : DotDims.WF S1024x1024 S128x1024 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x720.size a ≤ S8192x720.size a
  hwx0_0 : ∀ i : grid0.Coords, EltTy.bits .bf16 = 32 ∨ (Rect.block (s := S8192x720) S1024x720.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x40.size a ≤ S8192x40.size a
  hwx0_1 : ∀ i : grid0.Coords, EltTy.bits .f32 = 32 ∨ (Rect.block (s := S8192x40) S1024x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .f32 = 32 ∨ (Rect.block (s := S8192x256) S1024x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x720.size a ≤ S256x720.size a
  hwx0_7 : ∀ i : grid0.Coords, EltTy.bits .bf16 = 32 ∨ (Rect.block (s := S256x720) S256x720.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S768x256.size a ≤ S768x256.size a
  hwx0_11 : ∀ i : grid0.Coords, EltTy.bits .bf16 = 32 ∨ (Rect.block (s := S768x256) S768x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768x256.size a ≤ S768x256.size a
  hwx0_12 : ∀ i : grid0.Coords, EltTy.bits .bf16 = 32 ∨ (Rect.block (s := S768x256) S768x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768x256.size a ≤ S768x256.size a
  hwx0_14 : ∀ i : grid0.Coords, EltTy.bits .bf16 = 32 ∨ (Rect.block (s := S768x256) S768x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S768x256.size a ≤ S768x256.size a
  hwx0_15 : ∀ i : grid0.Coords, EltTy.bits .bf16 = 32 ∨ (Rect.block (s := S768x256) S768x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .bf16 = 32 ∨ (Rect.block (s := S256x256) S256x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S768x256.size a ≤ S768x256.size a
  hwx0_17 : ∀ i : grid0.Coords, EltTy.bits .bf16 = 32 ∨ (Rect.block (s := S768x256) S768x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S768x256.size a ≤ S768x256.size a
  hwx0_18 : ∀ i : grid0.Coords, EltTy.bits .bf16 = 32 ∨ (Rect.block (s := S768x256) S768x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .bf16 = 32 ∨ (Rect.block (s := S256x256) S256x256.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x1024.size a ≤ S128x1024.size a
  hwx0_20 : ∀ i : grid0.Coords, EltTy.bits .bf16 = 32 ∨ (Rect.block (s := S128x1024) S128x1024.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1024x256.size a ≤ S8192x256.size a
  hwx0_22 : ∀ i : grid0.Coords, EltTy.bits .f32 = 32 ∨ (Rect.block (s := S8192x256) S1024x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1024x256.size a ≤ S8192x256.size a
  hwx0_23 : ∀ i : grid0.Coords, EltTy.bits .f32 = 32 ∨ (Rect.block (s := S8192x256) S1024x256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1024x256.size a ≤ S8192x256.size a
  hwx0_24 : ∀ i : grid0.Coords, EltTy.bits .f32 = 32 ∨ (Rect.block (s := S8192x256) S1024x256.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1024x256.size a ≤ S8192x256.size a
  hwx0_25 : ∀ i : grid0.Coords, EltTy.bits .f32 = 32 ∨ (Rect.block (s := S8192x256) S1024x256.size (cc0_transform_25 i) (hinb0_25 i)).WholeWords (EltTy.packing .f32)

variable [Facts₀]

def gather_S8192x256_S8192x44x1_S8192x44_n_1_0_0_1_2_11 : GatherDims S8192x256 S8192x44x1 S8192x44 where
  offsetDims := []
  collapsedSliceDims := [1]
  operandBatchingDims := [0]
  startIndicesBatchingDims := [0]
  startIndexMap := [1]
  indexVectorDim := 2
  sliceSizes := ![1, 1]
  wf := gather_S8192x256_S8192x44x1_S8192x44_n_1_0_0_1_2_11_wf
def dot_S1024x720_S256x720_S1024x256_1_1_0_0_n_n : DotDims S1024x720 S256x720 S1024x256 where
  lhsContracting := [1]
  rhsContracting := [1]
  lhsNonContracting := [0]
  rhsNonContracting := [0]
  lhsBatch := []
  rhsBatch := []
  wf := dot_S1024x720_S256x720_S1024x256_1_1_0_0_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S768x256_S1024x768_1_1_0_0_n_n : DotDims S1024x256 S768x256 S1024x768 where
  lhsContracting := [1]
  rhsContracting := [1]
  lhsNonContracting := [0]
  rhsNonContracting := [0]
  lhsBatch := []
  rhsBatch := []
  wf := dot_S1024x256_S768x256_S1024x768_1_1_0_0_n_n_wf
def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf

abbrev win0_0 : Pipeline.Window sig grid0 :=
  Pipeline.Window.ofSpec (Memref.whole main_v24) S1024x720.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25) S256x720.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S768x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v30) S768x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v31) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v32) S768x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v33) S768x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v34) S256x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35) S768x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v36) S768x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v37) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v40) S128x1024.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v44) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v45_0) S1024x256.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v45_1) S1024x256.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v45_2) S1024x256.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v45_3) S1024x256.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S8192x80 : Shape := ⟨2, ![8192, 80]⟩
abbrev S8192x40 : Shape := ⟨2, ![8192, 40]⟩
abbrev S8192x256 : Shape := ⟨2, ![8192, 256]⟩
abbrev S8192 : Shape := ⟨1, ![8192]⟩
abbrev S8192x480 : Shape := ⟨2, ![8192, 480]⟩
abbrev S8192x1 : Shape := ⟨2, ![8192, 1]⟩
abbrev S256x720 : Shape := ⟨2, ![256, 720]⟩
abbrev S256x256 : Shape := ⟨2, ![256, 256]⟩
abbrev S768x256 : Shape := ⟨2, ![768, 256]⟩
abbrev S40x1024 : Shape := ⟨2, ![40, 1024]⟩
abbrev S1x1024 : Shape := ⟨2, ![1, 1024]⟩
abbrev S1 : Shape := ⟨1, ![1]⟩
abbrev S_ : Shape := ⟨0, ![]⟩
abbrev S44 : Shape := ⟨1, ![44]⟩
abbrev S1x44 : Shape := ⟨2, ![1, 44]⟩
abbrev S8192x44 : Shape := ⟨2, ![8192, 44]⟩
abbrev S8192x44x1 : Shape := ⟨3, ![8192, 44, 1]⟩
abbrev S1x1x1 : Shape := ⟨3, ![1, 1, 1]⟩
abbrev S8192x240 : Shape := ⟨2, ![8192, 240]⟩
abbrev S8192x720 : Shape := ⟨2, ![8192, 720]⟩
abbrev S720x256 : Shape := ⟨2, ![720, 256]⟩
abbrev S256x768 : Shape := ⟨2, ![256, 768]⟩
abbrev S8192x768 : Shape := ⟨2, ![8192, 768]⟩
abbrev S8192x1024 : Shape := ⟨2, ![8192, 1024]⟩
abbrev S1024x40 : Shape := ⟨2, ![1024, 40]⟩
abbrev S1024x1 : Shape := ⟨2, ![1024, 1]⟩
abbrev S1x1 : Shape := ⟨2, ![1, 1]⟩
abbrev S8192x216 : Shape := ⟨2, ![8192, 216]⟩

abbrev nBuf : Space → Nat
  | .hbm => 272
  | .vmem => 0
  | .smem => 0
  | _ => 0

abbrev hbmTy0_0 (i : Nat) : BufTy := match i % 128 with
  | 0 => ⟨S8192x80, .f32⟩
  | 1 => ⟨S8192x40, .f32⟩
  | 2 => ⟨S8192x256, .f32⟩
  | 3 => ⟨S8192x80, .f32⟩
  | 4 => ⟨S8192, .i32⟩
  | 5 => ⟨S8192x256, .f32⟩
  | 6 => ⟨S8192x256, .f32⟩
  | 7 => ⟨S8192x256, .f32⟩
  | 8 => ⟨S8192x480, .f32⟩
  | 9 => ⟨S8192x1, .f32⟩
  | 10 => ⟨S256x720, .f32⟩
  | 11 => ⟨S256x256, .f32⟩
  | 12 => ⟨S256x256, .f32⟩
  | 13 => ⟨S256x256, .f32⟩
  | 14 => ⟨S768x256, .f32⟩
  | 15 => ⟨S768x256, .f32⟩
  | 16 => ⟨S256x256, .f32⟩
  | 17 => ⟨S768x256, .f32⟩
  | 18 => ⟨S768x256, .f32⟩
  | 19 => ⟨S256x256, .f32⟩
  | 20 => ⟨S768x256, .f32⟩
  | 21 => ⟨S768x256, .f32⟩
  | 22 => ⟨S256x256, .f32⟩
  | 23 => ⟨S40x1024, .f32⟩
  | 24 => ⟨S1x1024, .f32⟩
  | 25 => ⟨S1, .f32⟩
  | 26 => ⟨S8192x1, .i32⟩
  | 27 => ⟨S_, .i32⟩
  | 28 => ⟨S_, .i32⟩
  | 29 => ⟨S_, .i32⟩
  | 30 => ⟨S8192x1, .i32⟩
  | 31 => ⟨S8192x1, .i32⟩
  | 32 => ⟨S_, .i32⟩
  | 33 => ⟨S8192x1, .i32⟩
  | 34 => ⟨S8192x1, .i32⟩
  | 35 => ⟨S_, .i32⟩
  | 36 => ⟨S8192x1, .i32⟩
  | 37 => ⟨S8192x1, .i32⟩
  | 38 => ⟨S44, .i32⟩
  | 39 => ⟨S1x44, .i32⟩
  | 40 => ⟨S8192x44, .i32⟩
  | 41 => ⟨S8192x44, .i32⟩
  | 42 => ⟨S8192x44, .i32⟩
  | 43 => ⟨S_, .i32⟩
  | 44 => ⟨S8192x44, .i32⟩
  | 45 => ⟨S8192x44, .i32⟩
  | 46 => ⟨S_, .i32⟩
  | 47 => ⟨S8192x44, .i32⟩
  | 48 => ⟨S8192x44, .i1⟩
  | 49 => ⟨S_, .i32⟩
  | 50 => ⟨S8192x44, .i32⟩
  | 51 => ⟨S8192x44, .i32⟩
  | 52 => ⟨S8192x44, .i32⟩
  | 53 => ⟨S8192x44x1, .i32⟩
  | 54 => ⟨S1, .i32⟩
  | 55 => ⟨S_, .i32⟩
  | 56 => ⟨S8192x44x1, .i32⟩
  | 57 => ⟨S8192x44x1, .i1⟩
  | 58 => ⟨S1x1x1, .i32⟩
  | 59 => ⟨S8192x44x1, .i32⟩
  | 60 => ⟨S8192x44x1, .i1⟩
  | 61 => ⟨S8192x44x1, .i1⟩
  | 62 => ⟨S_, .i1⟩
  | 63 => ⟨S8192x44, .i1⟩
  | 64 => ⟨S8192x44, .f32⟩
  | 65 => ⟨S_, .f32⟩
  | 66 => ⟨S8192x44, .f32⟩
  | 67 => ⟨S8192x44, .f32⟩
  | 68 => ⟨S_, .f32⟩
  | 69 => ⟨S8192x1, .f32⟩
  | 70 => ⟨S8192x1, .f32⟩
  | 71 => ⟨S8192x44, .f32⟩
  | 72 => ⟨S8192x44, .f32⟩
  | 73 => ⟨S_, .f32⟩
  | 74 => ⟨S8192x1, .f32⟩
  | 75 => ⟨S8192x1, .f32⟩
  | 76 => ⟨S8192x40, .f32⟩
  | 77 => ⟨S8192x40, .f32⟩
  | 78 => ⟨S8192x40, .f32⟩
  | 79 => ⟨S8192x240, .f32⟩
  | 80 => ⟨S8192x720, .f32⟩
  | 81 => ⟨S720x256, .f32⟩
  | 82 => ⟨S8192x256, .f32⟩
  | 83 => ⟨S8192x256, .f32⟩
  | 84 => ⟨S256x256, .f32⟩
  | 85 => ⟨S8192x256, .f32⟩
  | 86 => ⟨S8192x256, .f32⟩
  | 87 => ⟨S8192x256, .f32⟩
  | 88 => ⟨S_, .f32⟩
  | 89 => ⟨S8192x256, .f32⟩
  | 90 => ⟨S8192x256, .f32⟩
  | 91 => ⟨S_, .f32⟩
  | 92 => ⟨S8192x256, .f32⟩
  | 93 => ⟨S8192x256, .f32⟩
  | 94 => ⟨S8192x256, .f32⟩
  | 95 => ⟨S8192x480, .f32⟩
  | 96 => ⟨S256x256, .f32⟩
  | 97 => ⟨S8192x256, .f32⟩
  | 98 => ⟨S8192x256, .f32⟩
  | 99 => ⟨S256x256, .f32⟩
  | 100 => ⟨S8192x256, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S_, .f32⟩
  | 107 => ⟨S8192x256, .f32⟩
  | 108 => ⟨S8192x256, .f32⟩
  | 109 => ⟨S8192x256, .f32⟩
  | 110 => ⟨S256x768, .f32⟩
  | 111 => ⟨S8192x768, .f32⟩
  | 112 => ⟨S256x768, .f32⟩
  | 113 => ⟨S8192x768, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S8192x256, .f32⟩
  | 122 => ⟨S8192x256, .f32⟩
  | 123 => ⟨S_, .f32⟩
  | 124 => ⟨S8192x256, .f32⟩
  | 125 => ⟨S8192x256, .f32⟩
  | 126 => ⟨S_, .f32⟩
  | 127 => ⟨S8192x256, .f32⟩
  | _ => ⟨S8192x80, .f32⟩

abbrev hbmTy0_1 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S_, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S_, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S256x256, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S8192x256, .f32⟩
  | 30 => ⟨S256x768, .f32⟩
  | 31 => ⟨S8192x768, .f32⟩
  | 32 => ⟨S256x768, .f32⟩
  | 33 => ⟨S8192x768, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S_, .f32⟩
  | 44 => ⟨S8192x256, .f32⟩
  | 45 => ⟨S8192x256, .f32⟩
  | 46 => ⟨S_, .f32⟩
  | 47 => ⟨S8192x256, .f32⟩
  | 48 => ⟨S8192x256, .f32⟩
  | 49 => ⟨S8192x256, .f32⟩
  | 50 => ⟨S8192x256, .f32⟩
  | 51 => ⟨S8192x256, .f32⟩
  | 52 => ⟨S_, .f32⟩
  | 53 => ⟨S8192x256, .f32⟩
  | 54 => ⟨S8192x256, .f32⟩
  | 55 => ⟨S_, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S256x256, .f32⟩
  | 68 => ⟨S8192x256, .f32⟩
  | 69 => ⟨S8192x256, .f32⟩
  | 70 => ⟨S8192x256, .f32⟩
  | 71 => ⟨S_, .f32⟩
  | 72 => ⟨S8192x256, .f32⟩
  | 73 => ⟨S8192x256, .f32⟩
  | 74 => ⟨S_, .f32⟩
  | 75 => ⟨S8192x256, .f32⟩
  | 76 => ⟨S8192x256, .f32⟩
  | 77 => ⟨S8192x256, .f32⟩
  | 78 => ⟨S256x768, .f32⟩
  | 79 => ⟨S8192x768, .f32⟩
  | 80 => ⟨S256x768, .f32⟩
  | 81 => ⟨S8192x768, .f32⟩
  | 82 => ⟨S8192x256, .f32⟩
  | 83 => ⟨S8192x256, .f32⟩
  | 84 => ⟨S8192x256, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S8192x256, .f32⟩
  | 91 => ⟨S_, .f32⟩
  | 92 => ⟨S8192x256, .f32⟩
  | 93 => ⟨S8192x256, .f32⟩
  | 94 => ⟨S_, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S_, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S8192x256, .f32⟩
  | 107 => ⟨S8192x256, .f32⟩
  | 108 => ⟨S8192x256, .f32⟩
  | 109 => ⟨S_, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S256x256, .f32⟩
  | 116 => ⟨S8192x256, .f32⟩
  | 117 => ⟨S8192x256, .f32⟩
  | 118 => ⟨S8192x256, .f32⟩
  | 119 => ⟨S_, .f32⟩
  | 120 => ⟨S8192x256, .f32⟩
  | 121 => ⟨S8192x256, .f32⟩
  | 122 => ⟨S_, .f32⟩
  | 123 => ⟨S8192x256, .f32⟩
  | 124 => ⟨S8192x256, .f32⟩
  | 125 => ⟨S8192x256, .f32⟩
  | 126 => ⟨S8192x1024, .f32⟩
  | 127 => ⟨S1024x40, .f32⟩
  | _ => ⟨S8192x80, .f32⟩

abbrev hbmTy0_2 (i : Nat) : BufTy := match i % 128 with
  | 0 => ⟨S8192x40, .f32⟩
  | 1 => ⟨S8192x40, .f32⟩
  | 2 => ⟨S8192x40, .f32⟩
  | 3 => ⟨S1024x1, .f32⟩
  | 4 => ⟨S8192x1, .f32⟩
  | 5 => ⟨S1x1, .f32⟩
  | 6 => ⟨S8192x1, .f32⟩
  | 7 => ⟨S8192x1, .f32⟩
  | 8 => ⟨S8192x1, .f32⟩
  | 9 => ⟨S8192x40, .f32⟩
  | 10 => ⟨S8192x40, .f32⟩
  | 11 => ⟨S8192x40, .f32⟩
  | 12 => ⟨S8192x40, .f32⟩
  | 13 => ⟨S8192x40, .f32⟩
  | 14 => ⟨S8192x216, .f32⟩
  | 15 => ⟨S8192x256, .f32⟩
  | _ => ⟨S8192x80, .f32⟩

abbrev hbmTy (i : Nat) : BufTy := match i / 128 with
  | 0 => hbmTy0_0 i
  | 1 => hbmTy0_1 i
  | 2 => hbmTy0_2 i
  | _ => ⟨S8192x80, .f32⟩

abbrev bufTy : (tb : Table) → Fin (tcTables nBuf tb) → BufTy
  | .hbm, ⟨i, _⟩ => hbmTy i
  | _, _ => ⟨S8192x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_c : Ref sig .tc := ⟨.hbm, 27, rfl⟩
abbrev main_c_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v1 : Ref sig .tc := ⟨.hbm, 34, rfl⟩
abbrev main_c_1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_c_2 : Ref sig .tc := ⟨.hbm, 43, rfl⟩
abbrev main_v9 : Ref sig .tc := ⟨.hbm, 44, rfl⟩
abbrev main_v10 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_cst_3 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_cst_4 : Ref sig .tc := ⟨.hbm, 88, rfl⟩
abbrev main_v30 : Ref sig .tc := ⟨.hbm, 89, rfl⟩
abbrev main_v31 : Ref sig .tc := ⟨.hbm, 90, rfl⟩
abbrev main_cst_5 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_6 : Ref sig .tc := ⟨.hbm, 103, rfl⟩
abbrev main_v43 : Ref sig .tc := ⟨.hbm, 104, rfl⟩
abbrev main_v44 : Ref sig .tc := ⟨.hbm, 105, rfl⟩
abbrev main_cst_7 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_cst_8 : Ref sig .tc := ⟨.hbm, 123, rfl⟩
abbrev main_v61 : Ref sig .tc := ⟨.hbm, 124, rfl⟩
abbrev main_v62 : Ref sig .tc := ⟨.hbm, 125, rfl⟩
abbrev main_cst_9 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_10 : Ref sig .tc := ⟨.hbm, 132, rfl⟩
abbrev main_v68 : Ref sig .tc := ⟨.hbm, 133, rfl⟩
abbrev main_v69 : Ref sig .tc := ⟨.hbm, 134, rfl⟩
abbrev main_cst_11 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_cst_12 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_cst_13 : Ref sig .tc := ⟨.hbm, 151, rfl⟩
abbrev main_v84 : Ref sig .tc := ⟨.hbm, 152, rfl⟩
abbrev main_v85 : Ref sig .tc := ⟨.hbm, 153, rfl⟩
abbrev main_cst_14 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_cst_15 : Ref sig .tc := ⟨.hbm, 171, rfl⟩
abbrev main_v102 : Ref sig .tc := ⟨.hbm, 172, rfl⟩
abbrev main_v103 : Ref sig .tc := ⟨.hbm, 173, rfl⟩
abbrev main_cst_16 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_cst_17 : Ref sig .tc := ⟨.hbm, 180, rfl⟩
abbrev main_v109 : Ref sig .tc := ⟨.hbm, 181, rfl⟩
abbrev main_v110 : Ref sig .tc := ⟨.hbm, 182, rfl⟩
abbrev main_cst_18 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_cst_19 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_cst_20 : Ref sig .tc := ⟨.hbm, 199, rfl⟩
abbrev main_v125 : Ref sig .tc := ⟨.hbm, 200, rfl⟩
abbrev main_v126 : Ref sig .tc := ⟨.hbm, 201, rfl⟩
abbrev main_cst_21 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_cst_22 : Ref sig .tc := ⟨.hbm, 219, rfl⟩
abbrev main_v143 : Ref sig .tc := ⟨.hbm, 220, rfl⟩
abbrev main_v144 : Ref sig .tc := ⟨.hbm, 221, rfl⟩
abbrev main_cst_23 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_cst_24 : Ref sig .tc := ⟨.hbm, 228, rfl⟩
abbrev main_v150 : Ref sig .tc := ⟨.hbm, 229, rfl⟩
abbrev main_v151 : Ref sig .tc := ⟨.hbm, 230, rfl⟩
abbrev main_cst_25 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_cst_26 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_cst_27 : Ref sig .tc := ⟨.hbm, 247, rfl⟩
abbrev main_v166 : Ref sig .tc := ⟨.hbm, 248, rfl⟩
abbrev main_v167 : Ref sig .tc := ⟨.hbm, 249, rfl⟩
abbrev main_cst_28 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S44_S1x44_1 : S44.BroadcastsInDim S1x44 (![1] : Fin 1 → Fin S1x44.rank)
  bcast_S8192x1_S8192x44_0_1 : S8192x1.BroadcastsInDim S8192x44 (![0, 1] : Fin 2 → Fin S8192x44.rank)
  bcast_S1x44_S8192x44_0_1 : S1x44.BroadcastsInDim S8192x44 (![0, 1] : Fin 2 → Fin S8192x44.rank)
  bcast_S_S8192x44 : S_.BroadcastsInDim S8192x44 (![] : Fin 0 → Fin S8192x44.rank)
  shapeCasts_S8192x44_S8192x44x1 : S8192x44.ShapeCasts S8192x44x1
  bcast_S_S8192x44x1 : S_.BroadcastsInDim S8192x44x1 (![] : Fin 0 → Fin S8192x44x1.rank)
  bcast_S1_S1x1x1_2 : S1.BroadcastsInDim S1x1x1 (![2] : Fin 1 → Fin S1x1x1.rank)
  bcast_S1x1x1_S8192x44x1_0_1_2 : S1x1x1.BroadcastsInDim S8192x44x1 (![0, 1, 2] : Fin 3 → Fin S8192x44x1.rank)
  reducesTo_S8192x44x1_S8192x44_d2 : S8192x44x1.ReducesTo [2] S8192x44
  h_S_ : 0 < S_.numel
  bcast_S8192x1_S8192x40_0_1 : S8192x1.BroadcastsInDim S8192x40 (![0, 1] : Fin 2 → Fin S8192x40.rank)
  slices_S8192x44_S8192x40_0_2 : S8192x44.Slices ![0, 2] S8192x40
  concatenates_S8192x80_S8192x40_S8192x40_S8192x80_S8192x240_d1 : Shape.Concatenates [S8192x80, S8192x40, S8192x40, S8192x80] S8192x240 1
  concatenates_S8192x480_S8192x240_S8192x720_d1 : Shape.Concatenates [S8192x480, S8192x240] S8192x720 1
  transposes_S256x720_S720x256_1_0 : S256x720.Transposes [1, 0] S720x256
  transposes_S256x256_S256x256_1_0 : S256x256.Transposes [1, 0] S256x256
  bcast_S_S8192x256 : S_.BroadcastsInDim S8192x256 (![] : Fin 0 → Fin S8192x256.rank)
  slices_S8192x720_S8192x480_0_240 : S8192x720.Slices ![0, 240] S8192x480
  transposes_S768x256_S256x768_1_0 : S768x256.Transposes [1, 0] S256x768
  slices_S8192x768_S8192x256_0_0 : S8192x768.Slices ![0, 0] S8192x256
  slices_S8192x768_S8192x256_0_256 : S8192x768.Slices ![0, 256] S8192x256
  slices_S8192x768_S8192x256_0_512 : S8192x768.Slices ![0, 512] S8192x256
  concatenates_S8192x256_S8192x256_S8192x256_S8192x256_S8192x1024_d1 : Shape.Concatenates [S8192x256, S8192x256, S8192x256, S8192x256] S8192x1024 1
  transposes_S40x1024_S1024x40_1_0 : S40x1024.Transposes [1, 0] S1024x40
  transposes_S1x1024_S1024x1_1_0 : S1x1024.Transposes [1, 0] S1024x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  slices_S8192x256_S8192x216_0_40 : S8192x256.Slices ![0, 40] S8192x216
  concatenates_S8192x216_S8192x40_S8192x256_d1 : Shape.Concatenates [S8192x216, S8192x40] S8192x256 1
  gather_S8192x256_S8192x44x1_S8192x44_n_1_0_0_1_2_11_wf : GatherDims.WF S8192x256 S8192x44x1 S8192x44 [] [1] [0] [1] [0] 2 ![1, 1]
  dot_S8192x720_S720x256_S8192x256_1_0_0_1_n_n_wf : DotDims.WF S8192x720 S720x256 S8192x256 [1] [0] [0] [1] [] []
  dot_S8192x256_S256x256_S8192x256_1_0_0_1_n_n_wf : DotDims.WF S8192x256 S256x256 S8192x256 [1] [0] [0] [1] [] []
  dot_S8192x256_S256x768_S8192x768_1_0_0_1_n_n_wf : DotDims.WF S8192x256 S256x768 S8192x768 [1] [0] [0] [1] [] []
  dot_S8192x1024_S1024x40_S8192x40_1_0_0_1_n_n_wf : DotDims.WF S8192x1024 S1024x40 S8192x40 [1] [0] [0] [1] [] []
  dot_S8192x1024_S1024x1_S8192x1_1_0_0_1_n_n_wf : DotDims.WF S8192x1024 S1024x1 S8192x1 [1] [0] [0] [1] [] []

variable [Facts₀]

def gather_S8192x256_S8192x44x1_S8192x44_n_1_0_0_1_2_11 : GatherDims S8192x256 S8192x44x1 S8192x44 where
  offsetDims := []
  collapsedSliceDims := [1]
  operandBatchingDims := [0]
  startIndicesBatchingDims := [0]
  startIndexMap := [1]
  indexVectorDim := 2
  sliceSizes := ![1, 1]
  wf := gather_S8192x256_S8192x44x1_S8192x44_n_1_0_0_1_2_11_wf
def dot_S8192x720_S720x256_S8192x256_1_0_0_1_n_n : DotDims S8192x720 S720x256 S8192x256 where
  lhsContracting := [1]
  rhsContracting := [0]
  lhsNonContracting := [0]
  rhsNonContracting := [1]
  lhsBatch := []
  rhsBatch := []
  wf := dot_S8192x720_S720x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x768_S8192x768_1_0_0_1_n_n : DotDims S8192x256 S256x768 S8192x768 where
  lhsContracting := [1]
  rhsContracting := [0]
  lhsNonContracting := [0]
  rhsNonContracting := [1]
  lhsBatch := []
  rhsBatch := []
  wf := dot_S8192x256_S256x768_S8192x768_1_0_0_1_n_n_wf
def dot_S8192x1024_S1024x40_S8192x40_1_0_0_1_n_n : DotDims S8192x1024 S1024x40 S8192x40 where
  lhsContracting := [1]
  rhsContracting := [0]
  lhsNonContracting := [0]
  rhsNonContracting := [1]
  lhsBatch := []
  rhsBatch := []
  wf := dot_S8192x1024_S1024x40_S8192x40_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf

class Facts : Prop extends Facts₀ where

variable [Facts]
-- ==== Proof.RunP.lean ====
/-
  The reference's run, layer by layer.

  The reference's @main is a straight line of 246 operations, each writing one buffer that no later operation writes
  again. Evaluating the whole line at once writes every shared intermediate out again at each of its uses (a gate uses
  its input twice, a GRU cell uses each of its two products three times), so the line is cut into seven consecutive
  stretches at layer boundaries: the operations that build the concatenated input and the pitch window; the first two
  dense layers with their gates; then three times a GRU cell with its gate; then the output layer, then the join that
  forms the new excitation memory. After a stretch,
  from ANY contents W that hold the arguments and the earlier layers' named stages at their buffers, the stretch's
  output buffers hold the next named stages: each stretch is evaluated by itself, over its inputs as atoms, and the
  stages' definitions unfold to the same expression. Buffers a stretch does not write keep their contents. Chaining the
  seven stretches gives every result buffer at its named stage of the launch contents, and the arguments unchanged.
-/
import proofs.«162228_j46806553592417_2_alg».proof.Proof.RunOpsP
import proofs.«162228_j46806553592417_2_alg».proof.Proof.ReadP
import Idealize.ShloMosaic.Lib.StableHlo.Run
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.Value (ops main_eq scopedRefs_eq scopedSems_eq ops_sub)

variable {F : FTy → Type} [FloatOps F]

/-! ## The arguments and the named stages of given contents -/

abbrev a0 (V : Valuation τ sig (Elt F)) : (⟨S8192x80, .f32⟩ : BufTy).Contents (Elt F) := V (Proc.devRef .tc main_arg0)
abbrev a1 (V : Valuation τ sig (Elt F)) : (⟨S8192x40, .f32⟩ : BufTy).Contents (Elt F) := V (Proc.devRef .tc main_arg1)
abbrev a2 (V : Valuation τ sig (Elt F)) : (⟨S8192x256, .f32⟩ : BufTy).Contents (Elt F) := V (Proc.devRef .tc main_arg2)
abbrev a3 (V : Valuation τ sig (Elt F)) : (⟨S8192x80, .f32⟩ : BufTy).Contents (Elt F) := V (Proc.devRef .tc main_arg3)
abbrev a4 (V : Valuation τ sig (Elt F)) : (⟨S8192, .i32⟩ : BufTy).Contents (Elt F) := V (Proc.devRef .tc main_arg4)
abbrev a5 (V : Valuation τ sig (Elt F)) : (⟨S8192x256, .f32⟩ : BufTy).Contents (Elt F) := V (Proc.devRef .tc main_arg5)
abbrev a6 (V : Valuation τ sig (Elt F)) : (⟨S8192x256, .f32⟩ : BufTy).Contents (Elt F) := V (Proc.devRef .tc main_arg6)
abbrev a7 (V : Valuation τ sig (Elt F)) : (⟨S8192x256, .f32⟩ : BufTy).Contents (Elt F) := V (Proc.devRef .tc main_arg7)
abbrev a8 (V : Valuation τ sig (Elt F)) : (⟨S8192x480, .f32⟩ : BufTy).Contents (Elt F) := V (Proc.devRef .tc main_arg8)
abbrev a9 (V : Valuation τ sig (Elt F)) : (⟨S8192x1, .f32⟩ : BufTy).Contents (Elt F) := V (Proc.devRef .tc main_arg9)
abbrev a10 (V : Valuation τ sig (Elt F)) : (⟨S256x720, .f32⟩ : BufTy).Contents (Elt F) := V (Proc.devRef .tc main_arg10)
abbrev a11 (V : Valuation τ sig (Elt F)) : (⟨S256x256, .f32⟩ : BufTy).Contents (Elt F) := V (Proc.devRef .tc main_arg11)
abbrev a12 (V : Valuation τ sig (Elt F)) : (⟨S256x256, .f32⟩ : BufTy).Contents (Elt F) := V (Proc.devRef .tc main_arg12)
abbrev a13 (V : Valuation τ sig (Elt F)) : (⟨S256x256, .f32⟩ : BufTy).Contents (Elt F) := V (Proc.devRef .tc main_arg13)
abbrev a14 (V : Valuation τ sig (Elt F)) : (⟨S768x256, .f32⟩ : BufTy).Contents (Elt F) := V (Proc.devRef .tc main_arg14)
abbrev a15 (V : Valuation τ sig (Elt F)) : (⟨S768x256, .f32⟩ : BufTy).Contents (Elt F) := V (Proc.devRef .tc main_arg15)
abbrev a16 (V : Valuation τ sig (Elt F)) : (⟨S256x256, .f32⟩ : BufTy).Contents (Elt F) := V (Proc.devRef .tc main_arg16)
abbrev a17 (V : Valuation τ sig (Elt F)) : (⟨S768x256, .f32⟩ : BufTy).Contents (Elt F) := V (Proc.devRef .tc main_arg17)
abbrev a18 (V : Valuation τ sig (Elt F)) : (⟨S768x256, .f32⟩ : BufTy).Contents (Elt F) := V (Proc.devRef .tc main_arg18)
abbrev a19 (V : Valuation τ sig (Elt F)) : (⟨S256x256, .f32⟩ : BufTy).Contents (Elt F) := V (Proc.devRef .tc main_arg19)
abbrev a20 (V : Valuation τ sig (Elt F)) : (⟨S768x256, .f32⟩ : BufTy).Contents (Elt F) := V (Proc.devRef .tc main_arg20)
abbrev a21 (V : Valuation τ sig (Elt F)) : (⟨S768x256, .f32⟩ : BufTy).Contents (Elt F) := V (Proc.devRef .tc main_arg21)
abbrev a22 (V : Valuation τ sig (Elt F)) : (⟨S256x256, .f32⟩ : BufTy).Contents (Elt F) := V (Proc.devRef .tc main_arg22)
abbrev a23 (V : Valuation τ sig (Elt F)) : (⟨S40x1024, .f32⟩ : BufTy).Contents (Elt F) := V (Proc.devRef .tc main_arg23)
abbrev a24 (V : Valuation τ sig (Elt F)) : (⟨S1x1024, .f32⟩ : BufTy).Contents (Elt F) := V (Proc.devRef .tc main_arg24)
abbrev a25 (V : Valuation τ sig (Elt F)) : (⟨S1, .f32⟩ : BufTy).Contents (Elt F) := V (Proc.devRef .tc main_arg25)

abbrev s15 (V : Valuation τ sig (Elt F)) := Read.val_main_v15 (F := F) (a2 V) (a4 V) (a9 V)
abbrev s22 (V : Valuation τ sig (Elt F)) := Read.val_main_v22 (F := F) (a0 V) (a1 V) (a2 V) (a3 V) (a4 V) (a8 V) (a9 V)
abbrev s35 (V : Valuation τ sig (Elt F)) := Read.val_main_v35 (F := F) (a0 V) (a1 V) (a2 V) (a3 V) (a4 V) (a8 V) (a9 V)
abbrev s47 (V : Valuation τ sig (Elt F)) := Read.val_main_v47 (F := F) (a0 V) (a1 V) (a2 V) (a3 V) (a4 V) (a8 V) (a9 V) (a10 V) (a11 V) (a12 V) (a13 V)
abbrev s79 (V : Valuation τ sig (Elt F)) := Read.val_main_v79 (F := F) (a0 V) (a1 V) (a2 V) (a3 V) (a4 V) (a5 V) (a8 V) (a9 V) (a10 V) (a11 V) (a12 V) (a13 V) (a14 V) (a15 V)
abbrev s88 (V : Valuation τ sig (Elt F)) := Read.val_main_v88 (F := F) (a0 V) (a1 V) (a2 V) (a3 V) (a4 V) (a5 V) (a8 V) (a9 V) (a10 V) (a11 V) (a12 V) (a13 V) (a14 V) (a15 V) (a16 V)
abbrev s120 (V : Valuation τ sig (Elt F)) := Read.val_main_v120 (F := F) (a0 V) (a1 V) (a2 V) (a3 V) (a4 V) (a5 V) (a6 V) (a8 V) (a9 V) (a10 V) (a11 V) (a12 V) (a13 V) (a14 V) (a15 V) (a16 V) (a17 V) (a18 V)
abbrev s129 (V : Valuation τ sig (Elt F)) := Read.val_main_v129 (F := F) (a0 V) (a1 V) (a2 V) (a3 V) (a4 V) (a5 V) (a6 V) (a8 V) (a9 V) (a10 V) (a11 V) (a12 V) (a13 V) (a14 V) (a15 V) (a16 V) (a17 V) (a18 V) (a19 V)
abbrev s161 (V : Valuation τ sig (Elt F)) := Read.val_main_v161 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V)
abbrev s170 (V : Valuation τ sig (Elt F)) := Read.val_main_v170 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V)
abbrev s186 (V : Valuation τ sig (Elt F)) := Read.val_main_v186 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V)
abbrev s188 (V : Valuation τ sig (Elt F)) := Read.val_main_v188 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V)

/-- Contents `W` hold every argument as `V` does. -/
structure ArgsAre (W V : Valuation τ sig (Elt F)) : Prop where
  h0 : W (Proc.devRef .tc main_arg0) = V (Proc.devRef .tc main_arg0)
  h1 : W (Proc.devRef .tc main_arg1) = V (Proc.devRef .tc main_arg1)
  h2 : W (Proc.devRef .tc main_arg2) = V (Proc.devRef .tc main_arg2)
  h3 : W (Proc.devRef .tc main_arg3) = V (Proc.devRef .tc main_arg3)
  h4 : W (Proc.devRef .tc main_arg4) = V (Proc.devRef .tc main_arg4)
  h5 : W (Proc.devRef .tc main_arg5) = V (Proc.devRef .tc main_arg5)
  h6 : W (Proc.devRef .tc main_arg6) = V (Proc.devRef .tc main_arg6)
  h7 : W (Proc.devRef .tc main_arg7) = V (Proc.devRef .tc main_arg7)
  h8 : W (Proc.devRef .tc main_arg8) = V (Proc.devRef .tc main_arg8)
  h9 : W (Proc.devRef .tc main_arg9) = V (Proc.devRef .tc main_arg9)
  h10 : W (Proc.devRef .tc main_arg10) = V (Proc.devRef .tc main_arg10)
  h11 : W (Proc.devRef .tc main_arg11) = V (Proc.devRef .tc main_arg11)
  h12 : W (Proc.devRef .tc main_arg12) = V (Proc.devRef .tc main_arg12)
  h13 : W (Proc.devRef .tc main_arg13) = V (Proc.devRef .tc main_arg13)
  h14 : W (Proc.devRef .tc main_arg14) = V (Proc.devRef .tc main_arg14)
  h15 : W (Proc.devRef .tc main_arg15) = V (Proc.devRef .tc main_arg15)
  h16 : W (Proc.devRef .tc main_arg16) = V (Proc.devRef .tc main_arg16)
  h17 : W (Proc.devRef .tc main_arg17) = V (Proc.devRef .tc main_arg17)
  h18 : W (Proc.devRef .tc main_arg18) = V (Proc.devRef .tc main_arg18)
  h19 : W (Proc.devRef .tc main_arg19) = V (Proc.devRef .tc main_arg19)
  h20 : W (Proc.devRef .tc main_arg20) = V (Proc.devRef .tc main_arg20)
  h21 : W (Proc.devRef .tc main_arg21) = V (Proc.devRef .tc main_arg21)
  h22 : W (Proc.devRef .tc main_arg22) = V (Proc.devRef .tc main_arg22)
  h23 : W (Proc.devRef .tc main_arg23) = V (Proc.devRef .tc main_arg23)
  h24 : W (Proc.devRef .tc main_arg24) = V (Proc.devRef .tc main_arg24)
  h25 : W (Proc.devRef .tc main_arg25) = V (Proc.devRef .tc main_arg25)

/-- The argument buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- A buffer among a list of written references: its singleton is inside the list's buffers. -/
theorem sw {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

/-- A stretch that writes no argument keeps the arguments. -/
theorem ArgsAre.step {L : List (HloOp τ sig (Elt F))} {Wr : List (Ref sig .tc)}
    (hW : L.Forall fun op => op.writes ⊆ (Wr.map (Proc.devRef (τ := τ) .tc)).toFinset)
    (hn : ∀ r ∈ argRefs, r ∉ Wr) {W V : Valuation τ sig (Elt F)} (h : ArgsAre W V) : ArgsAre (after L W) V :=
  ⟨(after_of_writes_sub L W hW (hn main_arg0 (by decide))).trans h.h0,
    (after_of_writes_sub L W hW (hn main_arg1 (by decide))).trans h.h1,
    (after_of_writes_sub L W hW (hn main_arg2 (by decide))).trans h.h2,
    (after_of_writes_sub L W hW (hn main_arg3 (by decide))).trans h.h3,
    (after_of_writes_sub L W hW (hn main_arg4 (by decide))).trans h.h4,
    (after_of_writes_sub L W hW (hn main_arg5 (by decide))).trans h.h5,
    (after_of_writes_sub L W hW (hn main_arg6 (by decide))).trans h.h6,
    (after_of_writes_sub L W hW (hn main_arg7 (by decide))).trans h.h7,
    (after_of_writes_sub L W hW (hn main_arg8 (by decide))).trans h.h8,
    (after_of_writes_sub L W hW (hn main_arg9 (by decide))).trans h.h9,
    (after_of_writes_sub L W hW (hn main_arg10 (by decide))).trans h.h10,
    (after_of_writes_sub L W hW (hn main_arg11 (by decide))).trans h.h11,
    (after_of_writes_sub L W hW (hn main_arg12 (by decide))).trans h.h12,
    (after_of_writes_sub L W hW (hn main_arg13 (by decide))).trans h.h13,
    (after_of_writes_sub L W hW (hn main_arg14 (by decide))).trans h.h14,
    (after_of_writes_sub L W hW (hn main_arg15 (by decide))).trans h.h15,
    (after_of_writes_sub L W hW (hn main_arg16 (by decide))).trans h.h16,
    (after_of_writes_sub L W hW (hn main_arg17 (by decide))).trans h.h17,
    (after_of_writes_sub L W hW (hn main_arg18 (by decide))).trans h.h18,
    (after_of_writes_sub L W hW (hn main_arg19 (by decide))).trans h.h19,
    (after_of_writes_sub L W hW (hn main_arg20 (by decide))).trans h.h20,
    (after_of_writes_sub L W hW (hn main_arg21 (by decide))).trans h.h21,
    (after_of_writes_sub L W hW (hn main_arg22 (by decide))).trans h.h22,
    (after_of_writes_sub L W hW (hn main_arg23 (by decide))).trans h.h23,
    (after_of_writes_sub L W hW (hn main_arg24 (by decide))).trans h.h24,
    (after_of_writes_sub L W hW (hn main_arg25 (by decide))).trans h.h25⟩

/-! ## The seven stretches of the operation list -/

/-- The concatenated input and the pitch window. -/
abbrev chunkA : List (HloOp τ sig (Elt F)) :=
  [ unary main_arg4 main_v0 (broadcastInDim S8192x1 ![0] bcast_S8192_S8192x1_0 : (⟨S8192, .i32⟩ : BufTy).Contents (Elt F) → (⟨S8192x1, .i32⟩ : BufTy).Contents (Elt F)),
    nullary main_c (constantI S_ 32 42#32),
    nullary main_c_0 (constantI S_ 32 254#32),
    TRef.unary (TRef.of (T := ⟨S_, .i32⟩) main_c) (TRef.of (T := ⟨S_, .i32⟩) main_call0_v0) id,
    TRef.unary (TRef.of (T := ⟨S_, .i32⟩) main_call0_v0) (TRef.of (T := ⟨S8192x1, .i32⟩) main_call0_v1) (broadcastInDim S8192x1 ![] bcast_S_S8192x1),
    TRef.binary (TRef.of (T := ⟨S8192x1, .i32⟩) main_call0_v1) (TRef.of (T := ⟨S8192x1, .i32⟩) main_v0) (TRef.of (T := ⟨S8192x1, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S8192x1, .i32⟩) main_call0_v4) (broadcastInDim S8192x1 ![] bcast_S_S8192x1),
    TRef.binary (TRef.of (T := ⟨S8192x1, .i32⟩) main_call0_v4) (TRef.of (T := ⟨S8192x1, .i32⟩) main_call0_v2) (TRef.of (T := ⟨S8192x1, .i32⟩) main_v1) minsi,
    nullary main_c_1 (constantI S_ 32 256#32),
    unary main_c_1 main_v2 (broadcastInDim S8192x1 ![] bcast_S_S8192x1 : (⟨S_, .i32⟩ : BufTy).Contents (Elt F) → (⟨S8192x1, .i32⟩ : BufTy).Contents (Elt F)),
    binary main_v2 main_v1 main_v3 (subi : (⟨S8192x1, .i32⟩ : BufTy).Contents (Elt F) → (⟨S8192x1, .i32⟩ : BufTy).Contents (Elt F) → (⟨S8192x1, .i32⟩ : BufTy).Contents (Elt F)),
    nullary main_v4 (iotaInDim S44 32 0),
    unary main_v4 main_v5 (broadcastInDim S1x44 ![1] bcast_S44_S1x44_1 : (⟨S44, .i32⟩ : BufTy).Contents (Elt F) → (⟨S1x44, .i32⟩ : BufTy).Contents (Elt F)),
    unary main_v3 main_v6 (broadcastInDim S8192x44 ![0, 1] bcast_S8192x1_S8192x44_0_1 : (⟨S8192x1, .i32⟩ : BufTy).Contents (Elt F) → (⟨S8192x44, .i32⟩ : BufTy).Contents (Elt F)),
    unary main_v5 main_v7 (broadcastInDim S8192x44 ![0, 1] bcast_S1x44_S8192x44_0_1 : (⟨S1x44, .i32⟩ : BufTy).Contents (Elt F) → (⟨S8192x44, .i32⟩ : BufTy).Contents (Elt F)),
    binary main_v6 main_v7 main_v8 (addi : (⟨S8192x44, .i32⟩ : BufTy).Contents (Elt F) → (⟨S8192x44, .i32⟩ : BufTy).Contents (Elt F) → (⟨S8192x44, .i32⟩ : BufTy).Contents (Elt F)),
    nullary main_c_2 (constantI S_ 32 2#32),
    unary main_c_2 main_v9 (broadcastInDim S8192x44 ![] bcast_S_S8192x44 : (⟨S_, .i32⟩ : BufTy).Contents (Elt F) → (⟨S8192x44, .i32⟩ : BufTy).Contents (Elt F)),
    binary main_v8 main_v9 main_v10 (subi : (⟨S8192x44, .i32⟩ : BufTy).Contents (Elt F) → (⟨S8192x44, .i32⟩ : BufTy).Contents (Elt F) → (⟨S8192x44, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x44, .i32⟩) main_call1_v0) (broadcastInDim S8192x44 ![] bcast_S_S8192x44),
    TRef.binary (TRef.of (T := ⟨S8192x44, .i32⟩) main_v10) (TRef.of (T := ⟨S8192x44, .i32⟩) main_call1_v0) (TRef.of (T := ⟨S8192x44, .i1⟩) main_call1_v1) (cmpi .slt),
    TRef.nullary (TRef.of (T := ⟨S_, .i32⟩) main_call1_c_0) (constantI S_ 32 256#32),
    TRef.unary (TRef.of (T := ⟨S_, .i32⟩) main_call1_c_0) (TRef.of (T := ⟨S8192x44, .i32⟩) main_call1_v2) (broadcastInDim S8192x44 ![] bcast_S_S8192x44),
    TRef.binary (TRef.of (T := ⟨S8192x44, .i32⟩) main_v10) (TRef.of (T := ⟨S8192x44, .i32⟩) main_call1_v2) (TRef.of (T := ⟨S8192x44, .i32⟩) main_call1_v3) addi,
    TRef.ternary (TRef.of (T := ⟨S8192x44, .i1⟩) main_call1_v1) (TRef.of (T := ⟨S8192x44, .i32⟩) main_call1_v3) (TRef.of (T := ⟨S8192x44, .i32⟩) main_v10) (TRef.of (T := ⟨S8192x44, .i32⟩) main_call1_v4) select,
    TRef.reshape (TRef.of (T := ⟨S8192x44, .i32⟩) main_call1_v4) (TRef.of (T := ⟨S8192x44x1, .i32⟩) main_call1_v5) rfl shapeCasts_S8192x44_S8192x44x1,
    TRef.nullary (TRef.of (T := ⟨S1, .i32⟩) main_call1_c_1) (constantI S1 32 255#32),
    TRef.nullary (TRef.of (T := ⟨S_, .i32⟩) main_call1_c_2) (constantI S_ 32 0#32),
    TRef.unary (TRef.of (T := ⟨S_, .i32⟩) main_call1_c_2) (TRef.of (T := ⟨S8192x44x1, .i32⟩) main_call1_v6) (broadcastInDim S8192x44x1 ![] bcast_S_S8192x44x1),
    TRef.binary (TRef.of (T := ⟨S8192x44x1, .i32⟩) main_call1_v5) (TRef.of (T := ⟨S8192x44x1, .i32⟩) main_call1_v6) (TRef.of (T := ⟨S8192x44x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x44x1, .i32⟩) main_call1_v9) (broadcastInDim S8192x44x1 ![0, 1, 2] bcast_S1x1x1_S8192x44x1_0_1_2),
    TRef.binary (TRef.of (T := ⟨S8192x44x1, .i32⟩) main_call1_v5) (TRef.of (T := ⟨S8192x44x1, .i32⟩) main_call1_v9) (TRef.of (T := ⟨S8192x44x1, .i1⟩) main_call1_v10) (cmpi .sle),
    TRef.binary (TRef.of (T := ⟨S8192x44x1, .i1⟩) main_call1_v7) (TRef.of (T := ⟨S8192x44x1, .i1⟩) main_call1_v10) (TRef.of (T := ⟨S8192x44x1, .i1⟩) main_call1_v11) andi,
    TRef.nullary (TRef.of (T := ⟨S_, .i1⟩) main_call1_c_3) (constantI S_ 1 1#1),
    TRef.binary (TRef.of (T := ⟨S8192x44x1, .i1⟩) main_call1_v11) (TRef.of (T := ⟨S_, .i1⟩) main_call1_c_3) (TRef.of (T := ⟨S8192x44, .i1⟩) main_call1_v12) (fun x v => Host.reduce IntOp.andi x v reducesTo_S8192x44x1_S8192x44_d2 h_S_),
    TRef.binary (TRef.of (T := ⟨S8192x256, .f32⟩) main_arg2) (TRef.of (T := ⟨S8192x44x1, .i32⟩) main_call1_v5) (TRef.of (T := ⟨S8192x44, .f32⟩) main_call1_v13) (fun x i => Host.gather gather_S8192x256_S8192x44x1_S8192x44_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x44, .f32⟩) main_call1_v14) (broadcastInDim S8192x44 ![] bcast_S_S8192x44),
    TRef.ternary (TRef.of (T := ⟨S8192x44, .i1⟩) main_call1_v12) (TRef.of (T := ⟨S8192x44, .f32⟩) main_call1_v13) (TRef.of (T := ⟨S8192x44, .f32⟩) main_call1_v14) (TRef.of (T := ⟨S8192x44, .f32⟩) main_v11) select,
    nullary main_cst (constant S_ .f32 0x3727C5AC#32),
    unary main_cst main_v12 (broadcastInDim S8192x1 ![] bcast_S_S8192x1 : (⟨S_, .f32⟩ : BufTy).Contents (Elt F) → (⟨S8192x1, .f32⟩ : BufTy).Contents (Elt F)),
    binary main_v12 main_arg9 main_v13 (addf : (⟨S8192x1, .f32⟩ : BufTy).Contents (Elt F) → (⟨S8192x1, .f32⟩ : BufTy).Contents (Elt F) → (⟨S8192x1, .f32⟩ : BufTy).Contents (Elt F)),
    unary main_v13 main_v14 (broadcastInDim S8192x44 ![0, 1] bcast_S8192x1_S8192x44_0_1 : (⟨S8192x1, .f32⟩ : BufTy).Contents (Elt F) → (⟨S8192x44, .f32⟩ : BufTy).Contents (Elt F)),
    binary main_v11 main_v14 main_v15 (Host.divf : (⟨S8192x44, .f32⟩ : BufTy).Contents (Elt F) → (⟨S8192x44, .f32⟩ : BufTy).Contents (Elt F) → (⟨S8192x44, .f32⟩ : BufTy).Contents (Elt F)),
    nullary main_cst_3 (constant S_ .f32 0x3727C5AC#32),
    unary main_cst_3 main_v16 (broadcastInDim S8192x1 ![] bcast_S_S8192x1 : (⟨S_, .f32⟩ : BufTy).Contents (Elt F) → (⟨S8192x1, .f32⟩ : BufTy).Contents (Elt F)),
    binary main_v16 main_arg9 main_v17 (addf : (⟨S8192x1, .f32⟩ : BufTy).Contents (Elt F) → (⟨S8192x1, .f32⟩ : BufTy).Contents (Elt F) → (⟨S8192x1, .f32⟩ : BufTy).Contents (Elt F)),
    unary main_v17 main_v18 (broadcastInDim S8192x40 ![0, 1] bcast_S8192x1_S8192x40_0_1 : (⟨S8192x1, .f32⟩ : BufTy).Contents (Elt F) → (⟨S8192x40, .f32⟩ : BufTy).Contents (Elt F)),
    binary main_arg1 main_v18 main_v19 (Host.divf : (⟨S8192x40, .f32⟩ : BufTy).Contents (Elt F) → (⟨S8192x40, .f32⟩ : BufTy).Contents (Elt F) → (⟨S8192x40, .f32⟩ : BufTy).Contents (Elt F)),
    unary main_v15 main_v20 ((extractStridedSlice S8192x40 ![0, 2] · slices_S8192x44_S8192x40_0_2) : (⟨S8192x44, .f32⟩ : BufTy).Contents (Elt F) → (⟨S8192x40, .f32⟩ : BufTy).Contents (Elt F)),
    nary ![main_arg0, main_v20, main_v19, main_arg3] main_v21 (fun u => concatenate S8192x240 1 [⟨S8192x80, u 0⟩, ⟨S8192x40, u 1⟩, ⟨S8192x40, u 2⟩, ⟨S8192x80, u 3⟩] concatenates_S8192x80_S8192x40_S8192x40_S8192x80_S8192x240_d1),
    binary main_arg8 main_v21 main_v22 ((fun a b => concatenate S8192x720 1 [⟨S8192x480, a⟩, ⟨S8192x240, b⟩] concatenates_S8192x480_S8192x240_S8192x720_d1) : (⟨S8192x480, .f32⟩ : BufTy).Contents (Elt F) → (⟨S8192x240, .f32⟩ : BufTy).Contents (Elt F) → (⟨S8192x720, .f32⟩ : BufTy).Contents (Elt F)) ]

/-- The first two dense layers with their gates, and the frame-wise state carried on. -/
abbrev chunkB : List (HloOp τ sig (Elt F)) :=
  [ unary main_arg10 main_v23 ((transpose S720x256 [1, 0] · transposes_S256x720_S720x256_1_0) : (⟨S256x720, .f32⟩ : BufTy).Contents (Elt F) → (⟨S720x256, .f32⟩ : BufTy).Contents (Elt F)),
    binary main_v22 main_v23 main_v24 ((fun l r => Host.dotGeneral dot_S8192x720_S720x256_S8192x256_1_0_0_1_n_n none l r) : (⟨S8192x720, .f32⟩ : BufTy).Contents (Elt F) → (⟨S720x256, .f32⟩ : BufTy).Contents (Elt F) → (⟨S8192x256, .f32⟩ : BufTy).Contents (Elt F)),
    unary main_v24 main_v25 (Host.tanh : (⟨S8192x256, .f32⟩ : BufTy).Contents (Elt F) → (⟨S8192x256, .f32⟩ : BufTy).Contents (Elt F)),
    unary main_arg11 main_v26 ((transpose S256x256 [1, 0] · transposes_S256x256_S256x256_1_0) : (⟨S256x256, .f32⟩ : BufTy).Contents (Elt F) → (⟨S256x256, .f32⟩ : BufTy).Contents (Elt F)),
    binary main_v25 main_v26 main_v27 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_v27 main_v28 (Host.negf : (⟨S8192x256, .f32⟩ : BufTy).Contents (Elt F) → (⟨S8192x256, .f32⟩ : BufTy).Contents (Elt F)),
    unary main_v28 main_v29 (Host.exp : (⟨S8192x256, .f32⟩ : BufTy).Contents (Elt F) → (⟨S8192x256, .f32⟩ : BufTy).Contents (Elt F)),
    nullary main_cst_4 (constant S_ .f32 0x3F800000#32),
    unary main_cst_4 main_v30 (broadcastInDim S8192x256 ![] bcast_S_S8192x256 : (⟨S_, .f32⟩ : BufTy).Contents (Elt F) → (⟨S8192x256, .f32⟩ : BufTy).Contents (Elt F)),
    binary main_v30 main_v29 main_v31 (addf : (⟨S8192x256, .f32⟩ : BufTy).Contents (Elt F) → (⟨S8192x256, .f32⟩ : BufTy).Contents (Elt F) → (⟨S8192x256, .f32⟩ : BufTy).Contents (Elt F)),
    nullary main_cst_5 (constant S_ .f32 0x3F800000#32),
    unary main_cst_5 main_v32 (broadcastInDim S8192x256 ![] bcast_S_S8192x256 : (⟨S_, .f32⟩ : BufTy).Contents (Elt F) → (⟨S8192x256, .f32⟩ : BufTy).Contents (Elt F)),
    binary main_v32 main_v31 main_v33 (Host.divf : (⟨S8192x256, .f32⟩ : BufTy).Contents (Elt F) → (⟨S8192x256, .f32⟩ : BufTy).Contents (Elt F) → (⟨S8192x256, .f32⟩ : BufTy).Contents (Elt F)),
    binary main_v25 main_v33 main_v34 (mulf : (⟨S8192x256, .f32⟩ : BufTy).Contents (Elt F) → (⟨S8192x256, .f32⟩ : BufTy).Contents (Elt F) → (⟨S8192x256, .f32⟩ : BufTy).Contents (Elt F)),
    unary main_v22 main_v35 ((extractStridedSlice S8192x480 ![0, 240] · slices_S8192x720_S8192x480_0_240) : (⟨S8192x720, .f32⟩ : BufTy).Contents (Elt F) → (⟨S8192x480, .f32⟩ : BufTy).Contents (Elt F)),
    unary main_arg12 main_v36 ((transpose S256x256 [1, 0] · transposes_S256x256_S256x256_1_0) : (⟨S256x256, .f32⟩ : BufTy).Contents (Elt F) → (⟨S256x256, .f32⟩ : BufTy).Contents (Elt F)),
    binary main_v34 main_v36 main_v37 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_v37 main_v38 (Host.tanh : (⟨S8192x256, .f32⟩ : BufTy).Contents (Elt F) → (⟨S8192x256, .f32⟩ : BufTy).Contents (Elt F)),
    unary main_arg13 main_v39 ((transpose S256x256 [1, 0] · transposes_S256x256_S256x256_1_0) : (⟨S256x256, .f32⟩ : BufTy).Contents (Elt F) → (⟨S256x256, .f32⟩ : BufTy).Contents (Elt F)),
    binary main_v38 main_v39 main_v40 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_v40 main_v41 (Host.negf : (⟨S8192x256, .f32⟩ : BufTy).Contents (Elt F) → (⟨S8192x256, .f32⟩ : BufTy).Contents (Elt F)),
    unary main_v41 main_v42 (Host.exp : (⟨S8192x256, .f32⟩ : BufTy).Contents (Elt F) → (⟨S8192x256, .f32⟩ : BufTy).Contents (Elt F)),
    nullary main_cst_6 (constant S_ .f32 0x3F800000#32),
    unary main_cst_6 main_v43 (broadcastInDim S8192x256 ![] bcast_S_S8192x256 : (⟨S_, .f32⟩ : BufTy).Contents (Elt F) → (⟨S8192x256, .f32⟩ : BufTy).Contents (Elt F)),
    binary main_v43 main_v42 main_v44 (addf : (⟨S8192x256, .f32⟩ : BufTy).Contents (Elt F) → (⟨S8192x256, .f32⟩ : BufTy).Contents (Elt F) → (⟨S8192x256, .f32⟩ : BufTy).Contents (Elt F)),
    nullary main_cst_7 (constant S_ .f32 0x3F800000#32),
    unary main_cst_7 main_v45 (broadcastInDim S8192x256 ![] bcast_S_S8192x256 : (⟨S_, .f32⟩ : BufTy).Contents (Elt F) → (⟨S8192x256, .f32⟩ : BufTy).Contents (Elt F)),
    binary main_v45 main_v44 main_v46 (Host.divf : (⟨S8192x256, .f32⟩ : BufTy).Contents (Elt F) → (⟨S8192x256, .f32⟩ : BufTy).Contents (Elt F) → (⟨S8192x256, .f32⟩ : BufTy).Contents (Elt F)),
    binary main_v38 main_v46 main_v47 (mulf : (⟨S8192x256, .f32⟩ : BufTy).Contents (Elt F) → (⟨S8192x256, .f32⟩ : BufTy).Contents (Elt F) → (⟨S8192x256, .f32⟩ : BufTy).Contents (Elt F)) ]

/-- The first GRU cell and its gate. -/
abbrev chunkC : List (HloOp τ sig (Elt F)) :=
  [ unary main_arg14 main_v48 ((transpose S256x768 [1, 0] · transposes_S768x256_S256x768_1_0) : (⟨S768x256, .f32⟩ : BufTy).Contents (Elt F) → (⟨S256x768, .f32⟩ : BufTy).Contents (Elt F)),
    binary main_v47 main_v48 main_v49 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg15 main_v50 ((transpose S256x768 [1, 0] · transposes_S768x256_S256x768_1_0) : (⟨S768x256, .f32⟩ : BufTy).Contents (Elt F) → (⟨S256x768, .f32⟩ : BufTy).Contents (Elt F)),
    binary main_arg5 main_v50 main_v51 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_v49 main_v52 ((extractStridedSlice S8192x256 ![0, 0] · slices_S8192x768_S8192x256_0_0) : (⟨S8192x768, .f32⟩ : BufTy).Contents (Elt F) → (⟨S8192x256, .f32⟩ : BufTy).Contents (Elt F)),
    unary main_v49 main_v53 ((extractStridedSlice S8192x256 ![0, 256] · slices_S8192x768_S8192x256_0_256) : (⟨S8192x768, .f32⟩ : BufTy).Contents (Elt F) → (⟨S8192x256, .f32⟩ : BufTy).Contents (Elt F)),
    unary main_v49 main_v54 ((extractStridedSlice S8192x256 ![0, 512] · slices_S8192x768_S8192x256_0_512) : (⟨S8192x768, .f32⟩ : BufTy).Contents (Elt F) → (⟨S8192x256, .f32⟩ : BufTy).Contents (Elt F)),
    unary main_v51 main_v55 ((extractStridedSlice S8192x256 ![0, 0] · slices_S8192x768_S8192x256_0_0) : (⟨S8192x768, .f32⟩ : BufTy).Contents (Elt F) → (⟨S8192x256, .f32⟩ : BufTy).Contents (Elt F)),
    unary main_v51 main_v56 ((extractStridedSlice S8192x256 ![0, 256] · slices_S8192x768_S8192x256_0_256) : (⟨S8192x768, .f32⟩ : BufTy).Contents (Elt F) → (⟨S8192x256, .f32⟩ : BufTy).Contents (Elt F)),
    unary main_v51 main_v57 ((extractStridedSlice S8192x256 ![0, 512] · slices_S8192x768_S8192x256_0_512) : (⟨S8192x768, .f32⟩ : BufTy).Contents (Elt F) → (⟨S8192x256, .f32⟩ : BufTy).Contents (Elt F)),
    binary main_v52 main_v55 main_v58 (addf : (⟨S8192x256, .f32⟩ : BufTy).Contents (Elt F) → (⟨S8192x256, .f32⟩ : BufTy).Contents (Elt F) → (⟨S8192x256, .f32⟩ : BufTy).Contents (Elt F)),
    unary main_v58 main_v59 (Host.negf : (⟨S8192x256, .f32⟩ : BufTy).Contents (Elt F) → (⟨S8192x256, .f32⟩ : BufTy).Contents (Elt F)),
    unary main_v59 main_v60 (Host.exp : (⟨S8192x256, .f32⟩ : BufTy).Contents (Elt F) → (⟨S8192x256, .f32⟩ : BufTy).Contents (Elt F)),
    nullary main_cst_8 (constant S_ .f32 0x3F800000#32),
    unary main_cst_8 main_v61 (broadcastInDim S8192x256 ![] bcast_S_S8192x256 : (⟨S_, .f32⟩ : BufTy).Contents (Elt F) → (⟨S8192x256, .f32⟩ : BufTy).Contents (Elt F)),
    binary main_v61 main_v60 main_v62 (addf : (⟨S8192x256, .f32⟩ : BufTy).Contents (Elt F) → (⟨S8192x256, .f32⟩ : BufTy).Contents (Elt F) → (⟨S8192x256, .f32⟩ : BufTy).Contents (Elt F)),
    nullary main_cst_9 (constant S_ .f32 0x3F800000#32),
    unary main_cst_9 main_v63 (broadcastInDim S8192x256 ![] bcast_S_S8192x256 : (⟨S_, .f32⟩ : BufTy).Contents (Elt F) → (⟨S8192x256, .f32⟩ : BufTy).Contents (Elt F)),
    binary main_v63 main_v62 main_v64 (Host.divf : (⟨S8192x256, .f32⟩ : BufTy).Contents (Elt F) → (⟨S8192x256, .f32⟩ : BufTy).Contents (Elt F) → (⟨S8192x256, .f32⟩ : BufTy).Contents (Elt F)),
    binary main_v53 main_v56 main_v65 (addf : (⟨S8192x256, .f32⟩ : BufTy).Contents (Elt F) → (⟨S8192x256, .f32⟩ : BufTy).Contents (Elt F) → (⟨S8192x256, .f32⟩ : BufTy).Contents (Elt F)),
    unary main_v65 main_v66 (Host.negf : (⟨S8192x256, .f32⟩ : BufTy).Contents (Elt F) → (⟨S8192x256, .f32⟩ : BufTy).Contents (Elt F)),
    unary main_v66 main_v67 (Host.exp : (⟨S8192x256, .f32⟩ : BufTy).Contents (Elt F) → (⟨S8192x256, .f32⟩ : BufTy).Contents (Elt F)),
    nullary main_cst_10 (constant S_ .f32 0x3F800000#32),
    unary main_cst_10 main_v68 (broadcastInDim S8192x256 ![] bcast_S_S8192x256 : (⟨S_, .f32⟩ : BufTy).Contents (Elt F) → (⟨S8192x256, .f32⟩ : BufTy).Contents (Elt F)),
    binary main_v68 main_v67 main_v69 (addf : (⟨S8192x256, .f32⟩ : BufTy).Contents (Elt F) → (⟨S8192x256, .f32⟩ : BufTy).Contents (Elt F) → (⟨S8192x256, .f32⟩ : BufTy).Contents (Elt F)),
    nullary main_cst_11 (constant S_ .f32 0x3F800000#32),
    unary main_cst_11 main_v70 (broadcastInDim S8192x256 ![] bcast_S_S8192x256 : (⟨S_, .f32⟩ : BufTy).Contents (Elt F) → (⟨S8192x256, .f32⟩ : BufTy).Contents (Elt F)),
    binary main_v70 main_v69 main_v71 (Host.divf : (⟨S8192x256, .f32⟩ : BufTy).Contents (Elt F) → (⟨S8192x256, .f32⟩ : BufTy).Contents (Elt F) → (⟨S8192x256, .f32⟩ : BufTy).Contents (Elt F)),
    binary main_v64 main_v57 main_v72 (mulf : (⟨S8192x256, .f32⟩ : BufTy).Contents (Elt F) → (⟨S8192x256, .f32⟩ : BufTy).Contents (Elt F) → (⟨S8192x256, .f32⟩ : BufTy).Contents (Elt F)),
    binary main_v54 main_v72 main_v73 (addf : (⟨S8192x256, .f32⟩ : BufTy).Contents (Elt F) → (⟨S8192x256, .f32⟩ : BufTy).Contents (Elt F) → (⟨S8192x256, .f32⟩ : BufTy).Contents (Elt F)),
    unary main_v73 main_v74 (Host.tanh : (⟨S8192x256, .f32⟩ : BufTy).Contents (Elt F) → (⟨S8192x256, .f32⟩ : BufTy).Contents (Elt F)),
    nullary main_cst_12 (constant S_ .f32 0x3F800000#32),
    unary main_cst_12 main_v75 (broadcastInDim S8192x256 ![] bcast_S_S8192x256 : (⟨S_, .f32⟩ : BufTy).Contents (Elt F) → (⟨S8192x256, .f32⟩ : BufTy).Contents (Elt F)),
    binary main_v75 main_v71 main_v76 (subf : (⟨S8192x256, .f32⟩ : BufTy).Contents (Elt F) → (⟨S8192x256, .f32⟩ : BufTy).Contents (Elt F) → (⟨S8192x256, .f32⟩ : BufTy).Contents (Elt F)),
    binary main_v76 main_v74 main_v77 (mulf : (⟨S8192x256, .f32⟩ : BufTy).Contents (Elt F) → (⟨S8192x256, .f32⟩ : BufTy).Contents (Elt F) → (⟨S8192x256, .f32⟩ : BufTy).Contents (Elt F)),
    binary main_v71 main_arg5 main_v78 (mulf : (⟨S8192x256, .f32⟩ : BufTy).Contents (Elt F) → (⟨S8192x256, .f32⟩ : BufTy).Contents (Elt F) → (⟨S8192x256, .f32⟩ : BufTy).Contents (Elt F)),
    binary main_v77 main_v78 main_v79 (addf : (⟨S8192x256, .f32⟩ : BufTy).Contents (Elt F) → (⟨S8192x256, .f32⟩ : BufTy).Contents (Elt F) → (⟨S8192x256, .f32⟩ : BufTy).Contents (Elt F)),
    unary main_arg16 main_v80 ((transpose S256x256 [1, 0] · transposes_S256x256_S256x256_1_0) : (⟨S256x256, .f32⟩ : BufTy).Contents (Elt F) → (⟨S256x256, .f32⟩ : BufTy).Contents (Elt F)),
    binary main_v79 main_v80 main_v81 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_v81 main_v82 (Host.negf : (⟨S8192x256, .f32⟩ : BufTy).Contents (Elt F) → (⟨S8192x256, .f32⟩ : BufTy).Contents (Elt F)),
    unary main_v82 main_v83 (Host.exp : (⟨S8192x256, .f32⟩ : BufTy).Contents (Elt F) → (⟨S8192x256, .f32⟩ : BufTy).Contents (Elt F)),
    nullary main_cst_13 (constant S_ .f32 0x3F800000#32),
    unary main_cst_13 main_v84 (broadcastInDim S8192x256 ![] bcast_S_S8192x256 : (⟨S_, .f32⟩ : BufTy).Contents (Elt F) → (⟨S8192x256, .f32⟩ : BufTy).Contents (Elt F)),
    binary main_v84 main_v83 main_v85 (addf : (⟨S8192x256, .f32⟩ : BufTy).Contents (Elt F) → (⟨S8192x256, .f32⟩ : BufTy).Contents (Elt F) → (⟨S8192x256, .f32⟩ : BufTy).Contents (Elt F)),
    nullary main_cst_14 (constant S_ .f32 0x3F800000#32),
    unary main_cst_14 main_v86 (broadcastInDim S8192x256 ![] bcast_S_S8192x256 : (⟨S_, .f32⟩ : BufTy).Contents (Elt F) → (⟨S8192x256, .f32⟩ : BufTy).Contents (Elt F)),
    binary main_v86 main_v85 main_v87 (Host.divf : (⟨S8192x256, .f32⟩ : BufTy).Contents (Elt F) → (⟨S8192x256, .f32⟩ : BufTy).Contents (Elt F) → (⟨S8192x256, .f32⟩ : BufTy).Contents (Elt F)),
    binary main_v79 main_v87 main_v88 (mulf : (⟨S8192x256, .f32⟩ : BufTy).Contents (Elt F) → (⟨S8192x256, .f32⟩ : BufTy).Contents (Elt F) → (⟨S8192x256, .f32⟩ : BufTy).Contents (Elt F)) ]

/-- The second GRU cell and its gate. -/
abbrev chunkD : List (HloOp τ sig (Elt F)) :=
  [ unary main_arg17 main_v89 ((transpose S256x768 [1, 0] · transposes_S768x256_S256x768_1_0) : (⟨S768x256, .f32⟩ : BufTy).Contents (Elt F) → (⟨S256x768, .f32⟩ : BufTy).Contents (Elt F)),
    binary main_v88 main_v89 main_v90 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg18 main_v91 ((transpose S256x768 [1, 0] · transposes_S768x256_S256x768_1_0) : (⟨S768x256, .f32⟩ : BufTy).Contents (Elt F) → (⟨S256x768, .f32⟩ : BufTy).Contents (Elt F)),
    binary main_arg6 main_v91 main_v92 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_v90 main_v93 ((extractStridedSlice S8192x256 ![0, 0] · slices_S8192x768_S8192x256_0_0) : (⟨S8192x768, .f32⟩ : BufTy).Contents (Elt F) → (⟨S8192x256, .f32⟩ : BufTy).Contents (Elt F)),
    unary main_v90 main_v94 ((extractStridedSlice S8192x256 ![0, 256] · slices_S8192x768_S8192x256_0_256) : (⟨S8192x768, .f32⟩ : BufTy).Contents (Elt F) → (⟨S8192x256, .f32⟩ : BufTy).Contents (Elt F)),
    unary main_v90 main_v95 ((extractStridedSlice S8192x256 ![0, 512] · slices_S8192x768_S8192x256_0_512) : (⟨S8192x768, .f32⟩ : BufTy).Contents (Elt F) → (⟨S8192x256, .f32⟩ : BufTy).Contents (Elt F)),
    unary main_v92 main_v96 ((extractStridedSlice S8192x256 ![0, 0] · slices_S8192x768_S8192x256_0_0) : (⟨S8192x768, .f32⟩ : BufTy).Contents (Elt F) → (⟨S8192x256, .f32⟩ : BufTy).Contents (Elt F)),
    unary main_v92 main_v97 ((extractStridedSlice S8192x256 ![0, 256] · slices_S8192x768_S8192x256_0_256) : (⟨S8192x768, .f32⟩ : BufTy).Contents (Elt F) → (⟨S8192x256, .f32⟩ : BufTy).Contents (Elt F)),
    unary main_v92 main_v98 ((extractStridedSlice S8192x256 ![0, 512] · slices_S8192x768_S8192x256_0_512) : (⟨S8192x768, .f32⟩ : BufTy).Contents (Elt F) → (⟨S8192x256, .f32⟩ : BufTy).Contents (Elt F)),
    binary main_v93 main_v96 main_v99 (addf : (⟨S8192x256, .f32⟩ : BufTy).Contents (Elt F) → (⟨S8192x256, .f32⟩ : BufTy).Contents (Elt F) → (⟨S8192x256, .f32⟩ : BufTy).Contents (Elt F)),
    unary main_v99 main_v100 (Host.negf : (⟨S8192x256, .f32⟩ : BufTy).Contents (Elt F) → (⟨S8192x256, .f32⟩ : BufTy).Contents (Elt F)),
    unary main_v100 main_v101 (Host.exp : (⟨S8192x256, .f32⟩ : BufTy).Contents (Elt F) → (⟨S8192x256, .f32⟩ : BufTy).Contents (Elt F)),
    nullary main_cst_15 (constant S_ .f32 0x3F800000#32),
    unary main_cst_15 main_v102 (broadcastInDim S8192x256 ![] bcast_S_S8192x256 : (⟨S_, .f32⟩ : BufTy).Contents (Elt F) → (⟨S8192x256, .f32⟩ : BufTy).Contents (Elt F)),
    binary main_v102 main_v101 main_v103 (addf : (⟨S8192x256, .f32⟩ : BufTy).Contents (Elt F) → (⟨S8192x256, .f32⟩ : BufTy).Contents (Elt F) → (⟨S8192x256, .f32⟩ : BufTy).Contents (Elt F)),
    nullary main_cst_16 (constant S_ .f32 0x3F800000#32),
    unary main_cst_16 main_v104 (broadcastInDim S8192x256 ![] bcast_S_S8192x256 : (⟨S_, .f32⟩ : BufTy).Contents (Elt F) → (⟨S8192x256, .f32⟩ : BufTy).Contents (Elt F)),
    binary main_v104 main_v103 main_v105 (Host.divf : (⟨S8192x256, .f32⟩ : BufTy).Contents (Elt F) → (⟨S8192x256, .f32⟩ : BufTy).Contents (Elt F) → (⟨S8192x256, .f32⟩ : BufTy).Contents (Elt F)),
    binary main_v94 main_v97 main_v106 (addf : (⟨S8192x256, .f32⟩ : BufTy).Contents (Elt F) → (⟨S8192x256, .f32⟩ : BufTy).Contents (Elt F) → (⟨S8192x256, .f32⟩ : BufTy).Contents (Elt F)),
    unary main_v106 main_v107 (Host.negf : (⟨S8192x256, .f32⟩ : BufTy).Contents (Elt F) → (⟨S8192x256, .f32⟩ : BufTy).Contents (Elt F)),
    unary main_v107 main_v108 (Host.exp : (⟨S8192x256, .f32⟩ : BufTy).Contents (Elt F) → (⟨S8192x256, .f32⟩ : BufTy).Contents (Elt F)),
    nullary main_cst_17 (constant S_ .f32 0x3F800000#32),
    unary main_cst_17 main_v109 (broadcastInDim S8192x256 ![] bcast_S_S8192x256 : (⟨S_, .f32⟩ : BufTy).Contents (Elt F) → (⟨S8192x256, .f32⟩ : BufTy).Contents (Elt F)),
    binary main_v109 main_v108 main_v110 (addf : (⟨S8192x256, .f32⟩ : BufTy).Contents (Elt F) → (⟨S8192x256, .f32⟩ : BufTy).Contents (Elt F) → (⟨S8192x256, .f32⟩ : BufTy).Contents (Elt F)),
    nullary main_cst_18 (constant S_ .f32 0x3F800000#32),
    unary main_cst_18 main_v111 (broadcastInDim S8192x256 ![] bcast_S_S8192x256 : (⟨S_, .f32⟩ : BufTy).Contents (Elt F) → (⟨S8192x256, .f32⟩ : BufTy).Contents (Elt F)),
    binary main_v111 main_v110 main_v112 (Host.divf : (⟨S8192x256, .f32⟩ : BufTy).Contents (Elt F) → (⟨S8192x256, .f32⟩ : BufTy).Contents (Elt F) → (⟨S8192x256, .f32⟩ : BufTy).Contents (Elt F)),
    binary main_v105 main_v98 main_v113 (mulf : (⟨S8192x256, .f32⟩ : BufTy).Contents (Elt F) → (⟨S8192x256, .f32⟩ : BufTy).Contents (Elt F) → (⟨S8192x256, .f32⟩ : BufTy).Contents (Elt F)),
    binary main_v95 main_v113 main_v114 (addf : (⟨S8192x256, .f32⟩ : BufTy).Contents (Elt F) → (⟨S8192x256, .f32⟩ : BufTy).Contents (Elt F) → (⟨S8192x256, .f32⟩ : BufTy).Contents (Elt F)),
    unary main_v114 main_v115 (Host.tanh : (⟨S8192x256, .f32⟩ : BufTy).Contents (Elt F) → (⟨S8192x256, .f32⟩ : BufTy).Contents (Elt F)),
    nullary main_cst_19 (constant S_ .f32 0x3F800000#32),
    unary main_cst_19 main_v116 (broadcastInDim S8192x256 ![] bcast_S_S8192x256 : (⟨S_, .f32⟩ : BufTy).Contents (Elt F) → (⟨S8192x256, .f32⟩ : BufTy).Contents (Elt F)),
    binary main_v116 main_v112 main_v117 (subf : (⟨S8192x256, .f32⟩ : BufTy).Contents (Elt F) → (⟨S8192x256, .f32⟩ : BufTy).Contents (Elt F) → (⟨S8192x256, .f32⟩ : BufTy).Contents (Elt F)),
    binary main_v117 main_v115 main_v118 (mulf : (⟨S8192x256, .f32⟩ : BufTy).Contents (Elt F) → (⟨S8192x256, .f32⟩ : BufTy).Contents (Elt F) → (⟨S8192x256, .f32⟩ : BufTy).Contents (Elt F)),
    binary main_v112 main_arg6 main_v119 (mulf : (⟨S8192x256, .f32⟩ : BufTy).Contents (Elt F) → (⟨S8192x256, .f32⟩ : BufTy).Contents (Elt F) → (⟨S8192x256, .f32⟩ : BufTy).Contents (Elt F)),
    binary main_v118 main_v119 main_v120 (addf : (⟨S8192x256, .f32⟩ : BufTy).Contents (Elt F) → (⟨S8192x256, .f32⟩ : BufTy).Contents (Elt F) → (⟨S8192x256, .f32⟩ : BufTy).Contents (Elt F)),
    unary main_arg19 main_v121 ((transpose S256x256 [1, 0] · transposes_S256x256_S256x256_1_0) : (⟨S256x256, .f32⟩ : BufTy).Contents (Elt F) → (⟨S256x256, .f32⟩ : BufTy).Contents (Elt F)),
    binary main_v120 main_v121 main_v122 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_v122 main_v123 (Host.negf : (⟨S8192x256, .f32⟩ : BufTy).Contents (Elt F) → (⟨S8192x256, .f32⟩ : BufTy).Contents (Elt F)),
    unary main_v123 main_v124 (Host.exp : (⟨S8192x256, .f32⟩ : BufTy).Contents (Elt F) → (⟨S8192x256, .f32⟩ : BufTy).Contents (Elt F)),
    nullary main_cst_20 (constant S_ .f32 0x3F800000#32),
    unary main_cst_20 main_v125 (broadcastInDim S8192x256 ![] bcast_S_S8192x256 : (⟨S_, .f32⟩ : BufTy).Contents (Elt F) → (⟨S8192x256, .f32⟩ : BufTy).Contents (Elt F)),
    binary main_v125 main_v124 main_v126 (addf : (⟨S8192x256, .f32⟩ : BufTy).Contents (Elt F) → (⟨S8192x256, .f32⟩ : BufTy).Contents (Elt F) → (⟨S8192x256, .f32⟩ : BufTy).Contents (Elt F)),
    nullary main_cst_21 (constant S_ .f32 0x3F800000#32),
    unary main_cst_21 main_v127 (broadcastInDim S8192x256 ![] bcast_S_S8192x256 : (⟨S_, .f32⟩ : BufTy).Contents (Elt F) → (⟨S8192x256, .f32⟩ : BufTy).Contents (Elt F)),
    binary main_v127 main_v126 main_v128 (Host.divf : (⟨S8192x256, .f32⟩ : BufTy).Contents (Elt F) → (⟨S8192x256, .f32⟩ : BufTy).Contents (Elt F) → (⟨S8192x256, .f32⟩ : BufTy).Contents (Elt F)),
    binary main_v120 main_v128 main_v129 (mulf : (⟨S8192x256, .f32⟩ : BufTy).Contents (Elt F) → (⟨S8192x256, .f32⟩ : BufTy).Contents (Elt F) → (⟨S8192x256, .f32⟩ : BufTy).Contents (Elt F)) ]

/-- The third GRU cell and its gate. -/
abbrev chunkE : List (HloOp τ sig (Elt F)) :=
  [ unary main_arg20 main_v130 ((transpose S256x768 [1, 0] · transposes_S768x256_S256x768_1_0) : (⟨S768x256, .f32⟩ : BufTy).Contents (Elt F) → (⟨S256x768, .f32⟩ : BufTy).Contents (Elt F)),
    binary main_v129 main_v130 main_v131 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_arg21 main_v132 ((transpose S256x768 [1, 0] · transposes_S768x256_S256x768_1_0) : (⟨S768x256, .f32⟩ : BufTy).Contents (Elt F) → (⟨S256x768, .f32⟩ : BufTy).Contents (Elt F)),
    binary main_arg7 main_v132 main_v133 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F)),
    unary main_v131 main_v134 ((extractStridedSlice S8192x256 ![0, 0] · slices_S8192x768_S8192x256_0_0) : (⟨S8192x768, .f32⟩ : BufTy).Contents (Elt F) → (⟨S8192x256, .f32⟩ : BufTy).Contents (Elt F)),
    unary main_v131 main_v135 ((extractStridedSlice S8192x256 ![0, 256] · slices_S8192x768_S8192x256_0_256) : (⟨S8192x768, .f32⟩ : BufTy).Contents (Elt F) → (⟨S8192x256, .f32⟩ : BufTy).Contents (Elt F)),
    unary main_v131 main_v136 ((extractStridedSlice S8192x256 ![0, 512] · slices_S8192x768_S8192x256_0_512) : (⟨S8192x768, .f32⟩ : BufTy).Contents (Elt F) → (⟨S8192x256, .f32⟩ : BufTy).Contents (Elt F)),
    unary main_v133 main_v137 ((extractStridedSlice S8192x256 ![0, 0] · slices_S8192x768_S8192x256_0_0) : (⟨S8192x768, .f32⟩ : BufTy).Contents (Elt F) → (⟨S8192x256, .f32⟩ : BufTy).Contents (Elt F)),
    unary main_v133 main_v138 ((extractStridedSlice S8192x256 ![0, 256] · slices_S8192x768_S8192x256_0_256) : (⟨S8192x768, .f32⟩ : BufTy).Contents (Elt F) → (⟨S8192x256, .f32⟩ : BufTy).Contents (Elt F)),
    unary main_v133 main_v139 ((extractStridedSlice S8192x256 ![0, 512] · slices_S8192x768_S8192x256_0_512) : (⟨S8192x768, .f32⟩ : BufTy).Contents (Elt F) → (⟨S8192x256, .f32⟩ : BufTy).Contents (Elt F)),
    binary main_v134 main_v137 main_v140 (addf : (⟨S8192x256, .f32⟩ : BufTy).Contents (Elt F) → (⟨S8192x256, .f32⟩ : BufTy).Contents (Elt F) → (⟨S8192x256, .f32⟩ : BufTy).Contents (Elt F)),
    unary main_v140 main_v141 (Host.negf : (⟨S8192x256, .f32⟩ : BufTy).Contents (Elt F) → (⟨S8192x256, .f32⟩ : BufTy).Contents (Elt F)),
    unary main_v141 main_v142 (Host.exp : (⟨S8192x256, .f32⟩ : BufTy).Contents (Elt F) → (⟨S8192x256, .f32⟩ : BufTy).Contents (Elt F)),
    nullary main_cst_22 (constant S_ .f32 0x3F800000#32),
    unary main_cst_22 main_v143 (broadcastInDim S8192x256 ![] bcast_S_S8192x256 : (⟨S_, .f32⟩ : BufTy).Contents (Elt F) → (⟨S8192x256, .f32⟩ : BufTy).Contents (Elt F)),
    binary main_v143 main_v142 main_v144 (addf : (⟨S8192x256, .f32⟩ : BufTy).Contents (Elt F) → (⟨S8192x256, .f32⟩ : BufTy).Contents (Elt F) → (⟨S8192x256, .f32⟩ : BufTy).Contents (Elt F)),
    nullary main_cst_23 (constant S_ .f32 0x3F800000#32),
    unary main_cst_23 main_v145 (broadcastInDim S8192x256 ![] bcast_S_S8192x256 : (⟨S_, .f32⟩ : BufTy).Contents (Elt F) → (⟨S8192x256, .f32⟩ : BufTy).Contents (Elt F)),
    binary main_v145 main_v144 main_v146 (Host.divf : (⟨S8192x256, .f32⟩ : BufTy).Contents (Elt F) → (⟨S8192x256, .f32⟩ : BufTy).Contents (Elt F) → (⟨S8192x256, .f32⟩ : BufTy).Contents (Elt F)),
    binary main_v135 main_v138 main_v147 (addf : (⟨S8192x256, .f32⟩ : BufTy).Contents (Elt F) → (⟨S8192x256, .f32⟩ : BufTy).Contents (Elt F) → (⟨S8192x256, .f32⟩ : BufTy).Contents (Elt F)),
    unary main_v147 main_v148 (Host.negf : (⟨S8192x256, .f32⟩ : BufTy).Contents (Elt F) → (⟨S8192x256, .f32⟩ : BufTy).Contents (Elt F)),
    unary main_v148 main_v149 (Host.exp : (⟨S8192x256, .f32⟩ : BufTy).Contents (Elt F) → (⟨S8192x256, .f32⟩ : BufTy).Contents (Elt F)),
    nullary main_cst_24 (constant S_ .f32 0x3F800000#32),
    unary main_cst_24 main_v150 (broadcastInDim S8192x256 ![] bcast_S_S8192x256 : (⟨S_, .f32⟩ : BufTy).Contents (Elt F) → (⟨S8192x256, .f32⟩ : BufTy).Contents (Elt F)),
    binary main_v150 main_v149 main_v151 (addf : (⟨S8192x256, .f32⟩ : BufTy).Contents (Elt F) → (⟨S8192x256, .f32⟩ : BufTy).Contents (Elt F) → (⟨S8192x256, .f32⟩ : BufTy).Contents (Elt F)),
    nullary main_cst_25 (constant S_ .f32 0x3F800000#32),
    unary main_cst_25 main_v152 (broadcastInDim S8192x256 ![] bcast_S_S8192x256 : (⟨S_, .f32⟩ : BufTy).Contents (Elt F) → (⟨S8192x256, .f32⟩ : BufTy).Contents (Elt F)),
    binary main_v152 main_v151 main_v153 (Host.divf : (⟨S8192x256, .f32⟩ : BufTy).Contents (Elt F) → (⟨S8192x256, .f32⟩ : BufTy).Contents (Elt F) → (⟨S8192x256, .f32⟩ : BufTy).Contents (Elt F)),
    binary main_v146 main_v139 main_v154 (mulf : (⟨S8192x256, .f32⟩ : BufTy).Contents (Elt F) → (⟨S8192x256, .f32⟩ : BufTy).Contents (Elt F) → (⟨S8192x256, .f32⟩ : BufTy).Contents (Elt F)),
    binary main_v136 main_v154 main_v155 (addf : (⟨S8192x256, .f32⟩ : BufTy).Contents (Elt F) → (⟨S8192x256, .f32⟩ : BufTy).Contents (Elt F) → (⟨S8192x256, .f32⟩ : BufTy).Contents (Elt F)),
    unary main_v155 main_v156 (Host.tanh : (⟨S8192x256, .f32⟩ : BufTy).Contents (Elt F) → (⟨S8192x256, .f32⟩ : BufTy).Contents (Elt F)),
    nullary main_cst_26 (constant S_ .f32 0x3F800000#32),
    unary main_cst_26 main_v157 (broadcastInDim S8192x256 ![] bcast_S_S8192x256 : (⟨S_, .f32⟩ : BufTy).Contents (Elt F) → (⟨S8192x256, .f32⟩ : BufTy).Contents (Elt F)),
    binary main_v157 main_v153 main_v158 (subf : (⟨S8192x256, .f32⟩ : BufTy).Contents (Elt F) → (⟨S8192x256, .f32⟩ : BufTy).Contents (Elt F) → (⟨S8192x256, .f32⟩ : BufTy).Contents (Elt F)),
    binary main_v158 main_v156 main_v159 (mulf : (⟨S8192x256, .f32⟩ : BufTy).Contents (Elt F) → (⟨S8192x256, .f32⟩ : BufTy).Contents (Elt F) → (⟨S8192x256, .f32⟩ : BufTy).Contents (Elt F)),
    binary main_v153 main_arg7 main_v160 (mulf : (⟨S8192x256, .f32⟩ : BufTy).Contents (Elt F) → (⟨S8192x256, .f32⟩ : BufTy).Contents (Elt F) → (⟨S8192x256, .f32⟩ : BufTy).Contents (Elt F)),
    binary main_v159 main_v160 main_v161 (addf : (⟨S8192x256, .f32⟩ : BufTy).Contents (Elt F) → (⟨S8192x256, .f32⟩ : BufTy).Contents (Elt F) → (⟨S8192x256, .f32⟩ : BufTy).Contents (Elt F)),
    unary main_arg22 main_v162 ((transpose S256x256 [1, 0] · transposes_S256x256_S256x256_1_0) : (⟨S256x256, .f32⟩ : BufTy).Contents (Elt F) → (⟨S256x256, .f32⟩ : BufTy).Contents (Elt F)),
    binary main_v161 main_v162 main_v163 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_v163 main_v164 (Host.negf : (⟨S8192x256, .f32⟩ : BufTy).Contents (Elt F) → (⟨S8192x256, .f32⟩ : BufTy).Contents (Elt F)),
    unary main_v164 main_v165 (Host.exp : (⟨S8192x256, .f32⟩ : BufTy).Contents (Elt F) → (⟨S8192x256, .f32⟩ : BufTy).Contents (Elt F)),
    nullary main_cst_27 (constant S_ .f32 0x3F800000#32),
    unary main_cst_27 main_v166 (broadcastInDim S8192x256 ![] bcast_S_S8192x256 : (⟨S_, .f32⟩ : BufTy).Contents (Elt F) → (⟨S8192x256, .f32⟩ : BufTy).Contents (Elt F)),
    binary main_v166 main_v165 main_v167 (addf : (⟨S8192x256, .f32⟩ : BufTy).Contents (Elt F) → (⟨S8192x256, .f32⟩ : BufTy).Contents (Elt F) → (⟨S8192x256, .f32⟩ : BufTy).Contents (Elt F)),
    nullary main_cst_28 (constant S_ .f32 0x3F800000#32),
    unary main_cst_28 main_v168 (broadcastInDim S8192x256 ![] bcast_S_S8192x256 : (⟨S_, .f32⟩ : BufTy).Contents (Elt F) → (⟨S8192x256, .f32⟩ : BufTy).Contents (Elt F)),
    binary main_v168 main_v167 main_v169 (Host.divf : (⟨S8192x256, .f32⟩ : BufTy).Contents (Elt F) → (⟨S8192x256, .f32⟩ : BufTy).Contents (Elt F) → (⟨S8192x256, .f32⟩ : BufTy).Contents (Elt F)),
    binary main_v161 main_v169 main_v170 (mulf : (⟨S8192x256, .f32⟩ : BufTy).Contents (Elt F) → (⟨S8192x256, .f32⟩ : BufTy).Contents (Elt F) → (⟨S8192x256, .f32⟩ : BufTy).Contents (Elt F)) ]

/-- The output layer: the new subframe. -/
abbrev chunkF : List (HloOp τ sig (Elt F)) :=
  [ nary ![main_v88, main_v129, main_v170, main_v47] main_v171 (fun u => concatenate S8192x1024 1 [⟨S8192x256, u 0⟩, ⟨S8192x256, u 1⟩, ⟨S8192x256, u 2⟩, ⟨S8192x256, u 3⟩] concatenates_S8192x256_S8192x256_S8192x256_S8192x256_S8192x1024_d1),
    unary main_arg23 main_v172 ((transpose S1024x40 [1, 0] · transposes_S40x1024_S1024x40_1_0) : (⟨S40x1024, .f32⟩ : BufTy).Contents (Elt F) → (⟨S1024x40, .f32⟩ : BufTy).Contents (Elt F)),
    binary main_v171 main_v172 main_v173 ((fun l r => Host.dotGeneral dot_S8192x1024_S1024x40_S8192x40_1_0_0_1_n_n none l r) : (⟨S8192x1024, .f32⟩ : BufTy).Contents (Elt F) → (⟨S1024x40, .f32⟩ : BufTy).Contents (Elt F) → (⟨S8192x40, .f32⟩ : BufTy).Contents (Elt F)),
    unary main_v173 main_v174 (Host.tanh : (⟨S8192x40, .f32⟩ : BufTy).Contents (Elt F) → (⟨S8192x40, .f32⟩ : BufTy).Contents (Elt F)),
    unary main_v15 main_v175 ((extractStridedSlice S8192x40 ![0, 2] · slices_S8192x44_S8192x40_0_2) : (⟨S8192x44, .f32⟩ : BufTy).Contents (Elt F) → (⟨S8192x40, .f32⟩ : BufTy).Contents (Elt F)),
    unary main_arg24 main_v176 ((transpose S1024x1 [1, 0] · transposes_S1x1024_S1024x1_1_0) : (⟨S1x1024, .f32⟩ : BufTy).Contents (Elt F) → (⟨S1024x1, .f32⟩ : BufTy).Contents (Elt F)),
    binary main_v171 main_v176 main_v177 ((fun l r => Host.dotGeneral dot_S8192x1024_S1024x1_S8192x1_1_0_0_1_n_n none l r) : (⟨S8192x1024, .f32⟩ : BufTy).Contents (Elt F) → (⟨S1024x1, .f32⟩ : BufTy).Contents (Elt F) → (⟨S8192x1, .f32⟩ : BufTy).Contents (Elt F)),
    unary main_arg25 main_v178 (broadcastInDim S1x1 ![1] bcast_S1_S1x1_1 : (⟨S1, .f32⟩ : BufTy).Contents (Elt F) → (⟨S1x1, .f32⟩ : BufTy).Contents (Elt F)),
    unary main_v178 main_v179 (broadcastInDim S8192x1 ![0, 1] bcast_S1x1_S8192x1_0_1 : (⟨S1x1, .f32⟩ : BufTy).Contents (Elt F) → (⟨S8192x1, .f32⟩ : BufTy).Contents (Elt F)),
    binary main_v177 main_v179 main_v180 (addf : (⟨S8192x1, .f32⟩ : BufTy).Contents (Elt F) → (⟨S8192x1, .f32⟩ : BufTy).Contents (Elt F) → (⟨S8192x1, .f32⟩ : BufTy).Contents (Elt F)),
    unary main_v180 main_v181 (Host.exp : (⟨S8192x1, .f32⟩ : BufTy).Contents (Elt F) → (⟨S8192x1, .f32⟩ : BufTy).Contents (Elt F)),
    unary main_v181 main_v182 (broadcastInDim S8192x40 ![0, 1] bcast_S8192x1_S8192x40_0_1 : (⟨S8192x1, .f32⟩ : BufTy).Contents (Elt F) → (⟨S8192x40, .f32⟩ : BufTy).Contents (Elt F)),
    binary main_v182 main_v175 main_v183 (mulf : (⟨S8192x40, .f32⟩ : BufTy).Contents (Elt F) → (⟨S8192x40, .f32⟩ : BufTy).Contents (Elt F) → (⟨S8192x40, .f32⟩ : BufTy).Contents (Elt F)),
    binary main_v174 main_v183 main_v184 (addf : (⟨S8192x40, .f32⟩ : BufTy).Contents (Elt F) → (⟨S8192x40, .f32⟩ : BufTy).Contents (Elt F) → (⟨S8192x40, .f32⟩ : BufTy).Contents (Elt F)),
    unary main_arg9 main_v185 (broadcastInDim S8192x40 ![0, 1] bcast_S8192x1_S8192x40_0_1 : (⟨S8192x1, .f32⟩ : BufTy).Contents (Elt F) → (⟨S8192x40, .f32⟩ : BufTy).Contents (Elt F)),
    binary main_v184 main_v185 main_v186 (mulf : (⟨S8192x40, .f32⟩ : BufTy).Contents (Elt F) → (⟨S8192x40, .f32⟩ : BufTy).Contents (Elt F) → (⟨S8192x40, .f32⟩ : BufTy).Contents (Elt F)) ]

/-- The new excitation memory: the old one shifted, the new subframe appended. -/
abbrev chunkG : List (HloOp τ sig (Elt F)) :=
  [ unary main_arg2 main_v187 ((extractStridedSlice S8192x216 ![0, 40] · slices_S8192x256_S8192x216_0_40) : (⟨S8192x256, .f32⟩ : BufTy).Contents (Elt F) → (⟨S8192x216, .f32⟩ : BufTy).Contents (Elt F)),
    binary main_v187 main_v186 main_v188 ((fun a b => concatenate S8192x256 1 [⟨S8192x216, a⟩, ⟨S8192x40, b⟩] concatenates_S8192x216_S8192x40_S8192x256_d1) : (⟨S8192x216, .f32⟩ : BufTy).Contents (Elt F) → (⟨S8192x40, .f32⟩ : BufTy).Contents (Elt F) → (⟨S8192x256, .f32⟩ : BufTy).Contents (Elt F)) ]

set_option maxRecDepth 8192 in
/-- The operation list is the seven stretches in a row. -/
theorem ops_split : (ops : List (HloOp τ sig (Elt F))) = chunkA ++ (chunkB ++ (chunkC ++ (chunkD ++ (chunkE ++ (chunkF ++ chunkG))))) := rfl

/-! ## What each stretch writes -/

abbrev wrA : List (Ref sig .tc) :=
  [main_v0, main_c, main_c_0, main_call0_v0, main_call0_v1, main_call0_v2, main_call0_v3, main_call0_v4, main_v1,
    main_c_1, main_v2, main_v3, main_v4, main_v5, main_v6, main_v7, main_v8, main_c_2, main_v9, main_v10,
    main_call1_c, main_call1_v0, main_call1_v1, main_call1_c_0, main_call1_v2, main_call1_v3, main_call1_v4,
    main_call1_v5, main_call1_c_1, main_call1_c_2, main_call1_v6, main_call1_v7, main_call1_v8, main_call1_v9,
    main_call1_v10, main_call1_v11, main_call1_c_3, main_call1_v12, main_call1_v13, main_call1_cst, main_call1_v14,
    main_v11, main_cst, main_v12, main_v13, main_v14, main_v15, main_cst_3, main_v16, main_v17, main_v18, main_v19,
    main_v20, main_v21, main_v22]
theorem writesA : (chunkA : List (HloOp τ sig (Elt F))).Forall fun op => op.writes ⊆ (wrA.map (Proc.devRef (τ := τ) .tc)).toFinset :=
  ⟨sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide)⟩

abbrev wrB : List (Ref sig .tc) :=
  [main_v23, main_v24, main_v25, main_v26, main_v27, main_v28, main_v29, main_cst_4, main_v30, main_v31,
    main_cst_5, main_v32, main_v33, main_v34, main_v35, main_v36, main_v37, main_v38, main_v39, main_v40, main_v41,
    main_v42, main_cst_6, main_v43, main_v44, main_cst_7, main_v45, main_v46, main_v47]
theorem writesB : (chunkB : List (HloOp τ sig (Elt F))).Forall fun op => op.writes ⊆ (wrB.map (Proc.devRef (τ := τ) .tc)).toFinset :=
  ⟨sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide)⟩

abbrev wrC : List (Ref sig .tc) :=
  [main_v48, main_v49, main_v50, main_v51, main_v52, main_v53, main_v54, main_v55, main_v56, main_v57, main_v58,
    main_v59, main_v60, main_cst_8, main_v61, main_v62, main_cst_9, main_v63, main_v64, main_v65, main_v66,
    main_v67, main_cst_10, main_v68, main_v69, main_cst_11, main_v70, main_v71, main_v72, main_v73, main_v74,
    main_cst_12, main_v75, main_v76, main_v77, main_v78, main_v79, main_v80, main_v81, main_v82, main_v83,
    main_cst_13, main_v84, main_v85, main_cst_14, main_v86, main_v87, main_v88]
theorem writesC : (chunkC : List (HloOp τ sig (Elt F))).Forall fun op => op.writes ⊆ (wrC.map (Proc.devRef (τ := τ) .tc)).toFinset :=
  ⟨sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide)⟩

abbrev wrD : List (Ref sig .tc) :=
  [main_v89, main_v90, main_v91, main_v92, main_v93, main_v94, main_v95, main_v96, main_v97, main_v98, main_v99,
    main_v100, main_v101, main_cst_15, main_v102, main_v103, main_cst_16, main_v104, main_v105, main_v106,
    main_v107, main_v108, main_cst_17, main_v109, main_v110, main_cst_18, main_v111, main_v112, main_v113,
    main_v114, main_v115, main_cst_19, main_v116, main_v117, main_v118, main_v119, main_v120, main_v121, main_v122,
    main_v123, main_v124, main_cst_20, main_v125, main_v126, main_cst_21, main_v127, main_v128, main_v129]
theorem writesD : (chunkD : List (HloOp τ sig (Elt F))).Forall fun op => op.writes ⊆ (wrD.map (Proc.devRef (τ := τ) .tc)).toFinset :=
  ⟨sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide)⟩

abbrev wrE : List (Ref sig .tc) :=
  [main_v130, main_v131, main_v132, main_v133, main_v134, main_v135, main_v136, main_v137, main_v138, main_v139,
    main_v140, main_v141, main_v142, main_cst_22, main_v143, main_v144, main_cst_23, main_v145, main_v146,
    main_v147, main_v148, main_v149, main_cst_24, main_v150, main_v151, main_cst_25, main_v152, main_v153,
    main_v154, main_v155, main_v156, main_cst_26, main_v157, main_v158, main_v159, main_v160, main_v161, main_v162,
    main_v163, main_v164, main_v165, main_cst_27, main_v166, main_v167, main_cst_28, main_v168, main_v169,
    main_v170]
theorem writesE : (chunkE : List (HloOp τ sig (Elt F))).Forall fun op => op.writes ⊆ (wrE.map (Proc.devRef (τ := τ) .tc)).toFinset :=
  ⟨sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide), sw (by decide),
    sw (by decide), sw (by decide), sw (by decide), sw (by decide), sw (by decide), sw (by decide)⟩

abbrev wrF : List (Ref sig .tc) :=
  [main_v171, main_v172, main_v173, main_v174, main_v175, main_v176, main_v177, main_v178, main_v179, main_v180,
    main_v181, main_v182, main_v183, main_v184, main_v185, main_v186]
theorem writesF : (chunkF : List (HloOp τ sig (Elt F))).Forall fun op => op.writes ⊆ (wrF.map (Proc.devRef (τ := τ) .tc)).toFinset :=
  ⟨sw (by decide), sw (by decide), sw (by decide), sw (by decide), sw (by decide), sw (by decide), sw (by decide),
    sw (by decide), sw (by decide), sw (by decide), sw (by decide), sw (by decide), sw (by decide), sw (by decide),
    sw (by decide), sw (by decide)⟩

abbrev wrG : List (Ref sig .tc) :=
  [main_v187, main_v188]
theorem writesG : (chunkG : List (HloOp τ sig (Elt F))).Forall fun op => op.writes ⊆ (wrG.map (Proc.devRef (τ := τ) .tc)).toFinset :=
  ⟨sw (by decide), sw (by decide)⟩

/-! ## Each stretch evaluated over its inputs -/

/-- Contents hold their own arguments. -/
theorem argsRefl (V : Valuation τ sig (Elt F)) : ArgsAre V V :=
  ⟨rfl, rfl, rfl, rfl, rfl, rfl, rfl, rfl, rfl, rfl, rfl, rfl, rfl, rfl, rfl, rfl, rfl, rfl, rfl, rfl, rfl, rfl, rfl, rfl, rfl, rfl⟩

/-! ### The prefix -/
/-! The prefix holds one reduction, the conjunction over a size-one axis that says whether a gathered position is in
    range. A reduction is a fold over every element of its operand, so it is never opened: the prefix is cut just
    before it and just after it, and the reduction's operands are brought to the named stages' spelling first, after
    which the two sides are the same expression. The gather that follows is written with the plain builders (the typed
    references of an inlined function's operations are the buffers themselves), and the two concatenations, whose
    operands sit inside shape-and-array pairs, are read last, by themselves. -/

/-- The prefix up to the reduction's operand: the clipped period, the gather positions and their range test. -/
abbrev chunkA1 : List (HloOp τ sig (Elt F)) :=
  [ unary main_arg4 main_v0 (broadcastInDim S8192x1 ![0] bcast_S8192_S8192x1_0 : (⟨S8192, .i32⟩ : BufTy).Contents (Elt F) → (⟨S8192x1, .i32⟩ : BufTy).Contents (Elt F)),
    nullary main_c (constantI S_ 32 42#32),
    nullary main_c_0 (constantI S_ 32 254#32),
    TRef.unary (TRef.of (T := ⟨S_, .i32⟩) main_c) (TRef.of (T := ⟨S_, .i32⟩) main_call0_v0) id,
    TRef.unary (TRef.of (T := ⟨S_, .i32⟩) main_call0_v0) (TRef.of (T := ⟨S8192x1, .i32⟩) main_call0_v1) (broadcastInDim S8192x1 ![] bcast_S_S8192x1),
    TRef.binary (TRef.of (T := ⟨S8192x1, .i32⟩) main_call0_v1) (TRef.of (T := ⟨S8192x1, .i32⟩) main_v0) (TRef.of (T := ⟨S8192x1, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S8192x1, .i32⟩) main_call0_v4) (broadcastInDim S8192x1 ![] bcast_S_S8192x1),
    TRef.binary (TRef.of (T := ⟨S8192x1, .i32⟩) main_call0_v4) (TRef.of (T := ⟨S8192x1, .i32⟩) main_call0_v2) (TRef.of (T := ⟨S8192x1, .i32⟩) main_v1) minsi,
    nullary main_c_1 (constantI S_ 32 256#32),
    unary main_c_1 main_v2 (broadcastInDim S8192x1 ![] bcast_S_S8192x1 : (⟨S_, .i32⟩ : BufTy).Contents (Elt F) → (⟨S8192x1, .i32⟩ : BufTy).Contents (Elt F)),
    binary main_v2 main_v1 main_v3 (subi : (⟨S8192x1, .i32⟩ : BufTy).Contents (Elt F) → (⟨S8192x1, .i32⟩ : BufTy).Contents (Elt F) → (⟨S8192x1, .i32⟩ : BufTy).Contents (Elt F)),
    nullary main_v4 (iotaInDim S44 32 0),
    unary main_v4 main_v5 (broadcastInDim S1x44 ![1] bcast_S44_S1x44_1 : (⟨S44, .i32⟩ : BufTy).Contents (Elt F) → (⟨S1x44, .i32⟩ : BufTy).Contents (Elt F)),
    unary main_v3 main_v6 (broadcastInDim S8192x44 ![0, 1] bcast_S8192x1_S8192x44_0_1 : (⟨S8192x1, .i32⟩ : BufTy).Contents (Elt F) → (⟨S8192x44, .i32⟩ : BufTy).Contents (Elt F)),
    unary main_v5 main_v7 (broadcastInDim S8192x44 ![0, 1] bcast_S1x44_S8192x44_0_1 : (⟨S1x44, .i32⟩ : BufTy).Contents (Elt F) → (⟨S8192x44, .i32⟩ : BufTy).Contents (Elt F)),
    binary main_v6 main_v7 main_v8 (addi : (⟨S8192x44, .i32⟩ : BufTy).Contents (Elt F) → (⟨S8192x44, .i32⟩ : BufTy).Contents (Elt F) → (⟨S8192x44, .i32⟩ : BufTy).Contents (Elt F)),
    nullary main_c_2 (constantI S_ 32 2#32),
    unary main_c_2 main_v9 (broadcastInDim S8192x44 ![] bcast_S_S8192x44 : (⟨S_, .i32⟩ : BufTy).Contents (Elt F) → (⟨S8192x44, .i32⟩ : BufTy).Contents (Elt F)),
    binary main_v8 main_v9 main_v10 (subi : (⟨S8192x44, .i32⟩ : BufTy).Contents (Elt F) → (⟨S8192x44, .i32⟩ : BufTy).Contents (Elt F) → (⟨S8192x44, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x44, .i32⟩) main_call1_v0) (broadcastInDim S8192x44 ![] bcast_S_S8192x44),
    TRef.binary (TRef.of (T := ⟨S8192x44, .i32⟩) main_v10) (TRef.of (T := ⟨S8192x44, .i32⟩) main_call1_v0) (TRef.of (T := ⟨S8192x44, .i1⟩) main_call1_v1) (cmpi .slt),
    TRef.nullary (TRef.of (T := ⟨S_, .i32⟩) main_call1_c_0) (constantI S_ 32 256#32),
    TRef.unary (TRef.of (T := ⟨S_, .i32⟩) main_call1_c_0) (TRef.of (T := ⟨S8192x44, .i32⟩) main_call1_v2) (broadcastInDim S8192x44 ![] bcast_S_S8192x44),
    TRef.binary (TRef.of (T := ⟨S8192x44, .i32⟩) main_v10) (TRef.of (T := ⟨S8192x44, .i32⟩) main_call1_v2) (TRef.of (T := ⟨S8192x44, .i32⟩) main_call1_v3) addi,
    TRef.ternary (TRef.of (T := ⟨S8192x44, .i1⟩) main_call1_v1) (TRef.of (T := ⟨S8192x44, .i32⟩) main_call1_v3) (TRef.of (T := ⟨S8192x44, .i32⟩) main_v10) (TRef.of (T := ⟨S8192x44, .i32⟩) main_call1_v4) select,
    TRef.reshape (TRef.of (T := ⟨S8192x44, .i32⟩) main_call1_v4) (TRef.of (T := ⟨S8192x44x1, .i32⟩) main_call1_v5) rfl shapeCasts_S8192x44_S8192x44x1,
    TRef.nullary (TRef.of (T := ⟨S1, .i32⟩) main_call1_c_1) (constantI S1 32 255#32),
    TRef.nullary (TRef.of (T := ⟨S_, .i32⟩) main_call1_c_2) (constantI S_ 32 0#32),
    TRef.unary (TRef.of (T := ⟨S_, .i32⟩) main_call1_c_2) (TRef.of (T := ⟨S8192x44x1, .i32⟩) main_call1_v6) (broadcastInDim S8192x44x1 ![] bcast_S_S8192x44x1),
    TRef.binary (TRef.of (T := ⟨S8192x44x1, .i32⟩) main_call1_v5) (TRef.of (T := ⟨S8192x44x1, .i32⟩) main_call1_v6) (TRef.of (T := ⟨S8192x44x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x44x1, .i32⟩) main_call1_v9) (broadcastInDim S8192x44x1 ![0, 1, 2] bcast_S1x1x1_S8192x44x1_0_1_2),
    TRef.binary (TRef.of (T := ⟨S8192x44x1, .i32⟩) main_call1_v5) (TRef.of (T := ⟨S8192x44x1, .i32⟩) main_call1_v9) (TRef.of (T := ⟨S8192x44x1, .i1⟩) main_call1_v10) (cmpi .sle),
    TRef.binary (TRef.of (T := ⟨S8192x44x1, .i1⟩) main_call1_v7) (TRef.of (T := ⟨S8192x44x1, .i1⟩) main_call1_v10) (TRef.of (T := ⟨S8192x44x1, .i1⟩) main_call1_v11) andi ]

/-- The reduction and its initial value. -/
abbrev chunkA2 : List (HloOp τ sig (Elt F)) :=
  [ TRef.nullary (TRef.of (T := ⟨S_, .i1⟩) main_call1_c_3) (constantI S_ 1 1#1),
    TRef.binary (TRef.of (T := ⟨S8192x44x1, .i1⟩) main_call1_v11) (TRef.of (T := ⟨S_, .i1⟩) main_call1_c_3) (TRef.of (T := ⟨S8192x44, .i1⟩) main_call1_v12) (fun x v => Host.reduce IntOp.andi x v reducesTo_S8192x44x1_S8192x44_d2 h_S_) ]

/-- The gather, the choice by the range test and the divisions by the gain, in the plain builders. -/
abbrev chunkA3a : List (HloOp τ sig (Elt F)) :=
  [ binary main_arg2 main_call1_v5 main_call1_v13 ((fun x i => Host.gather gather_S8192x256_S8192x44x1_S8192x44_n_1_0_0_1_2_11 x i) : (⟨S8192x256, .f32⟩ : BufTy).Contents (Elt F) → (⟨S8192x44x1, .i32⟩ : BufTy).Contents (Elt F) → (⟨S8192x44, .f32⟩ : BufTy).Contents (Elt F)),
    nullary main_call1_cst (constant S_ .f32 0x7FC00000#32),
    unary main_call1_cst main_call1_v14 (broadcastInDim S8192x44 ![] bcast_S_S8192x44 : (⟨S_, .f32⟩ : BufTy).Contents (Elt F) → (⟨S8192x44, .f32⟩ : BufTy).Contents (Elt F)),
    ternary main_call1_v12 main_call1_v13 main_call1_v14 main_v11 (select : (⟨S8192x44, .i1⟩ : BufTy).Contents (Elt F) → (⟨S8192x44, .f32⟩ : BufTy).Contents (Elt F) → (⟨S8192x44, .f32⟩ : BufTy).Contents (Elt F) → (⟨S8192x44, .f32⟩ : BufTy).Contents (Elt F)),
    nullary main_cst (constant S_ .f32 0x3727C5AC#32),
    unary main_cst main_v12 (broadcastInDim S8192x1 ![] bcast_S_S8192x1 : (⟨S_, .f32⟩ : BufTy).Contents (Elt F) → (⟨S8192x1, .f32⟩ : BufTy).Contents (Elt F)),
    binary main_v12 main_arg9 main_v13 (addf : (⟨S8192x1, .f32⟩ : BufTy).Contents (Elt F) → (⟨S8192x1, .f32⟩ : BufTy).Contents (Elt F) → (⟨S8192x1, .f32⟩ : BufTy).Contents (Elt F)),
    unary main_v13 main_v14 (broadcastInDim S8192x44 ![0, 1] bcast_S8192x1_S8192x44_0_1 : (⟨S8192x1, .f32⟩ : BufTy).Contents (Elt F) → (⟨S8192x44, .f32⟩ : BufTy).Contents (Elt F)),
    binary main_v11 main_v14 main_v15 (Host.divf : (⟨S8192x44, .f32⟩ : BufTy).Contents (Elt F) → (⟨S8192x44, .f32⟩ : BufTy).Contents (Elt F) → (⟨S8192x44, .f32⟩ : BufTy).Contents (Elt F)),
    nullary main_cst_3 (constant S_ .f32 0x3727C5AC#32),
    unary main_cst_3 main_v16 (broadcastInDim S8192x1 ![] bcast_S_S8192x1 : (⟨S_, .f32⟩ : BufTy).Contents (Elt F) → (⟨S8192x1, .f32⟩ : BufTy).Contents (Elt F)),
    binary main_v16 main_arg9 main_v17 (addf : (⟨S8192x1, .f32⟩ : BufTy).Contents (Elt F) → (⟨S8192x1, .f32⟩ : BufTy).Contents (Elt F) → (⟨S8192x1, .f32⟩ : BufTy).Contents (Elt F)),
    unary main_v17 main_v18 (broadcastInDim S8192x40 ![0, 1] bcast_S8192x1_S8192x40_0_1 : (⟨S8192x1, .f32⟩ : BufTy).Contents (Elt F) → (⟨S8192x40, .f32⟩ : BufTy).Contents (Elt F)),
    binary main_arg1 main_v18 main_v19 (Host.divf : (⟨S8192x40, .f32⟩ : BufTy).Contents (Elt F) → (⟨S8192x40, .f32⟩ : BufTy).Contents (Elt F) → (⟨S8192x40, .f32⟩ : BufTy).Contents (Elt F)),
    unary main_v15 main_v20 ((extractStridedSlice S8192x40 ![0, 2] · slices_S8192x44_S8192x40_0_2) : (⟨S8192x44, .f32⟩ : BufTy).Contents (Elt F) → (⟨S8192x40, .f32⟩ : BufTy).Contents (Elt F)) ]

/-- The two concatenations. -/
abbrev chunkA3b : List (HloOp τ sig (Elt F)) :=
  [ nary ![main_arg0, main_v20, main_v19, main_arg3] main_v21 (fun u => concatenate S8192x240 1 [⟨S8192x80, u 0⟩, ⟨S8192x40, u 1⟩, ⟨S8192x40, u 2⟩, ⟨S8192x80, u 3⟩] concatenates_S8192x80_S8192x40_S8192x40_S8192x80_S8192x240_d1),
    binary main_arg8 main_v21 main_v22 ((fun a b => concatenate S8192x720 1 [⟨S8192x480, a⟩, ⟨S8192x240, b⟩] concatenates_S8192x480_S8192x240_S8192x720_d1) : (⟨S8192x480, .f32⟩ : BufTy).Contents (Elt F) → (⟨S8192x240, .f32⟩ : BufTy).Contents (Elt F) → (⟨S8192x720, .f32⟩ : BufTy).Contents (Elt F)) ]

set_option maxRecDepth 8192 in
/-- The prefix is the four pieces in a row. -/
theorem chunkA_split : (chunkA : List (HloOp τ sig (Elt F))) = chunkA1 ++ (chunkA2 ++ (chunkA3a ++ chunkA3b)) := rfl

abbrev wrA1 : List (Ref sig .tc) :=
  [main_v0, main_c, main_c_0, main_call0_v0, main_call0_v1, main_call0_v2, main_call0_v3, main_call0_v4, main_v1,
    main_c_1, main_v2, main_v3, main_v4, main_v5, main_v6, main_v7, main_v8, main_c_2, main_v9, main_v10,
    main_call1_c, main_call1_v0, main_call1_v1, main_call1_c_0, main_call1_v2, main_call1_v3, main_call1_v4,
    main_call1_v5, main_call1_c_1, main_call1_c_2, main_call1_v6, main_call1_v7, main_call1_v8, main_call1_v9,
    main_call1_v10, main_call1_v11]
theorem writesA1 : (chunkA1 : List (HloOp τ sig (Elt F))).Forall fun op => op.writes ⊆ (wrA1.map (Proc.devRef (τ := τ) .tc)).toFinset :=
  ⟨sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide), sw (by decide)⟩

abbrev wrA2 : List (Ref sig .tc) := [main_call1_c_3, main_call1_v12]
theorem writesA2 : (chunkA2 : List (HloOp τ sig (Elt F))).Forall fun op => op.writes ⊆ (wrA2.map (Proc.devRef (τ := τ) .tc)).toFinset :=
  ⟨sw (by decide), sw (by decide)⟩

abbrev wrA3a : List (Ref sig .tc) :=
  [main_call1_v13, main_call1_cst, main_call1_v14, main_v11, main_cst, main_v12, main_v13, main_v14, main_v15,
    main_cst_3, main_v16, main_v17, main_v18, main_v19, main_v20]
theorem writesA3a : (chunkA3a : List (HloOp τ sig (Elt F))).Forall fun op => op.writes ⊆ (wrA3a.map (Proc.devRef (τ := τ) .tc)).toFinset :=
  ⟨sw (by decide), sw (by decide), sw (by decide), sw (by decide), sw (by decide), sw (by decide), sw (by decide), sw (by decide), sw (by decide), sw (by decide), sw (by decide), sw (by decide), sw (by decide), sw (by decide), sw (by decide)⟩

abbrev wrA3b : List (Ref sig .tc) := [main_v21, main_v22]
theorem writesA3b : (chunkA3b : List (HloOp τ sig (Elt F))).Forall fun op => op.writes ⊆ (wrA3b.map (Proc.devRef (τ := τ) .tc)).toFinset :=
  ⟨sw (by decide), sw (by decide)⟩

/-- The reduction's operand after the first piece. -/
theorem evalA1_v11 (V : Valuation τ sig (Elt F)) :
    after chunkA1 V (Proc.devRef .tc main_call1_v11) = Read.val_main_call1_v11 (F := F) (a4 V) := by
  after_results_simp <;> rfl

/-- The gather positions after the first piece. -/
theorem evalA1_v5 (V : Valuation τ sig (Elt F)) :
    after chunkA1 V (Proc.devRef .tc main_call1_v5) = Read.val_main_call1_v5 (F := F) (a4 V) := by
  after_results_simp <;> rfl

/-- The reduction, its operand an atom. -/
theorem evalA2_v12 (W V : Valuation τ sig (Elt F))
    (h11 : W (Proc.devRef .tc main_call1_v11) = Read.val_main_call1_v11 (F := F) (a4 V)) :
    after chunkA2 W (Proc.devRef .tc main_call1_v12) = Read.val_main_call1_v12 (F := F) (a4 V) := by
  have e11 : ∀ X : (⟨S8192x44x1, .i1⟩ : BufTy).Contents (Elt F),
      (TRef.of (T := ⟨S8192x44x1, .i1⟩) main_call1_v11).ofBuf X = X := fun _ => rfl
  have ec : ∀ X : (⟨S_, .i1⟩ : BufTy).Contents (Elt F),
      (TRef.of (T := ⟨S_, .i1⟩) main_call1_c_3).ofBuf ((TRef.of (T := ⟨S_, .i1⟩) main_call1_c_3).toBuf X) = X := fun _ => rfl
  have e12 : ∀ X : (⟨S8192x44, .i1⟩ : BufTy).Contents (Elt F),
      (TRef.of (T := ⟨S8192x44, .i1⟩) main_call1_v12).toBuf X = X := fun _ => rfl
  after_results_simp
  unfold Read.val_main_call1_v12 Read.val_main_call1_c_3
  rw [h11, e11, ec, e12]

/-- The pitch window's source after the third piece, the reduction and the gather positions atoms. -/
theorem evalA3a_v15 (W V : Valuation τ sig (Elt F)) (hA : ArgsAre W V)
    (h5 : W (Proc.devRef .tc main_call1_v5) = Read.val_main_call1_v5 (F := F) (a4 V))
    (h12 : W (Proc.devRef .tc main_call1_v12) = Read.val_main_call1_v12 (F := F) (a4 V)) :
    after chunkA3a W (Proc.devRef .tc main_v15) = s15 V := by
  after_results_simp
  simp only [h5, h12, hA.h2, hA.h9]
  rfl

/-- Its columns 2 … 41. -/
theorem evalA3a_v20 (W V : Valuation τ sig (Elt F)) (hA : ArgsAre W V)
    (h5 : W (Proc.devRef .tc main_call1_v5) = Read.val_main_call1_v5 (F := F) (a4 V))
    (h12 : W (Proc.devRef .tc main_call1_v12) = Read.val_main_call1_v12 (F := F) (a4 V)) :
    after chunkA3a W (Proc.devRef .tc main_v20) = Read.val_main_v20 (F := F) (a2 V) (a4 V) (a9 V) := by
  after_results_simp
  simp only [h5, h12, hA.h2, hA.h9]
  rfl

/-- The previous subframe over the gain. -/
theorem evalA3a_v19 (W V : Valuation τ sig (Elt F)) (hA : ArgsAre W V) :
    after chunkA3a W (Proc.devRef .tc main_v19) = Read.val_main_v19 (F := F) (a1 V) (a9 V) := by
  after_results_simp
  simp only [hA.h1, hA.h9]
  rfl

/-- The concatenated input from its pieces. -/
theorem evalA3b_v22 (W V : Valuation τ sig (Elt F)) (hA : ArgsAre W V)
    (h20 : W (Proc.devRef .tc main_v20) = Read.val_main_v20 (F := F) (a2 V) (a4 V) (a9 V))
    (h19 : W (Proc.devRef .tc main_v19) = Read.val_main_v19 (F := F) (a1 V) (a9 V)) :
    after chunkA3b W (Proc.devRef .tc main_v22) = s22 V := by
  after_results
  show concatenate S8192x720 1
      [⟨S8192x480, W (Proc.devRef .tc main_arg8)⟩,
        ⟨S8192x240, concatenate S8192x240 1
            [⟨S8192x80, W (Proc.devRef .tc main_arg0)⟩, ⟨S8192x40, W (Proc.devRef .tc main_v20)⟩,
              ⟨S8192x40, W (Proc.devRef .tc main_v19)⟩, ⟨S8192x80, W (Proc.devRef .tc main_arg3)⟩]
            concatenates_S8192x80_S8192x40_S8192x40_S8192x80_S8192x240_d1⟩]
      concatenates_S8192x480_S8192x240_S8192x720_d1 = _
  rw [h20, h19, hA.h0, hA.h3, hA.h8]
  rfl

/-- After the first two pieces: the arguments kept, the two atoms at their stages. -/
theorem midA (V : Valuation τ sig (Elt F)) :
    ArgsAre (after chunkA2 (after chunkA1 V)) V
      ∧ after chunkA2 (after chunkA1 V) (Proc.devRef .tc main_call1_v5) = Read.val_main_call1_v5 (F := F) (a4 V)
      ∧ after chunkA2 (after chunkA1 V) (Proc.devRef .tc main_call1_v12) = Read.val_main_call1_v12 (F := F) (a4 V) :=
  ⟨((argsRefl V).step writesA1 (by decide)).step writesA2 (by decide),
    (after_of_writes_sub chunkA2 _ writesA2 (r := main_call1_v5) (by decide)).trans (evalA1_v5 V),
    evalA2_v12 _ V (evalA1_v11 V)⟩

theorem evalA_v22 (V : Valuation τ sig (Elt F)) :
    after chunkA V (Proc.devRef .tc main_v22) = s22 V := by
  rw [chunkA_split, StableHlo.after_append, StableHlo.after_append, StableHlo.after_append]
  exact evalA3b_v22 _ V ((midA V).1.step writesA3a (by decide))
    (evalA3a_v20 _ V (midA V).1 (midA V).2.1 (midA V).2.2) (evalA3a_v19 _ V (midA V).1)

theorem evalA_v15 (V : Valuation τ sig (Elt F)) :
    after chunkA V (Proc.devRef .tc main_v15) = s15 V := by
  rw [chunkA_split, StableHlo.after_append, StableHlo.after_append, StableHlo.after_append]
  exact (after_of_writes_sub chunkA3b _ writesA3b (r := main_v15) (by decide)).trans
    (evalA3a_v15 _ V (midA V).1 (midA V).2.1 (midA V).2.2)

/-! ### The first two dense layers -/
theorem evalB_v35 (W V : Valuation τ sig (Elt F)) (hA : ArgsAre W V) (h22 : W (Proc.devRef .tc main_v22) = s22 V) :
    after chunkB W (Proc.devRef .tc main_v35) = s35 V := by
  after_results_simp
  simp only [h22, hA.h0, hA.h1, hA.h2, hA.h3, hA.h4, hA.h5, hA.h6, hA.h7, hA.h8, hA.h9, hA.h10, hA.h11, hA.h12, hA.h13, hA.h14, hA.h15, hA.h16, hA.h17, hA.h18, hA.h19, hA.h20, hA.h21, hA.h22, hA.h23, hA.h24, hA.h25]
  rfl

theorem evalB_v47 (W V : Valuation τ sig (Elt F)) (hA : ArgsAre W V) (h22 : W (Proc.devRef .tc main_v22) = s22 V) :
    after chunkB W (Proc.devRef .tc main_v47) = s47 V := by
  after_results_simp
  simp only [h22, hA.h0, hA.h1, hA.h2, hA.h3, hA.h4, hA.h5, hA.h6, hA.h7, hA.h8, hA.h9, hA.h10, hA.h11, hA.h12, hA.h13, hA.h14, hA.h15, hA.h16, hA.h17, hA.h18, hA.h19, hA.h20, hA.h21, hA.h22, hA.h23, hA.h24, hA.h25]
  rfl

/-! ### The first GRU cell and its gate -/
theorem evalC_v79 (W V : Valuation τ sig (Elt F)) (hA : ArgsAre W V) (h47 : W (Proc.devRef .tc main_v47) = s47 V) :
    after chunkC W (Proc.devRef .tc main_v79) = s79 V := by
  after_results_simp
  simp only [h47, hA.h0, hA.h1, hA.h2, hA.h3, hA.h4, hA.h5, hA.h6, hA.h7, hA.h8, hA.h9, hA.h10, hA.h11, hA.h12, hA.h13, hA.h14, hA.h15, hA.h16, hA.h17, hA.h18, hA.h19, hA.h20, hA.h21, hA.h22, hA.h23, hA.h24, hA.h25]
  rfl

theorem evalC_v88 (W V : Valuation τ sig (Elt F)) (hA : ArgsAre W V) (h47 : W (Proc.devRef .tc main_v47) = s47 V) :
    after chunkC W (Proc.devRef .tc main_v88) = s88 V := by
  after_results_simp
  simp only [h47, hA.h0, hA.h1, hA.h2, hA.h3, hA.h4, hA.h5, hA.h6, hA.h7, hA.h8, hA.h9, hA.h10, hA.h11, hA.h12, hA.h13, hA.h14, hA.h15, hA.h16, hA.h17, hA.h18, hA.h19, hA.h20, hA.h21, hA.h22, hA.h23, hA.h24, hA.h25]
  rfl

/-! ### The second GRU cell and its gate -/
theorem evalD_v120 (W V : Valuation τ sig (Elt F)) (hA : ArgsAre W V) (h88 : W (Proc.devRef .tc main_v88) = s88 V) :
    after chunkD W (Proc.devRef .tc main_v120) = s120 V := by
  after_results_simp
  simp only [h88, hA.h0, hA.h1, hA.h2, hA.h3, hA.h4, hA.h5, hA.h6, hA.h7, hA.h8, hA.h9, hA.h10, hA.h11, hA.h12, hA.h13, hA.h14, hA.h15, hA.h16, hA.h17, hA.h18, hA.h19, hA.h20, hA.h21, hA.h22, hA.h23, hA.h24, hA.h25]
  rfl

theorem evalD_v129 (W V : Valuation τ sig (Elt F)) (hA : ArgsAre W V) (h88 : W (Proc.devRef .tc main_v88) = s88 V) :
    after chunkD W (Proc.devRef .tc main_v129) = s129 V := by
  after_results_simp
  simp only [h88, hA.h0, hA.h1, hA.h2, hA.h3, hA.h4, hA.h5, hA.h6, hA.h7, hA.h8, hA.h9, hA.h10, hA.h11, hA.h12, hA.h13, hA.h14, hA.h15, hA.h16, hA.h17, hA.h18, hA.h19, hA.h20, hA.h21, hA.h22, hA.h23, hA.h24, hA.h25]
  rfl

/-! ### The third GRU cell and its gate -/
theorem evalE_v161 (W V : Valuation τ sig (Elt F)) (hA : ArgsAre W V) (h129 : W (Proc.devRef .tc main_v129) = s129 V) :
    after chunkE W (Proc.devRef .tc main_v161) = s161 V := by
  after_results_simp
  simp only [h129, hA.h0, hA.h1, hA.h2, hA.h3, hA.h4, hA.h5, hA.h6, hA.h7, hA.h8, hA.h9, hA.h10, hA.h11, hA.h12, hA.h13, hA.h14, hA.h15, hA.h16, hA.h17, hA.h18, hA.h19, hA.h20, hA.h21, hA.h22, hA.h23, hA.h24, hA.h25]
  rfl

theorem evalE_v170 (W V : Valuation τ sig (Elt F)) (hA : ArgsAre W V) (h129 : W (Proc.devRef .tc main_v129) = s129 V) :
    after chunkE W (Proc.devRef .tc main_v170) = s170 V := by
  after_results_simp
  simp only [h129, hA.h0, hA.h1, hA.h2, hA.h3, hA.h4, hA.h5, hA.h6, hA.h7, hA.h8, hA.h9, hA.h10, hA.h11, hA.h12, hA.h13, hA.h14, hA.h15, hA.h16, hA.h17, hA.h18, hA.h19, hA.h20, hA.h21, hA.h22, hA.h23, hA.h24, hA.h25]
  rfl

/-! ### The output layer and the new excitation memory -/
theorem evalF_v186 (W V : Valuation τ sig (Elt F)) (hA : ArgsAre W V) (h88 : W (Proc.devRef .tc main_v88) = s88 V) (h129 : W (Proc.devRef .tc main_v129) = s129 V) (h170 : W (Proc.devRef .tc main_v170) = s170 V) (h47 : W (Proc.devRef .tc main_v47) = s47 V) (h15 : W (Proc.devRef .tc main_v15) = s15 V) :
    after chunkF W (Proc.devRef .tc main_v186) = s186 V := by
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  simp only [h15, hA.h0, hA.h1, hA.h2, hA.h3, hA.h4, hA.h5, hA.h6, hA.h7, hA.h8, hA.h9, hA.h10, hA.h11, hA.h12, hA.h13, hA.h14, hA.h15, hA.h16, hA.h17, hA.h18, hA.h19, hA.h20, hA.h21, hA.h22, hA.h23, hA.h24, hA.h25]
  generalize W (Proc.devRef .tc main_v88) = x_h88 at h88 ⊢
  generalize W (Proc.devRef .tc main_v129) = x_h129 at h129 ⊢
  generalize W (Proc.devRef .tc main_v170) = x_h170 at h170 ⊢
  generalize W (Proc.devRef .tc main_v47) = x_h47 at h47 ⊢
  subst h88 h129 h170 h47
  rfl

/-- The shifted old memory and the new subframe joined, as a function of the two. -/
abbrev excJoin (x2 : (⟨S8192x256, .f32⟩ : BufTy).Contents (Elt F)) (y : (⟨S8192x40, .f32⟩ : BufTy).Contents (Elt F)) :
    (⟨S8192x256, .f32⟩ : BufTy).Contents (Elt F) :=
  concatenate S8192x256 1 [⟨S8192x216, extractStridedSlice S8192x216 ![0, 40] x2 slices_S8192x256_S8192x216_0_40⟩, ⟨S8192x40, y⟩]
    concatenates_S8192x216_S8192x40_S8192x256_d1

theorem evalG_v188 (W V : Valuation τ sig (Elt F)) (hA : ArgsAre W V) (h186 : W (Proc.devRef .tc main_v186) = s186 V) :
    after chunkG W (Proc.devRef .tc main_v188) = s188 V :=
  (show after chunkG W (Proc.devRef .tc main_v188) = excJoin (W (Proc.devRef .tc main_arg2)) (W (Proc.devRef .tc main_v186)) from by
      after_results_simp <;> rfl).trans
    ((congrArg₂ excJoin hA.h2 h186).trans rfl)

/-! ## The stretches in a row -/

structure InvA (W V : Valuation τ sig (Elt F)) : Prop where
  args : ArgsAre W V
  v22 : W (Proc.devRef .tc main_v22) = s22 V
  v15 : W (Proc.devRef .tc main_v15) = s15 V

structure InvB (W V : Valuation τ sig (Elt F)) : Prop where
  args : ArgsAre W V
  v35 : W (Proc.devRef .tc main_v35) = s35 V
  v47 : W (Proc.devRef .tc main_v47) = s47 V
  v15 : W (Proc.devRef .tc main_v15) = s15 V

structure InvC (W V : Valuation τ sig (Elt F)) : Prop where
  args : ArgsAre W V
  v79 : W (Proc.devRef .tc main_v79) = s79 V
  v88 : W (Proc.devRef .tc main_v88) = s88 V
  v35 : W (Proc.devRef .tc main_v35) = s35 V
  v47 : W (Proc.devRef .tc main_v47) = s47 V
  v15 : W (Proc.devRef .tc main_v15) = s15 V

structure InvD (W V : Valuation τ sig (Elt F)) : Prop where
  args : ArgsAre W V
  v120 : W (Proc.devRef .tc main_v120) = s120 V
  v129 : W (Proc.devRef .tc main_v129) = s129 V
  v79 : W (Proc.devRef .tc main_v79) = s79 V
  v88 : W (Proc.devRef .tc main_v88) = s88 V
  v35 : W (Proc.devRef .tc main_v35) = s35 V
  v47 : W (Proc.devRef .tc main_v47) = s47 V
  v15 : W (Proc.devRef .tc main_v15) = s15 V

structure InvE (W V : Valuation τ sig (Elt F)) : Prop where
  args : ArgsAre W V
  v161 : W (Proc.devRef .tc main_v161) = s161 V
  v170 : W (Proc.devRef .tc main_v170) = s170 V
  v120 : W (Proc.devRef .tc main_v120) = s120 V
  v129 : W (Proc.devRef .tc main_v129) = s129 V
  v79 : W (Proc.devRef .tc main_v79) = s79 V
  v88 : W (Proc.devRef .tc main_v88) = s88 V
  v35 : W (Proc.devRef .tc main_v35) = s35 V
  v47 : W (Proc.devRef .tc main_v47) = s47 V
  v15 : W (Proc.devRef .tc main_v15) = s15 V

structure InvF1 (W V : Valuation τ sig (Elt F)) : Prop where
  args : ArgsAre W V
  v186 : W (Proc.devRef .tc main_v186) = s186 V
  v79 : W (Proc.devRef .tc main_v79) = s79 V
  v120 : W (Proc.devRef .tc main_v120) = s120 V
  v161 : W (Proc.devRef .tc main_v161) = s161 V
  v35 : W (Proc.devRef .tc main_v35) = s35 V

/-- Every result buffer at its named stage, the arguments unchanged. -/
structure InvF (W V : Valuation τ sig (Elt F)) : Prop where
  args : ArgsAre W V
  v186 : W (Proc.devRef .tc main_v186) = s186 V
  v188 : W (Proc.devRef .tc main_v188) = s188 V
  v79 : W (Proc.devRef .tc main_v79) = s79 V
  v120 : W (Proc.devRef .tc main_v120) = s120 V
  v161 : W (Proc.devRef .tc main_v161) = s161 V
  v35 : W (Proc.devRef .tc main_v35) = s35 V

theorem stepA (V : Valuation τ sig (Elt F)) : InvA (after chunkA V) V :=
  ⟨(argsRefl V).step writesA (by decide), evalA_v22 V, evalA_v15 V⟩

theorem stepB (W V : Valuation τ sig (Elt F)) (h : InvA W V) : InvB (after chunkB W) V :=
  ⟨h.args.step writesB (by decide), evalB_v35 W V h.args h.v22, evalB_v47 W V h.args h.v22,
    (after_of_writes_sub chunkB W writesB (r := main_v15) (by decide)).trans h.v15⟩

theorem stepC (W V : Valuation τ sig (Elt F)) (h : InvB W V) : InvC (after chunkC W) V :=
  ⟨h.args.step writesC (by decide), evalC_v79 W V h.args h.v47, evalC_v88 W V h.args h.v47,
    (after_of_writes_sub chunkC W writesC (r := main_v35) (by decide)).trans h.v35,
    (after_of_writes_sub chunkC W writesC (r := main_v47) (by decide)).trans h.v47,
    (after_of_writes_sub chunkC W writesC (r := main_v15) (by decide)).trans h.v15⟩

theorem stepD (W V : Valuation τ sig (Elt F)) (h : InvC W V) : InvD (after chunkD W) V :=
  ⟨h.args.step writesD (by decide), evalD_v120 W V h.args h.v88, evalD_v129 W V h.args h.v88,
    (after_of_writes_sub chunkD W writesD (r := main_v79) (by decide)).trans h.v79,
    (after_of_writes_sub chunkD W writesD (r := main_v88) (by decide)).trans h.v88,
    (after_of_writes_sub chunkD W writesD (r := main_v35) (by decide)).trans h.v35,
    (after_of_writes_sub chunkD W writesD (r := main_v47) (by decide)).trans h.v47,
    (after_of_writes_sub chunkD W writesD (r := main_v15) (by decide)).trans h.v15⟩

theorem stepE (W V : Valuation τ sig (Elt F)) (h : InvD W V) : InvE (after chunkE W) V :=
  ⟨h.args.step writesE (by decide), evalE_v161 W V h.args h.v129, evalE_v170 W V h.args h.v129,
    (after_of_writes_sub chunkE W writesE (r := main_v120) (by decide)).trans h.v120,
    (after_of_writes_sub chunkE W writesE (r := main_v129) (by decide)).trans h.v129,
    (after_of_writes_sub chunkE W writesE (r := main_v79) (by decide)).trans h.v79,
    (after_of_writes_sub chunkE W writesE (r := main_v88) (by decide)).trans h.v88,
    (after_of_writes_sub chunkE W writesE (r := main_v35) (by decide)).trans h.v35,
    (after_of_writes_sub chunkE W writesE (r := main_v47) (by decide)).trans h.v47,
    (after_of_writes_sub chunkE W writesE (r := main_v15) (by decide)).trans h.v15⟩

theorem stepF (W V : Valuation τ sig (Elt F)) (h : InvE W V) : InvF1 (after chunkF W) V :=
  ⟨h.args.step writesF (by decide),
    evalF_v186 W V h.args h.v88 h.v129 h.v170 h.v47 h.v15,
    (after_of_writes_sub chunkF W writesF (r := main_v79) (by decide)).trans h.v79,
    (after_of_writes_sub chunkF W writesF (r := main_v120) (by decide)).trans h.v120,
    (after_of_writes_sub chunkF W writesF (r := main_v161) (by decide)).trans h.v161,
    (after_of_writes_sub chunkF W writesF (r := main_v35) (by decide)).trans h.v35⟩

theorem stepG (W V : Valuation τ sig (Elt F)) (h : InvF1 W V) : InvF (after chunkG W) V :=
  ⟨h.args.step writesG (by decide),
    (after_of_writes_sub chunkG W writesG (r := main_v186) (by decide)).trans h.v186,
    evalG_v188 W V h.args h.v186,
    (after_of_writes_sub chunkG W writesG (r := main_v79) (by decide)).trans h.v79,
    (after_of_writes_sub chunkG W writesG (r := main_v120) (by decide)).trans h.v120,
    (after_of_writes_sub chunkG W writesG (r := main_v161) (by decide)).trans h.v161,
    (after_of_writes_sub chunkG W writesG (r := main_v35) (by decide)).trans h.v35⟩

/-- The whole line, from any contents. -/
theorem evals (V : Valuation τ sig (Elt F)) : InvF (after ops V) V := by
  rw [ops_split, StableHlo.after_append, StableHlo.after_append, StableHlo.after_append, StableHlo.after_append,
    StableHlo.after_append, StableHlo.after_append]
  exact stepG _ V (stepF _ V (stepE _ V (stepD _ V (stepC _ V (stepB _ V (stepA V))))))

/-- On every device, for any float values, from any memory with zero counters: every weakly fair execution of
    @main terminates with each result at its named stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v186) = Read.val_main_v186 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v188) = Read.val_main_v188 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v79) = Read.val_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v120) = Read.val_main_v120 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v161) = Read.val_main_v161 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_v35) = Read.val_main_v35 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c =>
      have e := evals (F := F) (launchContents m c)
      ⟨(h c main_v186).trans e.v186, (h c main_v188).trans e.v188, (h c main_v79).trans e.v79,
        (h c main_v120).trans e.v120, (h c main_v161).trans e.v161, (h c main_v35).trans e.v35,
        (h c main_arg0).trans e.args.h0,
        (h c main_arg1).trans e.args.h1,
        (h c main_arg2).trans e.args.h2,
        (h c main_arg3).trans e.args.h3,
        (h c main_arg4).trans e.args.h4,
        (h c main_arg5).trans e.args.h5,
        (h c main_arg6).trans e.args.h6,
        (h c main_arg7).trans e.args.h7,
        (h c main_arg8).trans e.args.h8,
        (h c main_arg9).trans e.args.h9,
        (h c main_arg10).trans e.args.h10,
        (h c main_arg11).trans e.args.h11,
        (h c main_arg12).trans e.args.h12,
        (h c main_arg13).trans e.args.h13,
        (h c main_arg14).trans e.args.h14,
        (h c main_arg15).trans e.args.h15,
        (h c main_arg16).trans e.args.h16,
        (h c main_arg17).trans e.args.h17,
        (h c main_arg18).trans e.args.h18,
        (h c main_arg19).trans e.args.h19,
        (h c main_arg20).trans e.args.h20,
        (h c main_arg21).trans e.args.h21,
        (h c main_arg22).trans e.args.h22,
        (h c main_arg23).trans e.args.h23,
        (h c main_arg24).trans e.args.h24,
        (h c main_arg25).trans e.args.h25⟩)
    (run_seq scopedRefs_eq scopedSems_eq defs main (fun _ => ops) main_eq (fun _ => ops_sub) m ρ)

end Cert.ReferenceIdeal.RunP

end
-- ==== Proof.BodyK.lean ====
/-
  What the kernel's body computes, as functions of its input blocks.

  The body loads each of its 22 input blocks whole (a load of the whole block is the block), computes, and stores each of
  its 4 output blocks whole. The values `b_v…` below are the intermediate results the body names — the FWConv layer's
  output, each GRU cell's new state and gated output, the fused output row — each over exactly the blocks it depends on;
  `o22` … `o25` are what the four output blocks hold after the body: `o22` the new excitation memory, `o23`, `o24`,
  `o25` the three GRU states.
-/
import proofs.«162228_j46806553592417_2_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

/-- The body's value `%22` as a function of the blocks it was computed from. -/
abbrev b_v22 (x0 : Vec F S1024x720 .bf16) (x7 : Vec F S256x720 .bf16) (x8 : Vec F S256x256 .bf16) (x9 : Vec F S256x256 .bf16) (x10 : Vec F S256x256 .bf16) : FVec F S1024x256 .f32 :=
  k0_pay2 (View.ld x0 (Rect.unit (s := S1024x720) ![0, 0] S1024x720.size inb_S1024x720_S1024x720_0_0)) (View.ld x7 (Rect.unit (s := S256x720) ![0, 0] S256x720.size inb_S256x720_S256x720_0_0)) (View.ld x8 (Rect.unit (s := S256x256) ![0, 0] S256x256.size inb_S256x256_S256x256_0_0)) (View.ld x9 (Rect.unit (s := S256x256) ![0, 0] S256x256.size inb_S256x256_S256x256_0_0)) (View.ld x10 (Rect.unit (s := S256x256) ![0, 0] S256x256.size inb_S256x256_S256x256_0_0))
/-- The body's value `%31` as a function of the blocks it was computed from. -/
abbrev b_v31 (x4 : Vec F S1024x256 .f32) (x12 : Vec F S768x256 .bf16) : FVec F S1024x768 .f32 :=
  k0_pay4 (View.ld x4 (Rect.unit (s := S1024x256) ![0, 0] S1024x256.size inb_S1024x256_S1024x256_0_0)) (View.ld x12 (Rect.unit (s := S768x256) ![0, 0] S768x256.size inb_S768x256_S768x256_0_0))
/-- The body's value `%32` as a function of the blocks it was computed from. -/
abbrev b_v32 (x0 : Vec F S1024x720 .bf16) (x7 : Vec F S256x720 .bf16) (x8 : Vec F S256x256 .bf16) (x9 : Vec F S256x256 .bf16) (x10 : Vec F S256x256 .bf16) (x11 : Vec F S768x256 .bf16) : FVec F S1024x256 .f32 :=
  k0_pay5 (View.ld x0 (Rect.unit (s := S1024x720) ![0, 0] S1024x720.size inb_S1024x720_S1024x720_0_0)) (View.ld x7 (Rect.unit (s := S256x720) ![0, 0] S256x720.size inb_S256x720_S256x720_0_0)) (View.ld x8 (Rect.unit (s := S256x256) ![0, 0] S256x256.size inb_S256x256_S256x256_0_0)) (View.ld x9 (Rect.unit (s := S256x256) ![0, 0] S256x256.size inb_S256x256_S256x256_0_0)) (View.ld x10 (Rect.unit (s := S256x256) ![0, 0] S256x256.size inb_S256x256_S256x256_0_0)) (View.ld x11 (Rect.unit (s := S768x256) ![0, 0] S768x256.size inb_S768x256_S768x256_0_0))
/-- The body's value `%33` as a function of the blocks it was computed from. -/
abbrev b_v33 (x0 : Vec F S1024x720 .bf16) (x7 : Vec F S256x720 .bf16) (x8 : Vec F S256x256 .bf16) (x9 : Vec F S256x256 .bf16) (x10 : Vec F S256x256 .bf16) (x11 : Vec F S768x256 .bf16) : FVec F S1024x256 .f32 :=
  k0_pay6 (View.ld x0 (Rect.unit (s := S1024x720) ![0, 0] S1024x720.size inb_S1024x720_S1024x720_0_0)) (View.ld x7 (Rect.unit (s := S256x720) ![0, 0] S256x720.size inb_S256x720_S256x720_0_0)) (View.ld x8 (Rect.unit (s := S256x256) ![0, 0] S256x256.size inb_S256x256_S256x256_0_0)) (View.ld x9 (Rect.unit (s := S256x256) ![0, 0] S256x256.size inb_S256x256_S256x256_0_0)) (View.ld x10 (Rect.unit (s := S256x256) ![0, 0] S256x256.size inb_S256x256_S256x256_0_0)) (View.ld x11 (Rect.unit (s := S768x256) ![0, 0] S768x256.size inb_S768x256_S768x256_0_0))
/-- The body's value `%34` as a function of the blocks it was computed from. -/
abbrev b_v34 (x0 : Vec F S1024x720 .bf16) (x7 : Vec F S256x720 .bf16) (x8 : Vec F S256x256 .bf16) (x9 : Vec F S256x256 .bf16) (x10 : Vec F S256x256 .bf16) (x11 : Vec F S768x256 .bf16) : FVec F S1024x256 .f32 :=
  k0_pay7 (View.ld x0 (Rect.unit (s := S1024x720) ![0, 0] S1024x720.size inb_S1024x720_S1024x720_0_0)) (View.ld x7 (Rect.unit (s := S256x720) ![0, 0] S256x720.size inb_S256x720_S256x720_0_0)) (View.ld x8 (Rect.unit (s := S256x256) ![0, 0] S256x256.size inb_S256x256_S256x256_0_0)) (View.ld x9 (Rect.unit (s := S256x256) ![0, 0] S256x256.size inb_S256x256_S256x256_0_0)) (View.ld x10 (Rect.unit (s := S256x256) ![0, 0] S256x256.size inb_S256x256_S256x256_0_0)) (View.ld x11 (Rect.unit (s := S768x256) ![0, 0] S768x256.size inb_S768x256_S768x256_0_0))
/-- The body's value `%35` as a function of the blocks it was computed from. -/
abbrev b_v35 (x4 : Vec F S1024x256 .f32) (x12 : Vec F S768x256 .bf16) : FVec F S1024x256 .f32 :=
  k0_pay8 (View.ld x4 (Rect.unit (s := S1024x256) ![0, 0] S1024x256.size inb_S1024x256_S1024x256_0_0)) (View.ld x12 (Rect.unit (s := S768x256) ![0, 0] S768x256.size inb_S768x256_S768x256_0_0))
/-- The body's value `%36` as a function of the blocks it was computed from. -/
abbrev b_v36 (x4 : Vec F S1024x256 .f32) (x12 : Vec F S768x256 .bf16) : FVec F S1024x256 .f32 :=
  k0_pay9 (View.ld x4 (Rect.unit (s := S1024x256) ![0, 0] S1024x256.size inb_S1024x256_S1024x256_0_0)) (View.ld x12 (Rect.unit (s := S768x256) ![0, 0] S768x256.size inb_S768x256_S768x256_0_0))
/-- The body's value `%49` as a function of the blocks it was computed from. -/
abbrev b_v49 (x0 : Vec F S1024x720 .bf16) (x4 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) : FVec F S1024x256 .f32 :=
  k0_pay10 (View.ld x4 (Rect.unit (s := S1024x256) ![0, 0] S1024x256.size inb_S1024x256_S1024x256_0_0)) (b_v31 x4 x12) (b_v32 x0 x7 x8 x9 x10 x11) (b_v33 x0 x7 x8 x9 x10 x11) (b_v34 x0 x7 x8 x9 x10 x11) (b_v35 x4 x12) (b_v36 x4 x12)
/-- The body's value `%55` as a function of the blocks it was computed from. -/
abbrev b_v55 (x0 : Vec F S1024x720 .bf16) (x4 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) : FVec F S1024x256 .f32 :=
  k0_pay11 (View.ld x4 (Rect.unit (s := S1024x256) ![0, 0] S1024x256.size inb_S1024x256_S1024x256_0_0)) (b_v31 x4 x12) (b_v32 x0 x7 x8 x9 x10 x11) (b_v33 x0 x7 x8 x9 x10 x11) (b_v34 x0 x7 x8 x9 x10 x11) (b_v35 x4 x12) (b_v36 x4 x12) (View.ld x13 (Rect.unit (s := S256x256) ![0, 0] S256x256.size inb_S256x256_S256x256_0_0))
/-- The body's value `%82` as a function of the blocks it was computed from. -/
abbrev b_v82 (x0 : Vec F S1024x720 .bf16) (x4 : Vec F S1024x256 .f32) (x5 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) : FVec F S1024x256 .f32 :=
  k0_pay12 (View.ld x4 (Rect.unit (s := S1024x256) ![0, 0] S1024x256.size inb_S1024x256_S1024x256_0_0)) (b_v31 x4 x12) (b_v32 x0 x7 x8 x9 x10 x11) (b_v33 x0 x7 x8 x9 x10 x11) (b_v34 x0 x7 x8 x9 x10 x11) (b_v35 x4 x12) (b_v36 x4 x12) (View.ld x13 (Rect.unit (s := S256x256) ![0, 0] S256x256.size inb_S256x256_S256x256_0_0)) (View.ld x5 (Rect.unit (s := S1024x256) ![0, 0] S1024x256.size inb_S1024x256_S1024x256_0_0)) (View.ld x14 (Rect.unit (s := S768x256) ![0, 0] S768x256.size inb_S768x256_S768x256_0_0)) (View.ld x15 (Rect.unit (s := S768x256) ![0, 0] S768x256.size inb_S768x256_S768x256_0_0))
/-- The body's value `%83` as a function of the blocks it was computed from. -/
abbrev b_v83 (x0 : Vec F S1024x720 .bf16) (x4 : Vec F S1024x256 .f32) (x5 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) : FVec F S1024x256 .bf16 :=
  k0_pay13 (View.ld x4 (Rect.unit (s := S1024x256) ![0, 0] S1024x256.size inb_S1024x256_S1024x256_0_0)) (b_v31 x4 x12) (b_v32 x0 x7 x8 x9 x10 x11) (b_v33 x0 x7 x8 x9 x10 x11) (b_v34 x0 x7 x8 x9 x10 x11) (b_v35 x4 x12) (b_v36 x4 x12) (View.ld x13 (Rect.unit (s := S256x256) ![0, 0] S256x256.size inb_S256x256_S256x256_0_0)) (View.ld x5 (Rect.unit (s := S1024x256) ![0, 0] S1024x256.size inb_S1024x256_S1024x256_0_0)) (View.ld x14 (Rect.unit (s := S768x256) ![0, 0] S768x256.size inb_S768x256_S768x256_0_0)) (View.ld x15 (Rect.unit (s := S768x256) ![0, 0] S768x256.size inb_S768x256_S768x256_0_0))
/-- The body's value `%115` as a function of the blocks it was computed from. -/
abbrev b_v115 (x0 : Vec F S1024x720 .bf16) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) : FVec F S1024x256 .f32 :=
  k0_pay15 (b_v82 x0 x4 x5 x7 x8 x9 x10 x11 x12 x13 x14 x15) (b_v83 x0 x4 x5 x7 x8 x9 x10 x11 x12 x13 x14 x15) (View.ld x16 (Rect.unit (s := S256x256) ![0, 0] S256x256.size inb_S256x256_S256x256_0_0)) (View.ld x6 (Rect.unit (s := S1024x256) ![0, 0] S1024x256.size inb_S1024x256_S1024x256_0_0)) (View.ld x17 (Rect.unit (s := S768x256) ![0, 0] S768x256.size inb_S768x256_S768x256_0_0)) (View.ld x18 (Rect.unit (s := S768x256) ![0, 0] S768x256.size inb_S768x256_S768x256_0_0))
/-- The body's value `%123` as a function of the blocks it was computed from. -/
abbrev b_v123 (x0 : Vec F S1024x720 .bf16) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) (x19 : Vec F S256x256 .bf16) : FVec F S1024x1024 .bf16 :=
  k0_pay16 (b_v22 x0 x7 x8 x9 x10) (b_v55 x0 x4 x7 x8 x9 x10 x11 x12 x13) (b_v82 x0 x4 x5 x7 x8 x9 x10 x11 x12 x13 x14 x15) (b_v83 x0 x4 x5 x7 x8 x9 x10 x11 x12 x13 x14 x15) (View.ld x16 (Rect.unit (s := S256x256) ![0, 0] S256x256.size inb_S256x256_S256x256_0_0)) (View.ld x6 (Rect.unit (s := S1024x256) ![0, 0] S1024x256.size inb_S1024x256_S1024x256_0_0)) (View.ld x17 (Rect.unit (s := S768x256) ![0, 0] S768x256.size inb_S768x256_S768x256_0_0)) (View.ld x18 (Rect.unit (s := S768x256) ![0, 0] S768x256.size inb_S768x256_S768x256_0_0)) (View.ld x19 (Rect.unit (s := S256x256) ![0, 0] S256x256.size inb_S256x256_S256x256_0_0))
/-- The body's value `%125` as a function of the blocks it was computed from. -/
abbrev b_v125 (x20 : Vec F S128x1024 .bf16) : FVec F S128x1024 .bf16 :=
  k0_pay17 (View.ld x20 (Rect.unit (s := S128x1024) ![0, 0] S128x1024.size inb_S128x1024_S128x1024_0_0))
/-- The body's value `%22` (what it stores into output 0) as a function of the blocks it was computed from. -/
abbrev b_st22 (x0 : Vec F S1024x720 .bf16) (x1 : Vec F S1024x40 .f32) (x2 : Vec F S1024x256 .f32) (x3 : Vec F S1024x1 .f32) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) (x19 : Vec F S256x256 .bf16) (x20 : Vec F S128x1024 .bf16) (x21 : Vec F S1x128 .f32) : FVec F S1024x256 .f32 :=
  k0_pay1 (b_v123 x0 x4 x5 x6 x7 x8 x9 x10 x11 x12 x13 x14 x15 x16 x17 x18 x19) (b_v125 x20) (constant S1024x128 .f32 0x00000000#32) (View.ld x21 (Rect.unit (s := S1x128) ![0, 0] S1x128.size inb_S1x128_S1x128_0_0)) (View.ld x1 (Rect.unit (s := S1024x40) ![0, 0] S1024x40.size inb_S1024x40_S1024x40_0_0)) (View.ld x3 (Rect.unit (s := S1024x1) ![0, 0] S1024x1.size inb_S1024x1_S1024x1_0_0)) (View.ld x2 (Rect.unit (s := S1024x256) ![0, 0] S1024x256.size inb_S1024x256_S1024x256_0_0))

/-- What the body leaves in each output window's staging buffer: its one store, covering the block. -/
def o22 (x0 : Vec F S1024x720 .bf16) (x1 : Vec F S1024x40 .f32) (x2 : Vec F S1024x256 .f32) (x3 : Vec F S1024x1 .f32) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) (x19 : Vec F S256x256 .bf16) (x20 : Vec F S128x1024 .bf16) (x21 : Vec F S1x128 .f32) : Vec F S1024x256 .f32 :=
  View.canon [⟨(Rect.unit (s := S1024x256) ![0, 0] S1024x256.size inb_S1024x256_S1024x256_0_0), b_st22 x0 x1 x2 x3 x4 x5 x6 x7 x8 x9 x10 x11 x12 x13 x14 x15 x16 x17 x18 x19 x20 x21⟩]
def o23 (x0 : Vec F S1024x720 .bf16) (x4 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) : Vec F S1024x256 .f32 :=
  View.canon [⟨(Rect.unit (s := S1024x256) ![0, 0] S1024x256.size inb_S1024x256_S1024x256_0_0), b_v49 x0 x4 x7 x8 x9 x10 x11 x12⟩]
def o24 (x0 : Vec F S1024x720 .bf16) (x4 : Vec F S1024x256 .f32) (x5 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) : Vec F S1024x256 .f32 :=
  View.canon [⟨(Rect.unit (s := S1024x256) ![0, 0] S1024x256.size inb_S1024x256_S1024x256_0_0), b_v82 x0 x4 x5 x7 x8 x9 x10 x11 x12 x13 x14 x15⟩]
def o25 (x0 : Vec F S1024x720 .bf16) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) : Vec F S1024x256 .f32 :=
  View.canon [⟨(Rect.unit (s := S1024x256) ![0, 0] S1024x256.size inb_S1024x256_S1024x256_0_0), b_v115 x0 x4 x5 x6 x7 x8 x9 x10 x11 x12 x13 x14 x15 x16 x17 x18⟩]

end Cert.Kernel.Hand

end
-- ==== Proof.FrameK.lean ====
/-
  The frame of the program: it runs to the end, faults nowhere and leaves its argument arrays as it found them.

  The program is host operations (the pitch gather, the two divisions by the gain, the concatenations that build the
  720-wide input row, the casts of the weights, the padded output weight and bias), ONE kernel region over 8 blocks of
  1024 batch rows, and one host slice after it. The kernel's body loads its 22 input blocks whole, computes, and stores
  each of its 4 output blocks whole, so what an output block holds after the body is a function of the input blocks
  alone (`o22` … `o25` below, over the values `b_v…` the body computes on the way). With that, the region is the
  library's pipelined launch: every input window's staging buffer holds its block at every point, every output window's
  block is written back at every point, and the arrays no window stands on are untouched.
-/
import proofs.«162228_j46806553592417_2_alg».proof.Proof.Gen.Kernel.Launch
import proofs.«162228_j46806553592417_2_alg».proof.Proof.Gen.Kernel.Skeleton
import proofs.«162228_j46806553592417_2_alg».proof.Proof.Gen.Kernel.Points
import proofs.«162228_j46806553592417_2_alg».proof.Proof.BodyK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The host operations before the region, stretch by stretch. -/
abbrev preOps : List (List (HloOp τ sig (Elt F))) := [hostOps0, hostOps0_1, hostOps0_2, hostOps0_3, hostOps0_4, hostOps0_5, hostOps0_6, hostOps0_7, hostOps0_8]

/-- Core `c`'s buffers when the region is entered: the launch contents after the host operations before it. -/
abbrev V0 (c : Dev nD) : Valuation τ sig (Elt F) := StableHlo.after (List.flatten (preOps (F := F))) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host slice after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The slice after the region touches only the region's arrays and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array a window stands on (it writes only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## No host operation before the region writes an argument array -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, its block index has not moved). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (unfetched, its block index has not moved). -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (unfetched, its block index has not moved). -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (unfetched, its block index has not moved). -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (unfetched, its block index has not moved). -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (unfetched, its block index has not moved). -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (unfetched, its block index has not moved). -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (unfetched, its block index has not moved). -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (unfetched, its block index has not moved). -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (unfetched, its block index has not moved). -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not (unfetched, its block index has not moved). -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not (unfetched, its block index has not moved). -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, fetched there or not (unfetched, its block index has not moved). -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, fetched there or not (unfetched, its block index has not moved). -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point, fetched there or not (unfetched, its block index has not moved). -/
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point, fetched there or not (unfetched, its block index has not moved). -/
theorem before_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds its block at every point, fetched there or not (unfetched, its block index has not moved). -/
theorem before_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds its block at every point, fetched there or not (unfetched, its block index has not moved). -/
theorem before_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's staging buffer holds its block at every point, fetched there or not (unfetched, its block index has not moved). -/
theorem before_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's staging buffer holds its block at every point, fetched there or not (unfetched, its block index has not moved). -/
theorem before_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's staging buffer holds its block at every point, fetched there or not (unfetched, its block index has not moved). -/
theorem before_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's staging buffer holds its block at every point, fetched there or not (unfetched, its block index has not moved). -/
theorem before_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-! ## The body's stores cover their blocks -/

/-- A store of the whole block covers it. -/
theorem cover_whole (p0 : Vec F S1024x256 .f32) (y : S1024x256.Idx) :
    ∃ pc ∈ ([⟨(Rect.unit (s := S1024x256) ![0, 0] S1024x256.size inb_S1024x256_S1024x256_0_0), p0⟩] : List (View.Piece (Elt F) S1024x256 .f32)), y ∈ pc.1.set :=
  View.cover_of_tiled [⟨(Rect.unit (s := S1024x256) ![0, 0] S1024x256.size inb_S1024x256_S1024x256_0_0), p0⟩] S1024x256.size (by rfl) y

/-! ## The body's triple -/

set_option maxHeartbeats 4000000 in
/-- The kernel body on whole staging memrefs, the inputs' at contents `x0` … `x21` and the outputs' at anything, runs to
    the continuation holding the inputs' as they were and the outputs' at `o22` … `o25` of the inputs'. -/
theorem sound_kernel (c : Dev nD) (E : Set ℕ) (i : grid0.Coords) (arg1 : Memref sig .tc .vmem S1024x720 .bf16) (harg1 : arg1.IsWhole) (arg2 : Memref sig .tc .vmem S1024x40 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256x720 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S768x256 .bf16) (harg12 : arg12.IsWhole) (arg13 : Memref sig .tc .vmem S768x256 .bf16) (harg13 : arg13.IsWhole) (arg14 : Memref sig .tc .vmem S256x256 .bf16) (harg14 : arg14.IsWhole) (arg15 : Memref sig .tc .vmem S768x256 .bf16) (harg15 : arg15.IsWhole) (arg16 : Memref sig .tc .vmem S768x256 .bf16) (harg16 : arg16.IsWhole) (arg17 : Memref sig .tc .vmem S256x256 .bf16) (harg17 : arg17.IsWhole) (arg18 : Memref sig .tc .vmem S768x256 .bf16) (harg18 : arg18.IsWhole) (arg19 : Memref sig .tc .vmem S768x256 .bf16) (harg19 : arg19.IsWhole) (arg20 : Memref sig .tc .vmem S256x256 .bf16) (harg20 : arg20.IsWhole) (arg21 : Memref sig .tc .vmem S128x1024 .bf16) (harg21 : arg21.IsWhole) (arg22 : Memref sig .tc .vmem S1x128 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole)
    (x0 : Vec F S1024x720 .bf16) (x1 : Vec F S1024x40 .f32) (x2 : Vec F S1024x256 .f32) (x3 : Vec F S1024x1 .f32) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) (x19 : Vec F S256x256 .bf16) (x20 : Vec F S128x1024 .bf16) (x21 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21
        ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21
            ∗ owns (c : Thread nD τ) arg23 fullShare (o22 x0 x1 x2 x3 x4 x5 x6 x7 x8 x9 x10 x11 x12 x13 x14 x15 x16 x17 x18 x19 x20 x21) ∗ owns (c : Thread nD τ) arg24 fullShare (o23 x0 x4 x7 x8 x9 x10 x11 x12) ∗ owns (c : Thread nD τ) arg25 fullShare (o24 x0 x4 x5 x7 x8 x9 x10 x11 x12 x13 x14 x15) ∗ owns (c : Thread nD τ) arg26 fullShare (o25 x0 x4 x5 x6 x7 x8 x9 x10 x11 x12 x13 x14 x15 x16 x17 x18)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mlp_kernel_eq_skeleton]; unfold cc0__mlp_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro
    try dsimp only
    exact View.read_writes_eq_canon _ _ _ (cover_whole _)
  isplitl [H23]
  · iexists _; isplitr
    swap; · iexact H23
    ipureintro
    try dsimp only
    exact View.read_writes_eq_canon _ _ _ (cover_whole _)
  isplitl [H24]
  · iexists _; isplitr
    swap; · iexact H24
    ipureintro
    try dsimp only
    exact View.read_writes_eq_canon _ _ _ (cover_whole _)
  iexists _; isplitr
  swap; · iexact H25
  ipureintro
  try dsimp only
  exact View.read_writes_eq_canon _ _ _ (cover_whole _)

/-! ## The region's proof data -/

/-- On core `c`: the arrays as the region finds them; after the body at point `t` each input's buffer at its block and
    each output's at what the body computes from the input blocks; nothing of the body's own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => o22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨23, _⟩ => o23 (iblk m c 0 t) (iblk m c 4 t) (iblk m c 7 t) (iblk m c 8 t) (iblk m c 9 t) (iblk m c 10 t) (iblk m c 11 t) (iblk m c 12 t)
    | ⟨24, _⟩ => o24 (iblk m c 0 t) (iblk m c 4 t) (iblk m c 5 t) (iblk m c 7 t) (iblk m c 8 t) (iblk m c 9 t) (iblk m c 10 t) (iblk m c 11 t) (iblk m c 12 t) (iblk m c 13 t) (iblk m c 14 t) (iblk m c 15 t)
    | ⟨25, _⟩ => o25 (iblk m c 0 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = o22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after_23 (c : Dev nD) (t : Fin cfg0.N) : (dats m 0 c).after 23 t = o23 (iblk m c 0 t) (iblk m c 4 t) (iblk m c 7 t) (iblk m c 8 t) (iblk m c 9 t) (iblk m c 10 t) (iblk m c 11 t) (iblk m c 12 t) := by dsimp only [dats]
theorem after_24 (c : Dev nD) (t : Fin cfg0.N) : (dats m 0 c).after 24 t = o24 (iblk m c 0 t) (iblk m c 4 t) (iblk m c 5 t) (iblk m c 7 t) (iblk m c 8 t) (iblk m c 9 t) (iblk m c 10 t) (iblk m c 11 t) (iblk m c 12 t) (iblk m c 13 t) (iblk m c 14 t) (iblk m c 15 t) := by dsimp only [dats]
theorem after_25 (c : Dev nD) (t : Fin cfg0.N) : (dats m 0 c).after 25 t = o25 (iblk m c 0 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d
theorem before_15 (c : Dev nD) (t : Fin cfg0.N) (d) : (dats m 0 c).before 15 t d = iblk m c 15 t :=
  before_15_of m (dats m 0 c) (A_eq m c 15) (after_15 m c) t d
theorem before_16 (c : Dev nD) (t : Fin cfg0.N) (d) : (dats m 0 c).before 16 t d = iblk m c 16 t :=
  before_16_of m (dats m 0 c) (A_eq m c 16) (after_16 m c) t d
theorem before_17 (c : Dev nD) (t : Fin cfg0.N) (d) : (dats m 0 c).before 17 t d = iblk m c 17 t :=
  before_17_of m (dats m 0 c) (A_eq m c 17) (after_17 m c) t d
theorem before_18 (c : Dev nD) (t : Fin cfg0.N) (d) : (dats m 0 c).before 18 t d = iblk m c 18 t :=
  before_18_of m (dats m 0 c) (A_eq m c 18) (after_18 m c) t d
theorem before_19 (c : Dev nD) (t : Fin cfg0.N) (d) : (dats m 0 c).before 19 t d = iblk m c 19 t :=
  before_19_of m (dats m 0 c) (A_eq m c 19) (after_19 m c) t d
theorem before_20 (c : Dev nD) (t : Fin cfg0.N) (d) : (dats m 0 c).before 20 t d = iblk m c 20 t :=
  before_20_of m (dats m 0 c) (A_eq m c 20) (after_20 m c) t d
theorem before_21 (c : Dev nD) (t : Fin cfg0.N) (d) : (dats m 0 c).before 21 t d = iblk m c 21 t :=
  before_21_of m (dats m 0 c) (A_eq m c 21) (after_21 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 4000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

set_option maxHeartbeats 4000000 in
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; at the end every array a window stands on holds
    what the library computes from the proof data, and every other buffer what the slice after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The argument arrays end as they began -/

theorem kept_main_arg0 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).2 main_arg0 (Pipeline.mem_restRefs_of main_arg0 rfl (by decide))).trans (by
    unfold Pipeline.afterTail₀
    rw [StableHlo.after_of_forall_not_mem (b := Proc.devRef .tc main_arg0) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg0 (by decide)]
    exact V_main_arg0 m c)
theorem kept_main_arg1 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).2 main_arg1 (Pipeline.mem_restRefs_of main_arg1 rfl (by decide))).trans (by
    unfold Pipeline.afterTail₀
    rw [StableHlo.after_of_forall_not_mem (b := Proc.devRef .tc main_arg1) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg1 (by decide)]
    exact V_main_arg1 m c)
theorem kept_main_arg2 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
theorem kept_main_arg3 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).2 main_arg3 (Pipeline.mem_restRefs_of main_arg3 rfl (by decide))).trans (by
    unfold Pipeline.afterTail₀
    rw [StableHlo.after_of_forall_not_mem (b := Proc.devRef .tc main_arg3) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg3 (by decide)]
    exact V_main_arg3 m c)
theorem kept_main_arg4 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).2 main_arg4 (Pipeline.mem_restRefs_of main_arg4 rfl (by decide))).trans (by
    unfold Pipeline.afterTail₀
    rw [StableHlo.after_of_forall_not_mem (b := Proc.devRef .tc main_arg4) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg4 (by decide)]
    exact V_main_arg4 m c)
theorem kept_main_arg5 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).1 4).trans (((dats m 0 c).arrAt_in 4 rfl _).trans ((A_eq m c 4).trans (V_main_arg5 m c)))
theorem kept_main_arg6 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).1 5).trans (((dats m 0 c).arrAt_in 5 rfl _).trans ((A_eq m c 5).trans (V_main_arg6 m c)))
theorem kept_main_arg7 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).1 6).trans (((dats m 0 c).arrAt_in 6 rfl _).trans ((A_eq m c 6).trans (V_main_arg7 m c)))
theorem kept_main_arg8 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).2 main_arg8 (Pipeline.mem_restRefs_of main_arg8 rfl (by decide))).trans (by
    unfold Pipeline.afterTail₀
    rw [StableHlo.after_of_forall_not_mem (b := Proc.devRef .tc main_arg8) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg8 (by decide)]
    exact V_main_arg8 m c)
theorem kept_main_arg9 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).1 3).trans (((dats m 0 c).arrAt_in 3 rfl _).trans ((A_eq m c 3).trans (V_main_arg9 m c)))
theorem kept_main_arg10 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) :=
  ((h c).2 main_arg10 (Pipeline.mem_restRefs_of main_arg10 rfl (by decide))).trans (by
    unfold Pipeline.afterTail₀
    rw [StableHlo.after_of_forall_not_mem (b := Proc.devRef .tc main_arg10) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg10 (by decide)]
    exact V_main_arg10 m c)
theorem kept_main_arg11 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg11) = m ((c.tc : Thread nD τ).loc main_arg11) :=
  ((h c).2 main_arg11 (Pipeline.mem_restRefs_of main_arg11 rfl (by decide))).trans (by
    unfold Pipeline.afterTail₀
    rw [StableHlo.after_of_forall_not_mem (b := Proc.devRef .tc main_arg11) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg11 (by decide)]
    exact V_main_arg11 m c)
theorem kept_main_arg12 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg12) = m ((c.tc : Thread nD τ).loc main_arg12) :=
  ((h c).2 main_arg12 (Pipeline.mem_restRefs_of main_arg12 rfl (by decide))).trans (by
    unfold Pipeline.afterTail₀
    rw [StableHlo.after_of_forall_not_mem (b := Proc.devRef .tc main_arg12) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg12 (by decide)]
    exact V_main_arg12 m c)
theorem kept_main_arg13 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg13) = m ((c.tc : Thread nD τ).loc main_arg13) :=
  ((h c).2 main_arg13 (Pipeline.mem_restRefs_of main_arg13 rfl (by decide))).trans (by
    unfold Pipeline.afterTail₀
    rw [StableHlo.after_of_forall_not_mem (b := Proc.devRef .tc main_arg13) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg13 (by decide)]
    exact V_main_arg13 m c)
theorem kept_main_arg14 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg14) = m ((c.tc : Thread nD τ).loc main_arg14) :=
  ((h c).2 main_arg14 (Pipeline.mem_restRefs_of main_arg14 rfl (by decide))).trans (by
    unfold Pipeline.afterTail₀
    rw [StableHlo.after_of_forall_not_mem (b := Proc.devRef .tc main_arg14) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg14 (by decide)]
    exact V_main_arg14 m c)
theorem kept_main_arg15 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg15) = m ((c.tc : Thread nD τ).loc main_arg15) :=
  ((h c).2 main_arg15 (Pipeline.mem_restRefs_of main_arg15 rfl (by decide))).trans (by
    unfold Pipeline.afterTail₀
    rw [StableHlo.after_of_forall_not_mem (b := Proc.devRef .tc main_arg15) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg15 (by decide)]
    exact V_main_arg15 m c)
theorem kept_main_arg16 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg16) = m ((c.tc : Thread nD τ).loc main_arg16) :=
  ((h c).2 main_arg16 (Pipeline.mem_restRefs_of main_arg16 rfl (by decide))).trans (by
    unfold Pipeline.afterTail₀
    rw [StableHlo.after_of_forall_not_mem (b := Proc.devRef .tc main_arg16) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg16 (by decide)]
    exact V_main_arg16 m c)
theorem kept_main_arg17 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg17) = m ((c.tc : Thread nD τ).loc main_arg17) :=
  ((h c).2 main_arg17 (Pipeline.mem_restRefs_of main_arg17 rfl (by decide))).trans (by
    unfold Pipeline.afterTail₀
    rw [StableHlo.after_of_forall_not_mem (b := Proc.devRef .tc main_arg17) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg17 (by decide)]
    exact V_main_arg17 m c)
theorem kept_main_arg18 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg18) = m ((c.tc : Thread nD τ).loc main_arg18) :=
  ((h c).2 main_arg18 (Pipeline.mem_restRefs_of main_arg18 rfl (by decide))).trans (by
    unfold Pipeline.afterTail₀
    rw [StableHlo.after_of_forall_not_mem (b := Proc.devRef .tc main_arg18) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg18 (by decide)]
    exact V_main_arg18 m c)
theorem kept_main_arg19 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg19) = m ((c.tc : Thread nD τ).loc main_arg19) :=
  ((h c).2 main_arg19 (Pipeline.mem_restRefs_of main_arg19 rfl (by decide))).trans (by
    unfold Pipeline.afterTail₀
    rw [StableHlo.after_of_forall_not_mem (b := Proc.devRef .tc main_arg19) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg19 (by decide)]
    exact V_main_arg19 m c)
theorem kept_main_arg20 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg20) = m ((c.tc : Thread nD τ).loc main_arg20) :=
  ((h c).2 main_arg20 (Pipeline.mem_restRefs_of main_arg20 rfl (by decide))).trans (by
    unfold Pipeline.afterTail₀
    rw [StableHlo.after_of_forall_not_mem (b := Proc.devRef .tc main_arg20) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg20 (by decide)]
    exact V_main_arg20 m c)
theorem kept_main_arg21 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg21) = m ((c.tc : Thread nD τ).loc main_arg21) :=
  ((h c).2 main_arg21 (Pipeline.mem_restRefs_of main_arg21 rfl (by decide))).trans (by
    unfold Pipeline.afterTail₀
    rw [StableHlo.after_of_forall_not_mem (b := Proc.devRef .tc main_arg21) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg21 (by decide)]
    exact V_main_arg21 m c)
theorem kept_main_arg22 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg22) = m ((c.tc : Thread nD τ).loc main_arg22) :=
  ((h c).2 main_arg22 (Pipeline.mem_restRefs_of main_arg22 rfl (by decide))).trans (by
    unfold Pipeline.afterTail₀
    rw [StableHlo.after_of_forall_not_mem (b := Proc.devRef .tc main_arg22) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg22 (by decide)]
    exact V_main_arg22 m c)
theorem kept_main_arg23 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg23) = m ((c.tc : Thread nD τ).loc main_arg23) :=
  ((h c).2 main_arg23 (Pipeline.mem_restRefs_of main_arg23 rfl (by decide))).trans (by
    unfold Pipeline.afterTail₀
    rw [StableHlo.after_of_forall_not_mem (b := Proc.devRef .tc main_arg23) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg23 (by decide)]
    exact V_main_arg23 m c)
theorem kept_main_arg24 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg24) = m ((c.tc : Thread nD τ).loc main_arg24) :=
  ((h c).2 main_arg24 (Pipeline.mem_restRefs_of main_arg24 rfl (by decide))).trans (by
    unfold Pipeline.afterTail₀
    rw [StableHlo.after_of_forall_not_mem (b := Proc.devRef .tc main_arg24) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg24 (by decide)]
    exact V_main_arg24 m c)
theorem kept_main_arg25 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg25) = m ((c.tc : Thread nD τ).loc main_arg25) :=
  ((h c).2 main_arg25 (Pipeline.mem_restRefs_of main_arg25 rfl (by decide))).trans (by
    unfold Pipeline.afterTail₀
    rw [StableHlo.after_of_forall_not_mem (b := Proc.devRef .tc main_arg25) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg25 (by decide)]
    exact V_main_arg25 m c)

/-- THE FRAME: every weakly fair execution of @main terminates without a fault and every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c, kept_main_arg15 m r h c, kept_main_arg16 m r h c, kept_main_arg17 m r h c, kept_main_arg18 m r h c, kept_main_arg19 m r h c, kept_main_arg20 m r h c, kept_main_arg21 m r h c, kept_main_arg22 m r h c, kept_main_arg23 m r h c, kept_main_arg24 m r h c, kept_main_arg25 m r h c⟩) (run_main m ρ)

end Cert.Kernel.Hand

end
-- ==== Proof.BodyKI.lean ====
/-
  What the kernel's body computes, as functions of its input blocks.

  The body loads each of its 22 input blocks whole (a load of the whole block is the block), computes, and stores each of
  its 4 output blocks whole. The values `b_v…` below are the intermediate results the body names — the FWConv layer's
  output, each GRU cell's new state and gated output, the fused output row — each over exactly the blocks it depends on;
  `o22` … `o25` are what the four output blocks hold after the body: `o22` the new excitation memory, `o23`, `o24`,
  `o25` the three GRU states.
-/
import proofs.«162228_j46806553592417_2_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

/-- The body's value `%22` as a function of the blocks it was computed from. -/
abbrev b_v22 (x0 : Vec F S1024x720 .bf16) (x7 : Vec F S256x720 .bf16) (x8 : Vec F S256x256 .bf16) (x9 : Vec F S256x256 .bf16) (x10 : Vec F S256x256 .bf16) : FVec F S1024x256 .f32 :=
  k0_pay2 (View.ld x0 (Rect.unit (s := S1024x720) ![0, 0] S1024x720.size inb_S1024x720_S1024x720_0_0)) (View.ld x7 (Rect.unit (s := S256x720) ![0, 0] S256x720.size inb_S256x720_S256x720_0_0)) (View.ld x8 (Rect.unit (s := S256x256) ![0, 0] S256x256.size inb_S256x256_S256x256_0_0)) (View.ld x9 (Rect.unit (s := S256x256) ![0, 0] S256x256.size inb_S256x256_S256x256_0_0)) (View.ld x10 (Rect.unit (s := S256x256) ![0, 0] S256x256.size inb_S256x256_S256x256_0_0))
/-- The body's value `%31` as a function of the blocks it was computed from. -/
abbrev b_v31 (x4 : Vec F S1024x256 .f32) (x12 : Vec F S768x256 .bf16) : FVec F S1024x768 .f32 :=
  k0_pay4 (View.ld x4 (Rect.unit (s := S1024x256) ![0, 0] S1024x256.size inb_S1024x256_S1024x256_0_0)) (View.ld x12 (Rect.unit (s := S768x256) ![0, 0] S768x256.size inb_S768x256_S768x256_0_0))
/-- The body's value `%32` as a function of the blocks it was computed from. -/
abbrev b_v32 (x0 : Vec F S1024x720 .bf16) (x7 : Vec F S256x720 .bf16) (x8 : Vec F S256x256 .bf16) (x9 : Vec F S256x256 .bf16) (x10 : Vec F S256x256 .bf16) (x11 : Vec F S768x256 .bf16) : FVec F S1024x256 .f32 :=
  k0_pay5 (View.ld x0 (Rect.unit (s := S1024x720) ![0, 0] S1024x720.size inb_S1024x720_S1024x720_0_0)) (View.ld x7 (Rect.unit (s := S256x720) ![0, 0] S256x720.size inb_S256x720_S256x720_0_0)) (View.ld x8 (Rect.unit (s := S256x256) ![0, 0] S256x256.size inb_S256x256_S256x256_0_0)) (View.ld x9 (Rect.unit (s := S256x256) ![0, 0] S256x256.size inb_S256x256_S256x256_0_0)) (View.ld x10 (Rect.unit (s := S256x256) ![0, 0] S256x256.size inb_S256x256_S256x256_0_0)) (View.ld x11 (Rect.unit (s := S768x256) ![0, 0] S768x256.size inb_S768x256_S768x256_0_0))
/-- The body's value `%33` as a function of the blocks it was computed from. -/
abbrev b_v33 (x0 : Vec F S1024x720 .bf16) (x7 : Vec F S256x720 .bf16) (x8 : Vec F S256x256 .bf16) (x9 : Vec F S256x256 .bf16) (x10 : Vec F S256x256 .bf16) (x11 : Vec F S768x256 .bf16) : FVec F S1024x256 .f32 :=
  k0_pay6 (View.ld x0 (Rect.unit (s := S1024x720) ![0, 0] S1024x720.size inb_S1024x720_S1024x720_0_0)) (View.ld x7 (Rect.unit (s := S256x720) ![0, 0] S256x720.size inb_S256x720_S256x720_0_0)) (View.ld x8 (Rect.unit (s := S256x256) ![0, 0] S256x256.size inb_S256x256_S256x256_0_0)) (View.ld x9 (Rect.unit (s := S256x256) ![0, 0] S256x256.size inb_S256x256_S256x256_0_0)) (View.ld x10 (Rect.unit (s := S256x256) ![0, 0] S256x256.size inb_S256x256_S256x256_0_0)) (View.ld x11 (Rect.unit (s := S768x256) ![0, 0] S768x256.size inb_S768x256_S768x256_0_0))
/-- The body's value `%34` as a function of the blocks it was computed from. -/
abbrev b_v34 (x0 : Vec F S1024x720 .bf16) (x7 : Vec F S256x720 .bf16) (x8 : Vec F S256x256 .bf16) (x9 : Vec F S256x256 .bf16) (x10 : Vec F S256x256 .bf16) (x11 : Vec F S768x256 .bf16) : FVec F S1024x256 .f32 :=
  k0_pay7 (View.ld x0 (Rect.unit (s := S1024x720) ![0, 0] S1024x720.size inb_S1024x720_S1024x720_0_0)) (View.ld x7 (Rect.unit (s := S256x720) ![0, 0] S256x720.size inb_S256x720_S256x720_0_0)) (View.ld x8 (Rect.unit (s := S256x256) ![0, 0] S256x256.size inb_S256x256_S256x256_0_0)) (View.ld x9 (Rect.unit (s := S256x256) ![0, 0] S256x256.size inb_S256x256_S256x256_0_0)) (View.ld x10 (Rect.unit (s := S256x256) ![0, 0] S256x256.size inb_S256x256_S256x256_0_0)) (View.ld x11 (Rect.unit (s := S768x256) ![0, 0] S768x256.size inb_S768x256_S768x256_0_0))
/-- The body's value `%35` as a function of the blocks it was computed from. -/
abbrev b_v35 (x4 : Vec F S1024x256 .f32) (x12 : Vec F S768x256 .bf16) : FVec F S1024x256 .f32 :=
  k0_pay8 (View.ld x4 (Rect.unit (s := S1024x256) ![0, 0] S1024x256.size inb_S1024x256_S1024x256_0_0)) (View.ld x12 (Rect.unit (s := S768x256) ![0, 0] S768x256.size inb_S768x256_S768x256_0_0))
/-- The body's value `%36` as a function of the blocks it was computed from. -/
abbrev b_v36 (x4 : Vec F S1024x256 .f32) (x12 : Vec F S768x256 .bf16) : FVec F S1024x256 .f32 :=
  k0_pay9 (View.ld x4 (Rect.unit (s := S1024x256) ![0, 0] S1024x256.size inb_S1024x256_S1024x256_0_0)) (View.ld x12 (Rect.unit (s := S768x256) ![0, 0] S768x256.size inb_S768x256_S768x256_0_0))
/-- The body's value `%49` as a function of the blocks it was computed from. -/
abbrev b_v49 (x0 : Vec F S1024x720 .bf16) (x4 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) : FVec F S1024x256 .f32 :=
  k0_pay10 (View.ld x4 (Rect.unit (s := S1024x256) ![0, 0] S1024x256.size inb_S1024x256_S1024x256_0_0)) (b_v31 x4 x12) (b_v32 x0 x7 x8 x9 x10 x11) (b_v33 x0 x7 x8 x9 x10 x11) (b_v34 x0 x7 x8 x9 x10 x11) (b_v35 x4 x12) (b_v36 x4 x12)
/-- The body's value `%55` as a function of the blocks it was computed from. -/
abbrev b_v55 (x0 : Vec F S1024x720 .bf16) (x4 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) : FVec F S1024x256 .f32 :=
  k0_pay11 (View.ld x4 (Rect.unit (s := S1024x256) ![0, 0] S1024x256.size inb_S1024x256_S1024x256_0_0)) (b_v31 x4 x12) (b_v32 x0 x7 x8 x9 x10 x11) (b_v33 x0 x7 x8 x9 x10 x11) (b_v34 x0 x7 x8 x9 x10 x11) (b_v35 x4 x12) (b_v36 x4 x12) (View.ld x13 (Rect.unit (s := S256x256) ![0, 0] S256x256.size inb_S256x256_S256x256_0_0))
/-- The body's value `%82` as a function of the blocks it was computed from. -/
abbrev b_v82 (x0 : Vec F S1024x720 .bf16) (x4 : Vec F S1024x256 .f32) (x5 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) : FVec F S1024x256 .f32 :=
  k0_pay12 (View.ld x4 (Rect.unit (s := S1024x256) ![0, 0] S1024x256.size inb_S1024x256_S1024x256_0_0)) (b_v31 x4 x12) (b_v32 x0 x7 x8 x9 x10 x11) (b_v33 x0 x7 x8 x9 x10 x11) (b_v34 x0 x7 x8 x9 x10 x11) (b_v35 x4 x12) (b_v36 x4 x12) (View.ld x13 (Rect.unit (s := S256x256) ![0, 0] S256x256.size inb_S256x256_S256x256_0_0)) (View.ld x5 (Rect.unit (s := S1024x256) ![0, 0] S1024x256.size inb_S1024x256_S1024x256_0_0)) (View.ld x14 (Rect.unit (s := S768x256) ![0, 0] S768x256.size inb_S768x256_S768x256_0_0)) (View.ld x15 (Rect.unit (s := S768x256) ![0, 0] S768x256.size inb_S768x256_S768x256_0_0))
/-- The body's value `%83` as a function of the blocks it was computed from. -/
abbrev b_v83 (x0 : Vec F S1024x720 .bf16) (x4 : Vec F S1024x256 .f32) (x5 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) : FVec F S1024x256 .bf16 :=
  k0_pay13 (View.ld x4 (Rect.unit (s := S1024x256) ![0, 0] S1024x256.size inb_S1024x256_S1024x256_0_0)) (b_v31 x4 x12) (b_v32 x0 x7 x8 x9 x10 x11) (b_v33 x0 x7 x8 x9 x10 x11) (b_v34 x0 x7 x8 x9 x10 x11) (b_v35 x4 x12) (b_v36 x4 x12) (View.ld x13 (Rect.unit (s := S256x256) ![0, 0] S256x256.size inb_S256x256_S256x256_0_0)) (View.ld x5 (Rect.unit (s := S1024x256) ![0, 0] S1024x256.size inb_S1024x256_S1024x256_0_0)) (View.ld x14 (Rect.unit (s := S768x256) ![0, 0] S768x256.size inb_S768x256_S768x256_0_0)) (View.ld x15 (Rect.unit (s := S768x256) ![0, 0] S768x256.size inb_S768x256_S768x256_0_0))
/-- The body's value `%115` as a function of the blocks it was computed from. -/
abbrev b_v115 (x0 : Vec F S1024x720 .bf16) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) : FVec F S1024x256 .f32 :=
  k0_pay15 (b_v82 x0 x4 x5 x7 x8 x9 x10 x11 x12 x13 x14 x15) (b_v83 x0 x4 x5 x7 x8 x9 x10 x11 x12 x13 x14 x15) (View.ld x16 (Rect.unit (s := S256x256) ![0, 0] S256x256.size inb_S256x256_S256x256_0_0)) (View.ld x6 (Rect.unit (s := S1024x256) ![0, 0] S1024x256.size inb_S1024x256_S1024x256_0_0)) (View.ld x17 (Rect.unit (s := S768x256) ![0, 0] S768x256.size inb_S768x256_S768x256_0_0)) (View.ld x18 (Rect.unit (s := S768x256) ![0, 0] S768x256.size inb_S768x256_S768x256_0_0))
/-- The body's value `%123` as a function of the blocks it was computed from. -/
abbrev b_v123 (x0 : Vec F S1024x720 .bf16) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) (x19 : Vec F S256x256 .bf16) : FVec F S1024x1024 .bf16 :=
  k0_pay16 (b_v22 x0 x7 x8 x9 x10) (b_v55 x0 x4 x7 x8 x9 x10 x11 x12 x13) (b_v82 x0 x4 x5 x7 x8 x9 x10 x11 x12 x13 x14 x15) (b_v83 x0 x4 x5 x7 x8 x9 x10 x11 x12 x13 x14 x15) (View.ld x16 (Rect.unit (s := S256x256) ![0, 0] S256x256.size inb_S256x256_S256x256_0_0)) (View.ld x6 (Rect.unit (s := S1024x256) ![0, 0] S1024x256.size inb_S1024x256_S1024x256_0_0)) (View.ld x17 (Rect.unit (s := S768x256) ![0, 0] S768x256.size inb_S768x256_S768x256_0_0)) (View.ld x18 (Rect.unit (s := S768x256) ![0, 0] S768x256.size inb_S768x256_S768x256_0_0)) (View.ld x19 (Rect.unit (s := S256x256) ![0, 0] S256x256.size inb_S256x256_S256x256_0_0))
/-- The body's value `%125` as a function of the blocks it was computed from. -/
abbrev b_v125 (x20 : Vec F S128x1024 .bf16) : FVec F S128x1024 .bf16 :=
  k0_pay17 (View.ld x20 (Rect.unit (s := S128x1024) ![0, 0] S128x1024.size inb_S128x1024_S128x1024_0_0))
/-- The body's value `%22` (what it stores into output 0) as a function of the blocks it was computed from. -/
abbrev b_st22 (x0 : Vec F S1024x720 .bf16) (x1 : Vec F S1024x40 .f32) (x2 : Vec F S1024x256 .f32) (x3 : Vec F S1024x1 .f32) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) (x19 : Vec F S256x256 .bf16) (x20 : Vec F S128x1024 .bf16) (x21 : Vec F S1x128 .f32) : FVec F S1024x256 .f32 :=
  k0_pay1 (b_v123 x0 x4 x5 x6 x7 x8 x9 x10 x11 x12 x13 x14 x15 x16 x17 x18 x19) (b_v125 x20) (constant S1024x128 .f32 0x00000000#32) (View.ld x21 (Rect.unit (s := S1x128) ![0, 0] S1x128.size inb_S1x128_S1x128_0_0)) (View.ld x1 (Rect.unit (s := S1024x40) ![0, 0] S1024x40.size inb_S1024x40_S1024x40_0_0)) (View.ld x3 (Rect.unit (s := S1024x1) ![0, 0] S1024x1.size inb_S1024x1_S1024x1_0_0)) (View.ld x2 (Rect.unit (s := S1024x256) ![0, 0] S1024x256.size inb_S1024x256_S1024x256_0_0))

/-- What the body leaves in each output window's staging buffer: its one store, covering the block. -/
def o22 (x0 : Vec F S1024x720 .bf16) (x1 : Vec F S1024x40 .f32) (x2 : Vec F S1024x256 .f32) (x3 : Vec F S1024x1 .f32) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) (x19 : Vec F S256x256 .bf16) (x20 : Vec F S128x1024 .bf16) (x21 : Vec F S1x128 .f32) : Vec F S1024x256 .f32 :=
  View.canon [⟨(Rect.unit (s := S1024x256) ![0, 0] S1024x256.size inb_S1024x256_S1024x256_0_0), b_st22 x0 x1 x2 x3 x4 x5 x6 x7 x8 x9 x10 x11 x12 x13 x14 x15 x16 x17 x18 x19 x20 x21⟩]
def o23 (x0 : Vec F S1024x720 .bf16) (x4 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) : Vec F S1024x256 .f32 :=
  View.canon [⟨(Rect.unit (s := S1024x256) ![0, 0] S1024x256.size inb_S1024x256_S1024x256_0_0), b_v49 x0 x4 x7 x8 x9 x10 x11 x12⟩]
def o24 (x0 : Vec F S1024x720 .bf16) (x4 : Vec F S1024x256 .f32) (x5 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) : Vec F S1024x256 .f32 :=
  View.canon [⟨(Rect.unit (s := S1024x256) ![0, 0] S1024x256.size inb_S1024x256_S1024x256_0_0), b_v82 x0 x4 x5 x7 x8 x9 x10 x11 x12 x13 x14 x15⟩]
def o25 (x0 : Vec F S1024x720 .bf16) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) : Vec F S1024x256 .f32 :=
  View.canon [⟨(Rect.unit (s := S1024x256) ![0, 0] S1024x256.size inb_S1024x256_S1024x256_0_0), b_v115 x0 x4 x5 x6 x7 x8 x9 x10 x11 x12 x13 x14 x15 x16 x17 x18⟩]

end Cert.KernelIdeal.Hand

end
-- ==== Proof.FrameKI.lean ====
/-
  The frame of the program: it runs to the end, faults nowhere and leaves its argument arrays as it found them.

  The program is host operations (the pitch gather, the two divisions by the gain, the concatenations that build the
  720-wide input row, the casts of the weights, the padded output weight and bias), ONE kernel region over 8 blocks of
  1024 batch rows, and one host slice after it. The kernel's body loads its 22 input blocks whole, computes, and stores
  each of its 4 output blocks whole, so what an output block holds after the body is a function of the input blocks
  alone (`o22` … `o25` below, over the values `b_v…` the body computes on the way). With that, the region is the
  library's pipelined launch: every input window's staging buffer holds its block at every point, every output window's
  block is written back at every point, and the arrays no window stands on are untouched.
-/
import proofs.«162228_j46806553592417_2_alg».proof.Proof.Gen.KernelIdeal.Launch
import proofs.«162228_j46806553592417_2_alg».proof.Proof.Gen.KernelIdeal.Skeleton
import proofs.«162228_j46806553592417_2_alg».proof.Proof.Gen.KernelIdeal.Points
import proofs.«162228_j46806553592417_2_alg».proof.Proof.BodyKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The host operations before the region, stretch by stretch. -/
abbrev preOps : List (List (HloOp τ sig (Elt F))) := [hostOps0, hostOps0_1, hostOps0_2, hostOps0_3, hostOps0_4, hostOps0_5, hostOps0_6, hostOps0_7, hostOps0_8]

/-- Core `c`'s buffers when the region is entered: the launch contents after the host operations before it. -/
abbrev V0 (c : Dev nD) : Valuation τ sig (Elt F) := StableHlo.after (List.flatten (preOps (F := F))) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host slice after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The slice after the region touches only the region's arrays and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array a window stands on (it writes only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## No host operation before the region writes an argument array -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, its block index has not moved). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (unfetched, its block index has not moved). -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (unfetched, its block index has not moved). -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (unfetched, its block index has not moved). -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (unfetched, its block index has not moved). -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (unfetched, its block index has not moved). -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (unfetched, its block index has not moved). -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (unfetched, its block index has not moved). -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (unfetched, its block index has not moved). -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (unfetched, its block index has not moved). -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not (unfetched, its block index has not moved). -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not (unfetched, its block index has not moved). -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, fetched there or not (unfetched, its block index has not moved). -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, fetched there or not (unfetched, its block index has not moved). -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point, fetched there or not (unfetched, its block index has not moved). -/
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point, fetched there or not (unfetched, its block index has not moved). -/
theorem before_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds its block at every point, fetched there or not (unfetched, its block index has not moved). -/
theorem before_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds its block at every point, fetched there or not (unfetched, its block index has not moved). -/
theorem before_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's staging buffer holds its block at every point, fetched there or not (unfetched, its block index has not moved). -/
theorem before_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's staging buffer holds its block at every point, fetched there or not (unfetched, its block index has not moved). -/
theorem before_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's staging buffer holds its block at every point, fetched there or not (unfetched, its block index has not moved). -/
theorem before_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's staging buffer holds its block at every point, fetched there or not (unfetched, its block index has not moved). -/
theorem before_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-! ## The body's stores cover their blocks -/

/-- A store of the whole block covers it. -/
theorem cover_whole (p0 : Vec F S1024x256 .f32) (y : S1024x256.Idx) :
    ∃ pc ∈ ([⟨(Rect.unit (s := S1024x256) ![0, 0] S1024x256.size inb_S1024x256_S1024x256_0_0), p0⟩] : List (View.Piece (Elt F) S1024x256 .f32)), y ∈ pc.1.set :=
  View.cover_of_tiled [⟨(Rect.unit (s := S1024x256) ![0, 0] S1024x256.size inb_S1024x256_S1024x256_0_0), p0⟩] S1024x256.size (by rfl) y

/-! ## The body's triple -/

set_option maxHeartbeats 4000000 in
/-- The kernel body on whole staging memrefs, the inputs' at contents `x0` … `x21` and the outputs' at anything, runs to
    the continuation holding the inputs' as they were and the outputs' at `o22` … `o25` of the inputs'. -/
theorem sound_kernel (c : Dev nD) (E : Set ℕ) (i : grid0.Coords) (arg1 : Memref sig .tc .vmem S1024x720 .bf16) (harg1 : arg1.IsWhole) (arg2 : Memref sig .tc .vmem S1024x40 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S256x720 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S768x256 .bf16) (harg12 : arg12.IsWhole) (arg13 : Memref sig .tc .vmem S768x256 .bf16) (harg13 : arg13.IsWhole) (arg14 : Memref sig .tc .vmem S256x256 .bf16) (harg14 : arg14.IsWhole) (arg15 : Memref sig .tc .vmem S768x256 .bf16) (harg15 : arg15.IsWhole) (arg16 : Memref sig .tc .vmem S768x256 .bf16) (harg16 : arg16.IsWhole) (arg17 : Memref sig .tc .vmem S256x256 .bf16) (harg17 : arg17.IsWhole) (arg18 : Memref sig .tc .vmem S768x256 .bf16) (harg18 : arg18.IsWhole) (arg19 : Memref sig .tc .vmem S768x256 .bf16) (harg19 : arg19.IsWhole) (arg20 : Memref sig .tc .vmem S256x256 .bf16) (harg20 : arg20.IsWhole) (arg21 : Memref sig .tc .vmem S128x1024 .bf16) (harg21 : arg21.IsWhole) (arg22 : Memref sig .tc .vmem S1x128 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole)
    (x0 : Vec F S1024x720 .bf16) (x1 : Vec F S1024x40 .f32) (x2 : Vec F S1024x256 .f32) (x3 : Vec F S1024x1 .f32) (x4 : Vec F S1024x256 .f32) (x5 : Vec F S1024x256 .f32) (x6 : Vec F S1024x256 .f32) (x7 : Vec F S256x720 .bf16) (x8 : Vec F S256x256 .bf16) (x9 : Vec F S256x256 .bf16) (x10 : Vec F S256x256 .bf16) (x11 : Vec F S768x256 .bf16) (x12 : Vec F S768x256 .bf16) (x13 : Vec F S256x256 .bf16) (x14 : Vec F S768x256 .bf16) (x15 : Vec F S768x256 .bf16) (x16 : Vec F S256x256 .bf16) (x17 : Vec F S768x256 .bf16) (x18 : Vec F S768x256 .bf16) (x19 : Vec F S256x256 .bf16) (x20 : Vec F S128x1024 .bf16) (x21 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21
        ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21
            ∗ owns (c : Thread nD τ) arg23 fullShare (o22 x0 x1 x2 x3 x4 x5 x6 x7 x8 x9 x10 x11 x12 x13 x14 x15 x16 x17 x18 x19 x20 x21) ∗ owns (c : Thread nD τ) arg24 fullShare (o23 x0 x4 x7 x8 x9 x10 x11 x12) ∗ owns (c : Thread nD τ) arg25 fullShare (o24 x0 x4 x5 x7 x8 x9 x10 x11 x12 x13 x14 x15) ∗ owns (c : Thread nD τ) arg26 fullShare (o25 x0 x4 x5 x6 x7 x8 x9 x10 x11 x12 x13 x14 x15 x16 x17 x18)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mlp_kernel_eq_skeleton]; unfold cc0__mlp_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro
    try dsimp only
    exact View.read_writes_eq_canon _ _ _ (cover_whole _)
  isplitl [H23]
  · iexists _; isplitr
    swap; · iexact H23
    ipureintro
    try dsimp only
    exact View.read_writes_eq_canon _ _ _ (cover_whole _)
  isplitl [H24]
  · iexists _; isplitr
    swap; · iexact H24
    ipureintro
    try dsimp only
    exact View.read_writes_eq_canon _ _ _ (cover_whole _)
  iexists _; isplitr
  swap; · iexact H25
  ipureintro
  try dsimp only
  exact View.read_writes_eq_canon _ _ _ (cover_whole _)

/-! ## The region's proof data -/

/-- On core `c`: the arrays as the region finds them; after the body at point `t` each input's buffer at its block and
    each output's at what the body computes from the input blocks; nothing of the body's own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => o22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨23, _⟩ => o23 (iblk m c 0 t) (iblk m c 4 t) (iblk m c 7 t) (iblk m c 8 t) (iblk m c 9 t) (iblk m c 10 t) (iblk m c 11 t) (iblk m c 12 t)
    | ⟨24, _⟩ => o24 (iblk m c 0 t) (iblk m c 4 t) (iblk m c 5 t) (iblk m c 7 t) (iblk m c 8 t) (iblk m c 9 t) (iblk m c 10 t) (iblk m c 11 t) (iblk m c 12 t) (iblk m c 13 t) (iblk m c 14 t) (iblk m c 15 t)
    | ⟨25, _⟩ => o25 (iblk m c 0 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = o22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after_23 (c : Dev nD) (t : Fin cfg0.N) : (dats m 0 c).after 23 t = o23 (iblk m c 0 t) (iblk m c 4 t) (iblk m c 7 t) (iblk m c 8 t) (iblk m c 9 t) (iblk m c 10 t) (iblk m c 11 t) (iblk m c 12 t) := by dsimp only [dats]
theorem after_24 (c : Dev nD) (t : Fin cfg0.N) : (dats m 0 c).after 24 t = o24 (iblk m c 0 t) (iblk m c 4 t) (iblk m c 5 t) (iblk m c 7 t) (iblk m c 8 t) (iblk m c 9 t) (iblk m c 10 t) (iblk m c 11 t) (iblk m c 12 t) (iblk m c 13 t) (iblk m c 14 t) (iblk m c 15 t) := by dsimp only [dats]
theorem after_25 (c : Dev nD) (t : Fin cfg0.N) : (dats m 0 c).after 25 t = o25 (iblk m c 0 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d
theorem before_15 (c : Dev nD) (t : Fin cfg0.N) (d) : (dats m 0 c).before 15 t d = iblk m c 15 t :=
  before_15_of m (dats m 0 c) (A_eq m c 15) (after_15 m c) t d
theorem before_16 (c : Dev nD) (t : Fin cfg0.N) (d) : (dats m 0 c).before 16 t d = iblk m c 16 t :=
  before_16_of m (dats m 0 c) (A_eq m c 16) (after_16 m c) t d
theorem before_17 (c : Dev nD) (t : Fin cfg0.N) (d) : (dats m 0 c).before 17 t d = iblk m c 17 t :=
  before_17_of m (dats m 0 c) (A_eq m c 17) (after_17 m c) t d
theorem before_18 (c : Dev nD) (t : Fin cfg0.N) (d) : (dats m 0 c).before 18 t d = iblk m c 18 t :=
  before_18_of m (dats m 0 c) (A_eq m c 18) (after_18 m c) t d
theorem before_19 (c : Dev nD) (t : Fin cfg0.N) (d) : (dats m 0 c).before 19 t d = iblk m c 19 t :=
  before_19_of m (dats m 0 c) (A_eq m c 19) (after_19 m c) t d
theorem before_20 (c : Dev nD) (t : Fin cfg0.N) (d) : (dats m 0 c).before 20 t d = iblk m c 20 t :=
  before_20_of m (dats m 0 c) (A_eq m c 20) (after_20 m c) t d
theorem before_21 (c : Dev nD) (t : Fin cfg0.N) (d) : (dats m 0 c).before 21 t d = iblk m c 21 t :=
  before_21_of m (dats m 0 c) (A_eq m c 21) (after_21 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 4000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

set_option maxHeartbeats 4000000 in
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; at the end every array a window stands on holds
    what the library computes from the proof data, and every other buffer what the slice after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The argument arrays end as they began -/

theorem kept_main_arg0 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).2 main_arg0 (Pipeline.mem_restRefs_of main_arg0 rfl (by decide))).trans (by
    unfold Pipeline.afterTail₀
    rw [StableHlo.after_of_forall_not_mem (b := Proc.devRef .tc main_arg0) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg0 (by decide)]
    exact V_main_arg0 m c)
theorem kept_main_arg1 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).2 main_arg1 (Pipeline.mem_restRefs_of main_arg1 rfl (by decide))).trans (by
    unfold Pipeline.afterTail₀
    rw [StableHlo.after_of_forall_not_mem (b := Proc.devRef .tc main_arg1) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg1 (by decide)]
    exact V_main_arg1 m c)
theorem kept_main_arg2 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
theorem kept_main_arg3 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).2 main_arg3 (Pipeline.mem_restRefs_of main_arg3 rfl (by decide))).trans (by
    unfold Pipeline.afterTail₀
    rw [StableHlo.after_of_forall_not_mem (b := Proc.devRef .tc main_arg3) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg3 (by decide)]
    exact V_main_arg3 m c)
theorem kept_main_arg4 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).2 main_arg4 (Pipeline.mem_restRefs_of main_arg4 rfl (by decide))).trans (by
    unfold Pipeline.afterTail₀
    rw [StableHlo.after_of_forall_not_mem (b := Proc.devRef .tc main_arg4) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg4 (by decide)]
    exact V_main_arg4 m c)
theorem kept_main_arg5 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).1 4).trans (((dats m 0 c).arrAt_in 4 rfl _).trans ((A_eq m c 4).trans (V_main_arg5 m c)))
theorem kept_main_arg6 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).1 5).trans (((dats m 0 c).arrAt_in 5 rfl _).trans ((A_eq m c 5).trans (V_main_arg6 m c)))
theorem kept_main_arg7 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).1 6).trans (((dats m 0 c).arrAt_in 6 rfl _).trans ((A_eq m c 6).trans (V_main_arg7 m c)))
theorem kept_main_arg8 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).2 main_arg8 (Pipeline.mem_restRefs_of main_arg8 rfl (by decide))).trans (by
    unfold Pipeline.afterTail₀
    rw [StableHlo.after_of_forall_not_mem (b := Proc.devRef .tc main_arg8) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg8 (by decide)]
    exact V_main_arg8 m c)
theorem kept_main_arg9 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).1 3).trans (((dats m 0 c).arrAt_in 3 rfl _).trans ((A_eq m c 3).trans (V_main_arg9 m c)))
theorem kept_main_arg10 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) :=
  ((h c).2 main_arg10 (Pipeline.mem_restRefs_of main_arg10 rfl (by decide))).trans (by
    unfold Pipeline.afterTail₀
    rw [StableHlo.after_of_forall_not_mem (b := Proc.devRef .tc main_arg10) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg10 (by decide)]
    exact V_main_arg10 m c)
theorem kept_main_arg11 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg11) = m ((c.tc : Thread nD τ).loc main_arg11) :=
  ((h c).2 main_arg11 (Pipeline.mem_restRefs_of main_arg11 rfl (by decide))).trans (by
    unfold Pipeline.afterTail₀
    rw [StableHlo.after_of_forall_not_mem (b := Proc.devRef .tc main_arg11) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg11 (by decide)]
    exact V_main_arg11 m c)
theorem kept_main_arg12 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg12) = m ((c.tc : Thread nD τ).loc main_arg12) :=
  ((h c).2 main_arg12 (Pipeline.mem_restRefs_of main_arg12 rfl (by decide))).trans (by
    unfold Pipeline.afterTail₀
    rw [StableHlo.after_of_forall_not_mem (b := Proc.devRef .tc main_arg12) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg12 (by decide)]
    exact V_main_arg12 m c)
theorem kept_main_arg13 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg13) = m ((c.tc : Thread nD τ).loc main_arg13) :=
  ((h c).2 main_arg13 (Pipeline.mem_restRefs_of main_arg13 rfl (by decide))).trans (by
    unfold Pipeline.afterTail₀
    rw [StableHlo.after_of_forall_not_mem (b := Proc.devRef .tc main_arg13) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg13 (by decide)]
    exact V_main_arg13 m c)
theorem kept_main_arg14 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg14) = m ((c.tc : Thread nD τ).loc main_arg14) :=
  ((h c).2 main_arg14 (Pipeline.mem_restRefs_of main_arg14 rfl (by decide))).trans (by
    unfold Pipeline.afterTail₀
    rw [StableHlo.after_of_forall_not_mem (b := Proc.devRef .tc main_arg14) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg14 (by decide)]
    exact V_main_arg14 m c)
theorem kept_main_arg15 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg15) = m ((c.tc : Thread nD τ).loc main_arg15) :=
  ((h c).2 main_arg15 (Pipeline.mem_restRefs_of main_arg15 rfl (by decide))).trans (by
    unfold Pipeline.afterTail₀
    rw [StableHlo.after_of_forall_not_mem (b := Proc.devRef .tc main_arg15) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg15 (by decide)]
    exact V_main_arg15 m c)
theorem kept_main_arg16 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg16) = m ((c.tc : Thread nD τ).loc main_arg16) :=
  ((h c).2 main_arg16 (Pipeline.mem_restRefs_of main_arg16 rfl (by decide))).trans (by
    unfold Pipeline.afterTail₀
    rw [StableHlo.after_of_forall_not_mem (b := Proc.devRef .tc main_arg16) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg16 (by decide)]
    exact V_main_arg16 m c)
theorem kept_main_arg17 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg17) = m ((c.tc : Thread nD τ).loc main_arg17) :=
  ((h c).2 main_arg17 (Pipeline.mem_restRefs_of main_arg17 rfl (by decide))).trans (by
    unfold Pipeline.afterTail₀
    rw [StableHlo.after_of_forall_not_mem (b := Proc.devRef .tc main_arg17) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg17 (by decide)]
    exact V_main_arg17 m c)
theorem kept_main_arg18 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg18) = m ((c.tc : Thread nD τ).loc main_arg18) :=
  ((h c).2 main_arg18 (Pipeline.mem_restRefs_of main_arg18 rfl (by decide))).trans (by
    unfold Pipeline.afterTail₀
    rw [StableHlo.after_of_forall_not_mem (b := Proc.devRef .tc main_arg18) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg18 (by decide)]
    exact V_main_arg18 m c)
theorem kept_main_arg19 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg19) = m ((c.tc : Thread nD τ).loc main_arg19) :=
  ((h c).2 main_arg19 (Pipeline.mem_restRefs_of main_arg19 rfl (by decide))).trans (by
    unfold Pipeline.afterTail₀
    rw [StableHlo.after_of_forall_not_mem (b := Proc.devRef .tc main_arg19) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg19 (by decide)]
    exact V_main_arg19 m c)
theorem kept_main_arg20 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg20) = m ((c.tc : Thread nD τ).loc main_arg20) :=
  ((h c).2 main_arg20 (Pipeline.mem_restRefs_of main_arg20 rfl (by decide))).trans (by
    unfold Pipeline.afterTail₀
    rw [StableHlo.after_of_forall_not_mem (b := Proc.devRef .tc main_arg20) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg20 (by decide)]
    exact V_main_arg20 m c)
theorem kept_main_arg21 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg21) = m ((c.tc : Thread nD τ).loc main_arg21) :=
  ((h c).2 main_arg21 (Pipeline.mem_restRefs_of main_arg21 rfl (by decide))).trans (by
    unfold Pipeline.afterTail₀
    rw [StableHlo.after_of_forall_not_mem (b := Proc.devRef .tc main_arg21) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg21 (by decide)]
    exact V_main_arg21 m c)
theorem kept_main_arg22 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg22) = m ((c.tc : Thread nD τ).loc main_arg22) :=
  ((h c).2 main_arg22 (Pipeline.mem_restRefs_of main_arg22 rfl (by decide))).trans (by
    unfold Pipeline.afterTail₀
    rw [StableHlo.after_of_forall_not_mem (b := Proc.devRef .tc main_arg22) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg22 (by decide)]
    exact V_main_arg22 m c)
theorem kept_main_arg23 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg23) = m ((c.tc : Thread nD τ).loc main_arg23) :=
  ((h c).2 main_arg23 (Pipeline.mem_restRefs_of main_arg23 rfl (by decide))).trans (by
    unfold Pipeline.afterTail₀
    rw [StableHlo.after_of_forall_not_mem (b := Proc.devRef .tc main_arg23) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg23 (by decide)]
    exact V_main_arg23 m c)
theorem kept_main_arg24 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg24) = m ((c.tc : Thread nD τ).loc main_arg24) :=
  ((h c).2 main_arg24 (Pipeline.mem_restRefs_of main_arg24 rfl (by decide))).trans (by
    unfold Pipeline.afterTail₀
    rw [StableHlo.after_of_forall_not_mem (b := Proc.devRef .tc main_arg24) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg24 (by decide)]
    exact V_main_arg24 m c)
theorem kept_main_arg25 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg25) = m ((c.tc : Thread nD τ).loc main_arg25) :=
  ((h c).2 main_arg25 (Pipeline.mem_restRefs_of main_arg25 rfl (by decide))).trans (by
    unfold Pipeline.afterTail₀
    rw [StableHlo.after_of_forall_not_mem (b := Proc.devRef .tc main_arg25) _ _ (List.forall_iff_forall_mem.mp (by
      simp only [hostOps1, List.flatten_cons, List.flatten_nil, List.append_nil, List.Forall, StableHlo.unary_writes, Finset.mem_singleton]
      exact StableHlo.devRef_ne_of_ne (by decide)))]
    rw [Pipeline.withArrays_of_ne spec0 c _ _ main_arg25 (by decide)]
    exact V_main_arg25 m c)

/-- THE FRAME: every weakly fair execution of @main terminates without a fault and every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c, kept_main_arg15 m r h c, kept_main_arg16 m r h c, kept_main_arg17 m r h c, kept_main_arg18 m r h c, kept_main_arg19 m r h c, kept_main_arg20 m r h c, kept_main_arg21 m r h c, kept_main_arg22 m r h c, kept_main_arg23 m r h c, kept_main_arg24 m r h c, kept_main_arg25 m r h c⟩) (run_main m ρ)

end Cert.KernelIdeal.Hand

end
-- ==== Proof.Net.lean ====
/-
  One batch row of the network, on the extended reals.

  Every operation of the forward step acts on one batch row at a time: a dense layer `lin w x j = Σ_k x_k · w_{j,k}`
  (each weight matrix is stored output-feature-major, so both programs contract the input feature against the weight's
  second axis), `tanh`, the gated linear unit `x ⊙ σ(W x)`, and the GRU cell with its three gates r, z, n stacked along
  the 768 output features of its two weight matrices. The row's results are the three new GRU states and the new
  excitation memory: the old memory shifted left by one subframe (40 samples) with the new subframe appended, the new
  subframe being `(tanh(S f) + exp(g·f + b) · pitch) · gain` over the 1024 features `f` (the three gated GRU outputs and
  the second dense layer's output side by side).

  The last dense layer comes in two spellings. One program applies the 40-row matrix `S` and the pitch-gain row `g` with
  its bias `b` separately (`subframe`); the other applies ONE 128-row matrix with a 128-entry bias row, of which rows
  0 … 39 are `S` with bias 0 and row 40 is `g` with bias `b` (`subframeFused`): `subframeFused_eq` says they agree,
  since `x + 0 = x` on the extended reals, at the infinities too.
-/
import Idealize.ShloMosaic.PureOps.Ideal
import Idealize.ShloMosaic.Lib.ValueIdx

noncomputable section

namespace Cert.Net

open Idealize.ShloMosaic

/-- The f32 word of 1.0, as both programs write it in `1 - z`. -/
abbrev one : EReal := Ideal.ofBits .f32 0x3F800000#32

/-- Output feature `j` of a dense layer without bias: `Σ_k x_k · w_{j,k}`. -/
def lin {K N : ℕ} (w : Fin N → Fin K → EReal) (x : Fin K → EReal) (j : Fin N) : EReal :=
  ∑ k : Fin K, x k * w j k

/-- A dense layer followed by `tanh`. -/
def dense {K : ℕ} (w : Fin 256 → Fin K → EReal) (x : Fin K → EReal) (j : Fin 256) : EReal :=
  Ideal.tanh (lin w x j)

/-- The gated linear unit `x ⊙ σ(W x)`. -/
def glu (w : Fin 256 → Fin 256 → EReal) (x : Fin 256 → EReal) (j : Fin 256) : EReal :=
  x j * Ideal.logistic (lin w x j)

/-- Row `g · 256 + j` of a GRU weight matrix: gate `g` (0 = r, 1 = z, 2 = n) of hidden unit `j`. -/
def gate (g : Fin 3) (j : Fin 256) : Fin 768 := ⟨g.val * 256 + j.val, by omega⟩

/-- The GRU cell without biases: `r = σ(i_r + h_r)`, `z = σ(i_z + h_z)`, `n = tanh(i_n + r · h_n)`,
    new state `(1 - z) · n + z · h`. -/
def gru (wih whh : Fin 768 → Fin 256 → EReal) (x h : Fin 256 → EReal) (j : Fin 256) : EReal :=
  (one - Ideal.logistic (lin wih x (gate 1 j) + lin whh h (gate 1 j)))
      * Ideal.tanh (lin wih x (gate 2 j)
          + Ideal.logistic (lin wih x (gate 0 j) + lin whh h (gate 0 j)) * lin whh h (gate 2 j))
    + Ideal.logistic (lin wih x (gate 1 j) + lin whh h (gate 1 j)) * h j

/-- Four 256-wide rows side by side. -/
def cat4 (a b c d : Fin 256 → EReal) (l : Fin 1024) : EReal :=
  if l.val / 256 = 0 then a ⟨l.val % 256, Nat.mod_lt _ (by norm_num)⟩
  else if l.val / 256 = 1 then b ⟨l.val % 256, Nat.mod_lt _ (by norm_num)⟩
  else if l.val / 256 = 2 then c ⟨l.val % 256, Nat.mod_lt _ (by norm_num)⟩
  else d ⟨l.val % 256, Nat.mod_lt _ (by norm_num)⟩

/-- The weights of the layers up to the features. -/
structure Trunk where
  fwc0 : Fin 256 → Fin 720 → EReal
  fwc0g : Fin 256 → Fin 256 → EReal
  d2 : Fin 256 → Fin 256 → EReal
  d2g : Fin 256 → Fin 256 → EReal
  ih1 : Fin 768 → Fin 256 → EReal
  hh1 : Fin 768 → Fin 256 → EReal
  g1 : Fin 256 → Fin 256 → EReal
  ih2 : Fin 768 → Fin 256 → EReal
  hh2 : Fin 768 → Fin 256 → EReal
  g2 : Fin 256 → Fin 256 → EReal
  ih3 : Fin 768 → Fin 256 → EReal
  hh3 : Fin 768 → Fin 256 → EReal
  g3 : Fin 256 → Fin 256 → EReal

variable (W : Trunk) (x : Fin 720 → EReal) (s0 s1 s2 : Fin 256 → EReal)

/-- The frame-wise convolution layer: dense over (state, input), `tanh`, gate. -/
def fw : Fin 256 → EReal := glu W.fwc0g (dense W.fwc0 x)
/-- The second dense layer, gated. -/
def d2o : Fin 256 → EReal := glu W.d2g (dense W.d2 (fw W x))
/-- The three GRU states and their gated outputs. -/
def h1 : Fin 256 → EReal := gru W.ih1 W.hh1 (d2o W x) s0
def y1 : Fin 256 → EReal := glu W.g1 (h1 W x s0)
def h2 : Fin 256 → EReal := gru W.ih2 W.hh2 (y1 W x s0) s1
def y2 : Fin 256 → EReal := glu W.g2 (h2 W x s0 s1)
def h3 : Fin 256 → EReal := gru W.ih3 W.hh3 (y2 W x s0 s1) s2
def y3 : Fin 256 → EReal := glu W.g3 (h3 W x s0 s1 s2)
/-- The 1024 features the output layer reads. -/
def feat : Fin 1024 → EReal := cat4 (y1 W x s0) (y2 W x s0 s1) (y3 W x s0 s1 s2) (d2o W x)

/-- The new subframe from the features `f`: signal matrix `S`, pitch-gain row `g` and bias `b` applied separately. -/
def subframe (S : Fin 40 → Fin 1024 → EReal) (g : Fin 1024 → EReal) (b : EReal) (f : Fin 1024 → EReal)
    (pitch : Fin 40 → EReal) (gain : EReal) (j : Fin 40) : EReal :=
  (Ideal.tanh (lin S f j) + Ideal.exp ((∑ k : Fin 1024, f k * g k) + b) * pitch j) * gain

/-- The new subframe from ONE 128-row matrix `M` with bias row `c`: rows 0 … 39 the signal, row 40 the pitch gain. -/
def subframeFused (M : Fin 128 → Fin 1024 → EReal) (c : Fin 128 → EReal) (f : Fin 1024 → EReal)
    (pitch : Fin 40 → EReal) (gain : EReal) (j : Fin 40) : EReal :=
  (Ideal.tanh (lin M f ⟨j.val, by omega⟩ + c ⟨j.val, by omega⟩)
      + Ideal.exp (lin M f ⟨40, by norm_num⟩ + c ⟨40, by norm_num⟩) * pitch j) * gain

/-- The fused spelling is the separate one when the fused matrix stacks `S` over `g` and the bias row is 0 over `b`. -/
theorem subframeFused_eq (M : Fin 128 → Fin 1024 → EReal) (c : Fin 128 → EReal)
    (S : Fin 40 → Fin 1024 → EReal) (g : Fin 1024 → EReal) (b : EReal) (f : Fin 1024 → EReal)
    (pitch : Fin 40 → EReal) (gain : EReal)
    (hS : ∀ (j : Fin 40) (k : Fin 1024), M ⟨j.val, by omega⟩ k = S j k)
    (hg : ∀ k : Fin 1024, M ⟨40, by norm_num⟩ k = g k)
    (hc0 : ∀ j : Fin 40, c ⟨j.val, by omega⟩ = 0) (hcb : c ⟨40, by norm_num⟩ = b) (j : Fin 40) :
    subframeFused M c f pitch gain j = subframe S g b f pitch gain j := by
  unfold subframeFused subframe lin
  rw [hc0 j, add_zero, hcb]
  simp only [hS, hg]

/-- The new excitation memory: the old one shifted left by 40 samples, the new subframe appended. -/
def excNew (em : Fin 256 → EReal) (sub : Fin 40 → EReal) (q : Fin 256) : EReal :=
  if h : q.val < 216 then em ⟨q.val + 40, by omega⟩ else sub ⟨q.val - 216, by omega⟩

/-! ## Rows and matrices read off arrays -/

open Idealize.ShloMosaic.ValueIdx

/-- Row `p` of a matrix-shaped array. -/
def rowOf {A B : ℕ} (x : (⟨2, ![A, B]⟩ : Shape).Idx → EReal) (p : Fin A) : Fin B → EReal := fun k => x (ix2 p k)

/-- A matrix-shaped array as a function of its two coordinates. -/
def matOf {A B : ℕ} (x : (⟨2, ![A, B]⟩ : Shape).Idx → EReal) : Fin A → Fin B → EReal := fun j k => x (ix2 j k)

/-- The trunk's weights read off the thirteen weight arrays, in the programs' argument order. -/
def trunkOf (w0 : (⟨2, ![256, 720]⟩ : Shape).Idx → EReal) (w1 w2 w3 : (⟨2, ![256, 256]⟩ : Shape).Idx → EReal)
    (w4 w5 : (⟨2, ![768, 256]⟩ : Shape).Idx → EReal) (w6 : (⟨2, ![256, 256]⟩ : Shape).Idx → EReal)
    (w7 w8 : (⟨2, ![768, 256]⟩ : Shape).Idx → EReal) (w9 : (⟨2, ![256, 256]⟩ : Shape).Idx → EReal)
    (w10 w11 : (⟨2, ![768, 256]⟩ : Shape).Idx → EReal) (w12 : (⟨2, ![256, 256]⟩ : Shape).Idx → EReal) : Trunk where
  fwc0 := matOf w0
  fwc0g := matOf w1
  d2 := matOf w2
  d2g := matOf w3
  ih1 := matOf w4
  hh1 := matOf w5
  g1 := matOf w6
  ih2 := matOf w7
  hh2 := matOf w8
  g2 := matOf w9
  ih3 := matOf w10
  hh3 := matOf w11
  g3 := matOf w12

end Cert.Net

end
-- ==== Proof.ArrBase.lean ====
/-
  The arrays the kernel region finds, named as functions on the extended reals, and the windows' index maps decided
  over the 8 points of the grid: a batch-major window (the input rows, the pitch window, the excitation memory, the gain,
  the three GRU states, the four outputs) is at block `t` on the rows and block 0 on the columns at point `t`; a weight
  window is at block 0 on both.
-/
import proofs.«162228_j46806553592417_2_alg».proof.Proof.FrameKI
import proofs.«162228_j46806553592417_2_alg».proof.Proof.Net
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (mI : (ℓ : Loc nD τ sig) → Buf (Elt Ideal) ℓ) (ρ : Dev nD → PrngReg)

/-! ## The arrays the region finds, as functions on the extended reals -/

abbrev Xc (c : Dev nD) : S8192x720.Idx → EReal := V mI c main_v24
abbrev Pm (c : Dev nD) : S8192x40.Idx → EReal := V mI c main_v20
abbrev Em (c : Dev nD) : S8192x256.Idx → EReal := V mI c main_arg2
abbrev Gn (c : Dev nD) : S8192x1.Idx → EReal := V mI c main_arg9
abbrev S0 (c : Dev nD) : S8192x256.Idx → EReal := V mI c main_arg5
abbrev S1 (c : Dev nD) : S8192x256.Idx → EReal := V mI c main_arg6
abbrev S2 (c : Dev nD) : S8192x256.Idx → EReal := V mI c main_arg7
abbrev Wt0 (c : Dev nD) : S256x720.Idx → EReal := V mI c main_v25
abbrev Wt1 (c : Dev nD) : S256x256.Idx → EReal := V mI c main_v26
abbrev Wt2 (c : Dev nD) : S256x256.Idx → EReal := V mI c main_v27
abbrev Wt3 (c : Dev nD) : S256x256.Idx → EReal := V mI c main_v28
abbrev Wt4 (c : Dev nD) : S768x256.Idx → EReal := V mI c main_v29
abbrev Wt5 (c : Dev nD) : S768x256.Idx → EReal := V mI c main_v30
abbrev Wt6 (c : Dev nD) : S256x256.Idx → EReal := V mI c main_v31
abbrev Wt7 (c : Dev nD) : S768x256.Idx → EReal := V mI c main_v32
abbrev Wt8 (c : Dev nD) : S768x256.Idx → EReal := V mI c main_v33
abbrev Wt9 (c : Dev nD) : S256x256.Idx → EReal := V mI c main_v34
abbrev Wt10 (c : Dev nD) : S768x256.Idx → EReal := V mI c main_v35
abbrev Wt11 (c : Dev nD) : S768x256.Idx → EReal := V mI c main_v36
abbrev Wt12 (c : Dev nD) : S256x256.Idx → EReal := V mI c main_v37
abbrev Wf (c : Dev nD) : S128x1024.Idx → EReal := V mI c main_v40
abbrev Bf (c : Dev nD) : S1x128.Idx → EReal := V mI c main_v44

/-- The trunk's weights as the region finds them. -/
def trunkV (c : Dev nD) : Cert.Net.Trunk :=
  Cert.Net.trunkOf (Wt0 mI c) (Wt1 mI c) (Wt2 mI c) (Wt3 mI c) (Wt4 mI c) (Wt5 mI c) (Wt6 mI c) (Wt7 mI c) (Wt8 mI c) (Wt9 mI c) (Wt10 mI c) (Wt11 mI c) (Wt12 mI c)

/-! ## The index maps, decided over the grid -/

theorem hz : (![0, 0] : Fin 2 → Nat) = fun _ => 0 := funext fun a => by fin_cases a <;> rfl

/-- A batch-major window's block index is the point on the rows and 0 on the columns; a weight window's is 0 on both. -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 2) = 0 ∧ win0_19.index t (1 : Fin 2) = 0 :=
  (by decide +kernel : ∀ t : Fin grid0.N, _)
theorem idx_20 : ∀ t : Fin cfg0.N, win0_20.index t (0 : Fin 2) = 0 ∧ win0_20.index t (1 : Fin 2) = 0 :=
  (by decide +kernel : ∀ t : Fin grid0.N, _)
theorem idx_21 : ∀ t : Fin cfg0.N, win0_21.index t (0 : Fin 2) = 0 ∧ win0_21.index t (1 : Fin 2) = 0 :=
  (by decide +kernel : ∀ t : Fin grid0.N, _)
theorem idx_22 : ∀ t : Fin cfg0.N, win0_22.index t (0 : Fin 2) = t.val ∧ win0_22.index t (1 : Fin 2) = 0 :=
  (by decide +kernel : ∀ t : Fin grid0.N, _)
theorem idx_23 : ∀ t : Fin cfg0.N, win0_23.index t (0 : Fin 2) = t.val ∧ win0_23.index t (1 : Fin 2) = 0 :=
  (by decide +kernel : ∀ t : Fin grid0.N, _)
theorem idx_24 : ∀ t : Fin cfg0.N, win0_24.index t (0 : Fin 2) = t.val ∧ win0_24.index t (1 : Fin 2) = 0 :=
  (by decide +kernel : ∀ t : Fin grid0.N, _)
theorem idx_25 : ∀ t : Fin cfg0.N, win0_25.index t (0 : Fin 2) = t.val ∧ win0_25.index t (1 : Fin 2) = 0 :=
  (by decide +kernel : ∀ t : Fin grid0.N, _)

end Cert.KernelIdeal.Hand

end
-- ==== Proof.ArrBlkA.lean ====
/-
  A batch-major block's entry `(p, k)` at point `t` is the array's entry `(1024·t + p, k)`.
-/
import proofs.«162228_j46806553592417_2_alg».proof.Proof.ArrBase

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (mI : (ℓ : Loc nD τ sig) → Buf (Elt Ideal) ℓ) (ρ : Dev nD → PrngReg)

/-! ## A block's entry is the array's -/

theorem iblk_0_apply (c : Dev nD) (t : Fin cfg0.N) (p : Fin 1024) (k : Fin 720) :
    iblk mI c 0 t (ix2 p k) = Xc mI c (ix2 ⟨t.val * 1024 + p.val, by have := t.isLt; have h8 : cfg0.N = 8 := N_0; omega⟩ k) := by
  show V mI c main_v24 (((cfg0.win 0).blk t).view.emb (ix2 p k)) = _
  refine congrArg _ (funext fun a => Fin.ext ?_)
  obtain ⟨e0, e1⟩ := idx_0 t
  match a with
  | ⟨0, _⟩ => show win0_0.index t (0 : Fin 2) * 1024 + 1 * p.val = t.val * 1024 + p.val; omega
  | ⟨1, _⟩ => show win0_0.index t (1 : Fin 2) * 720 + 1 * k.val = k.val; omega
theorem iblk_1_apply (c : Dev nD) (t : Fin cfg0.N) (p : Fin 1024) (k : Fin 40) :
    iblk mI c 1 t (ix2 p k) = Pm mI c (ix2 ⟨t.val * 1024 + p.val, by have := t.isLt; have h8 : cfg0.N = 8 := N_0; omega⟩ k) := by
  show V mI c main_v20 (((cfg0.win 1).blk t).view.emb (ix2 p k)) = _
  refine congrArg _ (funext fun a => Fin.ext ?_)
  obtain ⟨e0, e1⟩ := idx_1 t
  match a with
  | ⟨0, _⟩ => show win0_1.index t (0 : Fin 2) * 1024 + 1 * p.val = t.val * 1024 + p.val; omega
  | ⟨1, _⟩ => show win0_1.index t (1 : Fin 2) * 40 + 1 * k.val = k.val; omega
theorem iblk_2_apply (c : Dev nD) (t : Fin cfg0.N) (p : Fin 1024) (k : Fin 256) :
    iblk mI c 2 t (ix2 p k) = Em mI c (ix2 ⟨t.val * 1024 + p.val, by have := t.isLt; have h8 : cfg0.N = 8 := N_0; omega⟩ k) := by
  show V mI c main_arg2 (((cfg0.win 2).blk t).view.emb (ix2 p k)) = _
  refine congrArg _ (funext fun a => Fin.ext ?_)
  obtain ⟨e0, e1⟩ := idx_2 t
  match a with
  | ⟨0, _⟩ => show win0_2.index t (0 : Fin 2) * 1024 + 1 * p.val = t.val * 1024 + p.val; omega
  | ⟨1, _⟩ => show win0_2.index t (1 : Fin 2) * 256 + 1 * k.val = k.val; omega
theorem iblk_3_apply (c : Dev nD) (t : Fin cfg0.N) (p : Fin 1024) (k : Fin 1) :
    iblk mI c 3 t (ix2 p k) = Gn mI c (ix2 ⟨t.val * 1024 + p.val, by have := t.isLt; have h8 : cfg0.N = 8 := N_0; omega⟩ k) := by
  show V mI c main_arg9 (((cfg0.win 3).blk t).view.emb (ix2 p k)) = _
  refine congrArg _ (funext fun a => Fin.ext ?_)
  obtain ⟨e0, e1⟩ := idx_3 t
  match a with
  | ⟨0, _⟩ => show win0_3.index t (0 : Fin 2) * 1024 + 1 * p.val = t.val * 1024 + p.val; omega
  | ⟨1, _⟩ => show win0_3.index t (1 : Fin 2) * 1 + 1 * k.val = k.val; omega
theorem iblk_4_apply (c : Dev nD) (t : Fin cfg0.N) (p : Fin 1024) (k : Fin 256) :
    iblk mI c 4 t (ix2 p k) = S0 mI c (ix2 ⟨t.val * 1024 + p.val, by have := t.isLt; have h8 : cfg0.N = 8 := N_0; omega⟩ k) := by
  show V mI c main_arg5 (((cfg0.win 4).blk t).view.emb (ix2 p k)) = _
  refine congrArg _ (funext fun a => Fin.ext ?_)
  obtain ⟨e0, e1⟩ := idx_4 t
  match a with
  | ⟨0, _⟩ => show win0_4.index t (0 : Fin 2) * 1024 + 1 * p.val = t.val * 1024 + p.val; omega
  | ⟨1, _⟩ => show win0_4.index t (1 : Fin 2) * 256 + 1 * k.val = k.val; omega
theorem iblk_5_apply (c : Dev nD) (t : Fin cfg0.N) (p : Fin 1024) (k : Fin 256) :
    iblk mI c 5 t (ix2 p k) = S1 mI c (ix2 ⟨t.val * 1024 + p.val, by have := t.isLt; have h8 : cfg0.N = 8 := N_0; omega⟩ k) := by
  show V mI c main_arg6 (((cfg0.win 5).blk t).view.emb (ix2 p k)) = _
  refine congrArg _ (funext fun a => Fin.ext ?_)
  obtain ⟨e0, e1⟩ := idx_5 t
  match a with
  | ⟨0, _⟩ => show win0_5.index t (0 : Fin 2) * 1024 + 1 * p.val = t.val * 1024 + p.val; omega
  | ⟨1, _⟩ => show win0_5.index t (1 : Fin 2) * 256 + 1 * k.val = k.val; omega
theorem iblk_6_apply (c : Dev nD) (t : Fin cfg0.N) (p : Fin 1024) (k : Fin 256) :
    iblk mI c 6 t (ix2 p k) = S2 mI c (ix2 ⟨t.val * 1024 + p.val, by have := t.isLt; have h8 : cfg0.N = 8 := N_0; omega⟩ k) := by
  show V mI c main_arg7 (((cfg0.win 6).blk t).view.emb (ix2 p k)) = _
  refine congrArg _ (funext fun a => Fin.ext ?_)
  obtain ⟨e0, e1⟩ := idx_6 t
  match a with
  | ⟨0, _⟩ => show win0_6.index t (0 : Fin 2) * 1024 + 1 * p.val = t.val * 1024 + p.val; omega
  | ⟨1, _⟩ => show win0_6.index t (1 : Fin 2) * 256 + 1 * k.val = k.val; omega

end Cert.KernelIdeal.Hand

end
-- ==== Proof.ArrBlkB.lean ====
/-
  A weight block is the whole weight array (windows 7 … 14).
-/
import proofs.«162228_j46806553592417_2_alg».proof.Proof.ArrBase

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (mI : (ℓ : Loc nD τ sig) → Buf (Elt Ideal) ℓ) (ρ : Dev nD → PrngReg)

theorem iblk_7_apply (c : Dev nD) (t : Fin cfg0.N) (j : Fin 256) (k : Fin 720) :
    iblk mI c 7 t (ix2 j k) = Wt0 mI c (ix2 j k) := by
  show V mI c main_v25 (((cfg0.win 7).blk t).view.emb (ix2 j k)) = _
  refine congrArg _ (funext fun a => Fin.ext ?_)
  obtain ⟨e0, e1⟩ := idx_7 t
  match a with
  | ⟨0, _⟩ => show win0_7.index t (0 : Fin 2) * 256 + 1 * j.val = j.val; omega
  | ⟨1, _⟩ => show win0_7.index t (1 : Fin 2) * 720 + 1 * k.val = k.val; omega
theorem iblk_8_apply (c : Dev nD) (t : Fin cfg0.N) (j : Fin 256) (k : Fin 256) :
    iblk mI c 8 t (ix2 j k) = Wt1 mI c (ix2 j k) := by
  show V mI c main_v26 (((cfg0.win 8).blk t).view.emb (ix2 j k)) = _
  refine congrArg _ (funext fun a => Fin.ext ?_)
  obtain ⟨e0, e1⟩ := idx_8 t
  match a with
  | ⟨0, _⟩ => show win0_8.index t (0 : Fin 2) * 256 + 1 * j.val = j.val; omega
  | ⟨1, _⟩ => show win0_8.index t (1 : Fin 2) * 256 + 1 * k.val = k.val; omega
theorem iblk_9_apply (c : Dev nD) (t : Fin cfg0.N) (j : Fin 256) (k : Fin 256) :
    iblk mI c 9 t (ix2 j k) = Wt2 mI c (ix2 j k) := by
  show V mI c main_v27 (((cfg0.win 9).blk t).view.emb (ix2 j k)) = _
  refine congrArg _ (funext fun a => Fin.ext ?_)
  obtain ⟨e0, e1⟩ := idx_9 t
  match a with
  | ⟨0, _⟩ => show win0_9.index t (0 : Fin 2) * 256 + 1 * j.val = j.val; omega
  | ⟨1, _⟩ => show win0_9.index t (1 : Fin 2) * 256 + 1 * k.val = k.val; omega
theorem iblk_10_apply (c : Dev nD) (t : Fin cfg0.N) (j : Fin 256) (k : Fin 256) :
    iblk mI c 10 t (ix2 j k) = Wt3 mI c (ix2 j k) := by
  show V mI c main_v28 (((cfg0.win 10).blk t).view.emb (ix2 j k)) = _
  refine congrArg _ (funext fun a => Fin.ext ?_)
  obtain ⟨e0, e1⟩ := idx_10 t
  match a with
  | ⟨0, _⟩ => show win0_10.index t (0 : Fin 2) * 256 + 1 * j.val = j.val; omega
  | ⟨1, _⟩ => show win0_10.index t (1 : Fin 2) * 256 + 1 * k.val = k.val; omega
theorem iblk_11_apply (c : Dev nD) (t : Fin cfg0.N) (j : Fin 768) (k : Fin 256) :
    iblk mI c 11 t (ix2 j k) = Wt4 mI c (ix2 j k) := by
  show V mI c main_v29 (((cfg0.win 11).blk t).view.emb (ix2 j k)) = _
  refine congrArg _ (funext fun a => Fin.ext ?_)
  obtain ⟨e0, e1⟩ := idx_11 t
  match a with
  | ⟨0, _⟩ => show win0_11.index t (0 : Fin 2) * 768 + 1 * j.val = j.val; omega
  | ⟨1, _⟩ => show win0_11.index t (1 : Fin 2) * 256 + 1 * k.val = k.val; omega
theorem iblk_12_apply (c : Dev nD) (t : Fin cfg0.N) (j : Fin 768) (k : Fin 256) :
    iblk mI c 12 t (ix2 j k) = Wt5 mI c (ix2 j k) := by
  show V mI c main_v30 (((cfg0.win 12).blk t).view.emb (ix2 j k)) = _
  refine congrArg _ (funext fun a => Fin.ext ?_)
  obtain ⟨e0, e1⟩ := idx_12 t
  match a with
  | ⟨0, _⟩ => show win0_12.index t (0 : Fin 2) * 768 + 1 * j.val = j.val; omega
  | ⟨1, _⟩ => show win0_12.index t (1 : Fin 2) * 256 + 1 * k.val = k.val; omega
theorem iblk_13_apply (c : Dev nD) (t : Fin cfg0.N) (j : Fin 256) (k : Fin 256) :
    iblk mI c 13 t (ix2 j k) = Wt6 mI c (ix2 j k) := by
  show V mI c main_v31 (((cfg0.win 13).blk t).view.emb (ix2 j k)) = _
  refine congrArg _ (funext fun a => Fin.ext ?_)
  obtain ⟨e0, e1⟩ := idx_13 t
  match a with
  | ⟨0, _⟩ => show win0_13.index t (0 : Fin 2) * 256 + 1 * j.val = j.val; omega
  | ⟨1, _⟩ => show win0_13.index t (1 : Fin 2) * 256 + 1 * k.val = k.val; omega
theorem iblk_14_apply (c : Dev nD) (t : Fin cfg0.N) (j : Fin 768) (k : Fin 256) :
    iblk mI c 14 t (ix2 j k) = Wt7 mI c (ix2 j k) := by
  show V mI c main_v32 (((cfg0.win 14).blk t).view.emb (ix2 j k)) = _
  refine congrArg _ (funext fun a => Fin.ext ?_)
  obtain ⟨e0, e1⟩ := idx_14 t
  match a with
  | ⟨0, _⟩ => show win0_14.index t (0 : Fin 2) * 768 + 1 * j.val = j.val; omega
  | ⟨1, _⟩ => show win0_14.index t (1 : Fin 2) * 256 + 1 * k.val = k.val; omega

end Cert.KernelIdeal.Hand

end
-- ==== Proof.ArrBlkC.lean ====
/-
  A weight block is the whole weight array (windows 15 … 21: the last GRU's weights, the fused output weight, the bias row).
-/
import proofs.«162228_j46806553592417_2_alg».proof.Proof.ArrBase

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (mI : (ℓ : Loc nD τ sig) → Buf (Elt Ideal) ℓ) (ρ : Dev nD → PrngReg)

theorem iblk_15_apply (c : Dev nD) (t : Fin cfg0.N) (j : Fin 768) (k : Fin 256) :
    iblk mI c 15 t (ix2 j k) = Wt8 mI c (ix2 j k) := by
  show V mI c main_v33 (((cfg0.win 15).blk t).view.emb (ix2 j k)) = _
  refine congrArg _ (funext fun a => Fin.ext ?_)
  obtain ⟨e0, e1⟩ := idx_15 t
  match a with
  | ⟨0, _⟩ => show win0_15.index t (0 : Fin 2) * 768 + 1 * j.val = j.val; omega
  | ⟨1, _⟩ => show win0_15.index t (1 : Fin 2) * 256 + 1 * k.val = k.val; omega
theorem iblk_16_apply (c : Dev nD) (t : Fin cfg0.N) (j : Fin 256) (k : Fin 256) :
    iblk mI c 16 t (ix2 j k) = Wt9 mI c (ix2 j k) := by
  show V mI c main_v34 (((cfg0.win 16).blk t).view.emb (ix2 j k)) = _
  refine congrArg _ (funext fun a => Fin.ext ?_)
  obtain ⟨e0, e1⟩ := idx_16 t
  match a with
  | ⟨0, _⟩ => show win0_16.index t (0 : Fin 2) * 256 + 1 * j.val = j.val; omega
  | ⟨1, _⟩ => show win0_16.index t (1 : Fin 2) * 256 + 1 * k.val = k.val; omega
theorem iblk_17_apply (c : Dev nD) (t : Fin cfg0.N) (j : Fin 768) (k : Fin 256) :
    iblk mI c 17 t (ix2 j k) = Wt10 mI c (ix2 j k) := by
  show V mI c main_v35 (((cfg0.win 17).blk t).view.emb (ix2 j k)) = _
  refine congrArg _ (funext fun a => Fin.ext ?_)
  obtain ⟨e0, e1⟩ := idx_17 t
  match a with
  | ⟨0, _⟩ => show win0_17.index t (0 : Fin 2) * 768 + 1 * j.val = j.val; omega
  | ⟨1, _⟩ => show win0_17.index t (1 : Fin 2) * 256 + 1 * k.val = k.val; omega
theorem iblk_18_apply (c : Dev nD) (t : Fin cfg0.N) (j : Fin 768) (k : Fin 256) :
    iblk mI c 18 t (ix2 j k) = Wt11 mI c (ix2 j k) := by
  show V mI c main_v36 (((cfg0.win 18).blk t).view.emb (ix2 j k)) = _
  refine congrArg _ (funext fun a => Fin.ext ?_)
  obtain ⟨e0, e1⟩ := idx_18 t
  match a with
  | ⟨0, _⟩ => show win0_18.index t (0 : Fin 2) * 768 + 1 * j.val = j.val; omega
  | ⟨1, _⟩ => show win0_18.index t (1 : Fin 2) * 256 + 1 * k.val = k.val; omega
theorem iblk_19_apply (c : Dev nD) (t : Fin cfg0.N) (j : Fin 256) (k : Fin 256) :
    iblk mI c 19 t (ix2 j k) = Wt12 mI c (ix2 j k) := by
  show V mI c main_v37 (((cfg0.win 19).blk t).view.emb (ix2 j k)) = _
  refine congrArg _ (funext fun a => Fin.ext ?_)
  obtain ⟨e0, e1⟩ := idx_19 t
  match a with
  | ⟨0, _⟩ => show win0_19.index t (0 : Fin 2) * 256 + 1 * j.val = j.val; omega
  | ⟨1, _⟩ => show win0_19.index t (1 : Fin 2) * 256 + 1 * k.val = k.val; omega
theorem iblk_20_apply (c : Dev nD) (t : Fin cfg0.N) (j : Fin 128) (k : Fin 1024) :
    iblk mI c 20 t (ix2 j k) = Wf mI c (ix2 j k) := by
  show V mI c main_v40 (((cfg0.win 20).blk t).view.emb (ix2 j k)) = _
  refine congrArg _ (funext fun a => Fin.ext ?_)
  obtain ⟨e0, e1⟩ := idx_20 t
  match a with
  | ⟨0, _⟩ => show win0_20.index t (0 : Fin 2) * 128 + 1 * j.val = j.val; omega
  | ⟨1, _⟩ => show win0_20.index t (1 : Fin 2) * 1024 + 1 * k.val = k.val; omega
theorem iblk_21_apply (c : Dev nD) (t : Fin cfg0.N) (j : Fin 1) (k : Fin 128) :
    iblk mI c 21 t (ix2 j k) = Bf mI c (ix2 j k) := by
  show V mI c main_v44 (((cfg0.win 21).blk t).view.emb (ix2 j k)) = _
  refine congrArg _ (funext fun a => Fin.ext ?_)
  obtain ⟨e0, e1⟩ := idx_21 t
  match a with
  | ⟨0, _⟩ => show win0_21.index t (0 : Fin 2) * 1 + 1 * j.val = j.val; omega
  | ⟨1, _⟩ => show win0_21.index t (1 : Fin 2) * 128 + 1 * k.val = k.val; omega

end Cert.KernelIdeal.Hand

end
-- ==== Proof.ArrRows.lean ====
/-
  Rows and weight matrices of the blocks are rows and matrices of the arrays; the four whole-array functions of the
  kernel program: the three new GRU states and the new excitation memory, row by row, over the arrays the region finds.
-/
import proofs.«162228_j46806553592417_2_alg».proof.Proof.ArrBlkA
import proofs.«162228_j46806553592417_2_alg».proof.Proof.ArrBlkB
import proofs.«162228_j46806553592417_2_alg».proof.Proof.ArrBlkC

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (mI : (ℓ : Loc nD τ sig) → Buf (Elt Ideal) ℓ) (ρ : Dev nD → PrngReg)

/-! ## Rows and weight matrices of the blocks -/

theorem row_0 (c : Dev nD) (t : Fin cfg0.N) (p : Fin 1024) :
    Cert.Net.rowOf (iblk mI c 0 t : S1024x720.Idx → EReal) p = Cert.Net.rowOf (Xc mI c) ⟨t.val * 1024 + p.val, by have := t.isLt; have h8 : cfg0.N = 8 := N_0; omega⟩ :=
  funext fun k => iblk_0_apply mI c t p k
theorem row_1 (c : Dev nD) (t : Fin cfg0.N) (p : Fin 1024) :
    Cert.Net.rowOf (iblk mI c 1 t : S1024x40.Idx → EReal) p = Cert.Net.rowOf (Pm mI c) ⟨t.val * 1024 + p.val, by have := t.isLt; have h8 : cfg0.N = 8 := N_0; omega⟩ :=
  funext fun k => iblk_1_apply mI c t p k
theorem row_2 (c : Dev nD) (t : Fin cfg0.N) (p : Fin 1024) :
    Cert.Net.rowOf (iblk mI c 2 t : S1024x256.Idx → EReal) p = Cert.Net.rowOf (Em mI c) ⟨t.val * 1024 + p.val, by have := t.isLt; have h8 : cfg0.N = 8 := N_0; omega⟩ :=
  funext fun k => iblk_2_apply mI c t p k
theorem row_4 (c : Dev nD) (t : Fin cfg0.N) (p : Fin 1024) :
    Cert.Net.rowOf (iblk mI c 4 t : S1024x256.Idx → EReal) p = Cert.Net.rowOf (S0 mI c) ⟨t.val * 1024 + p.val, by have := t.isLt; have h8 : cfg0.N = 8 := N_0; omega⟩ :=
  funext fun k => iblk_4_apply mI c t p k
theorem row_5 (c : Dev nD) (t : Fin cfg0.N) (p : Fin 1024) :
    Cert.Net.rowOf (iblk mI c 5 t : S1024x256.Idx → EReal) p = Cert.Net.rowOf (S1 mI c) ⟨t.val * 1024 + p.val, by have := t.isLt; have h8 : cfg0.N = 8 := N_0; omega⟩ :=
  funext fun k => iblk_5_apply mI c t p k
theorem row_6 (c : Dev nD) (t : Fin cfg0.N) (p : Fin 1024) :
    Cert.Net.rowOf (iblk mI c 6 t : S1024x256.Idx → EReal) p = Cert.Net.rowOf (S2 mI c) ⟨t.val * 1024 + p.val, by have := t.isLt; have h8 : cfg0.N = 8 := N_0; omega⟩ :=
  funext fun k => iblk_6_apply mI c t p k
theorem mat_7 (c : Dev nD) (t : Fin cfg0.N) :
    Cert.Net.matOf (iblk mI c 7 t : S256x720.Idx → EReal) = Cert.Net.matOf (Wt0 mI c) :=
  funext fun j => funext fun k => iblk_7_apply mI c t j k
theorem mat_8 (c : Dev nD) (t : Fin cfg0.N) :
    Cert.Net.matOf (iblk mI c 8 t : S256x256.Idx → EReal) = Cert.Net.matOf (Wt1 mI c) :=
  funext fun j => funext fun k => iblk_8_apply mI c t j k
theorem mat_9 (c : Dev nD) (t : Fin cfg0.N) :
    Cert.Net.matOf (iblk mI c 9 t : S256x256.Idx → EReal) = Cert.Net.matOf (Wt2 mI c) :=
  funext fun j => funext fun k => iblk_9_apply mI c t j k
theorem mat_10 (c : Dev nD) (t : Fin cfg0.N) :
    Cert.Net.matOf (iblk mI c 10 t : S256x256.Idx → EReal) = Cert.Net.matOf (Wt3 mI c) :=
  funext fun j => funext fun k => iblk_10_apply mI c t j k
theorem mat_11 (c : Dev nD) (t : Fin cfg0.N) :
    Cert.Net.matOf (iblk mI c 11 t : S768x256.Idx → EReal) = Cert.Net.matOf (Wt4 mI c) :=
  funext fun j => funext fun k => iblk_11_apply mI c t j k
theorem mat_12 (c : Dev nD) (t : Fin cfg0.N) :
    Cert.Net.matOf (iblk mI c 12 t : S768x256.Idx → EReal) = Cert.Net.matOf (Wt5 mI c) :=
  funext fun j => funext fun k => iblk_12_apply mI c t j k
theorem mat_13 (c : Dev nD) (t : Fin cfg0.N) :
    Cert.Net.matOf (iblk mI c 13 t : S256x256.Idx → EReal) = Cert.Net.matOf (Wt6 mI c) :=
  funext fun j => funext fun k => iblk_13_apply mI c t j k
theorem mat_14 (c : Dev nD) (t : Fin cfg0.N) :
    Cert.Net.matOf (iblk mI c 14 t : S768x256.Idx → EReal) = Cert.Net.matOf (Wt7 mI c) :=
  funext fun j => funext fun k => iblk_14_apply mI c t j k
theorem mat_15 (c : Dev nD) (t : Fin cfg0.N) :
    Cert.Net.matOf (iblk mI c 15 t : S768x256.Idx → EReal) = Cert.Net.matOf (Wt8 mI c) :=
  funext fun j => funext fun k => iblk_15_apply mI c t j k
theorem mat_16 (c : Dev nD) (t : Fin cfg0.N) :
    Cert.Net.matOf (iblk mI c 16 t : S256x256.Idx → EReal) = Cert.Net.matOf (Wt9 mI c) :=
  funext fun j => funext fun k => iblk_16_apply mI c t j k
theorem mat_17 (c : Dev nD) (t : Fin cfg0.N) :
    Cert.Net.matOf (iblk mI c 17 t : S768x256.Idx → EReal) = Cert.Net.matOf (Wt10 mI c) :=
  funext fun j => funext fun k => iblk_17_apply mI c t j k
theorem mat_18 (c : Dev nD) (t : Fin cfg0.N) :
    Cert.Net.matOf (iblk mI c 18 t : S768x256.Idx → EReal) = Cert.Net.matOf (Wt11 mI c) :=
  funext fun j => funext fun k => iblk_18_apply mI c t j k
theorem mat_19 (c : Dev nD) (t : Fin cfg0.N) :
    Cert.Net.matOf (iblk mI c 19 t : S256x256.Idx → EReal) = Cert.Net.matOf (Wt12 mI c) :=
  funext fun j => funext fun k => iblk_19_apply mI c t j k
theorem mat_20 (c : Dev nD) (t : Fin cfg0.N) :
    Cert.Net.matOf (iblk mI c 20 t : S128x1024.Idx → EReal) = Cert.Net.matOf (Wf mI c) :=
  funext fun j => funext fun k => iblk_20_apply mI c t j k

theorem trunk_blk (c : Dev nD) (t : Fin cfg0.N) :
    Cert.Net.trunkOf (iblk mI c 7 t) (iblk mI c 8 t) (iblk mI c 9 t) (iblk mI c 10 t) (iblk mI c 11 t) (iblk mI c 12 t) (iblk mI c 13 t) (iblk mI c 14 t) (iblk mI c 15 t) (iblk mI c 16 t) (iblk mI c 17 t) (iblk mI c 18 t) (iblk mI c 19 t) = trunkV mI c := by
  unfold trunkV Cert.Net.trunkOf
  rw [mat_7 mI c t, mat_8 mI c t, mat_9 mI c t, mat_10 mI c t, mat_11 mI c t, mat_12 mI c t, mat_13 mI c t, mat_14 mI c t, mat_15 mI c t, mat_16 mI c t, mat_17 mI c t, mat_18 mI c t, mat_19 mI c t]

/-! ## The four whole-array functions -/

/-- The three new GRU states, row by row. -/
def G23 (c : Dev nD) : S8192x256.Idx → EReal := fun i =>
  Cert.Net.h1 (trunkV mI c) (Cert.Net.rowOf (Xc mI c) (i 0)) (Cert.Net.rowOf (S0 mI c) (i 0)) (i 1)
def G24 (c : Dev nD) : S8192x256.Idx → EReal := fun i =>
  Cert.Net.h2 (trunkV mI c) (Cert.Net.rowOf (Xc mI c) (i 0)) (Cert.Net.rowOf (S0 mI c) (i 0)) (Cert.Net.rowOf (S1 mI c) (i 0)) (i 1)
def G25 (c : Dev nD) : S8192x256.Idx → EReal := fun i =>
  Cert.Net.h3 (trunkV mI c) (Cert.Net.rowOf (Xc mI c) (i 0)) (Cert.Net.rowOf (S0 mI c) (i 0)) (Cert.Net.rowOf (S1 mI c) (i 0)) (Cert.Net.rowOf (S2 mI c) (i 0)) (i 1)
/-- The new excitation memory, row by row, from the fused output layer. -/
def G22 (c : Dev nD) : S8192x256.Idx → EReal := fun i =>
  Cert.Net.excNew (Cert.Net.rowOf (Em mI c) (i 0))
    (Cert.Net.subframeFused (Cert.Net.matOf (Wf mI c)) (fun j => Bf mI c (ix2 0 j))
      (Cert.Net.feat (trunkV mI c) (Cert.Net.rowOf (Xc mI c) (i 0)) (Cert.Net.rowOf (S0 mI c) (i 0)) (Cert.Net.rowOf (S1 mI c) (i 0)) (Cert.Net.rowOf (S2 mI c) (i 0)))
      (Cert.Net.rowOf (Pm mI c) (i 0)) (Gn mI c (ix2 (i 0) 0))) (i 1)

end Cert.KernelIdeal.Hand

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.LibJoinAxis.lean ====
/-
  A join of equally sized arrays along one axis of a matrix, read at an entry.

  When N matrices of one shape are laid end to end along the columns (each K columns wide), column l of the
  joined matrix is column l % K of piece l / K, on the same row; laid end to end along the rows (each K rows
  tall), row l of the joined matrix is row l % K of piece l / K, on the same column. The pieces are given as a
  family indexed by their position; a literal list of N pieces of one shape is the list of that family.
-/
import Idealize.ShloMosaic.Lib.ValueIdx
import Idealize.ShloMosaic.Lib.Pipeline.Value

namespace Cert.LibJoinAxis

open Idealize.ShloMosaic Idealize.ShloMosaic.ValueIdx

/-- `N` matrices of `A` rows and `K` columns joined along the columns into `W` columns, read at row `p` and
    column `l`: piece `n = l / K` at row `p` and column `c = l % K`. -/
theorem joinCols_apply {α : Type} {A K N W : Nat} (f : Fin N → (⟨2, ![A, K]⟩ : Shape).Idx → α)
    (h : Shape.Concatenates
      ((List.ofFn fun n : Fin N => (⟨⟨2, ![A, K]⟩, f n⟩ : (s : Shape) × (s.Idx → α))).map (·.1)) ⟨2, ![A, W]⟩ 1)
    (p : Fin A) (l : Fin W) (n : Fin N) (hn : l.val / K = n.val) (c : Fin K) (hc : c.val = l.val % K) :
    concatenate ⟨2, ![A, W]⟩ 1 (List.ofFn fun n : Fin N => (⟨⟨2, ![A, K]⟩, f n⟩ : (s : Shape) × (s.Idx → α))) h (ix2 p l)
      = f n (ix2 p c) :=
  concatenate_ofFn_apply (t := ⟨2, ![A, W]⟩) (s₁ := ⟨2, ![A, K]⟩) (1 : Fin 2) f h rfl K rfl (ix2 p l) n hn (ix2 p c) hc
    (fun b hb => by
      match b with
      | ⟨0, _⟩ => rfl
      | ⟨1, _⟩ => exact absurd rfl hb)

/-- `N` matrices of `K` rows and `B` columns joined along the rows into `H` rows, read at row `l` and column
    `q`: piece `n = l / K` at row `r = l % K` and column `q`. -/
theorem joinRows_apply {α : Type} {B K N H : Nat} (f : Fin N → (⟨2, ![K, B]⟩ : Shape).Idx → α)
    (h : Shape.Concatenates
      ((List.ofFn fun n : Fin N => (⟨⟨2, ![K, B]⟩, f n⟩ : (s : Shape) × (s.Idx → α))).map (·.1)) ⟨2, ![H, B]⟩ 0)
    (l : Fin H) (q : Fin B) (n : Fin N) (hn : l.val / K = n.val) (r : Fin K) (hr : r.val = l.val % K) :
    concatenate ⟨2, ![H, B]⟩ 0 (List.ofFn fun n : Fin N => (⟨⟨2, ![K, B]⟩, f n⟩ : (s : Shape) × (s.Idx → α))) h (ix2 l q)
      = f n (ix2 r q) :=
  concatenate_ofFn_apply (t := ⟨2, ![H, B]⟩) (s₁ := ⟨2, ![K, B]⟩) (0 : Fin 2) f h rfl K rfl (ix2 l q) n hn (ix2 r q) hr
    (fun b hb => by
      match b with
      | ⟨0, _⟩ => exact absurd rfl hb
      | ⟨1, _⟩ => rfl)

end Cert.LibJoinAxis
-- ==== Proof.KernelNet.lean ====
/-
  The arithmetic of the kernel's body, one batch row at a time.

  Every value the body computes is a matrix with one row per batch row, and row `p` of each depends only on row `p` of
  the blocks it was computed from. A product into the zero accumulator contracts the second axis of both operands, so
  row `p` of `l · rᵀ` is the dense layer `lin r (row p of l)`; `tanh`, the logistic function, sums, products and
  changes of float format act entry by entry (a change of format is the identity on the extended reals); a slice along
  the columns of a 768-wide product picks one gate of a GRU cell; a join along the columns lays rows side by side.
  Composing these facts layer by layer identifies the body's values with the network of `Cert.Net`: the three new GRU
  states, the 1024 features, and the new excitation memory.
-/
import proofs.«162228_j46806553592417_2_alg».proof.Proof.BodyKI
import proofs.«162228_j46806553592417_2_alg».proof.Proof.Net
import proofs.«162228_j46806553592417_2_alg».proof.Proof.LibRowsByRows
import proofs.«162228_j46806553592417_2_alg».proof.Proof.LibJoinAxis
import Idealize.ShloMosaic.Lib.ValueIdx
import Idealize.ShloMosaic.Lib.Pipeline.Value

noncomputable section

namespace Cert.KernelIdeal.KNet

open Cert.KernelIdeal Cert.KernelIdeal.Gen Cert.KernelIdeal.Hand
open Idealize.ShloMosaic Idealize.ShloMosaic.ValueIdx Idealize.SL.Sem

/-! ## Products: row `p` of `l · rᵀ` is a dense layer applied to row `p` of `l` -/

/-- The 720-feature input layer's product. -/
theorem mm720 {φ₁ φ₂ : FTy} (l : FVec Ideal S1024x720 φ₁) (r : FVec Ideal S256x720 φ₂) (p : Fin 1024) (q : Fin 256) :
    matmul dot_S1024x720_S256x720_S1024x256_1_1_0_0_n_n none l r (constant S1024x256 .f32 0x00000000#32) (ix2 p q)
      = Net.lin (Net.matOf r) (Net.rowOf l p) q :=
  Cert.RowsByRows.matmul_rowsByRows_apply dot_S1024x720_S256x720_S1024x256_1_1_0_0_n_n_wf none l r p q

/-- A 256-to-256 layer's product. -/
theorem mm256 {φ₁ φ₂ : FTy} (l : FVec Ideal S1024x256 φ₁) (r : FVec Ideal S256x256 φ₂) (p : Fin 1024) (q : Fin 256) :
    matmul dot_S1024x256_S256x256_S1024x256_1_1_0_0_n_n none l r (constant S1024x256 .f32 0x00000000#32) (ix2 p q)
      = Net.lin (Net.matOf r) (Net.rowOf l p) q :=
  Cert.RowsByRows.matmul_rowsByRows_apply dot_S1024x256_S256x256_S1024x256_1_1_0_0_n_n_wf none l r p q

/-- A GRU weight matrix's product: the three gates side by side. -/
theorem mm768 {φ₁ φ₂ : FTy} (l : FVec Ideal S1024x256 φ₁) (r : FVec Ideal S768x256 φ₂) (p : Fin 1024) (q : Fin 768) :
    matmul dot_S1024x256_S768x256_S1024x768_1_1_0_0_n_n none l r (constant S1024x768 .f32 0x00000000#32) (ix2 p q)
      = Net.lin (Net.matOf r) (Net.rowOf l p) q :=
  Cert.RowsByRows.matmul_rowsByRows_apply dot_S1024x256_S768x256_S1024x768_1_1_0_0_n_n_wf none l r p q

/-- The fused output layer's product over the 1024 features. -/
theorem mm1024 {φ₁ φ₂ : FTy} (l : FVec Ideal S1024x1024 φ₁) (r : FVec Ideal S128x1024 φ₂) (p : Fin 1024) (q : Fin 128) :
    matmul dot_S1024x1024_S128x1024_S1024x128_1_1_0_0_n_n none l r (constant S1024x128 .f32 0x00000000#32) (ix2 p q)
      = Net.lin (Net.matOf r) (Net.rowOf l p) q :=
  Cert.RowsByRows.matmul_rowsByRows_apply dot_S1024x1024_S128x1024_S1024x128_1_1_0_0_n_n_wf none l r p q

/-! ## Rows of entrywise values -/

/-- A change of float format keeps every row. -/
theorem rowOf_truncf {φ ψ : FTy} (v : FVec Ideal S1024x256 φ) (h : ψ.bits < φ.bits) (p : Fin 1024) :
    Net.rowOf (truncf ψ v h) p = Net.rowOf v p := rfl

/-- The gated linear unit: row `p` of `a ⊙ σ(l · wᵀ)` when `l` has the rows of `a`. -/
theorem glu_row {φ : FTy} (a : FVec Ideal S1024x256 .f32) (l : FVec Ideal S1024x256 φ) (w : Vec Ideal S256x256 .bf16)
    (p : Fin 1024) (hl : Net.rowOf l p = Net.rowOf a p) :
    Net.rowOf (mulf a (logistic (matmul (F := Ideal) (φ₁ := φ) (φ₂ := .bf16) dot_S1024x256_S256x256_S1024x256_1_1_0_0_n_n none l
        (shapeCast S256x256 w shapeCasts_S256x256_S256x256) (constant S1024x256 .f32 0x00000000#32)))) p
      = Net.glu (Net.matOf w) (Net.rowOf a p) := by
  funext q
  rw [shapeCast_self]
  show a (ix2 p q) * Ideal.logistic (matmul (F := Ideal) (φ₁ := φ) (φ₂ := .bf16) dot_S1024x256_S256x256_S1024x256_1_1_0_0_n_n none l w
      (constant S1024x256 .f32 0x00000000#32) (ix2 p q)) = _
  rw [mm256, hl]
  rfl

/-- A 256-to-256 dense layer followed by `tanh`. -/
theorem dense256_row {φ : FTy} (l : FVec Ideal S1024x256 φ) (w : Vec Ideal S256x256 .bf16) (p : Fin 1024) :
    Net.rowOf (tanh (F := Ideal) (matmul (F := Ideal) (φ₁ := φ) (φ₂ := .bf16) dot_S1024x256_S256x256_S1024x256_1_1_0_0_n_n none l
        (shapeCast S256x256 w shapeCasts_S256x256_S256x256) (constant S1024x256 .f32 0x00000000#32))) p
      = Net.dense (Net.matOf w) (Net.rowOf l p) := by
  funext q
  rw [shapeCast_self]
  show Ideal.tanh (matmul (F := Ideal) (φ₁ := φ) (φ₂ := .bf16) dot_S1024x256_S256x256_S1024x256_1_1_0_0_n_n none l w
      (constant S1024x256 .f32 0x00000000#32) (ix2 p q)) = _
  rw [mm256]
  rfl

/-- The input layer: 720 features to 256, followed by `tanh`. -/
theorem dense720_row (x : Vec Ideal S1024x720 .bf16) (w : Vec Ideal S256x720 .bf16) (p : Fin 1024) :
    Net.rowOf (tanh (F := Ideal) (matmul (F := Ideal) (φ₁ := .bf16) (φ₂ := .bf16) dot_S1024x720_S256x720_S1024x256_1_1_0_0_n_n none
        (shapeCast S1024x720 x shapeCasts_S1024x720_S1024x720)
        (shapeCast S256x720 w shapeCasts_S256x720_S256x720) (constant S1024x256 .f32 0x00000000#32))) p
      = Net.dense (Net.matOf w) (Net.rowOf x p) := by
  funext q
  rw [shapeCast_self, shapeCast_self]
  show Ideal.tanh (matmul (F := Ideal) (φ₁ := .bf16) (φ₂ := .bf16) dot_S1024x720_S256x720_S1024x256_1_1_0_0_n_n none x w
      (constant S1024x256 .f32 0x00000000#32) (ix2 p q)) = _
  rw [mm720]
  rfl

/-- Row `p` of a product with a GRU weight matrix: all three gates of the layer. -/
theorem lin768_row {φ : FTy} (l : FVec Ideal S1024x256 φ) (w : Vec Ideal S768x256 .bf16) (p : Fin 1024) :
    Net.rowOf (matmul (F := Ideal) (φ₁ := φ) (φ₂ := .bf16) dot_S1024x256_S768x256_S1024x768_1_1_0_0_n_n none l
        (shapeCast S768x256 w shapeCasts_S768x256_S768x256) (constant S1024x768 .f32 0x00000000#32)) p
      = Net.lin (Net.matOf w) (Net.rowOf l p) := by
  funext q
  rw [shapeCast_self]
  exact mm768 l w p q

/-! ## The layers before the GRU cells -/

/-- Row `p` of the second dense layer's gated output. -/
theorem pay2_row (x0 : Vec Ideal S1024x720 .bf16) (x7 : Vec Ideal S256x720 .bf16) (x8 x9 x10 : Vec Ideal S256x256 .bf16)
    (p : Fin 1024) :
    Net.rowOf (k0_pay2 x0 x7 x8 x9 x10) p
      = Net.glu (Net.matOf x10) (Net.dense (Net.matOf x9)
          (Net.glu (Net.matOf x8) (Net.dense (Net.matOf x7) (Net.rowOf x0 p)))) := by
  unfold k0_pay2
  refine (glu_row _ _ x10 p (rowOf_truncf _ _ p)).trans ?_
  refine congrArg (Net.glu (Net.matOf x10)) ?_
  refine (dense256_row _ x9 p).trans ?_
  refine congrArg (Net.dense (Net.matOf x9)) ?_
  refine (rowOf_truncf _ _ p).trans ?_
  refine (glu_row _ _ x8 p (rowOf_truncf _ _ p)).trans ?_
  refine congrArg (Net.glu (Net.matOf x8)) ?_
  exact dense720_row x0 x7 p

/-! ## The GRU cell -/

/-- A 256-column slice of a 768-column matrix starting at column `c` reads column `c + q`. -/
theorem slice768 {α : Type} (c : Nat) (a : S1024x768.Idx → α) (h : S1024x768.Slices ![0, c] S1024x256)
    (p : Fin 1024) (q : Fin 256) (r : Fin 768) (hr : r.val = c + q.val) :
    extractStridedSlice S1024x256 ![0, c] a h (ix2 p q) = a (ix2 p r) :=
  extractStridedSlice_apply _ a h (ix2 p q) (ix2 p r) (fun d => by
    match d with
    | ⟨0, _⟩ => show p.val = 0 + p.val; omega
    | ⟨1, _⟩ => exact hr)

theorem gate0_val (q : Fin 256) : (Net.gate 0 q).val = 0 + q.val := by
  show 0 * 256 + q.val = 0 + q.val; omega
theorem gate1_val (q : Fin 256) : (Net.gate 1 q).val = 256 + q.val := by
  show 1 * 256 + q.val = 256 + q.val; omega
theorem gate2_val (q : Fin 256) : (Net.gate 2 q).val = 512 + q.val := by
  show 2 * 256 + q.val = 512 + q.val; omega

/-- The cell's arithmetic on the input-side product `a`, the state-side product `b` (each 768 wide: the gates r, z, n
    side by side) and the old state `s`: `(1 - z) · n + z · s` with `r = σ(a_r + b_r)`, `z = σ(a_z + b_z)`,
    `n = tanh(a_n + r · b_n)`. -/
abbrev gruVec (a b : FVec Ideal S1024x768 .f32) (s : Vec Ideal S1024x256 .f32) : FVec Ideal S1024x256 .f32 :=
  addf
    (mulf
      (subf (broadcast S1024x256 (Scalar.ofBits .f32 0x3F800000#32 : Ideal .f32))
        (logistic (addf (extractStridedSlice S1024x256 ![0, 256] a slices_S1024x768_o0_256_S1024x256)
          (extractStridedSlice S1024x256 ![0, 256] b slices_S1024x768_o0_256_S1024x256))))
      (tanh (addf (extractStridedSlice S1024x256 ![0, 512] a slices_S1024x768_o0_512_S1024x256)
        (mulf
          (logistic (addf (extractStridedSlice S1024x256 ![0, 0] a slices_S1024x768_o0_0_S1024x256)
            (extractStridedSlice S1024x256 ![0, 0] b slices_S1024x768_o0_0_S1024x256)))
          (extractStridedSlice S1024x256 ![0, 512] b slices_S1024x768_o0_512_S1024x256)))))
    (mulf
      (logistic (addf (extractStridedSlice S1024x256 ![0, 256] a slices_S1024x768_o0_256_S1024x256)
        (extractStridedSlice S1024x256 ![0, 256] b slices_S1024x768_o0_256_S1024x256)))
      s)

/-- Entry `(p, q)` of the cell is the GRU of `Cert.Net` on row `p`. -/
theorem gruVec_entry (a b : FVec Ideal S1024x768 .f32) (s : Vec Ideal S1024x256 .f32)
    (wih whh : Fin 768 → Fin 256 → EReal) (x h : Fin 256 → EReal) (p : Fin 1024)
    (ha : Net.rowOf a p = Net.lin wih x) (hb : Net.rowOf b p = Net.lin whh h) (hs : Net.rowOf s p = h) (q : Fin 256) :
    gruVec a b s (ix2 p q) = Net.gru wih whh x h q := by
  show (Ideal.ofBits .f32 0x3F800000#32
          - Ideal.logistic (extractStridedSlice S1024x256 ![0, 256] a slices_S1024x768_o0_256_S1024x256 (ix2 p q)
              + extractStridedSlice S1024x256 ![0, 256] b slices_S1024x768_o0_256_S1024x256 (ix2 p q)))
        * Ideal.tanh (extractStridedSlice S1024x256 ![0, 512] a slices_S1024x768_o0_512_S1024x256 (ix2 p q)
            + Ideal.logistic (extractStridedSlice S1024x256 ![0, 0] a slices_S1024x768_o0_0_S1024x256 (ix2 p q)
                + extractStridedSlice S1024x256 ![0, 0] b slices_S1024x768_o0_0_S1024x256 (ix2 p q))
              * extractStridedSlice S1024x256 ![0, 512] b slices_S1024x768_o0_512_S1024x256 (ix2 p q))
      + Ideal.logistic (extractStridedSlice S1024x256 ![0, 256] a slices_S1024x768_o0_256_S1024x256 (ix2 p q)
          + extractStridedSlice S1024x256 ![0, 256] b slices_S1024x768_o0_256_S1024x256 (ix2 p q))
        * s (ix2 p q) = _
  rw [slice768 256 a _ p q (Net.gate 1 q) (gate1_val q), slice768 256 b _ p q (Net.gate 1 q) (gate1_val q),
    slice768 512 a _ p q (Net.gate 2 q) (gate2_val q), slice768 512 b _ p q (Net.gate 2 q) (gate2_val q),
    slice768 0 a _ p q (Net.gate 0 q) (gate0_val q), slice768 0 b _ p q (Net.gate 0 q) (gate0_val q)]
  show (Net.one - Ideal.logistic (Net.rowOf a p (Net.gate 1 q) + Net.rowOf b p (Net.gate 1 q)))
        * Ideal.tanh (Net.rowOf a p (Net.gate 2 q)
            + Ideal.logistic (Net.rowOf a p (Net.gate 0 q) + Net.rowOf b p (Net.gate 0 q)) * Net.rowOf b p (Net.gate 2 q))
      + Ideal.logistic (Net.rowOf a p (Net.gate 1 q) + Net.rowOf b p (Net.gate 1 q)) * Net.rowOf s p q = _
  rw [ha, hb, hs]
  rfl

/-! ## The first GRU cell and its gated output -/

/-- Row `p` of the first cell's input-side product. -/
theorem pay3_row (x0 : Vec Ideal S1024x720 .bf16) (x7 : Vec Ideal S256x720 .bf16) (x8 x9 x10 : Vec Ideal S256x256 .bf16)
    (x11 : Vec Ideal S768x256 .bf16) (p : Fin 1024) :
    Net.rowOf (k0_pay3 x0 x7 x8 x9 x10 x11) p
      = Net.lin (Net.matOf x11) (Net.glu (Net.matOf x10) (Net.dense (Net.matOf x9)
          (Net.glu (Net.matOf x8) (Net.dense (Net.matOf x7) (Net.rowOf x0 p))))) := by
  unfold k0_pay3
  refine (lin768_row _ x11 p).trans ?_
  exact congrArg (Net.lin (Net.matOf x11)) ((rowOf_truncf _ _ p).trans (pay2_row x0 x7 x8 x9 x10 p))

/-- Row `p` of a cell's state-side product. -/
theorem pay4_row (x4 : Vec Ideal S1024x256 .f32) (x12 : Vec Ideal S768x256 .bf16) (p : Fin 1024) :
    Net.rowOf (k0_pay4 x4 x12) p = Net.lin (Net.matOf x12) (Net.rowOf x4 p) := by
  unfold k0_pay4
  refine (lin768_row _ x12 p).trans ?_
  exact congrArg (Net.lin (Net.matOf x12)) (rowOf_truncf x4 _ p)

/-- The first cell's new state, entry by entry, from the slices the body passes on. -/
theorem pay10_entry (x0 : Vec Ideal S1024x720 .bf16) (x4 : Vec Ideal S1024x256 .f32) (x7 : Vec Ideal S256x720 .bf16)
    (x8 x9 x10 : Vec Ideal S256x256 .bf16) (x11 x12 : Vec Ideal S768x256 .bf16) (p : Fin 1024) (q : Fin 256) :
    k0_pay10 x4 (k0_pay4 x4 x12) (k0_pay5 x0 x7 x8 x9 x10 x11) (k0_pay6 x0 x7 x8 x9 x10 x11)
        (k0_pay7 x0 x7 x8 x9 x10 x11) (k0_pay8 x4 x12) (k0_pay9 x4 x12) (ix2 p q)
      = Net.gru (Net.matOf x11) (Net.matOf x12)
          (Net.glu (Net.matOf x10) (Net.dense (Net.matOf x9)
            (Net.glu (Net.matOf x8) (Net.dense (Net.matOf x7) (Net.rowOf x0 p)))))
          (Net.rowOf x4 p) q := by
  unfold k0_pay10 k0_pay5 k0_pay6 k0_pay7 k0_pay8 k0_pay9
  exact gruVec_entry (k0_pay3 x0 x7 x8 x9 x10 x11) (k0_pay4 x4 x12) x4 _ _ _ _ p
    (pay3_row x0 x7 x8 x9 x10 x11 p) (pay4_row x4 x12 p) rfl q

/-- A cell's gated output from its new state: row `p` of `h ⊙ σ(h · wᵀ)`. -/
theorem pay11_row (v23 : Vec Ideal S1024x256 .f32) (v31 : FVec Ideal S1024x768 .f32)
    (v32 v33 v34 v35 v36 : FVec Ideal S1024x256 .f32) (v51 : Vec Ideal S256x256 .bf16) (p : Fin 1024) :
    Net.rowOf (k0_pay11 v23 v31 v32 v33 v34 v35 v36 v51) p
      = Net.glu (Net.matOf v51) (Net.rowOf (k0_pay10 v23 v31 v32 v33 v34 v35 v36) p) := by
  unfold k0_pay11
  exact glu_row _ _ v51 p (rowOf_truncf _ _ p)

/-- The second cell's new state from the first cell's gated output `Y`. -/
theorem pay12_entry (v23 : Vec Ideal S1024x256 .f32) (v31 : FVec Ideal S1024x768 .f32)
    (v32 v33 v34 v35 v36 : FVec Ideal S1024x256 .f32) (v51 : Vec Ideal S256x256 .bf16)
    (v56 : Vec Ideal S1024x256 .f32) (v58 v62 : Vec Ideal S768x256 .bf16) (p : Fin 1024) (Y : Fin 256 → EReal)
    (hY : Net.rowOf (k0_pay11 v23 v31 v32 v33 v34 v35 v36 v51) p = Y) (q : Fin 256) :
    k0_pay12 v23 v31 v32 v33 v34 v35 v36 v51 v56 v58 v62 (ix2 p q)
      = Net.gru (Net.matOf v58) (Net.matOf v62) Y (Net.rowOf v56 p) q := by
  unfold k0_pay12
  exact gruVec_entry
    (matmul (F := Ideal) (φ₁ := .bf16) (φ₂ := .bf16) dot_S1024x256_S768x256_S1024x768_1_1_0_0_n_n none
      (truncf .bf16 (k0_pay11 v23 v31 v32 v33 v34 v35 v36 v51) bitsLt_bf16_f32)
      (shapeCast S768x256 v58 shapeCasts_S768x256_S768x256) (constant S1024x768 .f32 0x00000000#32))
    (matmul (F := Ideal) (φ₁ := .bf16) (φ₂ := .bf16) dot_S1024x256_S768x256_S1024x768_1_1_0_0_n_n none
      (truncf .bf16 v56 bitsLt_bf16_f32)
      (shapeCast S768x256 v62 shapeCasts_S768x256_S768x256) (constant S1024x768 .f32 0x00000000#32))
    v56 _ _ _ _ p
    ((lin768_row _ v58 p).trans (congrArg (Net.lin (Net.matOf v58)) ((rowOf_truncf _ _ p).trans hY)))
    ((lin768_row _ v62 p).trans (congrArg (Net.lin (Net.matOf v62)) (rowOf_truncf v56 _ p)))
    rfl q

/-- The second cell's gated output. -/
theorem pay14_row (v82 : FVec Ideal S1024x256 .f32) (v83 : FVec Ideal S1024x256 .bf16) (v84 : Vec Ideal S256x256 .bf16)
    (p : Fin 1024) (h83 : Net.rowOf v83 p = Net.rowOf v82 p) :
    Net.rowOf (k0_pay14 v82 v83 v84) p = Net.glu (Net.matOf v84) (Net.rowOf v82 p) := by
  unfold k0_pay14
  exact glu_row v82 v83 v84 p h83

/-- The third cell's new state from the second cell's gated output `Y`. -/
theorem pay15_entry (v82 : FVec Ideal S1024x256 .f32) (v83 : FVec Ideal S1024x256 .bf16) (v84 : Vec Ideal S256x256 .bf16)
    (v89 : Vec Ideal S1024x256 .f32) (v91 v95 : Vec Ideal S768x256 .bf16) (p : Fin 1024) (Y : Fin 256 → EReal)
    (hY : Net.rowOf (k0_pay14 v82 v83 v84) p = Y) (q : Fin 256) :
    k0_pay15 v82 v83 v84 v89 v91 v95 (ix2 p q)
      = Net.gru (Net.matOf v91) (Net.matOf v95) Y (Net.rowOf v89 p) q := by
  unfold k0_pay15
  exact gruVec_entry
    (matmul (F := Ideal) (φ₁ := .bf16) (φ₂ := .bf16) dot_S1024x256_S768x256_S1024x768_1_1_0_0_n_n none
      (truncf .bf16 (k0_pay14 v82 v83 v84) bitsLt_bf16_f32)
      (shapeCast S768x256 v91 shapeCasts_S768x256_S768x256) (constant S1024x768 .f32 0x00000000#32))
    (matmul (F := Ideal) (φ₁ := .bf16) (φ₂ := .bf16) dot_S1024x256_S768x256_S1024x768_1_1_0_0_n_n none
      (truncf .bf16 v89 bitsLt_bf16_f32)
      (shapeCast S768x256 v95 shapeCasts_S768x256_S768x256) (constant S1024x768 .f32 0x00000000#32))
    v89 _ _ _ _ p
    ((lin768_row _ v91 p).trans (congrArg (Net.lin (Net.matOf v91)) ((rowOf_truncf _ _ p).trans hY)))
    ((lin768_row _ v95 p).trans (congrArg (Net.lin (Net.matOf v95)) (rowOf_truncf v89 _ p)))
    rfl q

/-! ## The 1024 features: four 256-wide rows side by side -/

/-- Row `p` of the joined features: the first two cells' gated outputs, the third cell's gated output, and the
    second dense layer's output. -/
theorem pay16_row (v22 v55 v82 : FVec Ideal S1024x256 .f32) (v83 : FVec Ideal S1024x256 .bf16)
    (v84 : Vec Ideal S256x256 .bf16) (v89 : Vec Ideal S1024x256 .f32) (v91 v95 : Vec Ideal S768x256 .bf16)
    (v117 : Vec Ideal S256x256 .bf16) (p : Fin 1024) :
    Net.rowOf (k0_pay16 v22 v55 v82 v83 v84 v89 v91 v95 v117) p
      = Net.cat4 (Net.rowOf v55 p) (Net.rowOf (k0_pay14 v82 v83 v84) p)
          (Net.glu (Net.matOf v117) (Net.rowOf (k0_pay15 v82 v83 v84 v89 v91 v95) p)) (Net.rowOf v22 p) := by
  funext l
  unfold k0_pay16
  have key : ∀ (n : Fin 4) (c : Fin 256), l.val / 256 = n.val → c.val = l.val % 256 →
      concatenate (α := Ideal .f32) S1024x1024 1
          [⟨S1024x256, v55⟩, ⟨S1024x256, k0_pay14 v82 v83 v84⟩,
            ⟨S1024x256, mulf (k0_pay15 v82 v83 v84 v89 v91 v95)
              (logistic (matmul (F := Ideal) (φ₁ := .bf16) (φ₂ := .bf16) dot_S1024x256_S256x256_S1024x256_1_1_0_0_n_n none
                (truncf .bf16 (k0_pay15 v82 v83 v84 v89 v91 v95) bitsLt_bf16_f32)
                (shapeCast S256x256 v117 shapeCasts_S256x256_S256x256) (constant S1024x256 .f32 0x00000000#32)))⟩,
            ⟨S1024x256, v22⟩]
          concatenates_S1024x256_S1024x256_S1024x256_S1024x256_S1024x1024_d1 (ix2 p l)
        = (![v55, k0_pay14 v82 v83 v84,
            mulf (k0_pay15 v82 v83 v84 v89 v91 v95)
              (logistic (matmul (F := Ideal) (φ₁ := .bf16) (φ₂ := .bf16) dot_S1024x256_S256x256_S1024x256_1_1_0_0_n_n none
                (truncf .bf16 (k0_pay15 v82 v83 v84 v89 v91 v95) bitsLt_bf16_f32)
                (shapeCast S256x256 v117 shapeCasts_S256x256_S256x256) (constant S1024x256 .f32 0x00000000#32))),
            v22] : Fin 4 → S1024x256.Idx → Ideal .f32) n (ix2 p c) :=
    fun n c hn hc => Cert.LibJoinAxis.joinCols_apply (α := Ideal .f32) (A := 1024) (K := 256) (N := 4) (W := 1024)
      (![v55, k0_pay14 v82 v83 v84,
        mulf (k0_pay15 v82 v83 v84 v89 v91 v95)
          (logistic (matmul (F := Ideal) (φ₁ := .bf16) (φ₂ := .bf16) dot_S1024x256_S256x256_S1024x256_1_1_0_0_n_n none
            (truncf .bf16 (k0_pay15 v82 v83 v84 v89 v91 v95) bitsLt_bf16_f32)
            (shapeCast S256x256 v117 shapeCasts_S256x256_S256x256) (constant S1024x256 .f32 0x00000000#32))),
        v22] : Fin 4 → S1024x256.Idx → Ideal .f32)
      concatenates_S1024x256_S1024x256_S1024x256_S1024x256_S1024x1024_d1 p l n hn c hc
  have hlt := l.isLt
  have hc : l.val % 256 < 256 := Nat.mod_lt _ (by norm_num)
  unfold Net.cat4
  rcases (by omega : l.val / 256 = 0 ∨ l.val / 256 = 1 ∨ l.val / 256 = 2 ∨ l.val / 256 = 3) with h0 | h1 | h2 | h3
  · rw [if_pos h0]
    exact key 0 ⟨l.val % 256, hc⟩ h0 rfl
  · rw [if_neg (by omega), if_pos h1]
    exact key 1 ⟨l.val % 256, hc⟩ h1 rfl
  · rw [if_neg (by omega), if_neg (by omega), if_pos h2]
    exact (key 2 ⟨l.val % 256, hc⟩ h2 rfl).trans
      (congrFun (glu_row (k0_pay15 v82 v83 v84 v89 v91 v95) _ v117 p (rowOf_truncf _ _ p)) ⟨l.val % 256, hc⟩)
  · rw [if_neg (by omega), if_neg (by omega), if_neg (by omega)]
    exact key 3 ⟨l.val % 256, hc⟩ h3 rfl

/-! ## The fused output layer and the new excitation memory -/

/-- The fused layer's 128 outputs with the bias row added. -/
def outVec (v123 : FVec Ideal S1024x1024 .bf16) (v125 : FVec Ideal S128x1024 .bf16) (v127 : Vec Ideal S1x128 .f32) :
    FVec Ideal S1024x128 .f32 :=
  addf (matmul (F := Ideal) (φ₁ := .bf16) (φ₂ := .bf16) dot_S1024x1024_S128x1024_S1024x128_1_1_0_0_n_n none v123 v125
      (constant S1024x128 .f32 0x00000000#32))
    (broadcastTo S1024x128 (shapeCast S1x128 v127 shapeCasts_S1x128_S1x128) broadcasts_S1x128_S1024x128)

/-- Output `r` of the fused layer on row `p`: the dense layer on the row's features plus the bias. -/
theorem outVec_entry (v123 : FVec Ideal S1024x1024 .bf16) (v125 : FVec Ideal S128x1024 .bf16) (v127 : Vec Ideal S1x128 .f32)
    (p : Fin 1024) (r : Fin 128) :
    outVec v123 v125 v127 (ix2 p r) = Net.lin (Net.matOf v125) (Net.rowOf v123 p) r + v127 (ix2 0 r) := by
  show matmul (F := Ideal) (φ₁ := .bf16) (φ₂ := .bf16) dot_S1024x1024_S128x1024_S1024x128_1_1_0_0_n_n none v123 v125
        (constant S1024x128 .f32 0x00000000#32) (ix2 p r)
      + broadcastTo S1024x128 (shapeCast S1x128 v127 shapeCasts_S1x128_S1x128) broadcasts_S1x128_S1024x128 (ix2 p r) = _
  rw [mm1024, shapeCast_self,
    broadcastTo_apply v127 broadcasts_S1x128_S1024x128 (ix2 p r) (ix2 0 r) (fun a => by
      match a with
      | ⟨0, _⟩ => show (0 : ℕ) = if (1 : ℕ) = 1 then 0 else p.val; simp
      | ⟨1, _⟩ => show r.val = if (128 : ℕ) = 1 then 0 else r.val; simp)]

/-- A column broadcast along 40 columns reads the column's entry on the same row. -/
theorem bcastCol40 {α : Type} (v : S1024x1.Idx → α) (p : Fin 1024) (j : Fin 40) :
    broadcastTo S1024x40 v broadcasts_S1024x1_S1024x40 (ix2 p j) = v (ix2 p 0) :=
  broadcastTo_apply v broadcasts_S1024x1_S1024x40 (ix2 p j) (ix2 p 0) (fun a => by
    match a with
    | ⟨0, _⟩ => show p.val = if (1024 : ℕ) = 1 then 0 else p.val; simp
    | ⟨1, _⟩ => show (0 : ℕ) = if (1 : ℕ) = 1 then 0 else j.val; simp)

/-- Sample `j` of the new subframe on row `p`: `(tanh(signal_j) + exp(pitch gain) · pitch_j) · gain`. -/
theorem subframe_entry (v123 : FVec Ideal S1024x1024 .bf16) (v125 : FVec Ideal S128x1024 .bf16)
    (v127 : Vec Ideal S1x128 .f32) (v135 : Vec Ideal S1024x40 .f32) (v137 : Vec Ideal S1024x1 .f32)
    (p : Fin 1024) (j : Fin 40) :
    mulf
        (addf
          (tanh (extractStridedSlice S1024x40 ![0, 0] (outVec v123 v125 v127) slices_S1024x128_o0_0_S1024x40))
          (mulf
            (broadcastTo S1024x40
              (exp (extractStridedSlice S1024x1 ![0, 40] (outVec v123 v125 v127) slices_S1024x128_o0_40_S1024x1))
              broadcasts_S1024x1_S1024x40)
            (shapeCast S1024x40 v135 shapeCasts_S1024x40_S1024x40)))
        (broadcastTo S1024x40 v137 broadcasts_S1024x1_S1024x40) (ix2 p j)
      = Net.subframeFused (Net.matOf v125) (fun j => v127 (ix2 0 j)) (Net.rowOf v123 p) (Net.rowOf v135 p)
          (v137 (ix2 p 0)) j := by
  have hj := j.isLt
  show (Ideal.tanh (extractStridedSlice S1024x40 ![0, 0] (outVec v123 v125 v127) slices_S1024x128_o0_0_S1024x40 (ix2 p j))
        + broadcastTo S1024x40
            (exp (extractStridedSlice S1024x1 ![0, 40] (outVec v123 v125 v127) slices_S1024x128_o0_40_S1024x1))
            broadcasts_S1024x1_S1024x40 (ix2 p j)
          * shapeCast S1024x40 v135 shapeCasts_S1024x40_S1024x40 (ix2 p j))
      * broadcastTo S1024x40 v137 broadcasts_S1024x1_S1024x40 (ix2 p j) = _
  rw [shapeCast_self, bcastCol40, bcastCol40]
  show (Ideal.tanh (extractStridedSlice S1024x40 ![0, 0] (outVec v123 v125 v127) slices_S1024x128_o0_0_S1024x40 (ix2 p j))
        + Ideal.exp (extractStridedSlice S1024x1 ![0, 40] (outVec v123 v125 v127) slices_S1024x128_o0_40_S1024x1 (ix2 p 0))
          * v135 (ix2 p j))
      * v137 (ix2 p 0) = _
  rw [extractStridedSlice_apply ![0, 0] (outVec v123 v125 v127) slices_S1024x128_o0_0_S1024x40 (ix2 p j)
      (ix2 p ⟨j.val, by omega⟩) (fun d => by
        match d with
        | ⟨0, _⟩ => show p.val = 0 + p.val; omega
        | ⟨1, _⟩ => show j.val = 0 + j.val; omega),
    extractStridedSlice_apply ![0, 40] (outVec v123 v125 v127) slices_S1024x128_o0_40_S1024x1 (ix2 p 0)
      (ix2 p ⟨40, by norm_num⟩) (fun d => by
        match d with
        | ⟨0, _⟩ => show p.val = 0 + p.val; omega
        | ⟨1, _⟩ => show 40 = 40 + 0; rfl),
    outVec_entry, outVec_entry]
  rfl

/-- The new excitation memory, entry by entry: the old memory 40 samples on, then the new subframe. -/
theorem pay1_entry (v123 : FVec Ideal S1024x1024 .bf16) (v125 : FVec Ideal S128x1024 .bf16)
    (v127 : Vec Ideal S1x128 .f32) (v135 : Vec Ideal S1024x40 .f32) (v137 : Vec Ideal S1024x1 .f32)
    (v143 : Vec Ideal S1024x256 .f32) (p : Fin 1024) (q : Fin 256) :
    k0_pay1 v123 v125 (constant (F := Ideal) S1024x128 .f32 0x00000000#32) v127 v135 v137 v143 (ix2 p q)
      = Net.excNew (Net.rowOf v143 p)
          (Net.subframeFused (Net.matOf v125) (fun j => v127 (ix2 0 j)) (Net.rowOf v123 p) (Net.rowOf v135 p)
            (v137 (ix2 p 0))) q := by
  have hq256 := q.isLt
  unfold k0_pay1 Net.excNew
  by_cases hq : q.val < 216
  · rw [dif_pos hq]
    refine (concatenate_pair_apply_left (t := S1024x256) (s₁ := S1024x216) (s₂ := S1024x40) _ _ _
      concatenates_S1024x216_S1024x40_S1024x256_d1 (ix2 p q) rfl (ix2 p ⟨q.val, hq⟩) (fun b => by
        match b with
        | ⟨0, _⟩ => rfl
        | ⟨1, _⟩ => rfl)).trans ?_
    exact extractStridedSlice_apply ![0, 40] v143 slices_S1024x256_o0_40_S1024x216 (ix2 p ⟨q.val, hq⟩)
      (ix2 p ⟨q.val + 40, by omega⟩) (fun d => by
        match d with
        | ⟨0, _⟩ => show p.val = 0 + p.val; omega
        | ⟨1, _⟩ => show q.val + 40 = 40 + q.val; omega)
  · rw [dif_neg hq]
    have hj : q.val - 216 < 40 := by omega
    refine (concatenate_pair_apply_right (t := S1024x256) (s₁ := S1024x216) (s₂ := S1024x40) _ _ _
      concatenates_S1024x216_S1024x40_S1024x256_d1 (ix2 p q) rfl rfl (ix2 p ⟨q.val - 216, hj⟩) (fun b hb => by
        match b with
        | ⟨0, _⟩ => rfl
        | ⟨1, _⟩ => exact absurd rfl hb)
      (by show (q.val - 216) + 216 = q.val; omega)).trans ?_
    exact subframe_entry v123 v125 v127 v135 v137 p ⟨q.val - 216, hj⟩

/-! ## The body's values are the network's

  The body names its intermediate values over the blocks it loaded whole; a load of a whole block is the block. With the
  trunk's weights read off the thirteen weight blocks, the values the body stores are the three new GRU states and the
  new excitation memory of the network, row by row. -/

/-- The zero offsets of a whole-block access. -/
theorem hz2 : (![0, 0] : Fin 2 → Nat) = fun _ => 0 := funext fun a => by fin_cases a <;> rfl

section
variable (x0 : Vec Ideal S1024x720 .bf16) (x1 : Vec Ideal S1024x40 .f32) (x2 : Vec Ideal S1024x256 .f32)
  (x3 : Vec Ideal S1024x1 .f32) (x4 x5 x6 : Vec Ideal S1024x256 .f32) (x7 : Vec Ideal S256x720 .bf16)
  (x8 x9 x10 : Vec Ideal S256x256 .bf16) (x11 x12 : Vec Ideal S768x256 .bf16) (x13 : Vec Ideal S256x256 .bf16)
  (x14 x15 : Vec Ideal S768x256 .bf16) (x16 : Vec Ideal S256x256 .bf16) (x17 x18 : Vec Ideal S768x256 .bf16)
  (x19 : Vec Ideal S256x256 .bf16) (x20 : Vec Ideal S128x1024 .bf16) (x21 : Vec Ideal S1x128 .f32)
  (p : Fin 1024)

/-- Row `p` of the second dense layer's gated output. -/
theorem d2o_row :
    Net.rowOf (k0_pay2 x0 x7 x8 x9 x10) p = Net.d2o (Net.trunkOf x7 x8 x9 x10 x11 x12 x13 x14 x15 x16 x17 x18 x19) (Net.rowOf x0 p) :=
  pay2_row x0 x7 x8 x9 x10 p

/-- Row `p` of the first cell's new state. -/
theorem h1_row :
    Net.rowOf (k0_pay10 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12)) p
      = Net.h1 (Net.trunkOf x7 x8 x9 x10 x11 x12 x13 x14 x15 x16 x17 x18 x19) (Net.rowOf x0 p) (Net.rowOf x4 p) :=
  funext fun q => pay10_entry x0 x4 x7 x8 x9 x10 x11 x12 p q

/-- Row `p` of the first cell's gated output. -/
theorem y1_row :
    Net.rowOf (k0_pay11 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13) p
      = Net.y1 (Net.trunkOf x7 x8 x9 x10 x11 x12 x13 x14 x15 x16 x17 x18 x19) (Net.rowOf x0 p) (Net.rowOf x4 p) :=
  (pay11_row x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 p).trans
    (congrArg (Net.glu (Net.matOf x13)) (h1_row x0 x4 x7 x8 x9 x10 x11 x12 x13 x14 x15 x16 x17 x18 x19 p))

/-- Row `p` of the second cell's new state. -/
theorem h2_row :
    Net.rowOf (k0_pay12 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15) p
      = Net.h2 (Net.trunkOf x7 x8 x9 x10 x11 x12 x13 x14 x15 x16 x17 x18 x19) (Net.rowOf x0 p) (Net.rowOf x4 p) (Net.rowOf x5 p) :=
  funext fun q => pay12_entry x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15 p _
    (y1_row x0 x4 x7 x8 x9 x10 x11 x12 x13 x14 x15 x16 x17 x18 x19 p) q

/-- The second cell's state in the product's float format has the same rows. -/
theorem h2t_row :
    Net.rowOf (k0_pay13 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15) p
      = Net.rowOf (k0_pay12 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15) p := by
  unfold k0_pay13
  rfl

/-- Row `p` of the second cell's gated output. -/
theorem y2_row :
    Net.rowOf (k0_pay14 (k0_pay12 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15) (k0_pay13 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15) x16) p
      = Net.y2 (Net.trunkOf x7 x8 x9 x10 x11 x12 x13 x14 x15 x16 x17 x18 x19) (Net.rowOf x0 p) (Net.rowOf x4 p) (Net.rowOf x5 p) :=
  (pay14_row (k0_pay12 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15)
      (k0_pay13 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15) x16 p (h2t_row x0 x4 x5 x7 x8 x9 x10 x11 x12 x13 x14 x15 p)).trans
    (congrArg (Net.glu (Net.matOf x16)) (h2_row x0 x4 x5 x7 x8 x9 x10 x11 x12 x13 x14 x15 x16 x17 x18 x19 p))

/-- Row `p` of the third cell's new state. -/
theorem h3_row :
    Net.rowOf (k0_pay15 (k0_pay12 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15)
      (k0_pay13 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15) x16 x6 x17 x18) p
      = Net.h3 (Net.trunkOf x7 x8 x9 x10 x11 x12 x13 x14 x15 x16 x17 x18 x19) (Net.rowOf x0 p) (Net.rowOf x4 p) (Net.rowOf x5 p) (Net.rowOf x6 p) :=
  funext fun q => pay15_entry (k0_pay12 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15)
      (k0_pay13 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15) x16 x6 x17 x18 p _
    (y2_row x0 x4 x5 x7 x8 x9 x10 x11 x12 x13 x14 x15 x16 x17 x18 x19 p) q

/-- Row `p` of the 1024 features. -/
theorem feat_row :
    Net.rowOf (k0_pay16 (k0_pay2 x0 x7 x8 x9 x10) (k0_pay11 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13)
      (k0_pay12 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15)
      (k0_pay13 x4 (k0_pay4 x4 x12) (k0_pay5 x0 x7 x8 x9 x10 x11) (k0_pay6 x0 x7 x8 x9 x10 x11)
      (k0_pay7 x0 x7 x8 x9 x10 x11) (k0_pay8 x4 x12) (k0_pay9 x4 x12) x13 x5 x14 x15) x16 x6 x17 x18 x19) p
      = Net.feat (Net.trunkOf x7 x8 x9 x10 x11 x12 x13 x14 x15 x16 x17 x18 x19) (Net.rowOf x0 p) (Net.rowOf x4 p) (Net.rowOf x5 p) (Net.rowOf x6 p) := by
  rw [pay16_row, y1_row x0 x4 x7 x8 x9 x10 x11 x12 x13 x14 x15 x16 x17 x18 x19 p, y2_row x0 x4 x5 x7 x8 x9 x10 x11 x12 x13 x14 x15 x16 x17 x18 x19 p,
    h3_row x0 x4 x5 x6 x7 x8 x9 x10 x11 x12 x13 x14 x15 x16 x17 x18 x19 p, d2o_row x0 x7 x8 x9 x10 x11 x12 x13 x14 x15 x16 x17 x18 x19 p]
  rfl

/-- The first GRU state the body stores. -/
theorem b_v49_entry (q : Fin 256) :
    b_v49 x0 x4 x7 x8 x9 x10 x11 x12 (ix2 p q)
      = Net.h1 (Net.trunkOf x7 x8 x9 x10 x11 x12 x13 x14 x15 x16 x17 x18 x19) (Net.rowOf x0 p) (Net.rowOf x4 p) q := by
  unfold b_v49 b_v31 b_v32 b_v33 b_v34 b_v35 b_v36
  simp only [View.ld_unit_zero (S := S1024x720) hz2,
    View.ld_unit_zero (S := S256x720) hz2,
    View.ld_unit_zero (S := S256x256) hz2,
    View.ld_unit_zero (S := S1024x256) hz2,
    View.ld_unit_zero (S := S768x256) hz2,
    View.ld_unit_zero (S := S128x1024) hz2,
    View.ld_unit_zero (S := S1x128) hz2,
    View.ld_unit_zero (S := S1024x40) hz2,
    View.ld_unit_zero (S := S1024x1) hz2]
  exact congrFun (h1_row x0 x4 x7 x8 x9 x10 x11 x12 x13 x14 x15 x16 x17 x18 x19 p) q

/-- The second GRU state the body stores. -/
theorem b_v82_entry (q : Fin 256) :
    b_v82 x0 x4 x5 x7 x8 x9 x10 x11 x12 x13 x14 x15 (ix2 p q)
      = Net.h2 (Net.trunkOf x7 x8 x9 x10 x11 x12 x13 x14 x15 x16 x17 x18 x19) (Net.rowOf x0 p) (Net.rowOf x4 p) (Net.rowOf x5 p) q := by
  unfold b_v82 b_v31 b_v32 b_v33 b_v34 b_v35 b_v36
  simp only [View.ld_unit_zero (S := S1024x720) hz2,
    View.ld_unit_zero (S := S256x720) hz2,
    View.ld_unit_zero (S := S256x256) hz2,
    View.ld_unit_zero (S := S1024x256) hz2,
    View.ld_unit_zero (S := S768x256) hz2,
    View.ld_unit_zero (S := S128x1024) hz2,
    View.ld_unit_zero (S := S1x128) hz2,
    View.ld_unit_zero (S := S1024x40) hz2,
    View.ld_unit_zero (S := S1024x1) hz2]
  exact congrFun (h2_row x0 x4 x5 x7 x8 x9 x10 x11 x12 x13 x14 x15 x16 x17 x18 x19 p) q

/-- The third GRU state the body stores. -/
theorem b_v115_entry (q : Fin 256) :
    b_v115 x0 x4 x5 x6 x7 x8 x9 x10 x11 x12 x13 x14 x15 x16 x17 x18 (ix2 p q)
      = Net.h3 (Net.trunkOf x7 x8 x9 x10 x11 x12 x13 x14 x15 x16 x17 x18 x19) (Net.rowOf x0 p) (Net.rowOf x4 p) (Net.rowOf x5 p) (Net.rowOf x6 p) q := by
  unfold b_v115 b_v82 b_v83 b_v31 b_v32 b_v33 b_v34 b_v35 b_v36
  simp only [View.ld_unit_zero (S := S1024x720) hz2,
    View.ld_unit_zero (S := S256x720) hz2,
    View.ld_unit_zero (S := S256x256) hz2,
    View.ld_unit_zero (S := S1024x256) hz2,
    View.ld_unit_zero (S := S768x256) hz2,
    View.ld_unit_zero (S := S128x1024) hz2,
    View.ld_unit_zero (S := S1x128) hz2,
    View.ld_unit_zero (S := S1024x40) hz2,
    View.ld_unit_zero (S := S1024x1) hz2]
  exact congrFun (h3_row x0 x4 x5 x6 x7 x8 x9 x10 x11 x12 x13 x14 x15 x16 x17 x18 x19 p) q

/-- The fused weight block enters the product as loaded. -/
theorem pay17_eq : k0_pay17 x20 = x20 := by
  unfold k0_pay17
  exact shapeCast_self _ _

/-- The new excitation memory the body stores. -/
theorem b_st22_entry (q : Fin 256) :
    b_st22 x0 x1 x2 x3 x4 x5 x6 x7 x8 x9 x10 x11 x12 x13 x14 x15 x16 x17 x18 x19 x20 x21 (ix2 p q)
      = Net.excNew (Net.rowOf x2 p)
          (Net.subframeFused (Net.matOf x20) (fun j => x21 (ix2 0 j))
            (Net.feat (Net.trunkOf x7 x8 x9 x10 x11 x12 x13 x14 x15 x16 x17 x18 x19) (Net.rowOf x0 p) (Net.rowOf x4 p) (Net.rowOf x5 p) (Net.rowOf x6 p))
            (Net.rowOf x1 p) (x3 (ix2 p 0))) q := by
  unfold b_st22 b_v123 b_v125 b_v22 b_v55 b_v82 b_v83 b_v31 b_v32 b_v33 b_v34 b_v35 b_v36
  simp only [View.ld_unit_zero (S := S1024x720) hz2,
    View.ld_unit_zero (S := S256x720) hz2,
    View.ld_unit_zero (S := S256x256) hz2,
    View.ld_unit_zero (S := S1024x256) hz2,
    View.ld_unit_zero (S := S768x256) hz2,
    View.ld_unit_zero (S := S128x1024) hz2,
    View.ld_unit_zero (S := S1x128) hz2,
    View.ld_unit_zero (S := S1024x40) hz2,
    View.ld_unit_zero (S := S1024x1) hz2]
  refine (pay1_entry _ _ x21 x1 x3 x2 p q).trans ?_
  rw [pay17_eq, feat_row x0 x4 x5 x6 x7 x8 x9 x10 x11 x12 x13 x14 x15 x16 x17 x18 x19 p]

end

/-! ## The four stored values, over all 22 input blocks in window order -/

/-- The first output GRU state is the network's first new state. -/
theorem h1_eq (x0 : Vec Ideal S1024x720 .bf16) (x1 : Vec Ideal S1024x40 .f32) (x2 : Vec Ideal S1024x256 .f32)
    (x3 : Vec Ideal S1024x1 .f32) (x4 x5 x6 : Vec Ideal S1024x256 .f32) (x7 : Vec Ideal S256x720 .bf16)
    (x8 x9 x10 : Vec Ideal S256x256 .bf16) (x11 x12 : Vec Ideal S768x256 .bf16) (x13 : Vec Ideal S256x256 .bf16)
    (x14 x15 : Vec Ideal S768x256 .bf16) (x16 : Vec Ideal S256x256 .bf16) (x17 x18 : Vec Ideal S768x256 .bf16)
    (x19 : Vec Ideal S256x256 .bf16) (x20 : Vec Ideal S128x1024 .bf16) (x21 : Vec Ideal S1x128 .f32)
    (p : Fin 1024) (q : Fin 256) :
    b_v49 x0 x4 x7 x8 x9 x10 x11 x12 (ix2 p q)
      = Cert.Net.h1 (Cert.Net.trunkOf x7 x8 x9 x10 x11 x12 x13 x14 x15 x16 x17 x18 x19)
          (Cert.Net.rowOf x0 p) (Cert.Net.rowOf x4 p) q :=
  b_v49_entry x0 x4 x7 x8 x9 x10 x11 x12 x13 x14 x15 x16 x17 x18 x19 p q

/-- The second output GRU state is the network's second new state. -/
theorem h2_eq (x0 : Vec Ideal S1024x720 .bf16) (x1 : Vec Ideal S1024x40 .f32) (x2 : Vec Ideal S1024x256 .f32)
    (x3 : Vec Ideal S1024x1 .f32) (x4 x5 x6 : Vec Ideal S1024x256 .f32) (x7 : Vec Ideal S256x720 .bf16)
    (x8 x9 x10 : Vec Ideal S256x256 .bf16) (x11 x12 : Vec Ideal S768x256 .bf16) (x13 : Vec Ideal S256x256 .bf16)
    (x14 x15 : Vec Ideal S768x256 .bf16) (x16 : Vec Ideal S256x256 .bf16) (x17 x18 : Vec Ideal S768x256 .bf16)
    (x19 : Vec Ideal S256x256 .bf16) (x20 : Vec Ideal S128x1024 .bf16) (x21 : Vec Ideal S1x128 .f32)
    (p : Fin 1024) (q : Fin 256) :
    b_v82 x0 x4 x5 x7 x8 x9 x10 x11 x12 x13 x14 x15 (ix2 p q)
      = Cert.Net.h2 (Cert.Net.trunkOf x7 x8 x9 x10 x11 x12 x13 x14 x15 x16 x17 x18 x19)
          (Cert.Net.rowOf x0 p) (Cert.Net.rowOf x4 p) (Cert.Net.rowOf x5 p) q :=
  b_v82_entry x0 x4 x5 x7 x8 x9 x10 x11 x12 x13 x14 x15 x16 x17 x18 x19 p q

/-- The third output GRU state is the network's third new state. -/
theorem h3_eq (x0 : Vec Ideal S1024x720 .bf16) (x1 : Vec Ideal S1024x40 .f32) (x2 : Vec Ideal S1024x256 .f32)
    (x3 : Vec Ideal S1024x1 .f32) (x4 x5 x6 : Vec Ideal S1024x256 .f32) (x7 : Vec Ideal S256x720 .bf16)
    (x8 x9 x10 : Vec Ideal S256x256 .bf16) (x11 x12 : Vec Ideal S768x256 .bf16) (x13 : Vec Ideal S256x256 .bf16)
    (x14 x15 : Vec Ideal S768x256 .bf16) (x16 : Vec Ideal S256x256 .bf16) (x17 x18 : Vec Ideal S768x256 .bf16)
    (x19 : Vec Ideal S256x256 .bf16) (x20 : Vec Ideal S128x1024 .bf16) (x21 : Vec Ideal S1x128 .f32)
    (p : Fin 1024) (q : Fin 256) :
    b_v115 x0 x4 x5 x6 x7 x8 x9 x10 x11 x12 x13 x14 x15 x16 x17 x18 (ix2 p q)
      = Cert.Net.h3 (Cert.Net.trunkOf x7 x8 x9 x10 x11 x12 x13 x14 x15 x16 x17 x18 x19)
          (Cert.Net.rowOf x0 p) (Cert.Net.rowOf x4 p) (Cert.Net.rowOf x5 p) (Cert.Net.rowOf x6 p) q :=
  b_v115_entry x0 x4 x5 x6 x7 x8 x9 x10 x11 x12 x13 x14 x15 x16 x17 x18 x19 p q

/-- The stored excitation memory is the network's new excitation memory. -/
theorem exc_eq (x0 : Vec Ideal S1024x720 .bf16) (x1 : Vec Ideal S1024x40 .f32) (x2 : Vec Ideal S1024x256 .f32)
    (x3 : Vec Ideal S1024x1 .f32) (x4 x5 x6 : Vec Ideal S1024x256 .f32) (x7 : Vec Ideal S256x720 .bf16)
    (x8 x9 x10 : Vec Ideal S256x256 .bf16) (x11 x12 : Vec Ideal S768x256 .bf16) (x13 : Vec Ideal S256x256 .bf16)
    (x14 x15 : Vec Ideal S768x256 .bf16) (x16 : Vec Ideal S256x256 .bf16) (x17 x18 : Vec Ideal S768x256 .bf16)
    (x19 : Vec Ideal S256x256 .bf16) (x20 : Vec Ideal S128x1024 .bf16) (x21 : Vec Ideal S1x128 .f32)
    (p : Fin 1024) (q : Fin 256) :
    b_st22 x0 x1 x2 x3 x4 x5 x6 x7 x8 x9 x10 x11 x12 x13 x14 x15 x16 x17 x18 x19 x20 x21 (ix2 p q)
      = Cert.Net.excNew (Cert.Net.rowOf x2 p)
          (Cert.Net.subframeFused (Cert.Net.matOf x20) (fun j => x21 (ix2 0 j))
            (Cert.Net.feat (Cert.Net.trunkOf x7 x8 x9 x10 x11 x12 x13 x14 x15 x16 x17 x18 x19)
              (Cert.Net.rowOf x0 p) (Cert.Net.rowOf x4 p) (Cert.Net.rowOf x5 p) (Cert.Net.rowOf x6 p))
            (Cert.Net.rowOf x1 p) (x3 (ix2 p 0))) q :=
  b_st22_entry x0 x1 x2 x3 x4 x5 x6 x7 x8 x9 x10 x11 x12 x13 x14 x15 x16 x17 x18 x19 x20 x21 p q

end Cert.KernelIdeal.KNet

end
-- ==== Proof.ArrOut22.lean ====
/-
  Output window 22: what point `t` writes back is block `t` of the whole-array function; the 8 blocks tile the 8192
  rows; so after the run the array is that function.
-/
import proofs.«162228_j46806553592417_2_alg».proof.Proof.ArrRows
import proofs.«162228_j46806553592417_2_alg».proof.Proof.KernelNet

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (mI : (ℓ : Loc nD τ sig) → Buf (Elt Ideal) ℓ) (ρ : Dev nD → PrngReg)

theorem emb_out_22 (t : Fin cfg0.N) (p : Fin 1024) (q : Fin 256) :
    ((cfg0.win 22).blk t).view.emb (ix2 p q) = ix2 ⟨t.val * 1024 + p.val, by have := t.isLt; have h8 : cfg0.N = 8 := N_0; omega⟩ q := by
  funext a; apply Fin.ext
  obtain ⟨e0, e1⟩ := idx_22 t
  match a with
  | ⟨0, _⟩ => show win0_22.index t (0 : Fin 2) * 1024 + 1 * p.val = t.val * 1024 + p.val; omega
  | ⟨1, _⟩ => show win0_22.index t (1 : Fin 2) * 256 + 1 * q.val = q.val; omega

theorem flushed22_eq (c : Dev nD) (t : Fin cfg0.N) :
    (dats mI 0 c).flushed 22 t = ((cfg0.win 22).blk t).view.read (Elt Ideal) (G22 mI c) := by
  show (cfg0.win 22).cut (grid0.coords t) ((dats mI 0 c).after 22 t) = _
  rw [after_22]
  unfold o22
  rw [View.canon_unit_zero hz]
  funext j
  obtain ⟨p, q, rfl⟩ : ∃ (p : Fin 1024) (q : Fin 256), j = ix2 p q := ⟨j 0, j 1, eq_ix2 j⟩
  refine (Cert.KernelIdeal.KNet.exc_eq (iblk mI c 0 t) (iblk mI c 1 t) (iblk mI c 2 t) (iblk mI c 3 t) (iblk mI c 4 t) (iblk mI c 5 t) (iblk mI c 6 t) (iblk mI c 7 t) (iblk mI c 8 t) (iblk mI c 9 t) (iblk mI c 10 t) (iblk mI c 11 t) (iblk mI c 12 t) (iblk mI c 13 t) (iblk mI c 14 t) (iblk mI c 15 t) (iblk mI c 16 t) (iblk mI c 17 t) (iblk mI c 18 t) (iblk mI c 19 t) (iblk mI c 20 t) (iblk mI c 21 t) p q).trans ?_
  show _ = G22 mI c (((cfg0.win 22).blk t).view.emb (ix2 p q))
  rw [emb_out_22 t p q, trunk_blk mI c t, row_2 mI c t p, row_0 mI c t p, row_4 mI c t p, row_5 mI c t p, row_6 mI c t p, row_1 mI c t p, mat_20 mI c t, iblk_3_apply mI c t p 0, show (fun j : Fin 128 => iblk mI c 21 t (ix2 0 j)) = (fun j : Fin 128 => Bf mI c (ix2 0 j)) from funext fun j => iblk_21_apply mI c t 0 j]
  rfl

theorem mem_blk_22 (t : Fin cfg0.N) (i : S8192x256.Idx) :
    i ∈ ((cfg0.win 22).blk t).view.set ↔ ∀ a : Fin 2, win0_22.index t a * S1024x256.size a ≤ (i a).val ∧ (i a).val < win0_22.index t a * S1024x256.size a + S1024x256.size a := by
  show i ∈ ((View.whole main_v45_0).slice (win0_22.rect t)).set ↔ _
  rw [View.set_slice_whole, Rect.mem_set_unit]
  exact Iff.rfl

theorem cover_22 (i : S8192x256.Idx) :
    ∃ t : Fin cfg0.N, (cfg0.win 22).flush t = true ∧ i ∈ ((cfg0.win 22).blk t).view.set := by
  have hi0 : (i 0).val < 8192 := (i 0).isLt
  have hi1 : (i 1).val < 256 := (i 1).isLt
  have hN : cfg0.N = 8 := N_0
  have ht : (i 0).val / 1024 < cfg0.N := by omega
  refine ⟨⟨(i 0).val / 1024, ht⟩, flush0_22 _, ?_⟩
  rw [mem_blk_22]
  obtain ⟨e0, e1⟩ := idx_22 (⟨(i 0).val / 1024, ht⟩ : Fin cfg0.N)
  intro a
  match a with
  | ⟨0, _⟩ =>
    show win0_22.index ⟨(i 0).val / 1024, ht⟩ (0 : Fin 2) * 1024 ≤ (i 0).val ∧ (i 0).val < win0_22.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_22.index ⟨(i 0).val / 1024, ht⟩ (1 : Fin 2) * 256 ≤ (i 1).val ∧ (i 1).val < win0_22.index ⟨(i 0).val / 1024, ht⟩ (1 : Fin 2) * 256 + 256
    rw [e1]; omega

/-- After the run the array is the whole-array function. -/
theorem final_22 (c : Dev nD) : (dats mI 0 c).arrAt 22 cfg0.N = G22 mI c :=
  (dats mI 0 c).arrAt_eq_of_cover 22 (G22 mI c) (fun t _ => flushed22_eq mI c t) cover_22

end Cert.KernelIdeal.Hand

end
-- ==== Proof.ArrOut23.lean ====
/-
  Output window 23: what point `t` writes back is block `t` of the whole-array function; the 8 blocks tile the 8192
  rows; so after the run the array is that function.
-/
import proofs.«162228_j46806553592417_2_alg».proof.Proof.ArrRows
import proofs.«162228_j46806553592417_2_alg».proof.Proof.KernelNet

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (mI : (ℓ : Loc nD τ sig) → Buf (Elt Ideal) ℓ) (ρ : Dev nD → PrngReg)

theorem emb_out_23 (t : Fin cfg0.N) (p : Fin 1024) (q : Fin 256) :
    ((cfg0.win 23).blk t).view.emb (ix2 p q) = ix2 ⟨t.val * 1024 + p.val, by have := t.isLt; have h8 : cfg0.N = 8 := N_0; omega⟩ q := by
  funext a; apply Fin.ext
  obtain ⟨e0, e1⟩ := idx_23 t
  match a with
  | ⟨0, _⟩ => show win0_23.index t (0 : Fin 2) * 1024 + 1 * p.val = t.val * 1024 + p.val; omega
  | ⟨1, _⟩ => show win0_23.index t (1 : Fin 2) * 256 + 1 * q.val = q.val; omega

theorem flushed23_eq (c : Dev nD) (t : Fin cfg0.N) :
    (dats mI 0 c).flushed 23 t = ((cfg0.win 23).blk t).view.read (Elt Ideal) (G23 mI c) := by
  show (cfg0.win 23).cut (grid0.coords t) ((dats mI 0 c).after 23 t) = _
  rw [after_23]
  unfold o23
  rw [View.canon_unit_zero hz]
  funext j
  obtain ⟨p, q, rfl⟩ : ∃ (p : Fin 1024) (q : Fin 256), j = ix2 p q := ⟨j 0, j 1, eq_ix2 j⟩
  refine (Cert.KernelIdeal.KNet.h1_eq (iblk mI c 0 t) (iblk mI c 1 t) (iblk mI c 2 t) (iblk mI c 3 t) (iblk mI c 4 t) (iblk mI c 5 t) (iblk mI c 6 t) (iblk mI c 7 t) (iblk mI c 8 t) (iblk mI c 9 t) (iblk mI c 10 t) (iblk mI c 11 t) (iblk mI c 12 t) (iblk mI c 13 t) (iblk mI c 14 t) (iblk mI c 15 t) (iblk mI c 16 t) (iblk mI c 17 t) (iblk mI c 18 t) (iblk mI c 19 t) (iblk mI c 20 t) (iblk mI c 21 t) p q).trans ?_
  show _ = G23 mI c (((cfg0.win 23).blk t).view.emb (ix2 p q))
  rw [emb_out_23 t p q, trunk_blk mI c t, row_0 mI c t p, row_4 mI c t p]
  rfl

theorem mem_blk_23 (t : Fin cfg0.N) (i : S8192x256.Idx) :
    i ∈ ((cfg0.win 23).blk t).view.set ↔ ∀ a : Fin 2, win0_23.index t a * S1024x256.size a ≤ (i a).val ∧ (i a).val < win0_23.index t a * S1024x256.size a + S1024x256.size a := by
  show i ∈ ((View.whole main_v45_1).slice (win0_23.rect t)).set ↔ _
  rw [View.set_slice_whole, Rect.mem_set_unit]
  exact Iff.rfl

theorem cover_23 (i : S8192x256.Idx) :
    ∃ t : Fin cfg0.N, (cfg0.win 23).flush t = true ∧ i ∈ ((cfg0.win 23).blk t).view.set := by
  have hi0 : (i 0).val < 8192 := (i 0).isLt
  have hi1 : (i 1).val < 256 := (i 1).isLt
  have hN : cfg0.N = 8 := N_0
  have ht : (i 0).val / 1024 < cfg0.N := by omega
  refine ⟨⟨(i 0).val / 1024, ht⟩, flush0_23 _, ?_⟩
  rw [mem_blk_23]
  obtain ⟨e0, e1⟩ := idx_23 (⟨(i 0).val / 1024, ht⟩ : Fin cfg0.N)
  intro a
  match a with
  | ⟨0, _⟩ =>
    show win0_23.index ⟨(i 0).val / 1024, ht⟩ (0 : Fin 2) * 1024 ≤ (i 0).val ∧ (i 0).val < win0_23.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_23.index ⟨(i 0).val / 1024, ht⟩ (1 : Fin 2) * 256 ≤ (i 1).val ∧ (i 1).val < win0_23.index ⟨(i 0).val / 1024, ht⟩ (1 : Fin 2) * 256 + 256
    rw [e1]; omega

/-- After the run the array is the whole-array function. -/
theorem final_23 (c : Dev nD) : (dats mI 0 c).arrAt 23 cfg0.N = G23 mI c :=
  (dats mI 0 c).arrAt_eq_of_cover 23 (G23 mI c) (fun t _ => flushed23_eq mI c t) cover_23

end Cert.KernelIdeal.Hand

end
-- ==== Proof.ArrOut24.lean ====
/-
  Output window 24: what point `t` writes back is block `t` of the whole-array function; the 8 blocks tile the 8192
  rows; so after the run the array is that function.
-/
import proofs.«162228_j46806553592417_2_alg».proof.Proof.ArrRows
import proofs.«162228_j46806553592417_2_alg».proof.Proof.KernelNet

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (mI : (ℓ : Loc nD τ sig) → Buf (Elt Ideal) ℓ) (ρ : Dev nD → PrngReg)

theorem emb_out_24 (t : Fin cfg0.N) (p : Fin 1024) (q : Fin 256) :
    ((cfg0.win 24).blk t).view.emb (ix2 p q) = ix2 ⟨t.val * 1024 + p.val, by have := t.isLt; have h8 : cfg0.N = 8 := N_0; omega⟩ q := by
  funext a; apply Fin.ext
  obtain ⟨e0, e1⟩ := idx_24 t
  match a with
  | ⟨0, _⟩ => show win0_24.index t (0 : Fin 2) * 1024 + 1 * p.val = t.val * 1024 + p.val; omega
  | ⟨1, _⟩ => show win0_24.index t (1 : Fin 2) * 256 + 1 * q.val = q.val; omega

theorem flushed24_eq (c : Dev nD) (t : Fin cfg0.N) :
    (dats mI 0 c).flushed 24 t = ((cfg0.win 24).blk t).view.read (Elt Ideal) (G24 mI c) := by
  show (cfg0.win 24).cut (grid0.coords t) ((dats mI 0 c).after 24 t) = _
  rw [after_24]
  unfold o24
  rw [View.canon_unit_zero hz]
  funext j
  obtain ⟨p, q, rfl⟩ : ∃ (p : Fin 1024) (q : Fin 256), j = ix2 p q := ⟨j 0, j 1, eq_ix2 j⟩
  refine (Cert.KernelIdeal.KNet.h2_eq (iblk mI c 0 t) (iblk mI c 1 t) (iblk mI c 2 t) (iblk mI c 3 t) (iblk mI c 4 t) (iblk mI c 5 t) (iblk mI c 6 t) (iblk mI c 7 t) (iblk mI c 8 t) (iblk mI c 9 t) (iblk mI c 10 t) (iblk mI c 11 t) (iblk mI c 12 t) (iblk mI c 13 t) (iblk mI c 14 t) (iblk mI c 15 t) (iblk mI c 16 t) (iblk mI c 17 t) (iblk mI c 18 t) (iblk mI c 19 t) (iblk mI c 20 t) (iblk mI c 21 t) p q).trans ?_
  show _ = G24 mI c (((cfg0.win 24).blk t).view.emb (ix2 p q))
  rw [emb_out_24 t p q, trunk_blk mI c t, row_0 mI c t p, row_4 mI c t p, row_5 mI c t p]
  rfl

theorem mem_blk_24 (t : Fin cfg0.N) (i : S8192x256.Idx) :
    i ∈ ((cfg0.win 24).blk t).view.set ↔ ∀ a : Fin 2, win0_24.index t a * S1024x256.size a ≤ (i a).val ∧ (i a).val < win0_24.index t a * S1024x256.size a + S1024x256.size a := by
  show i ∈ ((View.whole main_v45_2).slice (win0_24.rect t)).set ↔ _
  rw [View.set_slice_whole, Rect.mem_set_unit]
  exact Iff.rfl

theorem cover_24 (i : S8192x256.Idx) :
    ∃ t : Fin cfg0.N, (cfg0.win 24).flush t = true ∧ i ∈ ((cfg0.win 24).blk t).view.set := by
  have hi0 : (i 0).val < 8192 := (i 0).isLt
  have hi1 : (i 1).val < 256 := (i 1).isLt
  have hN : cfg0.N = 8 := N_0
  have ht : (i 0).val / 1024 < cfg0.N := by omega
  refine ⟨⟨(i 0).val / 1024, ht⟩, flush0_24 _, ?_⟩
  rw [mem_blk_24]
  obtain ⟨e0, e1⟩ := idx_24 (⟨(i 0).val / 1024, ht⟩ : Fin cfg0.N)
  intro a
  match a with
  | ⟨0, _⟩ =>
    show win0_24.index ⟨(i 0).val / 1024, ht⟩ (0 : Fin 2) * 1024 ≤ (i 0).val ∧ (i 0).val < win0_24.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_24.index ⟨(i 0).val / 1024, ht⟩ (1 : Fin 2) * 256 ≤ (i 1).val ∧ (i 1).val < win0_24.index ⟨(i 0).val / 1024, ht⟩ (1 : Fin 2) * 256 + 256
    rw [e1]; omega

/-- After the run the array is the whole-array function. -/
theorem final_24 (c : Dev nD) : (dats mI 0 c).arrAt 24 cfg0.N = G24 mI c :=
  (dats mI 0 c).arrAt_eq_of_cover 24 (G24 mI c) (fun t _ => flushed24_eq mI c t) cover_24

end Cert.KernelIdeal.Hand

end
-- ==== Proof.ArrOut25.lean ====
/-
  Output window 25: what point `t` writes back is block `t` of the whole-array function; the 8 blocks tile the 8192
  rows; so after the run the array is that function.
-/
import proofs.«162228_j46806553592417_2_alg».proof.Proof.ArrRows
import proofs.«162228_j46806553592417_2_alg».proof.Proof.KernelNet

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (mI : (ℓ : Loc nD τ sig) → Buf (Elt Ideal) ℓ) (ρ : Dev nD → PrngReg)

theorem emb_out_25 (t : Fin cfg0.N) (p : Fin 1024) (q : Fin 256) :
    ((cfg0.win 25).blk t).view.emb (ix2 p q) = ix2 ⟨t.val * 1024 + p.val, by have := t.isLt; have h8 : cfg0.N = 8 := N_0; omega⟩ q := by
  funext a; apply Fin.ext
  obtain ⟨e0, e1⟩ := idx_25 t
  match a with
  | ⟨0, _⟩ => show win0_25.index t (0 : Fin 2) * 1024 + 1 * p.val = t.val * 1024 + p.val; omega
  | ⟨1, _⟩ => show win0_25.index t (1 : Fin 2) * 256 + 1 * q.val = q.val; omega

theorem flushed25_eq (c : Dev nD) (t : Fin cfg0.N) :
    (dats mI 0 c).flushed 25 t = ((cfg0.win 25).blk t).view.read (Elt Ideal) (G25 mI c) := by
  show (cfg0.win 25).cut (grid0.coords t) ((dats mI 0 c).after 25 t) = _
  rw [after_25]
  unfold o25
  rw [View.canon_unit_zero hz]
  funext j
  obtain ⟨p, q, rfl⟩ : ∃ (p : Fin 1024) (q : Fin 256), j = ix2 p q := ⟨j 0, j 1, eq_ix2 j⟩
  refine (Cert.KernelIdeal.KNet.h3_eq (iblk mI c 0 t) (iblk mI c 1 t) (iblk mI c 2 t) (iblk mI c 3 t) (iblk mI c 4 t) (iblk mI c 5 t) (iblk mI c 6 t) (iblk mI c 7 t) (iblk mI c 8 t) (iblk mI c 9 t) (iblk mI c 10 t) (iblk mI c 11 t) (iblk mI c 12 t) (iblk mI c 13 t) (iblk mI c 14 t) (iblk mI c 15 t) (iblk mI c 16 t) (iblk mI c 17 t) (iblk mI c 18 t) (iblk mI c 19 t) (iblk mI c 20 t) (iblk mI c 21 t) p q).trans ?_
  show _ = G25 mI c (((cfg0.win 25).blk t).view.emb (ix2 p q))
  rw [emb_out_25 t p q, trunk_blk mI c t, row_0 mI c t p, row_4 mI c t p, row_5 mI c t p, row_6 mI c t p]
  rfl

theorem mem_blk_25 (t : Fin cfg0.N) (i : S8192x256.Idx) :
    i ∈ ((cfg0.win 25).blk t).view.set ↔ ∀ a : Fin 2, win0_25.index t a * S1024x256.size a ≤ (i a).val ∧ (i a).val < win0_25.index t a * S1024x256.size a + S1024x256.size a := by
  show i ∈ ((View.whole main_v45_3).slice (win0_25.rect t)).set ↔ _
  rw [View.set_slice_whole, Rect.mem_set_unit]
  exact Iff.rfl

theorem cover_25 (i : S8192x256.Idx) :
    ∃ t : Fin cfg0.N, (cfg0.win 25).flush t = true ∧ i ∈ ((cfg0.win 25).blk t).view.set := by
  have hi0 : (i 0).val < 8192 := (i 0).isLt
  have hi1 : (i 1).val < 256 := (i 1).isLt
  have hN : cfg0.N = 8 := N_0
  have ht : (i 0).val / 1024 < cfg0.N := by omega
  refine ⟨⟨(i 0).val / 1024, ht⟩, flush0_25 _, ?_⟩
  rw [mem_blk_25]
  obtain ⟨e0, e1⟩ := idx_25 (⟨(i 0).val / 1024, ht⟩ : Fin cfg0.N)
  intro a
  match a with
  | ⟨0, _⟩ =>
    show win0_25.index ⟨(i 0).val / 1024, ht⟩ (0 : Fin 2) * 1024 ≤ (i 0).val ∧ (i 0).val < win0_25.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_25.index ⟨(i 0).val / 1024, ht⟩ (1 : Fin 2) * 256 ≤ (i 1).val ∧ (i 1).val < win0_25.index ⟨(i 0).val / 1024, ht⟩ (1 : Fin 2) * 256 + 256
    rw [e1]; omega

/-- After the run the array is the whole-array function. -/
theorem final_25 (c : Dev nD) : (dats mI 0 c).arrAt 25 cfg0.N = G25 mI c :=
  (dats mI 0 c).arrAt_eq_of_cover 25 (G25 mI c) (fun t _ => flushed25_eq mI c t) cover_25

end Cert.KernelIdeal.Hand

end
-- ==== Proof.ArrayKI.lean ====
/-
  The kernel program's four output arrays, each as ONE function of the arrays the region finds.

  The region runs the body at 8 points; point `t` stages rows `1024·t … 1024·t + 1023` of each batch-major array
  (the input rows, the pitch window, the excitation memory, the gain, the three GRU states, and the four outputs) and the
  whole of each weight array. So a block's entry `(p, k)` is the array's entry `(1024·t + p, k)`, a weight block is the
  weight array, and — the body acting on one batch row at a time — what point `t` writes back is block `t` of one
  whole-array function: row `r` of the result is the row network of row `r` of the inputs. The 8 blocks tile the 8192
  rows, so after the run each output array IS that function. The slice after the region then reads the new subframe off
  the new excitation memory's last 40 columns.
-/
import proofs.«162228_j46806553592417_2_alg».proof.Proof.ArrOut22
import proofs.«162228_j46806553592417_2_alg».proof.Proof.ArrOut23
import proofs.«162228_j46806553592417_2_alg».proof.Proof.ArrOut24
import proofs.«162228_j46806553592417_2_alg».proof.Proof.ArrOut25
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (mI : (ℓ : Loc nD τ sig) → Buf (Elt Ideal) ℓ) (ρ : Dev nD → PrngReg)

/-! ## The buffers around the region's arrays -/

/-- The slice after the region reads the new subframe off the new excitation memory's last 40 columns. -/
theorem tail_v46 (r : PUnit × MemSt nD τ sig (Elt Ideal))
    (h : Pipeline.FramePost cfgs (dats mI) 0 (Pipeline.afterTail₀ cfgs (dats mI) 0 (V0 mI) [hostOps1]) r) (c : Dev nD) :
    r.2.mem ((c.tc : Thread nD τ).loc main_v46)
      = extractStridedSlice S8192x40 ![0, 216] (G22 mI c) slices_S8192x256_S8192x40_0_216 :=
  ((h c).2 main_v46 (Pipeline.mem_restRefs_of main_v46 rfl (by decide))).trans (by
    unfold Pipeline.afterTail₀
    show StableHlo.after hostOps1 _ (Proc.devRef .tc main_v46) = _
    after_results
    exact congrArg (fun x => extractStridedSlice S8192x40 ![0, 216] x slices_S8192x256_S8192x40_0_216)
      ((Pipeline.withArrays_arr spec0 launch0.win.arr_inj c (V0 mI c) (fun w => (dats mI 0 c).arrAt w cfg0.N) 22).trans (final_22 mI c)))

/-- The saved convolution state is a host buffer the region bypasses and the slice does not write. -/
theorem rest_v23 (r : PUnit × MemSt nD τ sig (Elt Ideal))
    (h : Pipeline.FramePost cfgs (dats mI) 0 (Pipeline.afterTail₀ cfgs (dats mI) 0 (V0 mI) [hostOps1]) r) (c : Dev nD) :
    r.2.mem ((c.tc : Thread nD τ).loc main_v23) = V mI c main_v23 :=
  ((h c).2 main_v23 (Pipeline.mem_restRefs_of main_v23 rfl (by decide))).trans (by
    unfold Pipeline.afterTail₀
    rw [StableHlo.after_of_forall_not_mem (b := Proc.devRef .tc main_v23) _ _ (List.forall_iff_forall_mem.mp (by
      simp only [hostOps1, List.flatten_cons, List.flatten_nil, List.append_nil, List.Forall, StableHlo.unary_writes, Finset.mem_singleton]
      exact StableHlo.devRef_ne_of_ne (by decide)))]
    exact Pipeline.withArrays_of_ne spec0 c _ _ main_v23 (by decide))

/-! ## The run, read -/

/-- The frame run re-posted at the Ideal instance: the six results named, the arguments unchanged. -/
theorem run_value : θ_run defs (onTc (τ := τ) (main (F := Ideal))) ⟨mI, fun _ => 0, ρ⟩ (fun r => ∀ c : Dev nD,
      r.2.mem ((c.tc : Thread nD τ).loc main_v46) = extractStridedSlice S8192x40 ![0, 216] (G22 mI c) slices_S8192x256_S8192x40_0_216
      ∧ r.2.mem ((c.tc : Thread nD τ).loc main_v45_0) = G22 mI c
      ∧ r.2.mem ((c.tc : Thread nD τ).loc main_v45_1) = G23 mI c
      ∧ r.2.mem ((c.tc : Thread nD τ).loc main_v45_2) = G24 mI c
      ∧ r.2.mem ((c.tc : Thread nD τ).loc main_v45_3) = G25 mI c
      ∧ r.2.mem ((c.tc : Thread nD τ).loc main_v23) = V mI c main_v23
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4)
      ∧ r.2.mem ((c.tc : Thread nD τ).loc main_arg5) = mI ((c.tc : Thread nD τ).loc main_arg5)
      ∧ r.2.mem ((c.tc : Thread nD τ).loc main_arg6) = mI ((c.tc : Thread nD τ).loc main_arg6)
      ∧ r.2.mem ((c.tc : Thread nD τ).loc main_arg7) = mI ((c.tc : Thread nD τ).loc main_arg7)
      ∧ r.2.mem ((c.tc : Thread nD τ).loc main_arg8) = mI ((c.tc : Thread nD τ).loc main_arg8)
      ∧ r.2.mem ((c.tc : Thread nD τ).loc main_arg9) = mI ((c.tc : Thread nD τ).loc main_arg9)
      ∧ r.2.mem ((c.tc : Thread nD τ).loc main_arg10) = mI ((c.tc : Thread nD τ).loc main_arg10)
      ∧ r.2.mem ((c.tc : Thread nD τ).loc main_arg11) = mI ((c.tc : Thread nD τ).loc main_arg11)
      ∧ r.2.mem ((c.tc : Thread nD τ).loc main_arg12) = mI ((c.tc : Thread nD τ).loc main_arg12)
      ∧ r.2.mem ((c.tc : Thread nD τ).loc main_arg13) = mI ((c.tc : Thread nD τ).loc main_arg13)
      ∧ r.2.mem ((c.tc : Thread nD τ).loc main_arg14) = mI ((c.tc : Thread nD τ).loc main_arg14)
      ∧ r.2.mem ((c.tc : Thread nD τ).loc main_arg15) = mI ((c.tc : Thread nD τ).loc main_arg15)
      ∧ r.2.mem ((c.tc : Thread nD τ).loc main_arg16) = mI ((c.tc : Thread nD τ).loc main_arg16)
      ∧ r.2.mem ((c.tc : Thread nD τ).loc main_arg17) = mI ((c.tc : Thread nD τ).loc main_arg17)
      ∧ r.2.mem ((c.tc : Thread nD τ).loc main_arg18) = mI ((c.tc : Thread nD τ).loc main_arg18)
      ∧ r.2.mem ((c.tc : Thread nD τ).loc main_arg19) = mI ((c.tc : Thread nD τ).loc main_arg19)
      ∧ r.2.mem ((c.tc : Thread nD τ).loc main_arg20) = mI ((c.tc : Thread nD τ).loc main_arg20)
      ∧ r.2.mem ((c.tc : Thread nD τ).loc main_arg21) = mI ((c.tc : Thread nD τ).loc main_arg21)
      ∧ r.2.mem ((c.tc : Thread nD τ).loc main_arg22) = mI ((c.tc : Thread nD τ).loc main_arg22)
      ∧ r.2.mem ((c.tc : Thread nD τ).loc main_arg23) = mI ((c.tc : Thread nD τ).loc main_arg23)
      ∧ r.2.mem ((c.tc : Thread nD τ).loc main_arg24) = mI ((c.tc : Thread nD τ).loc main_arg24)
      ∧ r.2.mem ((c.tc : Thread nD τ).loc main_arg25) = mI ((c.tc : Thread nD τ).loc main_arg25)) :=
  (θ_run defs _ _).mono (fun r h c => ⟨tail_v46 mI r h c, ((h c).1 22).trans (final_22 mI c), ((h c).1 23).trans (final_23 mI c),
      ((h c).1 24).trans (final_24 mI c), ((h c).1 25).trans (final_25 mI c), rest_v23 mI r h c,
      kept_main_arg0 mI r h c, kept_main_arg1 mI r h c, kept_main_arg2 mI r h c, kept_main_arg3 mI r h c, kept_main_arg4 mI r h c, kept_main_arg5 mI r h c, kept_main_arg6 mI r h c, kept_main_arg7 mI r h c, kept_main_arg8 mI r h c, kept_main_arg9 mI r h c, kept_main_arg10 mI r h c, kept_main_arg11 mI r h c, kept_main_arg12 mI r h c, kept_main_arg13 mI r h c, kept_main_arg14 mI r h c, kept_main_arg15 mI r h c, kept_main_arg16 mI r h c, kept_main_arg17 mI r h c, kept_main_arg18 mI r h c, kept_main_arg19 mI r h c, kept_main_arg20 mI r h c, kept_main_arg21 mI r h c, kept_main_arg22 mI r h c, kept_main_arg23 mI r h c, kept_main_arg24 mI r h c, kept_main_arg25 mI r h c⟩) (run_main mI ρ)

end Cert.KernelIdeal.Hand

end
-- ==== Proof.PrefixKI.lean ====
/-
  What the region's windows find in their arrays: the weights.

  Before the region the program prepares its operands on the host: every weight matrix is cast to the narrow float
  format; the two output matrices (40 rows and 1 row of 1024) are stacked and padded with zero rows to 128 rows, and
  likewise the output bias (40 zeros, then the one entry of the second bias, then zeros to 128 entries, viewed as one
  row). At the extended reals a cast is the identity, so the region finds the weights themselves, and the stacked output
  matrix and bias entry by entry.
-/
import proofs.«162228_j46806553592417_2_alg».proof.Proof.FrameKI
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx

/-- Reads a buffer as the region finds it: unfolds the host operations before the region and rewrites each
    operation's result at its own buffer to its function's value. -/
macro "read_V" : tactic =>
  `(tactic| (dsimp only [V, V0]
             simp only [preOps, hostOps0, hostOps0_1, hostOps0_2, hostOps0_3, hostOps0_4, hostOps0_5, hostOps0_6, hostOps0_7, hostOps0_8,
               List.flatten_cons, List.flatten_nil, List.append_nil, List.cons_append, List.nil_append]
             after_results_simp))

variable (mI : (ℓ : Loc nD τ sig) → Buf (Elt Ideal) ℓ) (c : Dev nD)

/-! ## The weights

Each weight matrix reaches the region through a cast to the narrow float format, which at the extended reals changes
nothing: the region finds the argument itself. -/

theorem V_v25 : (V mI c main_v25 : S256x720.Idx → EReal) = mI ((c : Thread nD τ).loc main_arg10) := by
  read_V
  all_goals rfl
theorem V_v26 : (V mI c main_v26 : S256x256.Idx → EReal) = mI ((c : Thread nD τ).loc main_arg11) := by
  read_V
  all_goals rfl
theorem V_v27 : (V mI c main_v27 : S256x256.Idx → EReal) = mI ((c : Thread nD τ).loc main_arg12) := by
  read_V
  all_goals rfl
theorem V_v28 : (V mI c main_v28 : S256x256.Idx → EReal) = mI ((c : Thread nD τ).loc main_arg13) := by
  read_V
  all_goals rfl
theorem V_v29 : (V mI c main_v29 : S768x256.Idx → EReal) = mI ((c : Thread nD τ).loc main_arg14) := by
  read_V
  all_goals rfl
theorem V_v30 : (V mI c main_v30 : S768x256.Idx → EReal) = mI ((c : Thread nD τ).loc main_arg15) := by
  read_V
  all_goals rfl
theorem V_v31 : (V mI c main_v31 : S256x256.Idx → EReal) = mI ((c : Thread nD τ).loc main_arg16) := by
  read_V
  all_goals rfl
theorem V_v32 : (V mI c main_v32 : S768x256.Idx → EReal) = mI ((c : Thread nD τ).loc main_arg17) := by
  read_V
  all_goals rfl
theorem V_v33 : (V mI c main_v33 : S768x256.Idx → EReal) = mI ((c : Thread nD τ).loc main_arg18) := by
  read_V
  all_goals rfl
theorem V_v34 : (V mI c main_v34 : S256x256.Idx → EReal) = mI ((c : Thread nD τ).loc main_arg19) := by
  read_V
  all_goals rfl
theorem V_v35 : (V mI c main_v35 : S768x256.Idx → EReal) = mI ((c : Thread nD τ).loc main_arg20) := by
  read_V
  all_goals rfl
theorem V_v36 : (V mI c main_v36 : S768x256.Idx → EReal) = mI ((c : Thread nD τ).loc main_arg21) := by
  read_V
  all_goals rfl
theorem V_v37 : (V mI c main_v37 : S256x256.Idx → EReal) = mI ((c : Thread nD τ).loc main_arg22) := by
  read_V
  all_goals rfl

/-! ## The fused output weight and the bias row -/

/-- Rows 0 … 39 of the padded output weight are the rows of the first output matrix. -/
theorem V_v40_sig (j : Fin 40) (k : Fin 1024) :
    (V mI c main_v40 : S128x1024.Idx → EReal) (ix2 (⟨j.val, by omega⟩ : Fin 128) k)
      = (mI ((c : Thread nD τ).loc main_arg23) : S40x1024.Idx → EReal) (ix2 j k) := by
  read_V
  show pad (s := S41x1024) S128x1024 ![0, 0] ![87, 0] ![0, 0] _ _ pads_S41x1024_S128x1024_0870_000 h_S_ (ix2 (⟨j.val, _⟩ : Fin 128) k) = _
  refine (pad_apply_of_inside _ _ _ _ _ pads_S41x1024_S128x1024_0870_000 h_S_ _ (ix2 (⟨j.val, by omega⟩ : Fin 41) k) (fun a => ?_)).trans ?_
  · match a with
    | ⟨0, _⟩ => show j.val = 0 + j.val * (0 + 1); omega
    | ⟨1, _⟩ => show k.val = 0 + k.val * (0 + 1); omega
  refine (concatenate_pair_apply_left (t := S41x1024) (s₁ := S40x1024) (s₂ := S1x1024) (0 : Fin 2) _ _ concatenates_S40x1024_S1x1024_S41x1024_d0 _ rfl (ix2 j k) (fun b => ?_)).trans ?_
  · match b with
    | ⟨0, _⟩ => rfl
    | ⟨1, _⟩ => rfl
  after_results_simp
  all_goals rfl

/-- Row 40 of the padded output weight is the one row of the second output matrix. -/
theorem V_v40_pg (k : Fin 1024) :
    (V mI c main_v40 : S128x1024.Idx → EReal) (ix2 (⟨40, by omega⟩ : Fin 128) k)
      = (mI ((c : Thread nD τ).loc main_arg24) : S1x1024.Idx → EReal) (ix2 (0 : Fin 1) k) := by
  read_V
  show pad (s := S41x1024) S128x1024 ![0, 0] ![87, 0] ![0, 0] _ _ pads_S41x1024_S128x1024_0870_000 h_S_ (ix2 (⟨40, _⟩ : Fin 128) k) = _
  refine (pad_apply_of_inside _ _ _ _ _ pads_S41x1024_S128x1024_0870_000 h_S_ _ (ix2 (⟨40, by omega⟩ : Fin 41) k) (fun a => ?_)).trans ?_
  · match a with
    | ⟨0, _⟩ => show 40 = 0 + 40 * (0 + 1); omega
    | ⟨1, _⟩ => show k.val = 0 + k.val * (0 + 1); omega
  refine (concatenate_pair_apply_right (t := S41x1024) (s₁ := S40x1024) (s₂ := S1x1024) (0 : Fin 2) _ _ concatenates_S40x1024_S1x1024_S41x1024_d0 _ rfl rfl (ix2 (0 : Fin 1) k) (fun b hb => ?_) ?_).trans ?_
  · match b with
    | ⟨0, _⟩ => exact absurd rfl hb
    | ⟨1, _⟩ => rfl
  · show 0 + 40 = 40; omega
  after_results_simp
  all_goals rfl

/-- Entries 0 … 39 of the bias row are zero. -/
theorem V_v44_zero (j : Fin 40) :
    (V mI c main_v44 : S1x128.Idx → EReal) (ix2 (0 : Fin 1) (⟨j.val, by omega⟩ : Fin 128)) = (0 : EReal) := by
  read_V
  refine (shapeCast_a_1a_apply _ shapeCasts_S128_S1x128 (0 : Fin 1) (⟨j.val, by omega⟩ : Fin 128)).trans ?_
  show pad (s := S41) S128 ![0] ![87] ![0] _ _ pads_S41_S128_0870 h_S_ (ix1 (⟨j.val, _⟩ : Fin 128)) = _
  refine (pad_apply_of_inside _ _ _ _ _ pads_S41_S128_0870 h_S_ _ (ix1 (⟨j.val, by omega⟩ : Fin 41)) (fun a => ?_)).trans ?_
  · match a with
    | ⟨0, _⟩ => show j.val = 0 + j.val * (0 + 1); omega
  refine (concatenate_pair_apply_left (t := S41) (s₁ := S40) (s₂ := S1) (0 : Fin 1) _ _ concatenates_S40_S1_S41_d0 _ rfl (ix1 j) (fun b => ?_)).trans ?_
  · match b with
    | ⟨0, _⟩ => rfl
  after_results_simp
  show Ideal.ofBits .f32 0x00000000#32 = 0
  exact Ideal.ofBits_zero_f32

/-- Entry 40 of the bias row is the one entry of the second output bias. -/
theorem V_v44_b :
    (V mI c main_v44 : S1x128.Idx → EReal) (ix2 (0 : Fin 1) (⟨40, by omega⟩ : Fin 128))
      = (mI ((c : Thread nD τ).loc main_arg25) : S1.Idx → EReal) (ix1 (0 : Fin 1)) := by
  read_V
  refine (shapeCast_a_1a_apply _ shapeCasts_S128_S1x128 (0 : Fin 1) (⟨40, by omega⟩ : Fin 128)).trans ?_
  show pad (s := S41) S128 ![0] ![87] ![0] _ _ pads_S41_S128_0870 h_S_ (ix1 (⟨40, _⟩ : Fin 128)) = _
  refine (pad_apply_of_inside _ _ _ _ _ pads_S41_S128_0870 h_S_ _ (ix1 (⟨40, by omega⟩ : Fin 41)) (fun a => ?_)).trans ?_
  · match a with
    | ⟨0, _⟩ => show 40 = 0 + 40 * (0 + 1); omega
  refine (concatenate_pair_apply_right (t := S41) (s₁ := S40) (s₂ := S1) (0 : Fin 1) _ _ concatenates_S40_S1_S41_d0 _ rfl rfl (ix1 (0 : Fin 1)) (fun b hb => ?_) ?_).trans ?_
  · match b with
    | ⟨0, _⟩ => exact absurd rfl hb
  · show 0 + 40 = 40; omega
  after_results_simp
  all_goals rfl

end Cert.KernelIdeal.Hand
-- ==== Proof.PrefixX.lean ====
/-
  What the region's windows find in their arrays: the input rows.

  The program before the region and the plain reference build the 720-wide input row of every batch row by the same
  operations on the same arguments: the pitch index clipped to [42, 254], the window of 44 past samples gathered at it
  (out-of-range positions replaced), both the past samples and the second feature block divided by 1e-5 plus the gain,
  and the pieces joined behind the first feature block; the program then casts the row to the narrow float format,
  which at the extended reals is the identity. So the region finds the reference's own row, and its two slices.
-/
import proofs.«162228_j46806553592417_2_alg».proof.Proof.PrefixKI
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout
import proofs.«162228_j46806553592417_2_alg».proof.Proof.ReadP
set_option maxRecDepth 16384

noncomputable section

namespace Cert.KernelIdeal.Hand

open Cert.KernelIdeal Cert.KernelIdeal.Gen
open Idealize.ShloMosaic Idealize.ShloMosaic.TcCoe Idealize.ShloMosaic.ValueIdx

variable (mI : (ℓ : Loc nD τ sig) → Buf (Elt Ideal) ℓ) (c : Dev nD)

/-! ## Joins read piece by piece -/

section Pieces
variable {α : Type}

/-- A two-piece join of equal pieces is the same join. -/
theorem concatenate_congr2 {t : Shape} {a : Fin t.rank} {s₁ s₂ : Shape} {x₁ y₁ : s₁.Idx → α} {x₂ y₂ : s₂.Idx → α}
    (h : Shape.Concatenates [s₁, s₂] t a) (e₁ : x₁ = y₁) (e₂ : x₂ = y₂) :
    concatenate t a [⟨s₁, x₁⟩, ⟨s₂, x₂⟩] h = concatenate t a [⟨s₁, y₁⟩, ⟨s₂, y₂⟩] h := by
  subst e₁; subst e₂; rfl

/-- A four-piece join of equal pieces is the same join. -/
theorem concatenate_congr4 {t : Shape} {a : Fin t.rank} {s₁ s₂ s₃ s₄ : Shape} {x₁ y₁ : s₁.Idx → α} {x₂ y₂ : s₂.Idx → α}
    {x₃ y₃ : s₃.Idx → α} {x₄ y₄ : s₄.Idx → α}
    (h : Shape.Concatenates [s₁, s₂, s₃, s₄] t a) (e₁ : x₁ = y₁) (e₂ : x₂ = y₂) (e₃ : x₃ = y₃) (e₄ : x₄ = y₄) :
    concatenate t a [⟨s₁, x₁⟩, ⟨s₂, x₂⟩, ⟨s₃, x₃⟩, ⟨s₄, x₄⟩] h
      = concatenate t a [⟨s₁, y₁⟩, ⟨s₂, y₂⟩, ⟨s₃, y₃⟩, ⟨s₄, y₄⟩] h := by
  subst e₁; subst e₂; subst e₃; subst e₄; rfl

/-- A family given entry by entry, read at a literal position. -/
theorem cons4_at1 {β : Fin 4 → Type} (a : β 0) (p : (i : Fin 3) → β i.succ) :
    (Fin.cons a p : (k : Fin 4) → β k) 1 = p 0 := rfl
theorem cons4_at2 {β : Fin 4 → Type} (a : β 0) (p : (i : Fin 3) → β i.succ) :
    (Fin.cons a p : (k : Fin 4) → β k) 2 = p 1 := rfl
theorem cons4_at3 {β : Fin 4 → Type} (a : β 0) (p : (i : Fin 3) → β i.succ) :
    (Fin.cons a p : (k : Fin 4) → β k) 3 = p 2 := rfl
theorem cons3_at1 {β : Fin 3 → Type} (a : β 0) (p : (i : Fin 2) → β i.succ) :
    (Fin.cons a p : (k : Fin 3) → β k) 1 = p 0 := rfl
theorem cons3_at2 {β : Fin 3 → Type} (a : β 0) (p : (i : Fin 2) → β i.succ) :
    (Fin.cons a p : (k : Fin 3) → β k) 2 = p 1 := rfl
theorem cons2_at1 {β : Fin 2 → Type} (a : β 0) (p : (i : Fin 1) → β i.succ) :
    (Fin.cons a p : (k : Fin 2) → β k) 1 = p 0 := rfl

end Pieces

/-- Reads on below a join's piece: the piece out of its family, then each operation's result at its own buffer. -/
macro "read_piece" : tactic =>
  `(tactic| ((try dsimp only [V, V0])
             (try simp only [preOps, hostOps0, hostOps0_1, hostOps0_2, hostOps0_3, hostOps0_4, hostOps0_5, hostOps0_6, hostOps0_7, hostOps0_8,
               List.flatten_cons, List.flatten_nil, List.append_nil, List.cons_append, List.nil_append])
             simp (disch := decide) only [Matrix.cons_val_zero, Matrix.cons_val_one, Matrix.head_cons, Fin.cons_zero, cons4_at1, cons4_at2, cons4_at3, cons3_at1, cons3_at2, cons2_at1,
      StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']))

/-! ## Transports along a buffer's type

The operations of a function called from the program carry their operands from each buffer's own type to the stated
tensor type and their result back; the two types are the same, so each transport is the identity. -/

section Transports
theorem cast_in_main_c (h : main_c.ty.Contents (Elt Ideal) = (⟨S_, .i32⟩ : BufTy).Contents (Elt Ideal))
    (u : main_c.ty.Contents (Elt Ideal)) : cast h u = u := rfl
theorem cast_in_main_c_0 (h : main_c_0.ty.Contents (Elt Ideal) = (⟨S_, .i32⟩ : BufTy).Contents (Elt Ideal))
    (u : main_c_0.ty.Contents (Elt Ideal)) : cast h u = u := rfl
theorem cast_in_main_v0 (h : main_v0.ty.Contents (Elt Ideal) = (⟨S8192x1, .i32⟩ : BufTy).Contents (Elt Ideal))
    (u : main_v0.ty.Contents (Elt Ideal)) : cast h u = u := rfl
theorem cast_in_main_v10 (h : main_v10.ty.Contents (Elt Ideal) = (⟨S8192x44, .i32⟩ : BufTy).Contents (Elt Ideal))
    (u : main_v10.ty.Contents (Elt Ideal)) : cast h u = u := rfl
theorem cast_in_main_arg2 (h : main_arg2.ty.Contents (Elt Ideal) = (⟨S8192x256, .f32⟩ : BufTy).Contents (Elt Ideal))
    (u : main_arg2.ty.Contents (Elt Ideal)) : cast h u = u := rfl
theorem cast_out_main_v1 (h : (⟨S8192x1, .i32⟩ : BufTy).Contents (Elt Ideal) = main_v1.ty.Contents (Elt Ideal))
    (w : (⟨S8192x1, .i32⟩ : BufTy).Contents (Elt Ideal)) : cast h w = w := rfl
theorem cast_out_main_v11 (h : (⟨S8192x44, .f32⟩ : BufTy).Contents (Elt Ideal) = main_v11.ty.Contents (Elt Ideal))
    (w : (⟨S8192x44, .f32⟩ : BufTy).Contents (Elt Ideal)) : cast h w = w := rfl
end Transports

/-- Drops the transports along a buffer's type. -/
macro "drop_transports" : tactic =>
  `(tactic| simp only [StableHlo.TRef.toBuf, StableHlo.TRef.ofBuf, cast_cast, cast_eq, cast_in_main_c, cast_in_main_c_0, cast_in_main_v0,
      cast_in_main_v10, cast_in_main_arg2, cast_out_main_v1, cast_out_main_v11])

/-- Unfolds the reference's named stages down to the operations. -/
macro "open_stages" : tactic =>
  `(tactic| simp only [Cert.ReferenceIdeal.Read.val_main_v175, Cert.ReferenceIdeal.Read.val_main_v35, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_cst_3, Cert.ReferenceIdeal.Read.val_main_v15, Cert.ReferenceIdeal.Read.val_main_v14, Cert.ReferenceIdeal.Read.val_main_v13, Cert.ReferenceIdeal.Read.val_main_v12, Cert.ReferenceIdeal.Read.val_main_cst, Cert.ReferenceIdeal.Read.val_main_v11, Cert.ReferenceIdeal.Read.val_main_call1_v14, Cert.ReferenceIdeal.Read.val_main_call1_cst, Cert.ReferenceIdeal.Read.val_main_call1_v13, Cert.ReferenceIdeal.Read.val_main_call1_v12, Cert.ReferenceIdeal.Read.val_main_call1_c_3, Cert.ReferenceIdeal.Read.val_main_call1_v11, Cert.ReferenceIdeal.Read.val_main_call1_v10, Cert.ReferenceIdeal.Read.val_main_call1_v9, Cert.ReferenceIdeal.Read.val_main_call1_v8, Cert.ReferenceIdeal.Read.val_main_call1_c_1, Cert.ReferenceIdeal.Read.val_main_call1_v7, Cert.ReferenceIdeal.Read.val_main_call1_v6, Cert.ReferenceIdeal.Read.val_main_call1_c_2, Cert.ReferenceIdeal.Read.val_main_call1_v5, Cert.ReferenceIdeal.Read.val_main_call1_v4, Cert.ReferenceIdeal.Read.val_main_call1_v3, Cert.ReferenceIdeal.Read.val_main_call1_v2, Cert.ReferenceIdeal.Read.val_main_call1_c_0, Cert.ReferenceIdeal.Read.val_main_call1_v1, Cert.ReferenceIdeal.Read.val_main_call1_v0, Cert.ReferenceIdeal.Read.val_main_call1_c, Cert.ReferenceIdeal.Read.val_main_v10, Cert.ReferenceIdeal.Read.val_main_v9, Cert.ReferenceIdeal.Read.val_main_c_2, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_c_1, Cert.ReferenceIdeal.Read.val_main_v1, Cert.ReferenceIdeal.Read.val_main_call0_v4, Cert.ReferenceIdeal.Read.val_main_call0_v3, Cert.ReferenceIdeal.Read.val_main_call0_v2, Cert.ReferenceIdeal.Read.val_main_call0_v1, Cert.ReferenceIdeal.Read.val_main_call0_v0, Cert.ReferenceIdeal.Read.val_main_c_0, Cert.ReferenceIdeal.Read.val_main_c, Cert.ReferenceIdeal.Read.val_main_v0])

/-- Closes an equation between a stage as read and the reference's named stage: the transports dropped and the named
    stage opened down to the operations, the two sides are the same operations on the same arguments. -/
macro "close_stage" : tactic =>
  `(tactic| ((try drop_transports)
             (try open_stages)
             all_goals rfl))

/-! ## The input rows -/

set_option maxHeartbeats 800000 in
/-- The 40 past samples at the pitch lag, divided by the gain. -/
theorem V_v20 :
    (V mI c main_v20 : S8192x40.Idx → EReal)
      = Cert.ReferenceIdeal.Read.val_main_v175 (F := Ideal) (mI ((c : Thread nD τ).loc main_arg2)) (mI ((c : Thread nD τ).loc main_arg4)) (mI ((c : Thread nD τ).loc main_arg9)) := by
  read_V
  close_stage

set_option maxHeartbeats 1600000 in
/-- The 720-wide input row, before its cast. -/
theorem V_v22 :
    (V mI c main_v22 : S8192x720.Idx → EReal)
      = Cert.ReferenceIdeal.Read.val_main_v22 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg8)) (mI ((c : Thread nD τ).loc main_arg9)) := by
  read_V
  unfold Cert.ReferenceIdeal.Read.val_main_v22
  refine concatenate_congr2 _ ?_ ?_
  · read_piece
    all_goals rfl
  · read_piece
    unfold Cert.ReferenceIdeal.Read.val_main_v21
    refine concatenate_congr4 _ ?_ ?_ ?_ ?_
    · read_piece
      all_goals rfl
    · first
        | read_piece
        | (refine Eq.trans (StableHlo.unary_result _ _ _ _ _ _) ?_
           read_piece)
      close_stage
    · read_piece
      close_stage
    · read_piece
      all_goals rfl

set_option maxHeartbeats 800000 in
/-- The input rows the region finds: the cast changes nothing at the extended reals. -/
theorem V_v24 :
    (V mI c main_v24 : S8192x720.Idx → EReal)
      = Cert.ReferenceIdeal.Read.val_main_v22 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg8)) (mI ((c : Thread nD τ).loc main_arg9)) := by
  have e : (V mI c main_v24 : S8192x720.Idx → EReal) = (V mI c main_v22 : S8192x720.Idx → EReal) := by
    read_V
    all_goals rfl
  exact e.trans (V_v22 mI c)

set_option maxHeartbeats 800000 in
/-- Columns 240 … 719 of the input row. -/
theorem V_v23 :
    (V mI c main_v23 : S8192x480.Idx → EReal)
      = Cert.ReferenceIdeal.Read.val_main_v35 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg8)) (mI ((c : Thread nD τ).loc main_arg9)) := by
  have e : (V mI c main_v23 : S8192x480.Idx → EReal)
      = extractStridedSlice (s := S8192x720) S8192x480 ![0, 240] (V mI c main_v22 : S8192x720.Idx → EReal) slices_S8192x720_S8192x480_0_240 := by
    read_V
    all_goals rfl
  exact e.trans (congrArg (fun x : S8192x720.Idx → EReal => extractStridedSlice (s := S8192x720) S8192x480 ![0, 240] x slices_S8192x720_S8192x480_0_240)
    (V_v22 mI c))

end Cert.KernelIdeal.Hand
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.RefStages.lean ====
/-
  The reference's layers, one batch row at a time, on the extended reals.

  Each layer of the reference is a short run of whole-array operations: a product of the activations [8192, K] with a
  weight matrix stored output-feature-major [N, K] (so the program transposes the weight and contracts K), followed by
  pointwise functions. Read at row r and feature q, such a product is the dense layer's sum  Σ_k x(r, k) · w(q, k),  which
  depends on row r of the activations only. The sigmoid is spelt  1 / (1 + exp (-z))  with both ones the f32 word of
  1.0, which denotes 1, so it is the logistic function. A GRU cell's two products have 768 output features, gate g of
  unit q at feature g · 256 + q; the three gates are cut out by column slices at offsets 0, 256 and 512. The output
  layer multiplies the 1024 joined features by the signal matrix and by the pitch-gain row, whose bias and whose
  per-row factors reach every column through broadcasts along size-one axes.

  Every statement is over arbitrary arrays of the program's literal shapes, so it applies to each occurrence of the
  layer, whatever computed its input.
-/
import proofs.«162228_j46806553592417_2_alg».proof.ReferenceIdeal
import proofs.«162228_j46806553592417_2_alg».proof.Proof.Net
import proofs.«162228_j46806553592417_2_alg».proof.Proof.LibPlainMatmul
import Idealize.ShloMosaic.Lib.Pipeline.Value
import Idealize.ShloMosaic.Lib.ValueIdx
import Idealize.ShloMosaic.PureOps.Ideal

noncomputable section

namespace Cert.ReferenceIdeal.RNet

open Cert.ReferenceIdeal Idealize.ShloMosaic Idealize.ShloMosaic.ValueIdx Cert.Net

variable [Facts₀]
open Facts₀

/-- The f32 word of 1.0 denotes 1. -/
theorem ofBits_one : Ideal.ofBits .f32 0x3F800000#32 = (1 : EReal) := by
  simp [Ideal.ofBits, Ideal.ieee, -EReal.coe_mul]; norm_num

/-- The sigmoid as the reference spells it on one extended real: 1 / (1 + exp (-z)), both ones the f32 word of 1.0. -/
def sg (z : EReal) : EReal :=
  Ideal.div (Ideal.ofBits .f32 0x3F800000#32) (Ideal.ofBits .f32 0x3F800000#32 + Ideal.exp (-z))

/-- That spelling is the logistic function. -/
theorem sg_eq (z : EReal) : sg z = Ideal.logistic z := by
  unfold sg Ideal.logistic
  rw [ofBits_one]

/-! ## Products against an output-feature-major weight matrix -/

/-- [8192, 720] activations against a [256, 720] weight. -/
theorem dot720 (y : FVec Ideal S8192x720 .f32) (w : FVec Ideal S256x720 .f32) (r : Fin 8192) (q : Fin 256) :
    Host.dotGeneral (F := Ideal) (φ₁ := .f32) (φ₂ := .f32) dot_S8192x720_S720x256_S8192x256_1_0_0_1_n_n none y
        (transpose S720x256 [1, 0] w transposes_S256x720_S720x256_1_0) (ix2 r q)
      = lin (matOf w) (rowOf y r) q := by
  refine (Cert.PlainMatmul.dotGeneral_apply dot_S8192x720_S720x256_S8192x256_1_0_0_1_n_n_wf none .single y _ r q).trans ?_
  refine Finset.sum_congr rfl fun k _ => ?_
  refine congrArg (y (ix2 r k) * ·) ?_
  exact transpose_apply [1, 0] w transposes_S256x720_S720x256_1_0 (ix2 k q) (ix2 q k)
    (fun b => match b with | ⟨0, _⟩ => rfl | ⟨1, _⟩ => rfl)

/-- [8192, 256] activations against a [256, 256] weight. -/
theorem dot256 (y : FVec Ideal S8192x256 .f32) (w : FVec Ideal S256x256 .f32) (r : Fin 8192) (q : Fin 256) :
    Host.dotGeneral (F := Ideal) (φ₁ := .f32) (φ₂ := .f32) dot_S8192x256_S256x256_S8192x256_1_0_0_1_n_n none y
        (transpose S256x256 [1, 0] w transposes_S256x256_S256x256_1_0) (ix2 r q)
      = lin (matOf w) (rowOf y r) q := by
  refine (Cert.PlainMatmul.dotGeneral_apply dot_S8192x256_S256x256_S8192x256_1_0_0_1_n_n_wf none .single y _ r q).trans ?_
  refine Finset.sum_congr rfl fun k _ => ?_
  refine congrArg (y (ix2 r k) * ·) ?_
  exact transpose_apply [1, 0] w transposes_S256x256_S256x256_1_0 (ix2 k q) (ix2 q k)
    (fun b => match b with | ⟨0, _⟩ => rfl | ⟨1, _⟩ => rfl)

/-- [8192, 256] activations against a [768, 256] weight (a GRU cell's three gates stacked). -/
theorem dot768 (y : FVec Ideal S8192x256 .f32) (w : FVec Ideal S768x256 .f32) (r : Fin 8192) (q : Fin 768) :
    Host.dotGeneral (F := Ideal) (φ₁ := .f32) (φ₂ := .f32) dot_S8192x256_S256x768_S8192x768_1_0_0_1_n_n none y
        (transpose S256x768 [1, 0] w transposes_S768x256_S256x768_1_0) (ix2 r q)
      = lin (matOf w) (rowOf y r) q := by
  refine (Cert.PlainMatmul.dotGeneral_apply dot_S8192x256_S256x768_S8192x768_1_0_0_1_n_n_wf none .single y _ r q).trans ?_
  refine Finset.sum_congr rfl fun k _ => ?_
  refine congrArg (y (ix2 r k) * ·) ?_
  exact transpose_apply [1, 0] w transposes_S768x256_S256x768_1_0 (ix2 k q) (ix2 q k)
    (fun b => match b with | ⟨0, _⟩ => rfl | ⟨1, _⟩ => rfl)

/-- [8192, 1024] features against the [40, 1024] signal matrix. -/
theorem dot1024x40 (y : FVec Ideal S8192x1024 .f32) (w : FVec Ideal S40x1024 .f32) (r : Fin 8192) (q : Fin 40) :
    Host.dotGeneral (F := Ideal) (φ₁ := .f32) (φ₂ := .f32) dot_S8192x1024_S1024x40_S8192x40_1_0_0_1_n_n none y
        (transpose S1024x40 [1, 0] w transposes_S40x1024_S1024x40_1_0) (ix2 r q)
      = lin (matOf w) (rowOf y r) q := by
  refine (Cert.PlainMatmul.dotGeneral_apply dot_S8192x1024_S1024x40_S8192x40_1_0_0_1_n_n_wf none .single y _ r q).trans ?_
  refine Finset.sum_congr rfl fun k _ => ?_
  refine congrArg (y (ix2 r k) * ·) ?_
  exact transpose_apply [1, 0] w transposes_S40x1024_S1024x40_1_0 (ix2 k q) (ix2 q k)
    (fun b => match b with | ⟨0, _⟩ => rfl | ⟨1, _⟩ => rfl)

/-- [8192, 1024] features against the [1, 1024] pitch-gain row. -/
theorem dot1024x1 (y : FVec Ideal S8192x1024 .f32) (w : FVec Ideal S1x1024 .f32) (r : Fin 8192) (q : Fin 1) :
    Host.dotGeneral (F := Ideal) (φ₁ := .f32) (φ₂ := .f32) dot_S8192x1024_S1024x1_S8192x1_1_0_0_1_n_n none y
        (transpose S1024x1 [1, 0] w transposes_S1x1024_S1024x1_1_0) (ix2 r q)
      = lin (matOf w) (rowOf y r) q := by
  refine (Cert.PlainMatmul.dotGeneral_apply dot_S8192x1024_S1024x1_S8192x1_1_0_0_1_n_n_wf none .single y _ r q).trans ?_
  refine Finset.sum_congr rfl fun k _ => ?_
  refine congrArg (y (ix2 r k) * ·) ?_
  exact transpose_apply [1, 0] w transposes_S1x1024_S1024x1_1_0 (ix2 k q) (ix2 q k)
    (fun b => match b with | ⟨0, _⟩ => rfl | ⟨1, _⟩ => rfl)

/-! ## Dense layers with tanh -/

/-- The first dense layer: 720 inputs. -/
theorem dense720 (y : FVec Ideal S8192x720 .f32) (w : FVec Ideal S256x720 .f32) (r : Fin 8192) (q : Fin 256) :
    Host.tanh (F := Ideal) (Host.dotGeneral (F := Ideal) (φ₁ := .f32) (φ₂ := .f32) dot_S8192x720_S720x256_S8192x256_1_0_0_1_n_n none y
        (transpose S720x256 [1, 0] w transposes_S256x720_S720x256_1_0)) (ix2 r q)
      = dense (matOf w) (rowOf y r) q :=
  congrArg Ideal.tanh (dot720 y w r q)

/-- The second dense layer: 256 inputs. -/
theorem dense256 (y : FVec Ideal S8192x256 .f32) (w : FVec Ideal S256x256 .f32) (r : Fin 8192) (q : Fin 256) :
    Host.tanh (F := Ideal) (Host.dotGeneral (F := Ideal) (φ₁ := .f32) (φ₂ := .f32) dot_S8192x256_S256x256_S8192x256_1_0_0_1_n_n none y
        (transpose S256x256 [1, 0] w transposes_S256x256_S256x256_1_0)) (ix2 r q)
      = dense (matOf w) (rowOf y r) q :=
  congrArg Ideal.tanh (dot256 y w r q)

/-! ## The gated linear unit -/

local notation "ONE" => broadcastInDim S8192x256 ![] bcast_S_S8192x256 (constant (F := Ideal) S_ FTy.f32 0x3F800000#32)
local notation "SIG(" z ")" => Host.divf (F := Ideal) ONE (addf ONE (Host.exp (Host.negf z)))
local notation "DOT256(" y "," w ")" =>
  Host.dotGeneral (F := Ideal) (φ₁ := FTy.f32) (φ₂ := FTy.f32) dot_S8192x256_S256x256_S8192x256_1_0_0_1_n_n none y
    (transpose S256x256 [1, 0] w transposes_S256x256_S256x256_1_0)
local notation "DOT768(" y "," w ")" =>
  Host.dotGeneral (F := Ideal) (φ₁ := FTy.f32) (φ₂ := FTy.f32) dot_S8192x256_S256x768_S8192x768_1_0_0_1_n_n none y
    (transpose S256x768 [1, 0] w transposes_S768x256_S256x768_1_0)
local notation "SL0(" a ")" => extractStridedSlice S8192x256 ![0, 0] a slices_S8192x768_S8192x256_0_0
local notation "SL1(" a ")" => extractStridedSlice S8192x256 ![0, 256] a slices_S8192x768_S8192x256_0_256
local notation "SL2(" a ")" => extractStridedSlice S8192x256 ![0, 512] a slices_S8192x768_S8192x256_0_512

/-- y ⊙ σ(W y), the sigmoid spelt out. -/
theorem glu_stage (y : FVec Ideal S8192x256 .f32) (w : FVec Ideal S256x256 .f32) (r : Fin 8192) (q : Fin 256) :
    mulf (F := Ideal) y SIG(DOT256(y, w)) (ix2 r q) = glu (matOf w) (rowOf y r) q := by
  show y (ix2 r q) * sg (DOT256(y, w) (ix2 r q)) = y (ix2 r q) * Ideal.logistic (lin (matOf w) (rowOf y r) q)
  rw [sg_eq, dot256]

/-! ## The GRU cell -/

/-- Columns 0 … 255 of a 768-feature product: gate r. -/
theorem gate0 (y : FVec Ideal S8192x256 .f32) (w : FVec Ideal S768x256 .f32) (r : Fin 8192) (q : Fin 256) :
    SL0(DOT768(y, w)) (ix2 r q) = lin (matOf w) (rowOf y r) (gate 0 q) :=
  (extractStridedSlice_apply ![0, 0] DOT768(y, w) slices_S8192x768_S8192x256_0_0 (ix2 r q) (ix2 r (gate 0 q))
    (fun a => match a with
      | ⟨0, _⟩ => (Nat.zero_add r.val).symm
      | ⟨1, _⟩ => by show 0 * 256 + q.val = 0 + q.val; omega)).trans (dot768 y w r (gate 0 q))

/-- Columns 256 … 511: gate z. -/
theorem gate1 (y : FVec Ideal S8192x256 .f32) (w : FVec Ideal S768x256 .f32) (r : Fin 8192) (q : Fin 256) :
    SL1(DOT768(y, w)) (ix2 r q) = lin (matOf w) (rowOf y r) (gate 1 q) :=
  (extractStridedSlice_apply ![0, 256] DOT768(y, w) slices_S8192x768_S8192x256_0_256 (ix2 r q) (ix2 r (gate 1 q))
    (fun a => match a with
      | ⟨0, _⟩ => (Nat.zero_add r.val).symm
      | ⟨1, _⟩ => by show 1 * 256 + q.val = 256 + q.val; omega)).trans (dot768 y w r (gate 1 q))

/-- Columns 512 … 767: gate n. -/
theorem gate2 (y : FVec Ideal S8192x256 .f32) (w : FVec Ideal S768x256 .f32) (r : Fin 8192) (q : Fin 256) :
    SL2(DOT768(y, w)) (ix2 r q) = lin (matOf w) (rowOf y r) (gate 2 q) :=
  (extractStridedSlice_apply ![0, 512] DOT768(y, w) slices_S8192x768_S8192x256_0_512 (ix2 r q) (ix2 r (gate 2 q))
    (fun a => match a with
      | ⟨0, _⟩ => (Nat.zero_add r.val).symm
      | ⟨1, _⟩ => by show 2 * 256 + q.val = 512 + q.val; omega)).trans (dot768 y w r (gate 2 q))

/-- The cell's pointwise part over arbitrary gate pre-activations: (1 - z) · n + z · h with r = σ(i_r + h_r),
    z = σ(i_z + h_z), n = tanh(i_n + r · h_n); the 1 of 1 - z stays the f32 word. -/
theorem gru_core (i0 i1 i2 h0 h1 h2 h : FVec Ideal S8192x256 .f32) (i : S8192x256.Idx) :
    addf (F := Ideal)
        (mulf (subf ONE SIG(addf i1 h1)) (Host.tanh (addf i2 (mulf SIG(addf i0 h0) h2))))
        (mulf SIG(addf i1 h1) h) i
      = (Cert.Net.one - Ideal.logistic (i1 i + h1 i)) * Ideal.tanh (i2 i + Ideal.logistic (i0 i + h0 i) * h2 i)
          + Ideal.logistic (i1 i + h1 i) * h i := by
  show (Ideal.ofBits .f32 0x3F800000#32 - sg (i1 i + h1 i)) * Ideal.tanh (i2 i + sg (i0 i + h0 i) * h2 i)
      + sg (i1 i + h1 i) * h i = _
  simp only [sg_eq]

/-- The cell on the two 768-feature products. -/
theorem gru_stage (x h : FVec Ideal S8192x256 .f32) (wih whh : FVec Ideal S768x256 .f32) (r : Fin 8192) (q : Fin 256) :
    addf (F := Ideal)
        (mulf (subf ONE SIG(addf SL1(DOT768(x, wih)) SL1(DOT768(h, whh))))
          (Host.tanh (addf SL2(DOT768(x, wih)) (mulf SIG(addf SL0(DOT768(x, wih)) SL0(DOT768(h, whh))) SL2(DOT768(h, whh))))))
        (mulf SIG(addf SL1(DOT768(x, wih)) SL1(DOT768(h, whh))) h) (ix2 r q)
      = gru (matOf wih) (matOf whh) (rowOf x r) (rowOf h r) q := by
  have key := gru_core SL0(DOT768(x, wih)) SL1(DOT768(x, wih)) SL2(DOT768(x, wih))
    SL0(DOT768(h, whh)) SL1(DOT768(h, whh)) SL2(DOT768(h, whh)) h (ix2 r q)
  rw [gate0 x wih r q, gate0 h whh r q, gate1 x wih r q, gate1 h whh r q, gate2 x wih r q, gate2 h whh r q] at key
  exact key

end Cert.ReferenceIdeal.RNet

end
-- ==== Proof.RefNet.lean ====
/-
  The reference's trunk is the network, row by row.

  The reference runs the trunk as whole-array operations over all 8192 batch rows: the first dense layer reads the
  720-wide concatenated input, each later layer reads the 256-wide result of the one before, and every layer's entry
  at row r depends on row r of its input only. So, by induction along the layers, each stage read at (r, q) is the
  row-wise network of `Cert.Net` applied to row r of the concatenated input and of the three GRU states: the first
  dense layer with tanh and its gate, the second dense layer with tanh and its gate, then three times a GRU cell
  followed by a gate. Each step cites the layer's lemma over arbitrary arrays and replaces the input's row by the
  row-wise network of the earlier layers. The host operations that build the concatenated input stay closed.
-/
import proofs.«162228_j46806553592417_2_alg».proof.Proof.ReadP
import proofs.«162228_j46806553592417_2_alg».proof.Proof.Net
import proofs.«162228_j46806553592417_2_alg».proof.Proof.RefStages

noncomputable section

namespace Cert.ReferenceIdeal.RNet

open Cert.ReferenceIdeal Cert.ReferenceIdeal.Gen Idealize.ShloMosaic Idealize.ShloMosaic.ValueIdx Cert.Net

variable (x0 : (⟨S8192x80, .f32⟩ : BufTy).Contents (Elt Ideal)) (x1 : (⟨S8192x40, .f32⟩ : BufTy).Contents (Elt Ideal))
  (x2 : (⟨S8192x256, .f32⟩ : BufTy).Contents (Elt Ideal)) (x3 : (⟨S8192x80, .f32⟩ : BufTy).Contents (Elt Ideal))
  (x4 : (⟨S8192, .i32⟩ : BufTy).Contents (Elt Ideal)) (x5 x6 x7 : (⟨S8192x256, .f32⟩ : BufTy).Contents (Elt Ideal))
  (x8 : (⟨S8192x480, .f32⟩ : BufTy).Contents (Elt Ideal)) (x9 : (⟨S8192x1, .f32⟩ : BufTy).Contents (Elt Ideal))
  (x10 : (⟨S256x720, .f32⟩ : BufTy).Contents (Elt Ideal)) (x11 x12 x13 : (⟨S256x256, .f32⟩ : BufTy).Contents (Elt Ideal))
  (x14 x15 : (⟨S768x256, .f32⟩ : BufTy).Contents (Elt Ideal)) (x16 : (⟨S256x256, .f32⟩ : BufTy).Contents (Elt Ideal))
  (x17 x18 : (⟨S768x256, .f32⟩ : BufTy).Contents (Elt Ideal)) (x19 : (⟨S256x256, .f32⟩ : BufTy).Contents (Elt Ideal))
  (x20 x21 : (⟨S768x256, .f32⟩ : BufTy).Contents (Elt Ideal)) (x22 : (⟨S256x256, .f32⟩ : BufTy).Contents (Elt Ideal))

include x0 x1 x2 x3 x4 x5 x6 x7 x8 x9 x10 x11 x12 x13 x14 x15 x16 x17 x18 x19 x20 x21 x22

local notation "TT" => Cert.Net.trunkOf x10 x11 x12 x13 x14 x15 x16 x17 x18 x19 x20 x21 x22
local notation "XC" => Read.val_main_v22 (F := Ideal) x0 x1 x2 x3 x4 x8 x9
local notation "V25" => Read.val_main_v25 (F := Ideal) x0 x1 x2 x3 x4 x8 x9 x10
local notation "V34" => Read.val_main_v34 (F := Ideal) x0 x1 x2 x3 x4 x8 x9 x10 x11
local notation "V38" => Read.val_main_v38 (F := Ideal) x0 x1 x2 x3 x4 x8 x9 x10 x11 x12
local notation "V47" => Read.val_main_v47 (F := Ideal) x0 x1 x2 x3 x4 x8 x9 x10 x11 x12 x13
local notation "V79" => Read.val_main_v79 (F := Ideal) x0 x1 x2 x3 x4 x5 x8 x9 x10 x11 x12 x13 x14 x15
local notation "V88" => Read.val_main_v88 (F := Ideal) x0 x1 x2 x3 x4 x5 x8 x9 x10 x11 x12 x13 x14 x15 x16
local notation "V120" =>
  Read.val_main_v120 (F := Ideal) x0 x1 x2 x3 x4 x5 x6 x8 x9 x10 x11 x12 x13 x14 x15 x16 x17 x18
local notation "V129" =>
  Read.val_main_v129 (F := Ideal) x0 x1 x2 x3 x4 x5 x6 x8 x9 x10 x11 x12 x13 x14 x15 x16 x17 x18 x19
local notation "V161" =>
  Read.val_main_v161 (F := Ideal) x0 x1 x2 x3 x4 x5 x6 x7 x8 x9 x10 x11 x12 x13 x14 x15 x16 x17 x18 x19 x20 x21

/-- The first dense layer with tanh, on the concatenated input. -/
theorem ref_v25 (r : Fin 8192) (q : Fin 256) : V25 (ix2 r q) = dense (TT).fwc0 (rowOf XC r) q := by
  unfold Read.val_main_v25 Read.val_main_v24 Read.val_main_v23
  exact dense720 XC x10 r q

/-- Its gate: the frame-wise layer's output. -/
theorem ref_v34 (r : Fin 8192) (q : Fin 256) : V34 (ix2 r q) = fw TT (rowOf XC r) q := by
  have hrow : rowOf V25 r = dense (TT).fwc0 (rowOf XC r) := funext fun k =>
    ref_v25 x0 x1 x2 x3 x4 x5 x6 x7 x8 x9 x10 x11 x12 x13 x14 x15 x16 x17 x18 x19 x20 x21 x22 r k
  unfold Read.val_main_v34 Read.val_main_v33 Read.val_main_v32 Read.val_main_v31 Read.val_main_v30 Read.val_main_v29
    Read.val_main_v28 Read.val_main_v27 Read.val_main_v26 Read.val_main_cst_4 Read.val_main_cst_5
  have key := glu_stage V25 x11 r q
  rw [hrow] at key
  exact key

/-- The second dense layer with tanh. -/
theorem ref_v38 (r : Fin 8192) (q : Fin 256) : V38 (ix2 r q) = dense (TT).d2 (fw TT (rowOf XC r)) q := by
  have hrow : rowOf V34 r = fw TT (rowOf XC r) := funext fun k =>
    ref_v34 x0 x1 x2 x3 x4 x5 x6 x7 x8 x9 x10 x11 x12 x13 x14 x15 x16 x17 x18 x19 x20 x21 x22 r k
  unfold Read.val_main_v38 Read.val_main_v37 Read.val_main_v36
  have key := dense256 V34 x12 r q
  rw [hrow] at key
  exact key

/-- Its gate: the input of the first GRU cell. -/
theorem ref_d2o (r : Fin 8192) (q : Fin 256) : V47 (ix2 r q) = d2o TT (rowOf XC r) q := by
  have hrow : rowOf V38 r = dense (TT).d2 (fw TT (rowOf XC r)) := funext fun k =>
    ref_v38 x0 x1 x2 x3 x4 x5 x6 x7 x8 x9 x10 x11 x12 x13 x14 x15 x16 x17 x18 x19 x20 x21 x22 r k
  unfold Read.val_main_v47 Read.val_main_v46 Read.val_main_v45 Read.val_main_v44 Read.val_main_v43 Read.val_main_v42
    Read.val_main_v41 Read.val_main_v40 Read.val_main_v39 Read.val_main_cst_6 Read.val_main_cst_7
  have key := glu_stage V38 x13 r q
  rw [hrow] at key
  exact key

/-- The first GRU cell's new state. -/
theorem ref_h1 (r : Fin 8192) (q : Fin 256) : V79 (ix2 r q) = h1 TT (rowOf XC r) (rowOf x5 r) q := by
  have hrow : rowOf V47 r = d2o TT (rowOf XC r) := funext fun k =>
    ref_d2o x0 x1 x2 x3 x4 x5 x6 x7 x8 x9 x10 x11 x12 x13 x14 x15 x16 x17 x18 x19 x20 x21 x22 r k
  unfold Read.val_main_v79 Read.val_main_v78 Read.val_main_v77 Read.val_main_v76 Read.val_main_v75 Read.val_main_v74
    Read.val_main_v73 Read.val_main_v72 Read.val_main_v71 Read.val_main_v70 Read.val_main_v69 Read.val_main_v68
    Read.val_main_v67 Read.val_main_v66 Read.val_main_v65 Read.val_main_v64 Read.val_main_v63 Read.val_main_v62
    Read.val_main_v61 Read.val_main_v60 Read.val_main_v59 Read.val_main_v58 Read.val_main_v57 Read.val_main_v56
    Read.val_main_v55 Read.val_main_v54 Read.val_main_v53 Read.val_main_v52 Read.val_main_v51 Read.val_main_v50
    Read.val_main_v49 Read.val_main_v48 Read.val_main_cst_8 Read.val_main_cst_9 Read.val_main_cst_10
    Read.val_main_cst_11 Read.val_main_cst_12
  have key := gru_stage V47 x5 x14 x15 r q
  rw [hrow] at key
  exact key

/-- Its gate. -/
theorem ref_y1 (r : Fin 8192) (q : Fin 256) : V88 (ix2 r q) = y1 TT (rowOf XC r) (rowOf x5 r) q := by
  have hrow : rowOf V79 r = h1 TT (rowOf XC r) (rowOf x5 r) := funext fun k =>
    ref_h1 x0 x1 x2 x3 x4 x5 x6 x7 x8 x9 x10 x11 x12 x13 x14 x15 x16 x17 x18 x19 x20 x21 x22 r k
  unfold Read.val_main_v88 Read.val_main_v87 Read.val_main_v86 Read.val_main_v85 Read.val_main_v84 Read.val_main_v83
    Read.val_main_v82 Read.val_main_v81 Read.val_main_v80 Read.val_main_cst_13 Read.val_main_cst_14
  have key := glu_stage V79 x16 r q
  rw [hrow] at key
  exact key

/-- The second GRU cell's new state. -/
theorem ref_h2 (r : Fin 8192) (q : Fin 256) :
    V120 (ix2 r q) = h2 TT (rowOf XC r) (rowOf x5 r) (rowOf x6 r) q := by
  have hrow : rowOf V88 r = y1 TT (rowOf XC r) (rowOf x5 r) := funext fun k =>
    ref_y1 x0 x1 x2 x3 x4 x5 x6 x7 x8 x9 x10 x11 x12 x13 x14 x15 x16 x17 x18 x19 x20 x21 x22 r k
  unfold Read.val_main_v120 Read.val_main_v119 Read.val_main_v118 Read.val_main_v117 Read.val_main_v116
    Read.val_main_v115 Read.val_main_v114 Read.val_main_v113 Read.val_main_v112 Read.val_main_v111 Read.val_main_v110
    Read.val_main_v109 Read.val_main_v108 Read.val_main_v107 Read.val_main_v106 Read.val_main_v105 Read.val_main_v104
    Read.val_main_v103 Read.val_main_v102 Read.val_main_v101 Read.val_main_v100 Read.val_main_v99 Read.val_main_v98
    Read.val_main_v97 Read.val_main_v96 Read.val_main_v95 Read.val_main_v94 Read.val_main_v93 Read.val_main_v92
    Read.val_main_v91 Read.val_main_v90 Read.val_main_v89 Read.val_main_cst_15 Read.val_main_cst_16
    Read.val_main_cst_17 Read.val_main_cst_18 Read.val_main_cst_19
  have key := gru_stage V88 x6 x17 x18 r q
  rw [hrow] at key
  exact key

/-- Its gate. -/
theorem ref_y2 (r : Fin 8192) (q : Fin 256) :
    V129 (ix2 r q) = y2 TT (rowOf XC r) (rowOf x5 r) (rowOf x6 r) q := by
  have hrow : rowOf V120 r = h2 TT (rowOf XC r) (rowOf x5 r) (rowOf x6 r) := funext fun k =>
    ref_h2 x0 x1 x2 x3 x4 x5 x6 x7 x8 x9 x10 x11 x12 x13 x14 x15 x16 x17 x18 x19 x20 x21 x22 r k
  unfold Read.val_main_v129 Read.val_main_v128 Read.val_main_v127 Read.val_main_v126 Read.val_main_v125
    Read.val_main_v124 Read.val_main_v123 Read.val_main_v122 Read.val_main_v121 Read.val_main_cst_20
    Read.val_main_cst_21
  have key := glu_stage V120 x19 r q
  rw [hrow] at key
  exact key

/-- The third GRU cell's new state. -/
theorem ref_h3 (r : Fin 8192) (q : Fin 256) :
    V161 (ix2 r q) = h3 TT (rowOf XC r) (rowOf x5 r) (rowOf x6 r) (rowOf x7 r) q := by
  have hrow : rowOf V129 r = y2 TT (rowOf XC r) (rowOf x5 r) (rowOf x6 r) := funext fun k =>
    ref_y2 x0 x1 x2 x3 x4 x5 x6 x7 x8 x9 x10 x11 x12 x13 x14 x15 x16 x17 x18 x19 x20 x21 x22 r k
  unfold Read.val_main_v161 Read.val_main_v160 Read.val_main_v159 Read.val_main_v158 Read.val_main_v157
    Read.val_main_v156 Read.val_main_v155 Read.val_main_v154 Read.val_main_v153 Read.val_main_v152 Read.val_main_v151
    Read.val_main_v150 Read.val_main_v149 Read.val_main_v148 Read.val_main_v147 Read.val_main_v146 Read.val_main_v145
    Read.val_main_v144 Read.val_main_v143 Read.val_main_v142 Read.val_main_v141 Read.val_main_v140 Read.val_main_v139
    Read.val_main_v138 Read.val_main_v137 Read.val_main_v136 Read.val_main_v135 Read.val_main_v134 Read.val_main_v133
    Read.val_main_v132 Read.val_main_v131 Read.val_main_v130 Read.val_main_cst_22 Read.val_main_cst_23
    Read.val_main_cst_24 Read.val_main_cst_25 Read.val_main_cst_26
  have key := gru_stage V129 x7 x20 x21 r q
  rw [hrow] at key
  exact key

end Cert.ReferenceIdeal.RNet

end
-- ==== Proof.RefOut.lean ====
/-
  The reference's output layer, one batch row at a time.

  The reference joins the three gated GRU outputs and the second dense layer's output side by side into 1024 features,
  applies the 40-row signal matrix and the pitch-gain row (with its bias) to them as two separate products, and forms the
  new subframe `(tanh(signal) + exp(pitch gain) · pitch) · gain`; the new excitation memory is the old one 40 samples on
  with the subframe appended. Each product contracts the features against a transposed weight matrix, so entry `(r, j)`
  is the dense layer `Σ_k f_k · w_{j,k}` on row `r`'s features; a broadcast along the columns reads the same row. The
  logistic function is spelt `1 / (1 + exp(-x))` with the float literal 1.0, which denotes the real number 1. The four
  feature pieces enter as hypotheses, so nothing here depends on how they were computed.
-/
import proofs.«162228_j46806553592417_2_alg».proof.Proof.ReadP
import proofs.«162228_j46806553592417_2_alg».proof.Proof.Net
import proofs.«162228_j46806553592417_2_alg».proof.Proof.LibJoinAxis
import Idealize.ShloMosaic.Lib.ValueIdx
import Idealize.ShloMosaic.Lib.Pipeline.Value

noncomputable section

namespace Cert.ReferenceIdeal.ROut

open Cert.ReferenceIdeal Cert.ReferenceIdeal.Gen
open Idealize.ShloMosaic Idealize.ShloMosaic.ValueIdx

/-- The float literal 1.0 denotes the real number 1. -/
theorem ofBits_one : Ideal.ofBits .f32 0x3F800000#32 = (1 : EReal) := by
  simp [Ideal.ofBits, Ideal.ieee, -EReal.coe_mul]; norm_num

/-- The last 480 columns of the 720 input features. -/
theorem xc_tail (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x8 : (⟨S8192x480, .f32⟩ : BufTy).Contents (Elt Ideal))
    (x9 : (⟨S8192x1, .f32⟩ : BufTy).Contents (Elt Ideal))
    (r : Fin 8192) (j : Fin 480) :
    Read.val_main_v35 (F := Ideal) x0 x1 x2 x3 x4 x8 x9 (ix2 r j)
      = Read.val_main_v22 (F := Ideal) x0 x1 x2 x3 x4 x8 x9 (ix2 r ⟨j.val + 240, by omega⟩) := by
  rw [Read.val_main_v35_apply]
  refine congrArg (Read.val_main_v22 (F := Ideal) x0 x1 x2 x3 x4 x8 x9) (funext fun a => ?_)
  match a with
  | ⟨0, _⟩ => rfl
  | ⟨1, _⟩ => exact Fin.ext (by show 240 + j.val = j.val + 240; omega)

/-- The third cell's gated output from its new state `h`: `h ⊙ σ(W h)`, the logistic function spelt out. -/
theorem glu3 (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal))
    (r : Fin 8192) (h : Fin 256 → EReal)
    (hh3 : ∀ q : Fin 256, Read.val_main_v161 (F := Ideal) x0 x1 x2 x3 x4 x5 x6 x7 x8 x9 x10 x11 x12 x13 x14 x15 x16 x17 x18 x19 x20 x21 (ix2 r q) = h q) (q : Fin 256) :
    Read.val_main_v170 (F := Ideal) x0 x1 x2 x3 x4 x5 x6 x7 x8 x9 x10 x11 x12 x13 x14 x15 x16 x17 x18 x19 x20 x21 x22 (ix2 r q)
      = Cert.Net.glu (Cert.Net.matOf x22) h q := by
  have hs : Read.val_main_v163 (F := Ideal) x0 x1 x2 x3 x4 x5 x6 x7 x8 x9 x10 x11 x12 x13 x14 x15 x16 x17 x18 x19 x20 x21 x22 (ix2 r q)
      = Cert.Net.lin (Cert.Net.matOf x22) h q := by
    rw [Read.val_main_v163_apply]
    show _ = ∑ k : Fin 256, h k * x22 (ix2 q k)
    refine Finset.sum_congr rfl fun k _ => ?_
    rw [Read.val_main_v162_apply,
      show Read.lidx_main_v163 (ix2 r q) k = ix2 r k from funext fun a => by
        match a with
        | ⟨0, _⟩ => rfl
        | ⟨1, _⟩ => rfl,
      show Read.idx_main_v162 (Read.ridx_main_v163 (ix2 r q) k) = ix2 q k from funext fun a => by
        match a with
        | ⟨0, _⟩ => rfl
        | ⟨1, _⟩ => rfl,
      hh3 k]
  show Read.val_main_v161 (F := Ideal) x0 x1 x2 x3 x4 x5 x6 x7 x8 x9 x10 x11 x12 x13 x14 x15 x16 x17 x18 x19 x20 x21 (ix2 r q)
      * Ideal.div (Ideal.ofBits .f32 0x3F800000#32)
          (Ideal.ofBits .f32 0x3F800000#32
            + Ideal.exp (-(Read.val_main_v163 (F := Ideal) x0 x1 x2 x3 x4 x5 x6 x7 x8 x9 x10 x11 x12 x13 x14 x15 x16 x17 x18 x19 x20 x21 x22 (ix2 r q)))) = _
  rw [hs, hh3 q, ofBits_one]
  rfl

/-- Feature `l` of row `r`: the four 256-wide pieces side by side. -/
theorem feat_entry (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal))
    (r : Fin 8192) (f1 f2 f3 f4 : Fin 256 → EReal)
    (hy1 : ∀ q : Fin 256, Read.val_main_v88 (F := Ideal) x0 x1 x2 x3 x4 x5 x8 x9 x10 x11 x12 x13 x14 x15 x16 (ix2 r q) = f1 q)
    (hy2 : ∀ q : Fin 256, Read.val_main_v129 (F := Ideal) x0 x1 x2 x3 x4 x5 x6 x8 x9 x10 x11 x12 x13 x14 x15 x16 x17 x18 x19 (ix2 r q) = f2 q)
    (hy3 : ∀ q : Fin 256, Read.val_main_v170 (F := Ideal) x0 x1 x2 x3 x4 x5 x6 x7 x8 x9 x10 x11 x12 x13 x14 x15 x16 x17 x18 x19 x20 x21 x22 (ix2 r q) = f3 q)
    (hd : ∀ q : Fin 256, Read.val_main_v47 (F := Ideal) x0 x1 x2 x3 x4 x8 x9 x10 x11 x12 x13 (ix2 r q) = f4 q)
    (l : Fin 1024) :
    Read.val_main_v171 (F := Ideal) x0 x1 x2 x3 x4 x5 x6 x7 x8 x9 x10 x11 x12 x13 x14 x15 x16 x17 x18 x19 x20 x21 x22 (ix2 r l)
      = Cert.Net.cat4 f1 f2 f3 f4 l := by
  have key : ∀ (n : Fin 4) (c : Fin 256), l.val / 256 = n.val → c.val = l.val % 256 →
      Read.val_main_v171 (F := Ideal) x0 x1 x2 x3 x4 x5 x6 x7 x8 x9 x10 x11 x12 x13 x14 x15 x16 x17 x18 x19 x20 x21 x22 (ix2 r l)
        = (![Read.val_main_v88 (F := Ideal) x0 x1 x2 x3 x4 x5 x8 x9 x10 x11 x12 x13 x14 x15 x16,
          Read.val_main_v129 (F := Ideal) x0 x1 x2 x3 x4 x5 x6 x8 x9 x10 x11 x12 x13 x14 x15 x16 x17 x18 x19,
          Read.val_main_v170 (F := Ideal) x0 x1 x2 x3 x4 x5 x6 x7 x8 x9 x10 x11 x12 x13 x14 x15 x16 x17 x18 x19 x20 x21 x22,
          Read.val_main_v47 (F := Ideal) x0 x1 x2 x3 x4 x8 x9 x10 x11 x12 x13] : Fin 4 → S8192x256.Idx → Ideal .f32) n (ix2 r c) :=
    fun n c hn hc => by
      unfold Read.val_main_v171
      exact Cert.LibJoinAxis.joinCols_apply (α := Ideal .f32) (A := 8192) (K := 256) (N := 4) (W := 1024)
        (![Read.val_main_v88 (F := Ideal) x0 x1 x2 x3 x4 x5 x8 x9 x10 x11 x12 x13 x14 x15 x16,
          Read.val_main_v129 (F := Ideal) x0 x1 x2 x3 x4 x5 x6 x8 x9 x10 x11 x12 x13 x14 x15 x16 x17 x18 x19,
          Read.val_main_v170 (F := Ideal) x0 x1 x2 x3 x4 x5 x6 x7 x8 x9 x10 x11 x12 x13 x14 x15 x16 x17 x18 x19 x20 x21 x22,
          Read.val_main_v47 (F := Ideal) x0 x1 x2 x3 x4 x8 x9 x10 x11 x12 x13] : Fin 4 → S8192x256.Idx → Ideal .f32)
        concatenates_S8192x256_S8192x256_S8192x256_S8192x256_S8192x1024_d1 r l n hn c hc
  have hlt := l.isLt
  have hc : l.val % 256 < 256 := Nat.mod_lt _ (by norm_num)
  unfold Cert.Net.cat4
  rcases (by omega : l.val / 256 = 0 ∨ l.val / 256 = 1 ∨ l.val / 256 = 2 ∨ l.val / 256 = 3) with h0 | h1 | h2 | h3
  · rw [if_pos h0]
    exact (key 0 ⟨l.val % 256, hc⟩ h0 rfl).trans (hy1 _)
  · rw [if_neg (by omega), if_pos h1]
    exact (key 1 ⟨l.val % 256, hc⟩ h1 rfl).trans (hy2 _)
  · rw [if_neg (by omega), if_neg (by omega), if_pos h2]
    exact (key 2 ⟨l.val % 256, hc⟩ h2 rfl).trans (hy3 _)
  · rw [if_neg (by omega), if_neg (by omega), if_neg (by omega)]
    exact (key 3 ⟨l.val % 256, hc⟩ h3 rfl).trans (hd _)

/-- Sample `j` of the new subframe on row `r`. -/
theorem subframe_entry (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal)) (x23 : (⟨S40x1024, .f32⟩ : BufTy).Contents (Elt Ideal))
    (x24 : (⟨S1x1024, .f32⟩ : BufTy).Contents (Elt Ideal)) (x25 : (⟨S1, .f32⟩ : BufTy).Contents (Elt Ideal))
    (r : Fin 8192) (f1 f2 f3 f4 : Fin 256 → EReal)
    (hy1 : ∀ q : Fin 256, Read.val_main_v88 (F := Ideal) x0 x1 x2 x3 x4 x5 x8 x9 x10 x11 x12 x13 x14 x15 x16 (ix2 r q) = f1 q)
    (hy2 : ∀ q : Fin 256, Read.val_main_v129 (F := Ideal) x0 x1 x2 x3 x4 x5 x6 x8 x9 x10 x11 x12 x13 x14 x15 x16 x17 x18 x19 (ix2 r q) = f2 q)
    (hy3 : ∀ q : Fin 256, Read.val_main_v170 (F := Ideal) x0 x1 x2 x3 x4 x5 x6 x7 x8 x9 x10 x11 x12 x13 x14 x15 x16 x17 x18 x19 x20 x21 x22 (ix2 r q) = f3 q)
    (hd : ∀ q : Fin 256, Read.val_main_v47 (F := Ideal) x0 x1 x2 x3 x4 x8 x9 x10 x11 x12 x13 (ix2 r q) = f4 q)
    (j : Fin 40) :
    Read.val_main_v186 (F := Ideal) x0 x1 x2 x3 x4 x5 x6 x7 x8 x9 x10 x11 x12 x13 x14 x15 x16 x17 x18 x19 x20 x21 x22 x23 x24 x25 (ix2 r j)
      = Cert.Net.subframe (Cert.Net.matOf x23) (fun k => x24 (ix2 0 k)) (x25 (ix1 0)) (Cert.Net.cat4 f1 f2 f3 f4)
          (Cert.Net.rowOf (Read.val_main_v175 (F := Ideal) x2 x4 x9) r) (x9 (ix2 r 0)) j := by
  have hsig : Read.val_main_v173 (F := Ideal) x0 x1 x2 x3 x4 x5 x6 x7 x8 x9 x10 x11 x12 x13 x14 x15 x16 x17 x18 x19 x20 x21 x22 x23 (ix2 r j)
      = Cert.Net.lin (Cert.Net.matOf x23) (Cert.Net.cat4 f1 f2 f3 f4) j := by
    rw [Read.val_main_v173_apply]
    show _ = ∑ k : Fin 1024, Cert.Net.cat4 f1 f2 f3 f4 k * x23 (ix2 j k)
    refine Finset.sum_congr rfl fun k _ => ?_
    rw [Read.val_main_v172_apply,
      show Read.lidx_main_v173 (ix2 r j) k = ix2 r k from funext fun a => by
        match a with
        | ⟨0, _⟩ => rfl
        | ⟨1, _⟩ => rfl,
      show Read.idx_main_v172 (Read.ridx_main_v173 (ix2 r j) k) = ix2 j k from funext fun a => by
        match a with
        | ⟨0, _⟩ => rfl
        | ⟨1, _⟩ => rfl,
      feat_entry x0 x1 x2 x3 x4 x5 x6 x7 x8 x9 x10 x11 x12 x13 x14 x15 x16 x17 x18 x19 x20 x21 x22 r f1 f2 f3 f4 hy1 hy2 hy3 hd k]
  have hpg : Read.val_main_v177 (F := Ideal) x0 x1 x2 x3 x4 x5 x6 x7 x8 x9 x10 x11 x12 x13 x14 x15 x16 x17 x18 x19 x20 x21 x22 x24 (ix2 r (0 : Fin 1))
      = ∑ k : Fin 1024, Cert.Net.cat4 f1 f2 f3 f4 k * x24 (ix2 0 k) := by
    rw [Read.val_main_v177_apply]
    refine Finset.sum_congr rfl fun k _ => ?_
    rw [Read.val_main_v176_apply,
      show Read.lidx_main_v177 (ix2 r (0 : Fin 1)) k = ix2 r k from funext fun a => by
        match a with
        | ⟨0, _⟩ => rfl
        | ⟨1, _⟩ => rfl,
      show Read.idx_main_v176 (Read.ridx_main_v177 (ix2 r (0 : Fin 1)) k) = ix2 0 k from funext fun a => by
        match a with
        | ⟨0, _⟩ => rfl
        | ⟨1, _⟩ => rfl,
      feat_entry x0 x1 x2 x3 x4 x5 x6 x7 x8 x9 x10 x11 x12 x13 x14 x15 x16 x17 x18 x19 x20 x21 x22 r f1 f2 f3 f4 hy1 hy2 hy3 hd k]
  have hb : Read.val_main_v179 (F := Ideal) x25 (ix2 r (0 : Fin 1)) = x25 (ix1 0) := by
    rw [Read.val_main_v179_apply, Read.val_main_v178_apply]
    exact congrArg x25 (funext fun a => by
      match a with
      | ⟨0, _⟩ => rfl)
  have hbc : Read.val_main_v182 (F := Ideal) x0 x1 x2 x3 x4 x5 x6 x7 x8 x9 x10 x11 x12 x13 x14 x15 x16 x17 x18 x19 x20 x21 x22 x24 x25 (ix2 r j)
      = Read.val_main_v181 (F := Ideal) x0 x1 x2 x3 x4 x5 x6 x7 x8 x9 x10 x11 x12 x13 x14 x15 x16 x17 x18 x19 x20 x21 x22 x24 x25 (ix2 r (0 : Fin 1)) := by
    rw [Read.val_main_v182_apply]
    exact congrArg (Read.val_main_v181 (F := Ideal) x0 x1 x2 x3 x4 x5 x6 x7 x8 x9 x10 x11 x12 x13 x14 x15 x16 x17 x18 x19 x20 x21 x22 x24 x25) (funext fun a => by
        match a with
        | ⟨0, _⟩ => rfl
        | ⟨1, _⟩ => rfl)
  have hg : Read.val_main_v185 (F := Ideal) x9 (ix2 r j) = x9 (ix2 r 0) := by
    rw [Read.val_main_v185_apply]
    exact congrArg x9 (funext fun a => by
        match a with
        | ⟨0, _⟩ => rfl
        | ⟨1, _⟩ => rfl)
  show (Ideal.tanh (Read.val_main_v173 (F := Ideal) x0 x1 x2 x3 x4 x5 x6 x7 x8 x9 x10 x11 x12 x13 x14 x15 x16 x17 x18 x19 x20 x21 x22 x23 (ix2 r j))
        + Read.val_main_v182 (F := Ideal) x0 x1 x2 x3 x4 x5 x6 x7 x8 x9 x10 x11 x12 x13 x14 x15 x16 x17 x18 x19 x20 x21 x22 x24 x25 (ix2 r j)
          * Read.val_main_v175 (F := Ideal) x2 x4 x9 (ix2 r j))
      * Read.val_main_v185 (F := Ideal) x9 (ix2 r j) = _
  rw [hsig, hbc, hg]
  show (Ideal.tanh _
        + Ideal.exp (Read.val_main_v177 (F := Ideal) x0 x1 x2 x3 x4 x5 x6 x7 x8 x9 x10 x11 x12 x13 x14 x15 x16 x17 x18 x19 x20 x21 x22 x24 (ix2 r (0 : Fin 1))
            + Read.val_main_v179 (F := Ideal) x25 (ix2 r (0 : Fin 1))) * _) * _ = _
  rw [hpg, hb]
  rfl

/-- The new excitation memory on row `r`: the old memory 40 samples on, then the new subframe. -/
theorem exc_entry (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal)) (x23 : (⟨S40x1024, .f32⟩ : BufTy).Contents (Elt Ideal))
    (x24 : (⟨S1x1024, .f32⟩ : BufTy).Contents (Elt Ideal)) (x25 : (⟨S1, .f32⟩ : BufTy).Contents (Elt Ideal))
    (r : Fin 8192) (f1 f2 f3 f4 : Fin 256 → EReal)
    (hy1 : ∀ q : Fin 256, Read.val_main_v88 (F := Ideal) x0 x1 x2 x3 x4 x5 x8 x9 x10 x11 x12 x13 x14 x15 x16 (ix2 r q) = f1 q)
    (hy2 : ∀ q : Fin 256, Read.val_main_v129 (F := Ideal) x0 x1 x2 x3 x4 x5 x6 x8 x9 x10 x11 x12 x13 x14 x15 x16 x17 x18 x19 (ix2 r q) = f2 q)
    (hy3 : ∀ q : Fin 256, Read.val_main_v170 (F := Ideal) x0 x1 x2 x3 x4 x5 x6 x7 x8 x9 x10 x11 x12 x13 x14 x15 x16 x17 x18 x19 x20 x21 x22 (ix2 r q) = f3 q)
    (hd : ∀ q : Fin 256, Read.val_main_v47 (F := Ideal) x0 x1 x2 x3 x4 x8 x9 x10 x11 x12 x13 (ix2 r q) = f4 q)
    (q : Fin 256) :
    Read.val_main_v188 (F := Ideal) x0 x1 x2 x3 x4 x5 x6 x7 x8 x9 x10 x11 x12 x13 x14 x15 x16 x17 x18 x19 x20 x21 x22 x23 x24 x25 (ix2 r q)
      = Cert.Net.excNew (Cert.Net.rowOf x2 r)
          (Cert.Net.subframe (Cert.Net.matOf x23) (fun k => x24 (ix2 0 k)) (x25 (ix1 0)) (Cert.Net.cat4 f1 f2 f3 f4)
          (Cert.Net.rowOf (Read.val_main_v175 (F := Ideal) x2 x4 x9) r) (x9 (ix2 r 0))) q := by
  have hq256 := q.isLt
  unfold Read.val_main_v188 Cert.Net.excNew
  by_cases hq : q.val < 216
  · rw [dif_pos hq]
    refine (concatenate_pair_apply_left (t := S8192x256) (s₁ := S8192x216) (s₂ := S8192x40) _ _ _
      concatenates_S8192x216_S8192x40_S8192x256_d1 (ix2 r q) rfl (ix2 r ⟨q.val, hq⟩) (fun b => by
        match b with
        | ⟨0, _⟩ => rfl
        | ⟨1, _⟩ => rfl)).trans ?_
    rw [Read.val_main_v187_apply]
    exact congrArg x2 (funext fun a => by
      match a with
      | ⟨0, _⟩ => rfl
      | ⟨1, _⟩ => exact Fin.ext (by show 40 + q.val = q.val + 40; omega))
  · rw [dif_neg hq]
    have hj : q.val - 216 < 40 := by omega
    refine (concatenate_pair_apply_right (t := S8192x256) (s₁ := S8192x216) (s₂ := S8192x40) _ _ _
      concatenates_S8192x216_S8192x40_S8192x256_d1 (ix2 r q) rfl rfl (ix2 r ⟨q.val - 216, hj⟩) (fun b hb => by
        match b with
        | ⟨0, _⟩ => rfl
        | ⟨1, _⟩ => exact absurd rfl hb)
      (by show (q.val - 216) + 216 = q.val; omega)).trans ?_
    exact subframe_entry x0 x1 x2 x3 x4 x5 x6 x7 x8 x9 x10 x11 x12 x13 x14 x15 x16 x17 x18 x19 x20 x21 x22 x23 x24 x25 r f1 f2 f3 f4 hy1 hy2 hy3 hd ⟨q.val - 216, hj⟩

end Cert.ReferenceIdeal.ROut

end
-- ==== Proof.RefAll.lean ====
/-
  The reference's six results as whole arrays.

  Each result of the reference, read at row `r` and column `q`, is the row-wise network of `Cert.Net` applied to row `r`
  of the concatenated input, of the three GRU states, of the pitch window and of the old excitation memory. An array is
  the function of its index, and an index of a matrix-shaped array is its two coordinates, so each entry-wise statement
  is an equality of whole arrays. The 1024 features of a row are the three gated GRU outputs and the second dense
  layer's output side by side; the third gated output is the gate applied to the third cell's new state.
-/
import proofs.«162228_j46806553592417_2_alg».proof.Proof.RefNet
import proofs.«162228_j46806553592417_2_alg».proof.Proof.RefOut
import proofs.«162228_j46806553592417_2_alg».proof.Proof.Net

noncomputable section

namespace Cert.ReferenceIdeal.RAll

open Cert.ReferenceIdeal Cert.ReferenceIdeal.Gen
open Idealize.ShloMosaic Idealize.ShloMosaic.ValueIdx

/-- Sample `j` of the new subframe on row `r`, over the network's features of that row. -/
theorem sig_entry (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal)) (x23 : (⟨S40x1024, .f32⟩ : BufTy).Contents (Elt Ideal))
    (x24 : (⟨S1x1024, .f32⟩ : BufTy).Contents (Elt Ideal)) (x25 : (⟨S1, .f32⟩ : BufTy).Contents (Elt Ideal))
    (r : Fin 8192) (j : Fin 40) :
    Read.val_main_v186 (F := Ideal) x0 x1 x2 x3 x4 x5 x6 x7 x8 x9 x10 x11 x12 x13 x14 x15 x16 x17 x18 x19 x20 x21 x22 x23 x24 x25 (ix2 r j)
      = Cert.Net.subframe (Cert.Net.matOf x23) (fun k => x24 (ix2 0 k)) (x25 (ix1 0))
          (Cert.Net.feat (Cert.Net.trunkOf x10 x11 x12 x13 x14 x15 x16 x17 x18 x19 x20 x21 x22)
            (Cert.Net.rowOf (Read.val_main_v22 (F := Ideal) x0 x1 x2 x3 x4 x8 x9) r)
            (Cert.Net.rowOf x5 r) (Cert.Net.rowOf x6 r) (Cert.Net.rowOf x7 r))
          (Cert.Net.rowOf (Read.val_main_v175 (F := Ideal) x2 x4 x9) r) (x9 (ix2 r 0)) j :=
  Cert.ReferenceIdeal.ROut.subframe_entry x0 x1 x2 x3 x4 x5 x6 x7 x8 x9 x10 x11 x12 x13 x14 x15 x16 x17 x18 x19 x20 x21 x22 x23 x24 x25 r
    (Cert.Net.y1 (Cert.Net.trunkOf x10 x11 x12 x13 x14 x15 x16 x17 x18 x19 x20 x21 x22) (Cert.Net.rowOf (Read.val_main_v22 (F := Ideal) x0 x1 x2 x3 x4 x8 x9) r) (Cert.Net.rowOf x5 r))
    (Cert.Net.y2 (Cert.Net.trunkOf x10 x11 x12 x13 x14 x15 x16 x17 x18 x19 x20 x21 x22) (Cert.Net.rowOf (Read.val_main_v22 (F := Ideal) x0 x1 x2 x3 x4 x8 x9) r) (Cert.Net.rowOf x5 r) (Cert.Net.rowOf x6 r))
    (Cert.Net.y3 (Cert.Net.trunkOf x10 x11 x12 x13 x14 x15 x16 x17 x18 x19 x20 x21 x22) (Cert.Net.rowOf (Read.val_main_v22 (F := Ideal) x0 x1 x2 x3 x4 x8 x9) r) (Cert.Net.rowOf x5 r) (Cert.Net.rowOf x6 r) (Cert.Net.rowOf x7 r))
    (Cert.Net.d2o (Cert.Net.trunkOf x10 x11 x12 x13 x14 x15 x16 x17 x18 x19 x20 x21 x22) (Cert.Net.rowOf (Read.val_main_v22 (F := Ideal) x0 x1 x2 x3 x4 x8 x9) r))
    (fun q => Cert.ReferenceIdeal.RNet.ref_y1 x0 x1 x2 x3 x4 x5 x6 x7 x8 x9 x10 x11 x12 x13 x14 x15 x16 x17 x18 x19 x20 x21 x22 r q)
    (fun q => Cert.ReferenceIdeal.RNet.ref_y2 x0 x1 x2 x3 x4 x5 x6 x7 x8 x9 x10 x11 x12 x13 x14 x15 x16 x17 x18 x19 x20 x21 x22 r q)
    (fun q => Cert.ReferenceIdeal.ROut.glu3 x0 x1 x2 x3 x4 x5 x6 x7 x8 x9 x10 x11 x12 x13 x14 x15 x16 x17 x18 x19 x20 x21 x22 r
      (Cert.Net.h3 (Cert.Net.trunkOf x10 x11 x12 x13 x14 x15 x16 x17 x18 x19 x20 x21 x22) (Cert.Net.rowOf (Read.val_main_v22 (F := Ideal) x0 x1 x2 x3 x4 x8 x9) r) (Cert.Net.rowOf x5 r) (Cert.Net.rowOf x6 r) (Cert.Net.rowOf x7 r))
      (fun q' => Cert.ReferenceIdeal.RNet.ref_h3 x0 x1 x2 x3 x4 x5 x6 x7 x8 x9 x10 x11 x12 x13 x14 x15 x16 x17 x18 x19 x20 x21 x22 r q') q)
    (fun q => Cert.ReferenceIdeal.RNet.ref_d2o x0 x1 x2 x3 x4 x5 x6 x7 x8 x9 x10 x11 x12 x13 x14 x15 x16 x17 x18 x19 x20 x21 x22 r q) j

/-- Entry `q` of the new excitation memory on row `r`. -/
theorem exc_entry (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal)) (x23 : (⟨S40x1024, .f32⟩ : BufTy).Contents (Elt Ideal))
    (x24 : (⟨S1x1024, .f32⟩ : BufTy).Contents (Elt Ideal)) (x25 : (⟨S1, .f32⟩ : BufTy).Contents (Elt Ideal))
    (r : Fin 8192) (q : Fin 256) :
    Read.val_main_v188 (F := Ideal) x0 x1 x2 x3 x4 x5 x6 x7 x8 x9 x10 x11 x12 x13 x14 x15 x16 x17 x18 x19 x20 x21 x22 x23 x24 x25 (ix2 r q)
      = Cert.Net.excNew (Cert.Net.rowOf x2 r)
          (Cert.Net.subframe (Cert.Net.matOf x23) (fun k => x24 (ix2 0 k)) (x25 (ix1 0))
          (Cert.Net.feat (Cert.Net.trunkOf x10 x11 x12 x13 x14 x15 x16 x17 x18 x19 x20 x21 x22)
            (Cert.Net.rowOf (Read.val_main_v22 (F := Ideal) x0 x1 x2 x3 x4 x8 x9) r)
            (Cert.Net.rowOf x5 r) (Cert.Net.rowOf x6 r) (Cert.Net.rowOf x7 r))
          (Cert.Net.rowOf (Read.val_main_v175 (F := Ideal) x2 x4 x9) r) (x9 (ix2 r 0))) q :=
  Cert.ReferenceIdeal.ROut.exc_entry x0 x1 x2 x3 x4 x5 x6 x7 x8 x9 x10 x11 x12 x13 x14 x15 x16 x17 x18 x19 x20 x21 x22 x23 x24 x25 r
    (Cert.Net.y1 (Cert.Net.trunkOf x10 x11 x12 x13 x14 x15 x16 x17 x18 x19 x20 x21 x22) (Cert.Net.rowOf (Read.val_main_v22 (F := Ideal) x0 x1 x2 x3 x4 x8 x9) r) (Cert.Net.rowOf x5 r))
    (Cert.Net.y2 (Cert.Net.trunkOf x10 x11 x12 x13 x14 x15 x16 x17 x18 x19 x20 x21 x22) (Cert.Net.rowOf (Read.val_main_v22 (F := Ideal) x0 x1 x2 x3 x4 x8 x9) r) (Cert.Net.rowOf x5 r) (Cert.Net.rowOf x6 r))
    (Cert.Net.y3 (Cert.Net.trunkOf x10 x11 x12 x13 x14 x15 x16 x17 x18 x19 x20 x21 x22) (Cert.Net.rowOf (Read.val_main_v22 (F := Ideal) x0 x1 x2 x3 x4 x8 x9) r) (Cert.Net.rowOf x5 r) (Cert.Net.rowOf x6 r) (Cert.Net.rowOf x7 r))
    (Cert.Net.d2o (Cert.Net.trunkOf x10 x11 x12 x13 x14 x15 x16 x17 x18 x19 x20 x21 x22) (Cert.Net.rowOf (Read.val_main_v22 (F := Ideal) x0 x1 x2 x3 x4 x8 x9) r))
    (fun q => Cert.ReferenceIdeal.RNet.ref_y1 x0 x1 x2 x3 x4 x5 x6 x7 x8 x9 x10 x11 x12 x13 x14 x15 x16 x17 x18 x19 x20 x21 x22 r q)
    (fun q => Cert.ReferenceIdeal.RNet.ref_y2 x0 x1 x2 x3 x4 x5 x6 x7 x8 x9 x10 x11 x12 x13 x14 x15 x16 x17 x18 x19 x20 x21 x22 r q)
    (fun q => Cert.ReferenceIdeal.ROut.glu3 x0 x1 x2 x3 x4 x5 x6 x7 x8 x9 x10 x11 x12 x13 x14 x15 x16 x17 x18 x19 x20 x21 x22 r
      (Cert.Net.h3 (Cert.Net.trunkOf x10 x11 x12 x13 x14 x15 x16 x17 x18 x19 x20 x21 x22) (Cert.Net.rowOf (Read.val_main_v22 (F := Ideal) x0 x1 x2 x3 x4 x8 x9) r) (Cert.Net.rowOf x5 r) (Cert.Net.rowOf x6 r) (Cert.Net.rowOf x7 r))
      (fun q' => Cert.ReferenceIdeal.RNet.ref_h3 x0 x1 x2 x3 x4 x5 x6 x7 x8 x9 x10 x11 x12 x13 x14 x15 x16 x17 x18 x19 x20 x21 x22 r q') q)
    (fun q => Cert.ReferenceIdeal.RNet.ref_d2o x0 x1 x2 x3 x4 x5 x6 x7 x8 x9 x10 x11 x12 x13 x14 x15 x16 x17 x18 x19 x20 x21 x22 r q) q

/-- The first new GRU state, as an array. -/
theorem res_h1 (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal)) (x23 : (⟨S40x1024, .f32⟩ : BufTy).Contents (Elt Ideal))
    (x24 : (⟨S1x1024, .f32⟩ : BufTy).Contents (Elt Ideal)) (x25 : (⟨S1, .f32⟩ : BufTy).Contents (Elt Ideal)) :
    Read.val_main_v79 (F := Ideal) x0 x1 x2 x3 x4 x5 x8 x9 x10 x11 x12 x13 x14 x15
      = fun (i : S8192x256.Idx) => Cert.Net.h1 (Cert.Net.trunkOf x10 x11 x12 x13 x14 x15 x16 x17 x18 x19 x20 x21 x22)
          (Cert.Net.rowOf (Read.val_main_v22 (F := Ideal) x0 x1 x2 x3 x4 x8 x9) (i 0 : Fin 8192)) (Cert.Net.rowOf x5 (i 0 : Fin 8192)) (i 1 : Fin 256) := by
  funext i
  obtain ⟨r, q, rfl⟩ : ∃ (r : Fin 8192) (q : Fin 256), i = ix2 r q := ⟨i 0, i 1, eq_ix2 i⟩
  exact Cert.ReferenceIdeal.RNet.ref_h1 x0 x1 x2 x3 x4 x5 x6 x7 x8 x9 x10 x11 x12 x13 x14 x15 x16 x17 x18 x19 x20 x21 x22 r q

/-- The second new GRU state, as an array. -/
theorem res_h2 (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal)) (x23 : (⟨S40x1024, .f32⟩ : BufTy).Contents (Elt Ideal))
    (x24 : (⟨S1x1024, .f32⟩ : BufTy).Contents (Elt Ideal)) (x25 : (⟨S1, .f32⟩ : BufTy).Contents (Elt Ideal)) :
    Read.val_main_v120 (F := Ideal) x0 x1 x2 x3 x4 x5 x6 x8 x9 x10 x11 x12 x13 x14 x15 x16 x17 x18
      = fun (i : S8192x256.Idx) => Cert.Net.h2 (Cert.Net.trunkOf x10 x11 x12 x13 x14 x15 x16 x17 x18 x19 x20 x21 x22)
          (Cert.Net.rowOf (Read.val_main_v22 (F := Ideal) x0 x1 x2 x3 x4 x8 x9) (i 0 : Fin 8192)) (Cert.Net.rowOf x5 (i 0 : Fin 8192)) (Cert.Net.rowOf x6 (i 0 : Fin 8192)) (i 1 : Fin 256) := by
  funext i
  obtain ⟨r, q, rfl⟩ : ∃ (r : Fin 8192) (q : Fin 256), i = ix2 r q := ⟨i 0, i 1, eq_ix2 i⟩
  exact Cert.ReferenceIdeal.RNet.ref_h2 x0 x1 x2 x3 x4 x5 x6 x7 x8 x9 x10 x11 x12 x13 x14 x15 x16 x17 x18 x19 x20 x21 x22 r q

/-- The third new GRU state, as an array. -/
theorem res_h3 (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal)) (x23 : (⟨S40x1024, .f32⟩ : BufTy).Contents (Elt Ideal))
    (x24 : (⟨S1x1024, .f32⟩ : BufTy).Contents (Elt Ideal)) (x25 : (⟨S1, .f32⟩ : BufTy).Contents (Elt Ideal)) :
    Read.val_main_v161 (F := Ideal) x0 x1 x2 x3 x4 x5 x6 x7 x8 x9 x10 x11 x12 x13 x14 x15 x16 x17 x18 x19 x20 x21
      = fun (i : S8192x256.Idx) => Cert.Net.h3 (Cert.Net.trunkOf x10 x11 x12 x13 x14 x15 x16 x17 x18 x19 x20 x21 x22)
          (Cert.Net.rowOf (Read.val_main_v22 (F := Ideal) x0 x1 x2 x3 x4 x8 x9) (i 0 : Fin 8192)) (Cert.Net.rowOf x5 (i 0 : Fin 8192)) (Cert.Net.rowOf x6 (i 0 : Fin 8192)) (Cert.Net.rowOf x7 (i 0 : Fin 8192)) (i 1 : Fin 256) := by
  funext i
  obtain ⟨r, q, rfl⟩ : ∃ (r : Fin 8192) (q : Fin 256), i = ix2 r q := ⟨i 0, i 1, eq_ix2 i⟩
  exact Cert.ReferenceIdeal.RNet.ref_h3 x0 x1 x2 x3 x4 x5 x6 x7 x8 x9 x10 x11 x12 x13 x14 x15 x16 x17 x18 x19 x20 x21 x22 r q

/-- The new subframe, as an array. -/
theorem res_sig (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal)) (x23 : (⟨S40x1024, .f32⟩ : BufTy).Contents (Elt Ideal))
    (x24 : (⟨S1x1024, .f32⟩ : BufTy).Contents (Elt Ideal)) (x25 : (⟨S1, .f32⟩ : BufTy).Contents (Elt Ideal)) :
    Read.val_main_v186 (F := Ideal) x0 x1 x2 x3 x4 x5 x6 x7 x8 x9 x10 x11 x12 x13 x14 x15 x16 x17 x18 x19 x20 x21 x22 x23 x24 x25
      = fun (i : S8192x40.Idx) => Cert.Net.subframe (Cert.Net.matOf x23) (fun k => x24 (ix2 0 k)) (x25 (ix1 0))
          (Cert.Net.feat (Cert.Net.trunkOf x10 x11 x12 x13 x14 x15 x16 x17 x18 x19 x20 x21 x22)
            (Cert.Net.rowOf (Read.val_main_v22 (F := Ideal) x0 x1 x2 x3 x4 x8 x9) (i 0 : Fin 8192))
            (Cert.Net.rowOf x5 (i 0 : Fin 8192)) (Cert.Net.rowOf x6 (i 0 : Fin 8192)) (Cert.Net.rowOf x7 (i 0 : Fin 8192)))
          (Cert.Net.rowOf (Read.val_main_v175 (F := Ideal) x2 x4 x9) (i 0 : Fin 8192)) (x9 (ix2 (i 0 : Fin 8192) 0)) (i 1 : Fin 40) := by
  funext i
  obtain ⟨r, j, rfl⟩ : ∃ (r : Fin 8192) (j : Fin 40), i = ix2 r j := ⟨i 0, i 1, eq_ix2 i⟩
  exact sig_entry x0 x1 x2 x3 x4 x5 x6 x7 x8 x9 x10 x11 x12 x13 x14 x15 x16 x17 x18 x19 x20 x21 x22 x23 x24 x25 r j

/-- The new excitation memory, as an array. -/
theorem res_exc (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal)) (x23 : (⟨S40x1024, .f32⟩ : BufTy).Contents (Elt Ideal))
    (x24 : (⟨S1x1024, .f32⟩ : BufTy).Contents (Elt Ideal)) (x25 : (⟨S1, .f32⟩ : BufTy).Contents (Elt Ideal)) :
    Read.val_main_v188 (F := Ideal) x0 x1 x2 x3 x4 x5 x6 x7 x8 x9 x10 x11 x12 x13 x14 x15 x16 x17 x18 x19 x20 x21 x22 x23 x24 x25
      = fun (i : S8192x256.Idx) => Cert.Net.excNew (Cert.Net.rowOf x2 (i 0 : Fin 8192))
          (Cert.Net.subframe (Cert.Net.matOf x23) (fun k => x24 (ix2 0 k)) (x25 (ix1 0))
          (Cert.Net.feat (Cert.Net.trunkOf x10 x11 x12 x13 x14 x15 x16 x17 x18 x19 x20 x21 x22)
            (Cert.Net.rowOf (Read.val_main_v22 (F := Ideal) x0 x1 x2 x3 x4 x8 x9) (i 0 : Fin 8192))
            (Cert.Net.rowOf x5 (i 0 : Fin 8192)) (Cert.Net.rowOf x6 (i 0 : Fin 8192)) (Cert.Net.rowOf x7 (i 0 : Fin 8192)))
          (Cert.Net.rowOf (Read.val_main_v175 (F := Ideal) x2 x4 x9) (i 0 : Fin 8192)) (x9 (ix2 (i 0 : Fin 8192) 0))) (i 1 : Fin 256) := by
  funext i
  obtain ⟨r, q, rfl⟩ : ∃ (r : Fin 8192) (q : Fin 256), i = ix2 r q := ⟨i 0, i 1, eq_ix2 i⟩
  exact exc_entry x0 x1 x2 x3 x4 x5 x6 x7 x8 x9 x10 x11 x12 x13 x14 x15 x16 x17 x18 x19 x20 x21 x22 x23 x24 x25 r q

/-- The frame-wise state carried on: the last 480 columns of the concatenated input, as an array. -/
theorem res_fw (x0 : (⟨S8192x80, .f32⟩ : BufTy).Contents (Elt Ideal)) (x1 : (⟨S8192x40, .f32⟩ : BufTy).Contents (Elt Ideal))
    (x2 : (⟨S8192x256, .f32⟩ : BufTy).Contents (Elt Ideal)) (x3 : (⟨S8192x80, .f32⟩ : BufTy).Contents (Elt Ideal))
    (x4 : (⟨S8192, .i32⟩ : BufTy).Contents (Elt Ideal)) (x5 : (⟨S8192x256, .f32⟩ : BufTy).Contents (Elt Ideal))
    (x6 : (⟨S8192x256, .f32⟩ : BufTy).Contents (Elt Ideal)) (x7 : (⟨S8192x256, .f32⟩ : BufTy).Contents (Elt Ideal))
    (x8 : (⟨S8192x480, .f32⟩ : BufTy).Contents (Elt Ideal)) (x9 : (⟨S8192x1, .f32⟩ : BufTy).Contents (Elt Ideal))
    (x10 : (⟨S256x720, .f32⟩ : BufTy).Contents (Elt Ideal)) (x11 : (⟨S256x256, .f32⟩ : BufTy).Contents (Elt Ideal))
    (x12 : (⟨S256x256, .f32⟩ : BufTy).Contents (Elt Ideal)) (x13 : (⟨S256x256, .f32⟩ : BufTy).Contents (Elt Ideal))
    (x14 : (⟨S768x256, .f32⟩ : BufTy).Contents (Elt Ideal)) (x15 : (⟨S768x256, .f32⟩ : BufTy).Contents (Elt Ideal))
    (x16 : (⟨S256x256, .f32⟩ : BufTy).Contents (Elt Ideal)) (x17 : (⟨S768x256, .f32⟩ : BufTy).Contents (Elt Ideal))
    (x18 : (⟨S768x256, .f32⟩ : BufTy).Contents (Elt Ideal)) (x19 : (⟨S256x256, .f32⟩ : BufTy).Contents (Elt Ideal))
    (x20 : (⟨S768x256, .f32⟩ : BufTy).Contents (Elt Ideal)) (x21 : (⟨S768x256, .f32⟩ : BufTy).Contents (Elt Ideal))
    (x22 : (⟨S256x256, .f32⟩ : BufTy).Contents (Elt Ideal)) (x23 : (⟨S40x1024, .f32⟩ : BufTy).Contents (Elt Ideal))
    (x24 : (⟨S1x1024, .f32⟩ : BufTy).Contents (Elt Ideal)) (x25 : (⟨S1, .f32⟩ : BufTy).Contents (Elt Ideal)) :
    Read.val_main_v35 (F := Ideal) x0 x1 x2 x3 x4 x8 x9
      = fun (i : S8192x480.Idx) => (Read.val_main_v22 (F := Ideal) x0 x1 x2 x3 x4 x8 x9)
          (ix2 (i 0 : Fin 8192) ⟨(i 1).val + 240, by have := idx2_lt1 i; omega⟩) := by
  funext i
  obtain ⟨r, j, rfl⟩ : ∃ (r : Fin 8192) (j : Fin 480), i = ix2 r j := ⟨i 0, i 1, eq_ix2 i⟩
  exact Cert.ReferenceIdeal.ROut.xc_tail x0 x1 x2 x3 x4 x8 x9 r j

end Cert.ReferenceIdeal.RAll

end
-- ==== Proof.Bridge.lean ====
/-
  The kernel program's results are the reference's.

  Each whole-array function of the kernel program (ArrayKI) is stated over the arrays the region finds. The host
  operations before the region make those arrays out of the arguments exactly as the reference's own first operations
  do: the 720-wide input rows and the 40-wide pitch window are the same operations on the same arguments, each weight is
  its argument (the cast to the 16-bit format is the identity on the extended reals), and the fused output weight and
  bias stack the signal matrix over the pitch-gain row and 0 over the pitch-gain bias, the padding never read. With
  those facts the two spellings of the output layer agree (`Cert.Net.subframeFused_eq`), and each function is, row by
  row, the term the reference's run ends with.
-/
import proofs.«162228_j46806553592417_2_alg».proof.Proof.ArrayKI
import proofs.«162228_j46806553592417_2_alg».proof.Proof.PrefixKI
import proofs.«162228_j46806553592417_2_alg».proof.Proof.PrefixX
import proofs.«162228_j46806553592417_2_alg».proof.Proof.RefAll

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (mI : (ℓ : Loc nD τ sig) → Buf (Elt Ideal) ℓ)

set_option maxHeartbeats 4000000 in
/-- The trunk's weights as the region finds them are the thirteen weight arguments. -/
theorem trunkV_eq (c : Dev nD) : trunkV mI c = (Cert.Net.trunkOf (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) (mI ((c : Thread nD τ).loc main_arg19)) (mI ((c : Thread nD τ).loc main_arg20)) (mI ((c : Thread nD τ).loc main_arg21)) (mI ((c : Thread nD τ).loc main_arg22))) := by
  show Cert.Net.trunkOf (V mI c main_v25) (V mI c main_v26) (V mI c main_v27) (V mI c main_v28) (V mI c main_v29) (V mI c main_v30) (V mI c main_v31) (V mI c main_v32) (V mI c main_v33) (V mI c main_v34) (V mI c main_v35) (V mI c main_v36) (V mI c main_v37) = _
  rw [V_v25 mI c, V_v26 mI c, V_v27 mI c, V_v28 mI c, V_v29 mI c, V_v30 mI c, V_v31 mI c, V_v32 mI c, V_v33 mI c, V_v34 mI c, V_v35 mI c, V_v36 mI c, V_v37 mI c]

set_option maxHeartbeats 4000000 in
/-- The fused output layer the region finds is the reference's separate one. -/
theorem fused_eq (c : Dev nD) (f : Fin 1024 → EReal) (pitch : Fin 40 → EReal) (gain : EReal) :
    Cert.Net.subframeFused (Cert.Net.matOf (Wf mI c)) (fun j => Bf mI c (ix2 0 j)) f pitch gain
      = Cert.Net.subframe (Cert.Net.matOf (mI ((c : Thread nD τ).loc main_arg23))) (fun k => (mI ((c : Thread nD τ).loc main_arg24)) (ix2 0 k)) ((mI ((c : Thread nD τ).loc main_arg25)) (ix1 0)) f pitch gain :=
  funext fun j => Cert.Net.subframeFused_eq _ _ _ _ _ f pitch gain
    (fun j k => V_v40_sig mI c j k) (fun k => V_v40_pg mI c k) (fun j => V_v44_zero mI c j) (V_v44_b mI c) j

/-- Past the 216 kept samples the new excitation memory is the new subframe. -/
theorem excNew_tail (em : Fin 256 → EReal) (sub : Fin 40 → EReal) (j : Fin 40) :
    Cert.Net.excNew em sub ⟨216 + j.val, by omega⟩ = sub j := by
  unfold Cert.Net.excNew
  rw [dif_neg (by simp)]
  exact congrArg sub (Fin.ext (by simp))

theorem bridge_h1 (c : Dev nD) : G23 mI c = Cert.ReferenceIdeal.Read.val_main_v79 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) := by
  rw [Cert.ReferenceIdeal.RAll.res_h1 (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) (mI ((c : Thread nD τ).loc main_arg19)) (mI ((c : Thread nD τ).loc main_arg20)) (mI ((c : Thread nD τ).loc main_arg21)) (mI ((c : Thread nD τ).loc main_arg22)) (mI ((c : Thread nD τ).loc main_arg23)) (mI ((c : Thread nD τ).loc main_arg24)) (mI ((c : Thread nD τ).loc main_arg25))]
  unfold G23
  rw [trunkV_eq mI c, show Xc mI c = Cert.ReferenceIdeal.Read.val_main_v22 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg8)) (mI ((c : Thread nD τ).loc main_arg9)) from V_v24 mI c, show S0 mI c = (mI ((c : Thread nD τ).loc main_arg5)) from V_main_arg5 mI c]

theorem bridge_h2 (c : Dev nD) : G24 mI c = Cert.ReferenceIdeal.Read.val_main_v120 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) := by
  rw [Cert.ReferenceIdeal.RAll.res_h2 (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) (mI ((c : Thread nD τ).loc main_arg19)) (mI ((c : Thread nD τ).loc main_arg20)) (mI ((c : Thread nD τ).loc main_arg21)) (mI ((c : Thread nD τ).loc main_arg22)) (mI ((c : Thread nD τ).loc main_arg23)) (mI ((c : Thread nD τ).loc main_arg24)) (mI ((c : Thread nD τ).loc main_arg25))]
  unfold G24
  rw [trunkV_eq mI c, show Xc mI c = Cert.ReferenceIdeal.Read.val_main_v22 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg8)) (mI ((c : Thread nD τ).loc main_arg9)) from V_v24 mI c, show S0 mI c = (mI ((c : Thread nD τ).loc main_arg5)) from V_main_arg5 mI c, show S1 mI c = (mI ((c : Thread nD τ).loc main_arg6)) from V_main_arg6 mI c]

theorem bridge_h3 (c : Dev nD) : G25 mI c = Cert.ReferenceIdeal.Read.val_main_v161 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) (mI ((c : Thread nD τ).loc main_arg19)) (mI ((c : Thread nD τ).loc main_arg20)) (mI ((c : Thread nD τ).loc main_arg21)) := by
  rw [Cert.ReferenceIdeal.RAll.res_h3 (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) (mI ((c : Thread nD τ).loc main_arg19)) (mI ((c : Thread nD τ).loc main_arg20)) (mI ((c : Thread nD τ).loc main_arg21)) (mI ((c : Thread nD τ).loc main_arg22)) (mI ((c : Thread nD τ).loc main_arg23)) (mI ((c : Thread nD τ).loc main_arg24)) (mI ((c : Thread nD τ).loc main_arg25))]
  unfold G25
  rw [trunkV_eq mI c, show Xc mI c = Cert.ReferenceIdeal.Read.val_main_v22 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg8)) (mI ((c : Thread nD τ).loc main_arg9)) from V_v24 mI c, show S0 mI c = (mI ((c : Thread nD τ).loc main_arg5)) from V_main_arg5 mI c, show S1 mI c = (mI ((c : Thread nD τ).loc main_arg6)) from V_main_arg6 mI c, show S2 mI c = (mI ((c : Thread nD τ).loc main_arg7)) from V_main_arg7 mI c]

theorem bridge_exc (c : Dev nD) : G22 mI c = Cert.ReferenceIdeal.Read.val_main_v188 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) (mI ((c : Thread nD τ).loc main_arg19)) (mI ((c : Thread nD τ).loc main_arg20)) (mI ((c : Thread nD τ).loc main_arg21)) (mI ((c : Thread nD τ).loc main_arg22)) (mI ((c : Thread nD τ).loc main_arg23)) (mI ((c : Thread nD τ).loc main_arg24)) (mI ((c : Thread nD τ).loc main_arg25)) := by
  rw [Cert.ReferenceIdeal.RAll.res_exc (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) (mI ((c : Thread nD τ).loc main_arg19)) (mI ((c : Thread nD τ).loc main_arg20)) (mI ((c : Thread nD τ).loc main_arg21)) (mI ((c : Thread nD τ).loc main_arg22)) (mI ((c : Thread nD τ).loc main_arg23)) (mI ((c : Thread nD τ).loc main_arg24)) (mI ((c : Thread nD τ).loc main_arg25))]
  funext i
  unfold G22
  rw [fused_eq mI c, trunkV_eq mI c, show Xc mI c = Cert.ReferenceIdeal.Read.val_main_v22 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg8)) (mI ((c : Thread nD τ).loc main_arg9)) from V_v24 mI c, show S0 mI c = (mI ((c : Thread nD τ).loc main_arg5)) from V_main_arg5 mI c, show S1 mI c = (mI ((c : Thread nD τ).loc main_arg6)) from V_main_arg6 mI c, show S2 mI c = (mI ((c : Thread nD τ).loc main_arg7)) from V_main_arg7 mI c, show Em mI c = (mI ((c : Thread nD τ).loc main_arg2)) from V_main_arg2 mI c, show Gn mI c = (mI ((c : Thread nD τ).loc main_arg9)) from V_main_arg9 mI c, show Pm mI c = Cert.ReferenceIdeal.Read.val_main_v175 (F := Ideal) (mI ((c : Thread nD τ).loc main_arg2)) (mI ((c : Thread nD τ).loc main_arg4)) (mI ((c : Thread nD τ).loc main_arg9)) from V_v20 mI c]

theorem bridge_sig (c : Dev nD) :
    extractStridedSlice S8192x40 ![0, 216] (G22 mI c) slices_S8192x256_S8192x40_0_216
      = Cert.ReferenceIdeal.Read.val_main_v186 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) (mI ((c : Thread nD τ).loc main_arg19)) (mI ((c : Thread nD τ).loc main_arg20)) (mI ((c : Thread nD τ).loc main_arg21)) (mI ((c : Thread nD τ).loc main_arg22)) (mI ((c : Thread nD τ).loc main_arg23)) (mI ((c : Thread nD τ).loc main_arg24)) (mI ((c : Thread nD τ).loc main_arg25)) := by
  rw [Cert.ReferenceIdeal.RAll.res_sig (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg13)) (mI ((c : Thread nD τ).loc main_arg14)) (mI ((c : Thread nD τ).loc main_arg15)) (mI ((c : Thread nD τ).loc main_arg16)) (mI ((c : Thread nD τ).loc main_arg17)) (mI ((c : Thread nD τ).loc main_arg18)) (mI ((c : Thread nD τ).loc main_arg19)) (mI ((c : Thread nD τ).loc main_arg20)) (mI ((c : Thread nD τ).loc main_arg21)) (mI ((c : Thread nD τ).loc main_arg22)) (mI ((c : Thread nD τ).loc main_arg23)) (mI ((c : Thread nD τ).loc main_arg24)) (mI ((c : Thread nD τ).loc main_arg25))]
  funext i
  obtain ⟨r, j, rfl⟩ : ∃ (r : Fin 8192) (j : Fin 40), i = ix2 r j := ⟨i 0, i 1, eq_ix2 i⟩
  rw [extractStridedSlice_apply ![0, 216] (G22 mI c) slices_S8192x256_S8192x40_0_216 (ix2 r j) (ix2 r ⟨216 + j.val, by omega⟩)
    (fun a => by
      match a with
      | ⟨0, _⟩ => simp
      | ⟨1, _⟩ => rfl)]
  unfold G22
  rw [excNew_tail, fused_eq mI c, trunkV_eq mI c, show Xc mI c = Cert.ReferenceIdeal.Read.val_main_v22 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg8)) (mI ((c : Thread nD τ).loc main_arg9)) from V_v24 mI c, show S0 mI c = (mI ((c : Thread nD τ).loc main_arg5)) from V_main_arg5 mI c, show S1 mI c = (mI ((c : Thread nD τ).loc main_arg6)) from V_main_arg6 mI c, show S2 mI c = (mI ((c : Thread nD τ).loc main_arg7)) from V_main_arg7 mI c, show Gn mI c = (mI ((c : Thread nD τ).loc main_arg9)) from V_main_arg9 mI c, show Pm mI c = Cert.ReferenceIdeal.Read.val_main_v175 (F := Ideal) (mI ((c : Thread nD τ).loc main_arg2)) (mI ((c : Thread nD τ).loc main_arg4)) (mI ((c : Thread nD τ).loc main_arg9)) from V_v20 mI c]

theorem bridge_fw (c : Dev nD) : (V mI c main_v23 : S8192x480.Idx → EReal) = Cert.ReferenceIdeal.Read.val_main_v35 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg8)) (mI ((c : Thread nD τ).loc main_arg9)) :=
  V_v23 mI c

end Cert.KernelIdeal.Hand

end
-- ==== Proof.lean ====
/-
  The forward step of a small speech-synthesis network — a frame-wise convolution layer and a dense layer, each
  `tanh` then a gated linear unit; three GRU cells, each followed by a gated linear unit; an output layer giving a new
  40-sample subframe `(tanh(S f) + exp(g·f + b) · pitch) · gain` appended to the excitation memory — computed by a kernel
  on 8 blocks of 1024 batch rows, against a plain reference on all 8192 rows.

  On the extended reals the two are one function. Every operation acts on one batch row at a time, so blocking the
  batch changes nothing; a change of float format is the identity; the kernel's one-operation logistic and the
  reference's `1 / (1 + e^{-x})` are the same function by definition; the kernel's matrix products into a zero
  accumulator and the reference's products against transposed weights are the same sums; and the kernel's ONE padded
  128-row output matrix with a 128-entry bias row — the signal rows with bias 0, then the pitch-gain row with its bias,
  then padding that is never read — is the reference's two separate products because `x + 0 = x`. No input needs to be
  finite for any of this: only commutative sums and the same products in the same order are compared.

  The modules: `Net` states one batch row of the network; `BodyKI` / `KernelNet` read the kernel's body as that row
  network on its blocks; `FrameK` / `FrameKI` run the kernel program (at the word level and on the extended reals) to
  the end with its arguments unchanged; `ArrayKI` turns the 8 blocks into whole arrays; `PrefixKI` reads the host
  operations before the kernel; `ReadP` / `RunOpsP` / `RunP` run the reference, its 246 host operations evaluated layer by layer onto named stages;
  `RefStages` / `RefNet` / `RefOut` / `RefAll` read those stages as the row network;
  `Bridge` joins the two.
-/
import proofs.«162228_j46806553592417_2_alg».proof.Defs
import proofs.«162228_j46806553592417_2_alg».proof.Proof.Gen.Kernel
import proofs.«162228_j46806553592417_2_alg».proof.Proof.Gen.Kernel.Skeleton
import proofs.«162228_j46806553592417_2_alg».proof.Proof.Gen.Kernel.Launch
import proofs.«162228_j46806553592417_2_alg».proof.Proof.Gen.Kernel.Points
import proofs.«162228_j46806553592417_2_alg».proof.Proof.Gen.KernelIdeal
import proofs.«162228_j46806553592417_2_alg».proof.Proof.Gen.KernelIdeal.Skeleton
import proofs.«162228_j46806553592417_2_alg».proof.Proof.Gen.KernelIdeal.Launch
import proofs.«162228_j46806553592417_2_alg».proof.Proof.Gen.KernelIdeal.Points
import proofs.«162228_j46806553592417_2_alg».proof.Proof.Gen.ReferenceIdeal
import proofs.«162228_j46806553592417_2_alg».proof.Proof.ReadP
import proofs.«162228_j46806553592417_2_alg».proof.Proof.RunP
import proofs.«162228_j46806553592417_2_alg».proof.Proof.Gen.Pre_finite_inputs
import proofs.«162228_j46806553592417_2_alg».proof.Proof.FrameK
import proofs.«162228_j46806553592417_2_alg».proof.Proof.FrameKI
import proofs.«162228_j46806553592417_2_alg».proof.Proof.ArrayKI
import proofs.«162228_j46806553592417_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs to the end and keeps its arguments. -/
theorem frame_k : Cert.frame_Kernel := fun m ρ _ => Cert.Kernel.Hand.frame m ρ

/-- So does its reading on the extended reals. -/
theorem frame_ki : Cert.frame_KernelIdeal := fun m ρ _ => Cert.KernelIdeal.Hand.frame m ρ

/-- The reference is host operations only: its run, with the results dropped. -/
theorem frame_ri : Cert.frame_ReferenceIdeal := fun m ρ _ =>
  (θ_run Cert.ReferenceIdeal.defs _ _).mono (fun _ h c => (h c).2.2.2.2.2.2) (Cert.ReferenceIdeal.RunP.run m ρ)

/-- The idealization rewrote nothing. -/
theorem preserves : Cert.preserves_Kernel_KernelIdeal := trivial

set_option maxHeartbeats 8000000 in
/-- From memories agreeing on the arguments, both programs end with the reference's stage terms of the (common)
    arguments: the kernel program by the bridge, the reference by its own run. -/
theorem algebraic : Cert.algebraic_KernelIdeal_ReferenceIdeal := by
  intro m ρ m' ρ' _ hagree
  refine ⟨fun c => Cert.ReferenceIdeal.Read.val_main_v186 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)),
    fun c => Cert.ReferenceIdeal.Read.val_main_v188 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)),
    fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v120 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.ReferenceIdeal.Read.val_main_v161 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    fun c => Cert.ReferenceIdeal.Read.val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c).1.trans (Cert.KernelIdeal.Hand.bridge_sig m c),
        (h c).2.1.trans (Cert.KernelIdeal.Hand.bridge_exc m c),
        (h c).2.2.1.trans (Cert.KernelIdeal.Hand.bridge_h1 m c),
        (h c).2.2.2.1.trans (Cert.KernelIdeal.Hand.bridge_h2 m c),
        (h c).2.2.2.2.1.trans (Cert.KernelIdeal.Hand.bridge_h3 m c),
        (h c).2.2.2.2.2.1.trans (Cert.KernelIdeal.Hand.bridge_fw m c),
        (h c).2.2.2.2.2.2⟩) (Cert.KernelIdeal.Hand.run_value m ρ)
  · refine (θ_run Cert.ReferenceIdeal.defs _ _).mono (fun r h c => ?_) (Cert.ReferenceIdeal.RunP.run m' ρ')
    obtain ⟨h0, h1, h2, h3, h4, h5, hargs⟩ := h c
    obtain ⟨e0, e1, e2, e3, e4, e5, e6, e7, e8, e9, e10, e11, e12, e13, e14, e15, e16, e17, e18, e19, e20, e21, e22, e23, e24, e25⟩ := hagree c
    refine ⟨h0.trans ?_, h1.trans ?_, h2.trans ?_, h3.trans ?_, h4.trans ?_, h5.trans ?_, hargs⟩
    · rw [e0, e1, e2, e3, e4, e5, e6, e7, e8, e9, e10, e11, e12, e13, e14, e15, e16, e17, e18, e19, e20, e21, e22, e23, e24, e25]
    · rw [e0, e1, e2, e3, e4, e5, e6, e7, e8, e9, e10, e11, e12, e13, e14, e15, e16, e17, e18, e19, e20, e21, e22, e23, e24, e25]
    · rw [e0, e1, e2, e3, e4, e5, e8, e9, e10, e11, e12, e13, e14, e15]
    · rw [e0, e1, e2, e3, e4, e5, e6, e8, e9, e10, e11, e12, e13, e14, e15, e16, e17, e18]
    · rw [e0, e1, e2, e3, e4, e5, e6, e7, e8, e9, e10, e11, e12, e13, e14, e15, e16, e17, e18, e19, e20, e21]
    · rw [e0, e1, e2, e3, e4, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
